-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel

variable [Facts]

def fn {F : FTy → Type} [FloatOps F] (main_arg0 : FVec F S2x2048x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  main_v3
-- ==== Kernel.lean ====
abbrev S2x2048x4096 : Shape := ⟨3, ![2, 2048, 4096]⟩
abbrev S4096x4096 : Shape := ⟨2, ![4096, 4096]⟩
abbrev S4096x8192 : Shape := ⟨2, ![4096, 8192]⟩
abbrev S8x2048 : Shape := ⟨2, ![8, 2048]⟩
abbrev S8x4096 : Shape := ⟨2, ![8, 4096]⟩
abbrev S_ : Shape := ⟨0, ![]⟩
abbrev S16 : Shape := ⟨1, ![16]⟩
abbrev S1x128 : Shape := ⟨2, ![1, 128]⟩
abbrev S128 : Shape := ⟨1, ![128]⟩
abbrev S2x2048x8192 : Shape := ⟨3, ![2, 2048, 8192]⟩

abbrev nBuf : Table → Nat
  | .hbm => 4
  | .local .scVector .vmem => 4
  | _ => 0

abbrev bufTy : (tb : Table) → Fin (nBuf tb) → BufTy
  | .hbm, ⟨0, _⟩ => ⟨S2x2048x4096, .f32⟩
  | .hbm, ⟨1, _⟩ => ⟨S4096x4096, .f32⟩
  | .hbm, ⟨2, _⟩ => ⟨S4096x8192, .f32⟩
  | .hbm, ⟨3, _⟩ => ⟨S2x2048x8192, .f32⟩
  | .local .scVector .vmem, ⟨0, _⟩ => ⟨S8x2048, .f32⟩
  | .local .scVector .vmem, ⟨1, _⟩ => ⟨S8x2048, .f32⟩
  | .local .scVector .vmem, ⟨2, _⟩ => ⟨S8x4096, .f32⟩
  | .local .scVector .vmem, ⟨3, _⟩ => ⟨S8x4096, .f32⟩
  | _, _ => ⟨S2x2048x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35 : BitVec 32 := 0#32
  let v84 : BitVec 32 := Scalar.addi v2 c0_i32_35
  let c0_i32_36 : BitVec 32 := 0#32
  ![v84.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let v87 : BitVec 32 := Scalar.addi v2 c0_i32_38
  let c2048_i32 : BitVec 32 := 2048#32
  ![v87.toNat, 2048]
@[reducible] def k0_t1_loop : Scf.Loop 32 :=
  let c0_i32_43 : BitVec 32 := 0#32
  let c128_i32_44 : BitVec 32 := 128#32
  let v92 : BitVec 32 := Scalar.addi c0_i32_43 c128_i32_44
  let c1_i32_45 : BitVec 32 := 1#32
  ⟨c0_i32_43, v92, c1_i32_45⟩
def k0_mult1 (k0_t1 : Fin k0_t1_loop.trips) : BitVec 32 :=
  let c0_i32_43 : BitVec 32 := 0#32
  let c1_i32_45 : BitVec 32 := 1#32
  let arg12 : BitVec 32 := Scf.iv c0_i32_43 c1_i32_45 k0_t1
  let c3_i32 : BitVec 32 := 3#32
  let v468 : BitVec 32 := Scalar.shrsi arg12 c3_i32
  let c128_i32_501 : BitVec 32 := 128#32
  let v470 : BitVec 32 := Scalar.muli v468 c128_i32_501
  v470
def k0_mult2 (k0_t1 : Fin k0_t1_loop.trips) : BitVec 32 :=
  let c2_i32_502 : BitVec 32 := 2#32
  let c0_i32_43 : BitVec 32 := 0#32
  let c1_i32_45 : BitVec 32 := 1#32
  let arg12 : BitVec 32 := Scf.iv c0_i32_43 c1_i32_45 k0_t1
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off3 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off4 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off5 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off6 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off7 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off8 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off9 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off10 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off11 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off12 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off13 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off14 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off15 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off16 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off17 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off18 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off19 (k0_t1 : Fin k0_t1_loop.trips) : Fin 2 → Nat :=
  let c0_i32_43 : BitVec 32 := 0#32
  let c1_i32_45 : BitVec 32 := 1#32
  let arg12 : BitVec 32 := Scf.iv c0_i32_43 c1_i32_45 k0_t1
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off20 (i : grid0.Coords) (c0_i32_47 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v94 : BitVec 32 := Scalar.addi v2 c0_i32_47
  let c0_i32_48 : BitVec 32 := 0#32
  ![v94.toNat, 0]
def k0_off21 (i : grid0.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v97 : BitVec 32 := Scalar.addi v2 c8_i32
  let c0_i32_50 : BitVec 32 := 0#32
  ![v97.toNat, 0]
def k0_off22 (i : grid0.Coords) (c0_i32_38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v87 : BitVec 32 := Scalar.addi v2 c0_i32_38
  let c2048_i32_52 : BitVec 32 := 2048#32
  ![v87.toNat, 2048]
@[reducible] def k0_t2_loop : Scf.Loop 32 :=
  let c0_i32_55 : BitVec 32 := 0#32
  let c128_i32_56 : BitVec 32 := 128#32
  let v102 : BitVec 32 := Scalar.addi c0_i32_55 c128_i32_56
  let c1_i32_57 : BitVec 32 := 1#32
  ⟨c0_i32_55, v102, c1_i32_57⟩
def k0_mult3 (k0_t2 : Fin k0_t2_loop.trips) : BitVec 32 :=
  let c0_i32_55 : BitVec 32 := 0#32
  let c1_i32_57 : BitVec 32 := 1#32
  let arg12 : BitVec 32 := Scf.iv c0_i32_55 c1_i32_57 k0_t2
  let c3_i32 : BitVec 32 := 3#32
  let v468 : BitVec 32 := Scalar.shrsi arg12 c3_i32
  let c128_i32_501 : BitVec 32 := 128#32
  let v470 : BitVec 32 := Scalar.muli v468 c128_i32_501
  v470
def k0_mult4 (k0_t2 : Fin k0_t2_loop.trips) : BitVec 32 :=
  let c2_i32_502 : BitVec 32 := 2#32
  let c0_i32_55 : BitVec 32 := 0#32
  let c1_i32_57 : BitVec 32 := 1#32
  let arg12 : BitVec 32 := Scf.iv c0_i32_55 c1_i32_57 k0_t2
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off23 (k0_t2 : Fin k0_t2_loop.trips) : Fin 2 → Nat :=
  let c0_i32_55 : BitVec 32 := 0#32
  let c1_i32_57 : BitVec 32 := 1#32
  let arg12 : BitVec 32 := Scf.iv c0_i32_55 c1_i32_57 k0_t2
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off24 (k0_t2 : Fin k0_t2_loop.trips) : Fin 2 → Nat :=
  let c0_i32_55 : BitVec 32 := 0#32
  let c1_i32_57 : BitVec 32 := 1#32
  let arg12 : BitVec 32 := Scf.iv c0_i32_55 c1_i32_57 k0_t2
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off25 (k0_t2 : Fin k0_t2_loop.trips) : Fin 2 → Nat :=
  let c0_i32_55 : BitVec 32 := 0#32
  let c1_i32_57 : BitVec 32 := 1#32
  let arg12 : BitVec 32 := Scf.iv c0_i32_55 c1_i32_57 k0_t2
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
def k0_off26 (i : grid0.Coords) (c0_i32_59 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v104 : BitVec 32 := Scalar.addi v2 c0_i32_59
  let c4096_i32 : BitVec 32 := 4096#32
  ![v104.toNat, 4096]
@[reducible] def k0_t3_loop : Scf.Loop 32 :=
  let c0_i32_69 : BitVec 32 := 0#32
  let c128_i32_70 : BitVec 32 := 128#32
  let v114 : BitVec 32 := Scalar.addi c0_i32_69 c128_i32_70
  let c1_i32_71 : BitVec 32 := 1#32
  ⟨c0_i32_69, v114, c1_i32_71⟩
def k0_mult5 (k0_t3 : Fin k0_t3_loop.trips) : BitVec 32 :=
  let c0_i32_69 : BitVec 32 := 0#32
  let c1_i32_71 : BitVec 32 := 1#32
  let arg12 : BitVec 32 := Scf.iv c0_i32_69 c1_i32_71 k0_t3
  let c3_i32 : BitVec 32 := 3#32
  let v468 : BitVec 32 := Scalar.shrsi arg12 c3_i32
  let c128_i32_501 : BitVec 32 := 128#32
  let v470 : BitVec 32 := Scalar.muli v468 c128_i32_501
  v470
def k0_mult6 (k0_t3 : Fin k0_t3_loop.trips) : BitVec 32 :=
  let c2_i32_502 : BitVec 32 := 2#32
  let c0_i32_69 : BitVec 32 := 0#32
  let c1_i32_71 : BitVec 32 := 1#32
  let arg12 : BitVec 32 := Scf.iv c0_i32_69 c1_i32_71 k0_t3
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off27 (k0_t3 : Fin k0_t3_loop.trips) : Fin 2 → Nat :=
  let c0_i32_69 : BitVec 32 := 0#32
  let c1_i32_71 : BitVec 32 := 1#32
  let arg12 : BitVec 32 := Scf.iv c0_i32_69 c1_i32_71 k0_t3
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off28 (k0_t3 : Fin k0_t3_loop.trips) : Fin 2 → Nat :=
  let c0_i32_69 : BitVec 32 := 0#32
  let c1_i32_71 : BitVec 32 := 1#32
  let arg12 : BitVec 32 := Scf.iv c0_i32_69 c1_i32_71 k0_t3
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off29 (k0_t3 : Fin k0_t3_loop.trips) : Fin 2 → Nat :=
  let c0_i32_69 : BitVec 32 := 0#32
  let c1_i32_71 : BitVec 32 := 1#32
  let arg12 : BitVec 32 := Scf.iv c0_i32_69 c1_i32_71 k0_t3
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t4_loop : Scf.Loop 32 :=
  let c0_i32_83 : BitVec 32 := 0#32
  let c128_i32_84 : BitVec 32 := 128#32
  let v126 : BitVec 32 := Scalar.addi c0_i32_83 c128_i32_84
  let c1_i32_85 : BitVec 32 := 1#32
  ⟨c0_i32_83, v126, c1_i32_85⟩
def k0_mult7 (k0_t4 : Fin k0_t4_loop.trips) : BitVec 32 :=
  let c0_i32_83 : BitVec 32 := 0#32
  let c1_i32_85 : BitVec 32 := 1#32
  let arg12 : BitVec 32 := Scf.iv c0_i32_83 c1_i32_85 k0_t4
  let c3_i32 : BitVec 32 := 3#32
  let v468 : BitVec 32 := Scalar.shrsi arg12 c3_i32
  let c128_i32_501 : BitVec 32 := 128#32
  let v470 : BitVec 32 := Scalar.muli v468 c128_i32_501
  v470
def k0_mult8 (k0_t4 : Fin k0_t4_loop.trips) : BitVec 32 :=
  let c2_i32_502 : BitVec 32 := 2#32
  let c0_i32_83 : BitVec 32 := 0#32
  let c1_i32_85 : BitVec 32 := 1#32
  let arg12 : BitVec 32 := Scf.iv c0_i32_83 c1_i32_85 k0_t4
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off30 (k0_t4 : Fin k0_t4_loop.trips) : Fin 2 → Nat :=
  let c0_i32_83 : BitVec 32 := 0#32
  let c1_i32_85 : BitVec 32 := 1#32
  let arg12 : BitVec 32 := Scf.iv c0_i32_83 c1_i32_85 k0_t4
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off31 (k0_t4 : Fin k0_t4_loop.trips) : Fin 2 → Nat :=
  let c0_i32_83 : BitVec 32 := 0#32
  let c1_i32_85 : BitVec 32 := 1#32
  let arg12 : BitVec 32 := Scf.iv c0_i32_83 c1_i32_85 k0_t4
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off32 (k0_t4 : Fin k0_t4_loop.trips) : Fin 2 → Nat :=
  let c0_i32_83 : BitVec 32 := 0#32
  let c1_i32_85 : BitVec 32 := 1#32
  let arg12 : BitVec 32 := Scf.iv c0_i32_83 c1_i32_85 k0_t4
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t5_loop : Scf.Loop 32 :=
  let c0_i32_98 : BitVec 32 := 0#32
  let c128_i32_99 : BitVec 32 := 128#32
  let v138 : BitVec 32 := Scalar.addi c0_i32_98 c128_i32_99
  let c1_i32_100 : BitVec 32 := 1#32
  ⟨c0_i32_98, v138, c1_i32_100⟩
def k0_mult9 (k0_t5 : Fin k0_t5_loop.trips) : BitVec 32 :=
  let c0_i32_98 : BitVec 32 := 0#32
  let c1_i32_100 : BitVec 32 := 1#32
  let arg12 : BitVec 32 := Scf.iv c0_i32_98 c1_i32_100 k0_t5
  let c3_i32 : BitVec 32 := 3#32
  let v468 : BitVec 32 := Scalar.shrsi arg12 c3_i32
  let c128_i32_501 : BitVec 32 := 128#32
  let v470 : BitVec 32 := Scalar.muli v468 c128_i32_501
  v470
def k0_mult10 (k0_t5 : Fin k0_t5_loop.trips) : BitVec 32 :=
  let c2_i32_502 : BitVec 32 := 2#32
  let c0_i32_98 : BitVec 32 := 0#32
  let c1_i32_100 : BitVec 32 := 1#32
  let arg12 : BitVec 32 := Scf.iv c0_i32_98 c1_i32_100 k0_t5
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off33 (k0_t5 : Fin k0_t5_loop.trips) : Fin 2 → Nat :=
  let c0_i32_98 : BitVec 32 := 0#32
  let c1_i32_100 : BitVec 32 := 1#32
  let arg12 : BitVec 32 := Scf.iv c0_i32_98 c1_i32_100 k0_t5
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off34 (k0_t5 : Fin k0_t5_loop.trips) : Fin 2 → Nat :=
  let c0_i32_98 : BitVec 32 := 0#32
  let c1_i32_100 : BitVec 32 := 1#32
  let arg12 : BitVec 32 := Scf.iv c0_i32_98 c1_i32_100 k0_t5
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off35 (k0_t5 : Fin k0_t5_loop.trips) : Fin 2 → Nat :=
  let c0_i32_98 : BitVec 32 := 0#32
  let c1_i32_100 : BitVec 32 := 1#32
  let arg12 : BitVec 32 := Scf.iv c0_i32_98 c1_i32_100 k0_t5
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t6_loop : Scf.Loop 32 :=
  let c0_i32_112 : BitVec 32 := 0#32
  let c128_i32_113 : BitVec 32 := 128#32
  let v150 : BitVec 32 := Scalar.addi c0_i32_112 c128_i32_113
  let c1_i32_114 : BitVec 32 := 1#32
  ⟨c0_i32_112, v150, c1_i32_114⟩
def k0_mult11 (k0_t6 : Fin k0_t6_loop.trips) : BitVec 32 :=
  let c0_i32_112 : BitVec 32 := 0#32
  let c1_i32_114 : BitVec 32 := 1#32
  let arg12 : BitVec 32 := Scf.iv c0_i32_112 c1_i32_114 k0_t6
  let c3_i32 : BitVec 32 := 3#32
  let v468 : BitVec 32 := Scalar.shrsi arg12 c3_i32
  let c128_i32_501 : BitVec 32 := 128#32
  let v470 : BitVec 32 := Scalar.muli v468 c128_i32_501
  v470
def k0_mult12 (k0_t6 : Fin k0_t6_loop.trips) : BitVec 32 :=
  let c2_i32_502 : BitVec 32 := 2#32
  let c0_i32_112 : BitVec 32 := 0#32
  let c1_i32_114 : BitVec 32 := 1#32
  let arg12 : BitVec 32 := Scf.iv c0_i32_112 c1_i32_114 k0_t6
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off36 (k0_t6 : Fin k0_t6_loop.trips) : Fin 2 → Nat :=
  let c0_i32_112 : BitVec 32 := 0#32
  let c1_i32_114 : BitVec 32 := 1#32
  let arg12 : BitVec 32 := Scf.iv c0_i32_112 c1_i32_114 k0_t6
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off37 (k0_t6 : Fin k0_t6_loop.trips) : Fin 2 → Nat :=
  let c0_i32_112 : BitVec 32 := 0#32
  let c1_i32_114 : BitVec 32 := 1#32
  let arg12 : BitVec 32 := Scf.iv c0_i32_112 c1_i32_114 k0_t6
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off38 (k0_t6 : Fin k0_t6_loop.trips) : Fin 2 → Nat :=
  let c0_i32_112 : BitVec 32 := 0#32
  let c1_i32_114 : BitVec 32 := 1#32
  let arg12 : BitVec 32 := Scf.iv c0_i32_112 c1_i32_114 k0_t6
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t7_loop : Scf.Loop 32 :=
  let c0_i32_127 : BitVec 32 := 0#32
  let c128_i32_128 : BitVec 32 := 128#32
  let v162 : BitVec 32 := Scalar.addi c0_i32_127 c128_i32_128
  let c1_i32_129 : BitVec 32 := 1#32
  ⟨c0_i32_127, v162, c1_i32_129⟩
def k0_mult13 (k0_t7 : Fin k0_t7_loop.trips) : BitVec 32 :=
  let c0_i32_127 : BitVec 32 := 0#32
  let c1_i32_129 : BitVec 32 := 1#32
  let arg12 : BitVec 32 := Scf.iv c0_i32_127 c1_i32_129 k0_t7
  let c3_i32 : BitVec 32 := 3#32
  let v468 : BitVec 32 := Scalar.shrsi arg12 c3_i32
  let c128_i32_501 : BitVec 32 := 128#32
  let v470 : BitVec 32 := Scalar.muli v468 c128_i32_501
  v470
def k0_mult14 (k0_t7 : Fin k0_t7_loop.trips) : BitVec 32 :=
  let c2_i32_502 : BitVec 32 := 2#32
  let c0_i32_127 : BitVec 32 := 0#32
  let c1_i32_129 : BitVec 32 := 1#32
  let arg12 : BitVec 32 := Scf.iv c0_i32_127 c1_i32_129 k0_t7
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off39 (k0_t7 : Fin k0_t7_loop.trips) : Fin 2 → Nat :=
  let c0_i32_127 : BitVec 32 := 0#32
  let c1_i32_129 : BitVec 32 := 1#32
  let arg12 : BitVec 32 := Scf.iv c0_i32_127 c1_i32_129 k0_t7
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off40 (k0_t7 : Fin k0_t7_loop.trips) : Fin 2 → Nat :=
  let c0_i32_127 : BitVec 32 := 0#32
  let c1_i32_129 : BitVec 32 := 1#32
  let arg12 : BitVec 32 := Scf.iv c0_i32_127 c1_i32_129 k0_t7
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off41 (k0_t7 : Fin k0_t7_loop.trips) : Fin 2 → Nat :=
  let c0_i32_127 : BitVec 32 := 0#32
  let c1_i32_129 : BitVec 32 := 1#32
  let arg12 : BitVec 32 := Scf.iv c0_i32_127 c1_i32_129 k0_t7
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t8_loop : Scf.Loop 32 :=
  let c0_i32_142 : BitVec 32 := 0#32
  let c128_i32_143 : BitVec 32 := 128#32
  let v174 : BitVec 32 := Scalar.addi c0_i32_142 c128_i32_143
  let c1_i32_144 : BitVec 32 := 1#32
  ⟨c0_i32_142, v174, c1_i32_144⟩
def k0_mult15 (k0_t8 : Fin k0_t8_loop.trips) : BitVec 32 :=
  let c0_i32_142 : BitVec 32 := 0#32
  let c1_i32_144 : BitVec 32 := 1#32
  let arg12 : BitVec 32 := Scf.iv c0_i32_142 c1_i32_144 k0_t8
  let c3_i32 : BitVec 32 := 3#32
  let v468 : BitVec 32 := Scalar.shrsi arg12 c3_i32
  let c128_i32_501 : BitVec 32 := 128#32
  let v470 : BitVec 32 := Scalar.muli v468 c128_i32_501
  v470
def k0_mult16 (k0_t8 : Fin k0_t8_loop.trips) : BitVec 32 :=
  let c2_i32_502 : BitVec 32 := 2#32
  let c0_i32_142 : BitVec 32 := 0#32
  let c1_i32_144 : BitVec 32 := 1#32
  let arg12 : BitVec 32 := Scf.iv c0_i32_142 c1_i32_144 k0_t8
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off42 (k0_t8 : Fin k0_t8_loop.trips) : Fin 2 → Nat :=
  let c0_i32_142 : BitVec 32 := 0#32
  let c1_i32_144 : BitVec 32 := 1#32
  let arg12 : BitVec 32 := Scf.iv c0_i32_142 c1_i32_144 k0_t8
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off43 (k0_t8 : Fin k0_t8_loop.trips) : Fin 2 → Nat :=
  let c0_i32_142 : BitVec 32 := 0#32
  let c1_i32_144 : BitVec 32 := 1#32
  let arg12 : BitVec 32 := Scf.iv c0_i32_142 c1_i32_144 k0_t8
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off44 (k0_t8 : Fin k0_t8_loop.trips) : Fin 2 → Nat :=
  let c0_i32_142 : BitVec 32 := 0#32
  let c1_i32_144 : BitVec 32 := 1#32
  let arg12 : BitVec 32 := Scf.iv c0_i32_142 c1_i32_144 k0_t8
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t9_loop : Scf.Loop 32 :=
  let c0_i32_157 : BitVec 32 := 0#32
  let c128_i32_158 : BitVec 32 := 128#32
  let v186 : BitVec 32 := Scalar.addi c0_i32_157 c128_i32_158
  let c1_i32_159 : BitVec 32 := 1#32
  ⟨c0_i32_157, v186, c1_i32_159⟩
def k0_mult17 (k0_t9 : Fin k0_t9_loop.trips) : BitVec 32 :=
  let c0_i32_157 : BitVec 32 := 0#32
  let c1_i32_159 : BitVec 32 := 1#32
  let arg12 : BitVec 32 := Scf.iv c0_i32_157 c1_i32_159 k0_t9
  let c3_i32 : BitVec 32 := 3#32
  let v468 : BitVec 32 := Scalar.shrsi arg12 c3_i32
  let c128_i32_501 : BitVec 32 := 128#32
  let v470 : BitVec 32 := Scalar.muli v468 c128_i32_501
  v470
def k0_mult18 (k0_t9 : Fin k0_t9_loop.trips) : BitVec 32 :=
  let c2_i32_502 : BitVec 32 := 2#32
  let c0_i32_157 : BitVec 32 := 0#32
  let c1_i32_159 : BitVec 32 := 1#32
  let arg12 : BitVec 32 := Scf.iv c0_i32_157 c1_i32_159 k0_t9
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off45 (k0_t9 : Fin k0_t9_loop.trips) : Fin 2 → Nat :=
  let c0_i32_157 : BitVec 32 := 0#32
  let c1_i32_159 : BitVec 32 := 1#32
  let arg12 : BitVec 32 := Scf.iv c0_i32_157 c1_i32_159 k0_t9
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off46 (k0_t9 : Fin k0_t9_loop.trips) : Fin 2 → Nat :=
  let c0_i32_157 : BitVec 32 := 0#32
  let c1_i32_159 : BitVec 32 := 1#32
  let arg12 : BitVec 32 := Scf.iv c0_i32_157 c1_i32_159 k0_t9
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off47 (k0_t9 : Fin k0_t9_loop.trips) : Fin 2 → Nat :=
  let c0_i32_157 : BitVec 32 := 0#32
  let c1_i32_159 : BitVec 32 := 1#32
  let arg12 : BitVec 32 := Scf.iv c0_i32_157 c1_i32_159 k0_t9
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t10_loop : Scf.Loop 32 :=
  let c0_i32_171 : BitVec 32 := 0#32
  let c128_i32_172 : BitVec 32 := 128#32
  let v198 : BitVec 32 := Scalar.addi c0_i32_171 c128_i32_172
  let c1_i32_173 : BitVec 32 := 1#32
  ⟨c0_i32_171, v198, c1_i32_173⟩
def k0_mult19 (k0_t10 : Fin k0_t10_loop.trips) : BitVec 32 :=
  let c0_i32_171 : BitVec 32 := 0#32
  let c1_i32_173 : BitVec 32 := 1#32
  let arg12 : BitVec 32 := Scf.iv c0_i32_171 c1_i32_173 k0_t10
  let c3_i32 : BitVec 32 := 3#32
  let v468 : BitVec 32 := Scalar.shrsi arg12 c3_i32
  let c128_i32_501 : BitVec 32 := 128#32
  let v470 : BitVec 32 := Scalar.muli v468 c128_i32_501
  v470
def k0_mult20 (k0_t10 : Fin k0_t10_loop.trips) : BitVec 32 :=
  let c2_i32_502 : BitVec 32 := 2#32
  let c0_i32_171 : BitVec 32 := 0#32
  let c1_i32_173 : BitVec 32 := 1#32
  let arg12 : BitVec 32 := Scf.iv c0_i32_171 c1_i32_173 k0_t10
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off48 (k0_t10 : Fin k0_t10_loop.trips) : Fin 2 → Nat :=
  let c0_i32_171 : BitVec 32 := 0#32
  let c1_i32_173 : BitVec 32 := 1#32
  let arg12 : BitVec 32 := Scf.iv c0_i32_171 c1_i32_173 k0_t10
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off49 (k0_t10 : Fin k0_t10_loop.trips) : Fin 2 → Nat :=
  let c0_i32_171 : BitVec 32 := 0#32
  let c1_i32_173 : BitVec 32 := 1#32
  let arg12 : BitVec 32 := Scf.iv c0_i32_171 c1_i32_173 k0_t10
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off50 (k0_t10 : Fin k0_t10_loop.trips) : Fin 2 → Nat :=
  let c0_i32_171 : BitVec 32 := 0#32
  let c1_i32_173 : BitVec 32 := 1#32
  let arg12 : BitVec 32 := Scf.iv c0_i32_171 c1_i32_173 k0_t10
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t11_loop : Scf.Loop 32 :=
  let c0_i32_186 : BitVec 32 := 0#32
  let c128_i32_187 : BitVec 32 := 128#32
  let v210 : BitVec 32 := Scalar.addi c0_i32_186 c128_i32_187
  let c1_i32_188 : BitVec 32 := 1#32
  ⟨c0_i32_186, v210, c1_i32_188⟩
def k0_mult21 (k0_t11 : Fin k0_t11_loop.trips) : BitVec 32 :=
  let c0_i32_186 : BitVec 32 := 0#32
  let c1_i32_188 : BitVec 32 := 1#32
  let arg12 : BitVec 32 := Scf.iv c0_i32_186 c1_i32_188 k0_t11
  let c3_i32 : BitVec 32 := 3#32
  let v468 : BitVec 32 := Scalar.shrsi arg12 c3_i32
  let c128_i32_501 : BitVec 32 := 128#32
  let v470 : BitVec 32 := Scalar.muli v468 c128_i32_501
  v470
def k0_mult22 (k0_t11 : Fin k0_t11_loop.trips) : BitVec 32 :=
  let c2_i32_502 : BitVec 32 := 2#32
  let c0_i32_186 : BitVec 32 := 0#32
  let c1_i32_188 : BitVec 32 := 1#32
  let arg12 : BitVec 32 := Scf.iv c0_i32_186 c1_i32_188 k0_t11
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off51 (k0_t11 : Fin k0_t11_loop.trips) : Fin 2 → Nat :=
  let c0_i32_186 : BitVec 32 := 0#32
  let c1_i32_188 : BitVec 32 := 1#32
  let arg12 : BitVec 32 := Scf.iv c0_i32_186 c1_i32_188 k0_t11
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off52 (k0_t11 : Fin k0_t11_loop.trips) : Fin 2 → Nat :=
  let c0_i32_186 : BitVec 32 := 0#32
  let c1_i32_188 : BitVec 32 := 1#32
  let arg12 : BitVec 32 := Scf.iv c0_i32_186 c1_i32_188 k0_t11
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off53 (k0_t11 : Fin k0_t11_loop.trips) : Fin 2 → Nat :=
  let c0_i32_186 : BitVec 32 := 0#32
  let c1_i32_188 : BitVec 32 := 1#32
  let arg12 : BitVec 32 := Scf.iv c0_i32_186 c1_i32_188 k0_t11
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t12_loop : Scf.Loop 32 :=
  let c0_i32_200 : BitVec 32 := 0#32
  let c128_i32_201 : BitVec 32 := 128#32
  let v222 : BitVec 32 := Scalar.addi c0_i32_200 c128_i32_201
  let c1_i32_202 : BitVec 32 := 1#32
  ⟨c0_i32_200, v222, c1_i32_202⟩
def k0_mult23 (k0_t12 : Fin k0_t12_loop.trips) : BitVec 32 :=
  let c0_i32_200 : BitVec 32 := 0#32
  let c1_i32_202 : BitVec 32 := 1#32
  let arg12 : BitVec 32 := Scf.iv c0_i32_200 c1_i32_202 k0_t12
  let c3_i32 : BitVec 32 := 3#32
  let v468 : BitVec 32 := Scalar.shrsi arg12 c3_i32
  let c128_i32_501 : BitVec 32 := 128#32
  let v470 : BitVec 32 := Scalar.muli v468 c128_i32_501
  v470
def k0_mult24 (k0_t12 : Fin k0_t12_loop.trips) : BitVec 32 :=
  let c2_i32_502 : BitVec 32 := 2#32
  let c0_i32_200 : BitVec 32 := 0#32
  let c1_i32_202 : BitVec 32 := 1#32
  let arg12 : BitVec 32 := Scf.iv c0_i32_200 c1_i32_202 k0_t12
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off54 (k0_t12 : Fin k0_t12_loop.trips) : Fin 2 → Nat :=
  let c0_i32_200 : BitVec 32 := 0#32
  let c1_i32_202 : BitVec 32 := 1#32
  let arg12 : BitVec 32 := Scf.iv c0_i32_200 c1_i32_202 k0_t12
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off55 (k0_t12 : Fin k0_t12_loop.trips) : Fin 2 → Nat :=
  let c0_i32_200 : BitVec 32 := 0#32
  let c1_i32_202 : BitVec 32 := 1#32
  let arg12 : BitVec 32 := Scf.iv c0_i32_200 c1_i32_202 k0_t12
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off56 (k0_t12 : Fin k0_t12_loop.trips) : Fin 2 → Nat :=
  let c0_i32_200 : BitVec 32 := 0#32
  let c1_i32_202 : BitVec 32 := 1#32
  let arg12 : BitVec 32 := Scf.iv c0_i32_200 c1_i32_202 k0_t12
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t13_loop : Scf.Loop 32 :=
  let c0_i32_215 : BitVec 32 := 0#32
  let c128_i32_216 : BitVec 32 := 128#32
  let v234 : BitVec 32 := Scalar.addi c0_i32_215 c128_i32_216
  let c1_i32_217 : BitVec 32 := 1#32
  ⟨c0_i32_215, v234, c1_i32_217⟩
def k0_mult25 (k0_t13 : Fin k0_t13_loop.trips) : BitVec 32 :=
  let c0_i32_215 : BitVec 32 := 0#32
  let c1_i32_217 : BitVec 32 := 1#32
  let arg12 : BitVec 32 := Scf.iv c0_i32_215 c1_i32_217 k0_t13
  let c3_i32 : BitVec 32 := 3#32
  let v468 : BitVec 32 := Scalar.shrsi arg12 c3_i32
  let c128_i32_501 : BitVec 32 := 128#32
  let v470 : BitVec 32 := Scalar.muli v468 c128_i32_501
  v470
def k0_mult26 (k0_t13 : Fin k0_t13_loop.trips) : BitVec 32 :=
  let c2_i32_502 : BitVec 32 := 2#32
  let c0_i32_215 : BitVec 32 := 0#32
  let c1_i32_217 : BitVec 32 := 1#32
  let arg12 : BitVec 32 := Scf.iv c0_i32_215 c1_i32_217 k0_t13
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off57 (k0_t13 : Fin k0_t13_loop.trips) : Fin 2 → Nat :=
  let c0_i32_215 : BitVec 32 := 0#32
  let c1_i32_217 : BitVec 32 := 1#32
  let arg12 : BitVec 32 := Scf.iv c0_i32_215 c1_i32_217 k0_t13
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off58 (k0_t13 : Fin k0_t13_loop.trips) : Fin 2 → Nat :=
  let c0_i32_215 : BitVec 32 := 0#32
  let c1_i32_217 : BitVec 32 := 1#32
  let arg12 : BitVec 32 := Scf.iv c0_i32_215 c1_i32_217 k0_t13
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off59 (k0_t13 : Fin k0_t13_loop.trips) : Fin 2 → Nat :=
  let c0_i32_215 : BitVec 32 := 0#32
  let c1_i32_217 : BitVec 32 := 1#32
  let arg12 : BitVec 32 := Scf.iv c0_i32_215 c1_i32_217 k0_t13
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t14_loop : Scf.Loop 32 :=
  let c0_i32_229 : BitVec 32 := 0#32
  let c128_i32_230 : BitVec 32 := 128#32
  let v246 : BitVec 32 := Scalar.addi c0_i32_229 c128_i32_230
  let c1_i32_231 : BitVec 32 := 1#32
  ⟨c0_i32_229, v246, c1_i32_231⟩
def k0_mult27 (k0_t14 : Fin k0_t14_loop.trips) : BitVec 32 :=
  let c0_i32_229 : BitVec 32 := 0#32
  let c1_i32_231 : BitVec 32 := 1#32
  let arg12 : BitVec 32 := Scf.iv c0_i32_229 c1_i32_231 k0_t14
  let c3_i32 : BitVec 32 := 3#32
  let v468 : BitVec 32 := Scalar.shrsi arg12 c3_i32
  let c128_i32_501 : BitVec 32 := 128#32
  let v470 : BitVec 32 := Scalar.muli v468 c128_i32_501
  v470
def k0_mult28 (k0_t14 : Fin k0_t14_loop.trips) : BitVec 32 :=
  let c2_i32_502 : BitVec 32 := 2#32
  let c0_i32_229 : BitVec 32 := 0#32
  let c1_i32_231 : BitVec 32 := 1#32
  let arg12 : BitVec 32 := Scf.iv c0_i32_229 c1_i32_231 k0_t14
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off60 (k0_t14 : Fin k0_t14_loop.trips) : Fin 2 → Nat :=
  let c0_i32_229 : BitVec 32 := 0#32
  let c1_i32_231 : BitVec 32 := 1#32
  let arg12 : BitVec 32 := Scf.iv c0_i32_229 c1_i32_231 k0_t14
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off61 (k0_t14 : Fin k0_t14_loop.trips) : Fin 2 → Nat :=
  let c0_i32_229 : BitVec 32 := 0#32
  let c1_i32_231 : BitVec 32 := 1#32
  let arg12 : BitVec 32 := Scf.iv c0_i32_229 c1_i32_231 k0_t14
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off62 (k0_t14 : Fin k0_t14_loop.trips) : Fin 2 → Nat :=
  let c0_i32_229 : BitVec 32 := 0#32
  let c1_i32_231 : BitVec 32 := 1#32
  let arg12 : BitVec 32 := Scf.iv c0_i32_229 c1_i32_231 k0_t14
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t15_loop : Scf.Loop 32 :=
  let c0_i32_244 : BitVec 32 := 0#32
  let c128_i32_245 : BitVec 32 := 128#32
  let v258 : BitVec 32 := Scalar.addi c0_i32_244 c128_i32_245
  let c1_i32_246 : BitVec 32 := 1#32
  ⟨c0_i32_244, v258, c1_i32_246⟩
def k0_mult29 (k0_t15 : Fin k0_t15_loop.trips) : BitVec 32 :=
  let c0_i32_244 : BitVec 32 := 0#32
  let c1_i32_246 : BitVec 32 := 1#32
  let arg12 : BitVec 32 := Scf.iv c0_i32_244 c1_i32_246 k0_t15
  let c3_i32 : BitVec 32 := 3#32
  let v468 : BitVec 32 := Scalar.shrsi arg12 c3_i32
  let c128_i32_501 : BitVec 32 := 128#32
  let v470 : BitVec 32 := Scalar.muli v468 c128_i32_501
  v470
def k0_mult30 (k0_t15 : Fin k0_t15_loop.trips) : BitVec 32 :=
  let c2_i32_502 : BitVec 32 := 2#32
  let c0_i32_244 : BitVec 32 := 0#32
  let c1_i32_246 : BitVec 32 := 1#32
  let arg12 : BitVec 32 := Scf.iv c0_i32_244 c1_i32_246 k0_t15
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off63 (k0_t15 : Fin k0_t15_loop.trips) : Fin 2 → Nat :=
  let c0_i32_244 : BitVec 32 := 0#32
  let c1_i32_246 : BitVec 32 := 1#32
  let arg12 : BitVec 32 := Scf.iv c0_i32_244 c1_i32_246 k0_t15
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off64 (k0_t15 : Fin k0_t15_loop.trips) : Fin 2 → Nat :=
  let c0_i32_244 : BitVec 32 := 0#32
  let c1_i32_246 : BitVec 32 := 1#32
  let arg12 : BitVec 32 := Scf.iv c0_i32_244 c1_i32_246 k0_t15
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off65 (k0_t15 : Fin k0_t15_loop.trips) : Fin 2 → Nat :=
  let c0_i32_244 : BitVec 32 := 0#32
  let c1_i32_246 : BitVec 32 := 1#32
  let arg12 : BitVec 32 := Scf.iv c0_i32_244 c1_i32_246 k0_t15
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t16_loop : Scf.Loop 32 :=
  let c0_i32_259 : BitVec 32 := 0#32
  let c128_i32_260 : BitVec 32 := 128#32
  let v270 : BitVec 32 := Scalar.addi c0_i32_259 c128_i32_260
  let c1_i32_261 : BitVec 32 := 1#32
  ⟨c0_i32_259, v270, c1_i32_261⟩
def k0_mult31 (k0_t16 : Fin k0_t16_loop.trips) : BitVec 32 :=
  let c0_i32_259 : BitVec 32 := 0#32
  let c1_i32_261 : BitVec 32 := 1#32
  let arg12 : BitVec 32 := Scf.iv c0_i32_259 c1_i32_261 k0_t16
  let c3_i32 : BitVec 32 := 3#32
  let v468 : BitVec 32 := Scalar.shrsi arg12 c3_i32
  let c128_i32_501 : BitVec 32 := 128#32
  let v470 : BitVec 32 := Scalar.muli v468 c128_i32_501
  v470
def k0_mult32 (k0_t16 : Fin k0_t16_loop.trips) : BitVec 32 :=
  let c2_i32_502 : BitVec 32 := 2#32
  let c0_i32_259 : BitVec 32 := 0#32
  let c1_i32_261 : BitVec 32 := 1#32
  let arg12 : BitVec 32 := Scf.iv c0_i32_259 c1_i32_261 k0_t16
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off66 (k0_t16 : Fin k0_t16_loop.trips) : Fin 2 → Nat :=
  let c0_i32_259 : BitVec 32 := 0#32
  let c1_i32_261 : BitVec 32 := 1#32
  let arg12 : BitVec 32 := Scf.iv c0_i32_259 c1_i32_261 k0_t16
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off67 (k0_t16 : Fin k0_t16_loop.trips) : Fin 2 → Nat :=
  let c0_i32_259 : BitVec 32 := 0#32
  let c1_i32_261 : BitVec 32 := 1#32
  let arg12 : BitVec 32 := Scf.iv c0_i32_259 c1_i32_261 k0_t16
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off68 (k0_t16 : Fin k0_t16_loop.trips) : Fin 2 → Nat :=
  let c0_i32_259 : BitVec 32 := 0#32
  let c1_i32_261 : BitVec 32 := 1#32
  let arg12 : BitVec 32 := Scf.iv c0_i32_259 c1_i32_261 k0_t16
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t17_loop : Scf.Loop 32 :=
  let c0_i32_274 : BitVec 32 := 0#32
  let c128_i32_275 : BitVec 32 := 128#32
  let v282 : BitVec 32 := Scalar.addi c0_i32_274 c128_i32_275
  let c1_i32_276 : BitVec 32 := 1#32
  ⟨c0_i32_274, v282, c1_i32_276⟩
def k0_mult33 (k0_t17 : Fin k0_t17_loop.trips) : BitVec 32 :=
  let c0_i32_274 : BitVec 32 := 0#32
  let c1_i32_276 : BitVec 32 := 1#32
  let arg12 : BitVec 32 := Scf.iv c0_i32_274 c1_i32_276 k0_t17
  let c3_i32 : BitVec 32 := 3#32
  let v468 : BitVec 32 := Scalar.shrsi arg12 c3_i32
  let c128_i32_501 : BitVec 32 := 128#32
  let v470 : BitVec 32 := Scalar.muli v468 c128_i32_501
  v470
def k0_mult34 (k0_t17 : Fin k0_t17_loop.trips) : BitVec 32 :=
  let c2_i32_502 : BitVec 32 := 2#32
  let c0_i32_274 : BitVec 32 := 0#32
  let c1_i32_276 : BitVec 32 := 1#32
  let arg12 : BitVec 32 := Scf.iv c0_i32_274 c1_i32_276 k0_t17
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off69 (k0_t17 : Fin k0_t17_loop.trips) : Fin 2 → Nat :=
  let c0_i32_274 : BitVec 32 := 0#32
  let c1_i32_276 : BitVec 32 := 1#32
  let arg12 : BitVec 32 := Scf.iv c0_i32_274 c1_i32_276 k0_t17
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off70 (k0_t17 : Fin k0_t17_loop.trips) : Fin 2 → Nat :=
  let c0_i32_274 : BitVec 32 := 0#32
  let c1_i32_276 : BitVec 32 := 1#32
  let arg12 : BitVec 32 := Scf.iv c0_i32_274 c1_i32_276 k0_t17
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off71 (k0_t17 : Fin k0_t17_loop.trips) : Fin 2 → Nat :=
  let c0_i32_274 : BitVec 32 := 0#32
  let c1_i32_276 : BitVec 32 := 1#32
  let arg12 : BitVec 32 := Scf.iv c0_i32_274 c1_i32_276 k0_t17
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t18_loop : Scf.Loop 32 :=
  let c0_i32_288 : BitVec 32 := 0#32
  let c128_i32_289 : BitVec 32 := 128#32
  let v294 : BitVec 32 := Scalar.addi c0_i32_288 c128_i32_289
  let c1_i32_290 : BitVec 32 := 1#32
  ⟨c0_i32_288, v294, c1_i32_290⟩
def k0_mult35 (k0_t18 : Fin k0_t18_loop.trips) : BitVec 32 :=
  let c0_i32_288 : BitVec 32 := 0#32
  let c1_i32_290 : BitVec 32 := 1#32
  let arg12 : BitVec 32 := Scf.iv c0_i32_288 c1_i32_290 k0_t18
  let c3_i32 : BitVec 32 := 3#32
  let v468 : BitVec 32 := Scalar.shrsi arg12 c3_i32
  let c128_i32_501 : BitVec 32 := 128#32
  let v470 : BitVec 32 := Scalar.muli v468 c128_i32_501
  v470
def k0_mult36 (k0_t18 : Fin k0_t18_loop.trips) : BitVec 32 :=
  let c2_i32_502 : BitVec 32 := 2#32
  let c0_i32_288 : BitVec 32 := 0#32
  let c1_i32_290 : BitVec 32 := 1#32
  let arg12 : BitVec 32 := Scf.iv c0_i32_288 c1_i32_290 k0_t18
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off72 (k0_t18 : Fin k0_t18_loop.trips) : Fin 2 → Nat :=
  let c0_i32_288 : BitVec 32 := 0#32
  let c1_i32_290 : BitVec 32 := 1#32
  let arg12 : BitVec 32 := Scf.iv c0_i32_288 c1_i32_290 k0_t18
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off73 (k0_t18 : Fin k0_t18_loop.trips) : Fin 2 → Nat :=
  let c0_i32_288 : BitVec 32 := 0#32
  let c1_i32_290 : BitVec 32 := 1#32
  let arg12 : BitVec 32 := Scf.iv c0_i32_288 c1_i32_290 k0_t18
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off74 (k0_t18 : Fin k0_t18_loop.trips) : Fin 2 → Nat :=
  let c0_i32_288 : BitVec 32 := 0#32
  let c1_i32_290 : BitVec 32 := 1#32
  let arg12 : BitVec 32 := Scf.iv c0_i32_288 c1_i32_290 k0_t18
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t19_loop : Scf.Loop 32 :=
  let c0_i32_303 : BitVec 32 := 0#32
  let c128_i32_304 : BitVec 32 := 128#32
  let v306 : BitVec 32 := Scalar.addi c0_i32_303 c128_i32_304
  let c1_i32_305 : BitVec 32 := 1#32
  ⟨c0_i32_303, v306, c1_i32_305⟩
def k0_mult37 (k0_t19 : Fin k0_t19_loop.trips) : BitVec 32 :=
  let c0_i32_303 : BitVec 32 := 0#32
  let c1_i32_305 : BitVec 32 := 1#32
  let arg12 : BitVec 32 := Scf.iv c0_i32_303 c1_i32_305 k0_t19
  let c3_i32 : BitVec 32 := 3#32
  let v468 : BitVec 32 := Scalar.shrsi arg12 c3_i32
  let c128_i32_501 : BitVec 32 := 128#32
  let v470 : BitVec 32 := Scalar.muli v468 c128_i32_501
  v470
def k0_mult38 (k0_t19 : Fin k0_t19_loop.trips) : BitVec 32 :=
  let c2_i32_502 : BitVec 32 := 2#32
  let c0_i32_303 : BitVec 32 := 0#32
  let c1_i32_305 : BitVec 32 := 1#32
  let arg12 : BitVec 32 := Scf.iv c0_i32_303 c1_i32_305 k0_t19
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off75 (k0_t19 : Fin k0_t19_loop.trips) : Fin 2 → Nat :=
  let c0_i32_303 : BitVec 32 := 0#32
  let c1_i32_305 : BitVec 32 := 1#32
  let arg12 : BitVec 32 := Scf.iv c0_i32_303 c1_i32_305 k0_t19
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off76 (k0_t19 : Fin k0_t19_loop.trips) : Fin 2 → Nat :=
  let c0_i32_303 : BitVec 32 := 0#32
  let c1_i32_305 : BitVec 32 := 1#32
  let arg12 : BitVec 32 := Scf.iv c0_i32_303 c1_i32_305 k0_t19
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off77 (k0_t19 : Fin k0_t19_loop.trips) : Fin 2 → Nat :=
  let c0_i32_303 : BitVec 32 := 0#32
  let c1_i32_305 : BitVec 32 := 1#32
  let arg12 : BitVec 32 := Scf.iv c0_i32_303 c1_i32_305 k0_t19
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t20_loop : Scf.Loop 32 :=
  let c0_i32_317 : BitVec 32 := 0#32
  let c128_i32_318 : BitVec 32 := 128#32
  let v318 : BitVec 32 := Scalar.addi c0_i32_317 c128_i32_318
  let c1_i32_319 : BitVec 32 := 1#32
  ⟨c0_i32_317, v318, c1_i32_319⟩
def k0_mult39 (k0_t20 : Fin k0_t20_loop.trips) : BitVec 32 :=
  let c0_i32_317 : BitVec 32 := 0#32
  let c1_i32_319 : BitVec 32 := 1#32
  let arg12 : BitVec 32 := Scf.iv c0_i32_317 c1_i32_319 k0_t20
  let c3_i32 : BitVec 32 := 3#32
  let v468 : BitVec 32 := Scalar.shrsi arg12 c3_i32
  let c128_i32_501 : BitVec 32 := 128#32
  let v470 : BitVec 32 := Scalar.muli v468 c128_i32_501
  v470
def k0_mult40 (k0_t20 : Fin k0_t20_loop.trips) : BitVec 32 :=
  let c2_i32_502 : BitVec 32 := 2#32
  let c0_i32_317 : BitVec 32 := 0#32
  let c1_i32_319 : BitVec 32 := 1#32
  let arg12 : BitVec 32 := Scf.iv c0_i32_317 c1_i32_319 k0_t20
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off78 (k0_t20 : Fin k0_t20_loop.trips) : Fin 2 → Nat :=
  let c0_i32_317 : BitVec 32 := 0#32
  let c1_i32_319 : BitVec 32 := 1#32
  let arg12 : BitVec 32 := Scf.iv c0_i32_317 c1_i32_319 k0_t20
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off79 (k0_t20 : Fin k0_t20_loop.trips) : Fin 2 → Nat :=
  let c0_i32_317 : BitVec 32 := 0#32
  let c1_i32_319 : BitVec 32 := 1#32
  let arg12 : BitVec 32 := Scf.iv c0_i32_317 c1_i32_319 k0_t20
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off80 (k0_t20 : Fin k0_t20_loop.trips) : Fin 2 → Nat :=
  let c0_i32_317 : BitVec 32 := 0#32
  let c1_i32_319 : BitVec 32 := 1#32
  let arg12 : BitVec 32 := Scf.iv c0_i32_317 c1_i32_319 k0_t20
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t21_loop : Scf.Loop 32 :=
  let c0_i32_332 : BitVec 32 := 0#32
  let c128_i32_333 : BitVec 32 := 128#32
  let v330 : BitVec 32 := Scalar.addi c0_i32_332 c128_i32_333
  let c1_i32_334 : BitVec 32 := 1#32
  ⟨c0_i32_332, v330, c1_i32_334⟩
def k0_mult41 (k0_t21 : Fin k0_t21_loop.trips) : BitVec 32 :=
  let c0_i32_332 : BitVec 32 := 0#32
  let c1_i32_334 : BitVec 32 := 1#32
  let arg12 : BitVec 32 := Scf.iv c0_i32_332 c1_i32_334 k0_t21
  let c3_i32 : BitVec 32 := 3#32
  let v468 : BitVec 32 := Scalar.shrsi arg12 c3_i32
  let c128_i32_501 : BitVec 32 := 128#32
  let v470 : BitVec 32 := Scalar.muli v468 c128_i32_501
  v470
def k0_mult42 (k0_t21 : Fin k0_t21_loop.trips) : BitVec 32 :=
  let c2_i32_502 : BitVec 32 := 2#32
  let c0_i32_332 : BitVec 32 := 0#32
  let c1_i32_334 : BitVec 32 := 1#32
  let arg12 : BitVec 32 := Scf.iv c0_i32_332 c1_i32_334 k0_t21
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off81 (k0_t21 : Fin k0_t21_loop.trips) : Fin 2 → Nat :=
  let c0_i32_332 : BitVec 32 := 0#32
  let c1_i32_334 : BitVec 32 := 1#32
  let arg12 : BitVec 32 := Scf.iv c0_i32_332 c1_i32_334 k0_t21
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off82 (k0_t21 : Fin k0_t21_loop.trips) : Fin 2 → Nat :=
  let c0_i32_332 : BitVec 32 := 0#32
  let c1_i32_334 : BitVec 32 := 1#32
  let arg12 : BitVec 32 := Scf.iv c0_i32_332 c1_i32_334 k0_t21
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off83 (k0_t21 : Fin k0_t21_loop.trips) : Fin 2 → Nat :=
  let c0_i32_332 : BitVec 32 := 0#32
  let c1_i32_334 : BitVec 32 := 1#32
  let arg12 : BitVec 32 := Scf.iv c0_i32_332 c1_i32_334 k0_t21
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t22_loop : Scf.Loop 32 :=
  let c0_i32_346 : BitVec 32 := 0#32
  let c128_i32_347 : BitVec 32 := 128#32
  let v342 : BitVec 32 := Scalar.addi c0_i32_346 c128_i32_347
  let c1_i32_348 : BitVec 32 := 1#32
  ⟨c0_i32_346, v342, c1_i32_348⟩
def k0_mult43 (k0_t22 : Fin k0_t22_loop.trips) : BitVec 32 :=
  let c0_i32_346 : BitVec 32 := 0#32
  let c1_i32_348 : BitVec 32 := 1#32
  let arg12 : BitVec 32 := Scf.iv c0_i32_346 c1_i32_348 k0_t22
  let c3_i32 : BitVec 32 := 3#32
  let v468 : BitVec 32 := Scalar.shrsi arg12 c3_i32
  let c128_i32_501 : BitVec 32 := 128#32
  let v470 : BitVec 32 := Scalar.muli v468 c128_i32_501
  v470
def k0_mult44 (k0_t22 : Fin k0_t22_loop.trips) : BitVec 32 :=
  let c2_i32_502 : BitVec 32 := 2#32
  let c0_i32_346 : BitVec 32 := 0#32
  let c1_i32_348 : BitVec 32 := 1#32
  let arg12 : BitVec 32 := Scf.iv c0_i32_346 c1_i32_348 k0_t22
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off84 (k0_t22 : Fin k0_t22_loop.trips) : Fin 2 → Nat :=
  let c0_i32_346 : BitVec 32 := 0#32
  let c1_i32_348 : BitVec 32 := 1#32
  let arg12 : BitVec 32 := Scf.iv c0_i32_346 c1_i32_348 k0_t22
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off85 (k0_t22 : Fin k0_t22_loop.trips) : Fin 2 → Nat :=
  let c0_i32_346 : BitVec 32 := 0#32
  let c1_i32_348 : BitVec 32 := 1#32
  let arg12 : BitVec 32 := Scf.iv c0_i32_346 c1_i32_348 k0_t22
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off86 (k0_t22 : Fin k0_t22_loop.trips) : Fin 2 → Nat :=
  let c0_i32_346 : BitVec 32 := 0#32
  let c1_i32_348 : BitVec 32 := 1#32
  let arg12 : BitVec 32 := Scf.iv c0_i32_346 c1_i32_348 k0_t22
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t23_loop : Scf.Loop 32 :=
  let c0_i32_361 : BitVec 32 := 0#32
  let c128_i32_362 : BitVec 32 := 128#32
  let v354 : BitVec 32 := Scalar.addi c0_i32_361 c128_i32_362
  let c1_i32_363 : BitVec 32 := 1#32
  ⟨c0_i32_361, v354, c1_i32_363⟩
def k0_mult45 (k0_t23 : Fin k0_t23_loop.trips) : BitVec 32 :=
  let c0_i32_361 : BitVec 32 := 0#32
  let c1_i32_363 : BitVec 32 := 1#32
  let arg12 : BitVec 32 := Scf.iv c0_i32_361 c1_i32_363 k0_t23
  let c3_i32 : BitVec 32 := 3#32
  let v468 : BitVec 32 := Scalar.shrsi arg12 c3_i32
  let c128_i32_501 : BitVec 32 := 128#32
  let v470 : BitVec 32 := Scalar.muli v468 c128_i32_501
  v470
def k0_mult46 (k0_t23 : Fin k0_t23_loop.trips) : BitVec 32 :=
  let c2_i32_502 : BitVec 32 := 2#32
  let c0_i32_361 : BitVec 32 := 0#32
  let c1_i32_363 : BitVec 32 := 1#32
  let arg12 : BitVec 32 := Scf.iv c0_i32_361 c1_i32_363 k0_t23
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off87 (k0_t23 : Fin k0_t23_loop.trips) : Fin 2 → Nat :=
  let c0_i32_361 : BitVec 32 := 0#32
  let c1_i32_363 : BitVec 32 := 1#32
  let arg12 : BitVec 32 := Scf.iv c0_i32_361 c1_i32_363 k0_t23
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off88 (k0_t23 : Fin k0_t23_loop.trips) : Fin 2 → Nat :=
  let c0_i32_361 : BitVec 32 := 0#32
  let c1_i32_363 : BitVec 32 := 1#32
  let arg12 : BitVec 32 := Scf.iv c0_i32_361 c1_i32_363 k0_t23
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off89 (k0_t23 : Fin k0_t23_loop.trips) : Fin 2 → Nat :=
  let c0_i32_361 : BitVec 32 := 0#32
  let c1_i32_363 : BitVec 32 := 1#32
  let arg12 : BitVec 32 := Scf.iv c0_i32_361 c1_i32_363 k0_t23
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t24_loop : Scf.Loop 32 :=
  let c0_i32_376 : BitVec 32 := 0#32
  let c128_i32_377 : BitVec 32 := 128#32
  let v366 : BitVec 32 := Scalar.addi c0_i32_376 c128_i32_377
  let c1_i32_378 : BitVec 32 := 1#32
  ⟨c0_i32_376, v366, c1_i32_378⟩
def k0_mult47 (k0_t24 : Fin k0_t24_loop.trips) : BitVec 32 :=
  let c0_i32_376 : BitVec 32 := 0#32
  let c1_i32_378 : BitVec 32 := 1#32
  let arg12 : BitVec 32 := Scf.iv c0_i32_376 c1_i32_378 k0_t24
  let c3_i32 : BitVec 32 := 3#32
  let v468 : BitVec 32 := Scalar.shrsi arg12 c3_i32
  let c128_i32_501 : BitVec 32 := 128#32
  let v470 : BitVec 32 := Scalar.muli v468 c128_i32_501
  v470
def k0_mult48 (k0_t24 : Fin k0_t24_loop.trips) : BitVec 32 :=
  let c2_i32_502 : BitVec 32 := 2#32
  let c0_i32_376 : BitVec 32 := 0#32
  let c1_i32_378 : BitVec 32 := 1#32
  let arg12 : BitVec 32 := Scf.iv c0_i32_376 c1_i32_378 k0_t24
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off90 (k0_t24 : Fin k0_t24_loop.trips) : Fin 2 → Nat :=
  let c0_i32_376 : BitVec 32 := 0#32
  let c1_i32_378 : BitVec 32 := 1#32
  let arg12 : BitVec 32 := Scf.iv c0_i32_376 c1_i32_378 k0_t24
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off91 (k0_t24 : Fin k0_t24_loop.trips) : Fin 2 → Nat :=
  let c0_i32_376 : BitVec 32 := 0#32
  let c1_i32_378 : BitVec 32 := 1#32
  let arg12 : BitVec 32 := Scf.iv c0_i32_376 c1_i32_378 k0_t24
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off92 (k0_t24 : Fin k0_t24_loop.trips) : Fin 2 → Nat :=
  let c0_i32_376 : BitVec 32 := 0#32
  let c1_i32_378 : BitVec 32 := 1#32
  let arg12 : BitVec 32 := Scf.iv c0_i32_376 c1_i32_378 k0_t24
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t25_loop : Scf.Loop 32 :=
  let c0_i32_391 : BitVec 32 := 0#32
  let c128_i32_392 : BitVec 32 := 128#32
  let v378 : BitVec 32 := Scalar.addi c0_i32_391 c128_i32_392
  let c1_i32_393 : BitVec 32 := 1#32
  ⟨c0_i32_391, v378, c1_i32_393⟩
def k0_mult49 (k0_t25 : Fin k0_t25_loop.trips) : BitVec 32 :=
  let c0_i32_391 : BitVec 32 := 0#32
  let c1_i32_393 : BitVec 32 := 1#32
  let arg12 : BitVec 32 := Scf.iv c0_i32_391 c1_i32_393 k0_t25
  let c3_i32 : BitVec 32 := 3#32
  let v468 : BitVec 32 := Scalar.shrsi arg12 c3_i32
  let c128_i32_501 : BitVec 32 := 128#32
  let v470 : BitVec 32 := Scalar.muli v468 c128_i32_501
  v470
def k0_mult50 (k0_t25 : Fin k0_t25_loop.trips) : BitVec 32 :=
  let c2_i32_502 : BitVec 32 := 2#32
  let c0_i32_391 : BitVec 32 := 0#32
  let c1_i32_393 : BitVec 32 := 1#32
  let arg12 : BitVec 32 := Scf.iv c0_i32_391 c1_i32_393 k0_t25
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off93 (k0_t25 : Fin k0_t25_loop.trips) : Fin 2 → Nat :=
  let c0_i32_391 : BitVec 32 := 0#32
  let c1_i32_393 : BitVec 32 := 1#32
  let arg12 : BitVec 32 := Scf.iv c0_i32_391 c1_i32_393 k0_t25
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off94 (k0_t25 : Fin k0_t25_loop.trips) : Fin 2 → Nat :=
  let c0_i32_391 : BitVec 32 := 0#32
  let c1_i32_393 : BitVec 32 := 1#32
  let arg12 : BitVec 32 := Scf.iv c0_i32_391 c1_i32_393 k0_t25
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off95 (k0_t25 : Fin k0_t25_loop.trips) : Fin 2 → Nat :=
  let c0_i32_391 : BitVec 32 := 0#32
  let c1_i32_393 : BitVec 32 := 1#32
  let arg12 : BitVec 32 := Scf.iv c0_i32_391 c1_i32_393 k0_t25
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t26_loop : Scf.Loop 32 :=
  let c0_i32_405 : BitVec 32 := 0#32
  let c128_i32_406 : BitVec 32 := 128#32
  let v390 : BitVec 32 := Scalar.addi c0_i32_405 c128_i32_406
  let c1_i32_407 : BitVec 32 := 1#32
  ⟨c0_i32_405, v390, c1_i32_407⟩
def k0_mult51 (k0_t26 : Fin k0_t26_loop.trips) : BitVec 32 :=
  let c0_i32_405 : BitVec 32 := 0#32
  let c1_i32_407 : BitVec 32 := 1#32
  let arg12 : BitVec 32 := Scf.iv c0_i32_405 c1_i32_407 k0_t26
  let c3_i32 : BitVec 32 := 3#32
  let v468 : BitVec 32 := Scalar.shrsi arg12 c3_i32
  let c128_i32_501 : BitVec 32 := 128#32
  let v470 : BitVec 32 := Scalar.muli v468 c128_i32_501
  v470
def k0_mult52 (k0_t26 : Fin k0_t26_loop.trips) : BitVec 32 :=
  let c2_i32_502 : BitVec 32 := 2#32
  let c0_i32_405 : BitVec 32 := 0#32
  let c1_i32_407 : BitVec 32 := 1#32
  let arg12 : BitVec 32 := Scf.iv c0_i32_405 c1_i32_407 k0_t26
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off96 (k0_t26 : Fin k0_t26_loop.trips) : Fin 2 → Nat :=
  let c0_i32_405 : BitVec 32 := 0#32
  let c1_i32_407 : BitVec 32 := 1#32
  let arg12 : BitVec 32 := Scf.iv c0_i32_405 c1_i32_407 k0_t26
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off97 (k0_t26 : Fin k0_t26_loop.trips) : Fin 2 → Nat :=
  let c0_i32_405 : BitVec 32 := 0#32
  let c1_i32_407 : BitVec 32 := 1#32
  let arg12 : BitVec 32 := Scf.iv c0_i32_405 c1_i32_407 k0_t26
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off98 (k0_t26 : Fin k0_t26_loop.trips) : Fin 2 → Nat :=
  let c0_i32_405 : BitVec 32 := 0#32
  let c1_i32_407 : BitVec 32 := 1#32
  let arg12 : BitVec 32 := Scf.iv c0_i32_405 c1_i32_407 k0_t26
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t27_loop : Scf.Loop 32 :=
  let c0_i32_420 : BitVec 32 := 0#32
  let c128_i32_421 : BitVec 32 := 128#32
  let v402 : BitVec 32 := Scalar.addi c0_i32_420 c128_i32_421
  let c1_i32_422 : BitVec 32 := 1#32
  ⟨c0_i32_420, v402, c1_i32_422⟩
def k0_mult53 (k0_t27 : Fin k0_t27_loop.trips) : BitVec 32 :=
  let c0_i32_420 : BitVec 32 := 0#32
  let c1_i32_422 : BitVec 32 := 1#32
  let arg12 : BitVec 32 := Scf.iv c0_i32_420 c1_i32_422 k0_t27
  let c3_i32 : BitVec 32 := 3#32
  let v468 : BitVec 32 := Scalar.shrsi arg12 c3_i32
  let c128_i32_501 : BitVec 32 := 128#32
  let v470 : BitVec 32 := Scalar.muli v468 c128_i32_501
  v470
def k0_mult54 (k0_t27 : Fin k0_t27_loop.trips) : BitVec 32 :=
  let c2_i32_502 : BitVec 32 := 2#32
  let c0_i32_420 : BitVec 32 := 0#32
  let c1_i32_422 : BitVec 32 := 1#32
  let arg12 : BitVec 32 := Scf.iv c0_i32_420 c1_i32_422 k0_t27
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off99 (k0_t27 : Fin k0_t27_loop.trips) : Fin 2 → Nat :=
  let c0_i32_420 : BitVec 32 := 0#32
  let c1_i32_422 : BitVec 32 := 1#32
  let arg12 : BitVec 32 := Scf.iv c0_i32_420 c1_i32_422 k0_t27
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off100 (k0_t27 : Fin k0_t27_loop.trips) : Fin 2 → Nat :=
  let c0_i32_420 : BitVec 32 := 0#32
  let c1_i32_422 : BitVec 32 := 1#32
  let arg12 : BitVec 32 := Scf.iv c0_i32_420 c1_i32_422 k0_t27
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off101 (k0_t27 : Fin k0_t27_loop.trips) : Fin 2 → Nat :=
  let c0_i32_420 : BitVec 32 := 0#32
  let c1_i32_422 : BitVec 32 := 1#32
  let arg12 : BitVec 32 := Scf.iv c0_i32_420 c1_i32_422 k0_t27
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t28_loop : Scf.Loop 32 :=
  let c0_i32_434 : BitVec 32 := 0#32
  let c128_i32_435 : BitVec 32 := 128#32
  let v414 : BitVec 32 := Scalar.addi c0_i32_434 c128_i32_435
  let c1_i32_436 : BitVec 32 := 1#32
  ⟨c0_i32_434, v414, c1_i32_436⟩
def k0_mult55 (k0_t28 : Fin k0_t28_loop.trips) : BitVec 32 :=
  let c0_i32_434 : BitVec 32 := 0#32
  let c1_i32_436 : BitVec 32 := 1#32
  let arg12 : BitVec 32 := Scf.iv c0_i32_434 c1_i32_436 k0_t28
  let c3_i32 : BitVec 32 := 3#32
  let v468 : BitVec 32 := Scalar.shrsi arg12 c3_i32
  let c128_i32_501 : BitVec 32 := 128#32
  let v470 : BitVec 32 := Scalar.muli v468 c128_i32_501
  v470
def k0_mult56 (k0_t28 : Fin k0_t28_loop.trips) : BitVec 32 :=
  let c2_i32_502 : BitVec 32 := 2#32
  let c0_i32_434 : BitVec 32 := 0#32
  let c1_i32_436 : BitVec 32 := 1#32
  let arg12 : BitVec 32 := Scf.iv c0_i32_434 c1_i32_436 k0_t28
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off102 (k0_t28 : Fin k0_t28_loop.trips) : Fin 2 → Nat :=
  let c0_i32_434 : BitVec 32 := 0#32
  let c1_i32_436 : BitVec 32 := 1#32
  let arg12 : BitVec 32 := Scf.iv c0_i32_434 c1_i32_436 k0_t28
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off103 (k0_t28 : Fin k0_t28_loop.trips) : Fin 2 → Nat :=
  let c0_i32_434 : BitVec 32 := 0#32
  let c1_i32_436 : BitVec 32 := 1#32
  let arg12 : BitVec 32 := Scf.iv c0_i32_434 c1_i32_436 k0_t28
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off104 (k0_t28 : Fin k0_t28_loop.trips) : Fin 2 → Nat :=
  let c0_i32_434 : BitVec 32 := 0#32
  let c1_i32_436 : BitVec 32 := 1#32
  let arg12 : BitVec 32 := Scf.iv c0_i32_434 c1_i32_436 k0_t28
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t29_loop : Scf.Loop 32 :=
  let c0_i32_449 : BitVec 32 := 0#32
  let c128_i32_450 : BitVec 32 := 128#32
  let v426 : BitVec 32 := Scalar.addi c0_i32_449 c128_i32_450
  let c1_i32_451 : BitVec 32 := 1#32
  ⟨c0_i32_449, v426, c1_i32_451⟩
def k0_mult57 (k0_t29 : Fin k0_t29_loop.trips) : BitVec 32 :=
  let c0_i32_449 : BitVec 32 := 0#32
  let c1_i32_451 : BitVec 32 := 1#32
  let arg12 : BitVec 32 := Scf.iv c0_i32_449 c1_i32_451 k0_t29
  let c3_i32 : BitVec 32 := 3#32
  let v468 : BitVec 32 := Scalar.shrsi arg12 c3_i32
  let c128_i32_501 : BitVec 32 := 128#32
  let v470 : BitVec 32 := Scalar.muli v468 c128_i32_501
  v470
def k0_mult58 (k0_t29 : Fin k0_t29_loop.trips) : BitVec 32 :=
  let c2_i32_502 : BitVec 32 := 2#32
  let c0_i32_449 : BitVec 32 := 0#32
  let c1_i32_451 : BitVec 32 := 1#32
  let arg12 : BitVec 32 := Scf.iv c0_i32_449 c1_i32_451 k0_t29
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off105 (k0_t29 : Fin k0_t29_loop.trips) : Fin 2 → Nat :=
  let c0_i32_449 : BitVec 32 := 0#32
  let c1_i32_451 : BitVec 32 := 1#32
  let arg12 : BitVec 32 := Scf.iv c0_i32_449 c1_i32_451 k0_t29
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off106 (k0_t29 : Fin k0_t29_loop.trips) : Fin 2 → Nat :=
  let c0_i32_449 : BitVec 32 := 0#32
  let c1_i32_451 : BitVec 32 := 1#32
  let arg12 : BitVec 32 := Scf.iv c0_i32_449 c1_i32_451 k0_t29
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off107 (k0_t29 : Fin k0_t29_loop.trips) : Fin 2 → Nat :=
  let c0_i32_449 : BitVec 32 := 0#32
  let c1_i32_451 : BitVec 32 := 1#32
  let arg12 : BitVec 32 := Scf.iv c0_i32_449 c1_i32_451 k0_t29
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t30_loop : Scf.Loop 32 :=
  let c0_i32_463 : BitVec 32 := 0#32
  let c128_i32_464 : BitVec 32 := 128#32
  let v438 : BitVec 32 := Scalar.addi c0_i32_463 c128_i32_464
  let c1_i32_465 : BitVec 32 := 1#32
  ⟨c0_i32_463, v438, c1_i32_465⟩
def k0_mult59 (k0_t30 : Fin k0_t30_loop.trips) : BitVec 32 :=
  let c0_i32_463 : BitVec 32 := 0#32
  let c1_i32_465 : BitVec 32 := 1#32
  let arg12 : BitVec 32 := Scf.iv c0_i32_463 c1_i32_465 k0_t30
  let c3_i32 : BitVec 32 := 3#32
  let v468 : BitVec 32 := Scalar.shrsi arg12 c3_i32
  let c128_i32_501 : BitVec 32 := 128#32
  let v470 : BitVec 32 := Scalar.muli v468 c128_i32_501
  v470
def k0_mult60 (k0_t30 : Fin k0_t30_loop.trips) : BitVec 32 :=
  let c2_i32_502 : BitVec 32 := 2#32
  let c0_i32_463 : BitVec 32 := 0#32
  let c1_i32_465 : BitVec 32 := 1#32
  let arg12 : BitVec 32 := Scf.iv c0_i32_463 c1_i32_465 k0_t30
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off108 (k0_t30 : Fin k0_t30_loop.trips) : Fin 2 → Nat :=
  let c0_i32_463 : BitVec 32 := 0#32
  let c1_i32_465 : BitVec 32 := 1#32
  let arg12 : BitVec 32 := Scf.iv c0_i32_463 c1_i32_465 k0_t30
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off109 (k0_t30 : Fin k0_t30_loop.trips) : Fin 2 → Nat :=
  let c0_i32_463 : BitVec 32 := 0#32
  let c1_i32_465 : BitVec 32 := 1#32
  let arg12 : BitVec 32 := Scf.iv c0_i32_463 c1_i32_465 k0_t30
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off110 (k0_t30 : Fin k0_t30_loop.trips) : Fin 2 → Nat :=
  let c0_i32_463 : BitVec 32 := 0#32
  let c1_i32_465 : BitVec 32 := 1#32
  let arg12 : BitVec 32 := Scf.iv c0_i32_463 c1_i32_465 k0_t30
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t31_loop : Scf.Loop 32 :=
  let c0_i32_478 : BitVec 32 := 0#32
  let c128_i32_479 : BitVec 32 := 128#32
  let v450 : BitVec 32 := Scalar.addi c0_i32_478 c128_i32_479
  let c1_i32_480 : BitVec 32 := 1#32
  ⟨c0_i32_478, v450, c1_i32_480⟩
def k0_mult61 (k0_t31 : Fin k0_t31_loop.trips) : BitVec 32 :=
  let c0_i32_478 : BitVec 32 := 0#32
  let c1_i32_480 : BitVec 32 := 1#32
  let arg12 : BitVec 32 := Scf.iv c0_i32_478 c1_i32_480 k0_t31
  let c3_i32 : BitVec 32 := 3#32
  let v468 : BitVec 32 := Scalar.shrsi arg12 c3_i32
  let c128_i32_501 : BitVec 32 := 128#32
  let v470 : BitVec 32 := Scalar.muli v468 c128_i32_501
  v470
def k0_mult62 (k0_t31 : Fin k0_t31_loop.trips) : BitVec 32 :=
  let c2_i32_502 : BitVec 32 := 2#32
  let c0_i32_478 : BitVec 32 := 0#32
  let c1_i32_480 : BitVec 32 := 1#32
  let arg12 : BitVec 32 := Scf.iv c0_i32_478 c1_i32_480 k0_t31
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off111 (k0_t31 : Fin k0_t31_loop.trips) : Fin 2 → Nat :=
  let c0_i32_478 : BitVec 32 := 0#32
  let c1_i32_480 : BitVec 32 := 1#32
  let arg12 : BitVec 32 := Scf.iv c0_i32_478 c1_i32_480 k0_t31
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off112 (k0_t31 : Fin k0_t31_loop.trips) : Fin 2 → Nat :=
  let c0_i32_478 : BitVec 32 := 0#32
  let c1_i32_480 : BitVec 32 := 1#32
  let arg12 : BitVec 32 := Scf.iv c0_i32_478 c1_i32_480 k0_t31
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]
def k0_off113 (k0_t31 : Fin k0_t31_loop.trips) : Fin 2 → Nat :=
  let c0_i32_478 : BitVec 32 := 0#32
  let c1_i32_480 : BitVec 32 := 1#32
  let arg12 : BitVec 32 := Scf.iv c0_i32_478 c1_i32_480 k0_t31
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]
@[reducible] def k0_t32_loop : Scf.Loop 32 :=
  let c0_i32_490 : BitVec 32 := 0#32
  let c128_i32_491 : BitVec 32 := 128#32
  let v459 : BitVec 32 := Scalar.addi c0_i32_490 c128_i32_491
  let c1_i32_492 : BitVec 32 := 1#32
  ⟨c0_i32_490, v459, c1_i32_492⟩
def k0_mult63 (k0_t32 : Fin k0_t32_loop.trips) : BitVec 32 :=
  let c0_i32_490 : BitVec 32 := 0#32
  let c1_i32_492 : BitVec 32 := 1#32
  let arg12 : BitVec 32 := Scf.iv c0_i32_490 c1_i32_492 k0_t32
  let c3_i32 : BitVec 32 := 3#32
  let v468 : BitVec 32 := Scalar.shrsi arg12 c3_i32
  let c128_i32_501 : BitVec 32 := 128#32
  let v470 : BitVec 32 := Scalar.muli v468 c128_i32_501
  v470
def k0_mult64 (k0_t32 : Fin k0_t32_loop.trips) : BitVec 32 :=
  let c2_i32_502 : BitVec 32 := 2#32
  let c0_i32_490 : BitVec 32 := 0#32
  let c1_i32_492 : BitVec 32 := 1#32
  let arg12 : BitVec 32 := Scf.iv c0_i32_490 c1_i32_492 k0_t32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  v473
def k0_off114 (k0_t32 : Fin k0_t32_loop.trips) : Fin 2 → Nat :=
  let c0_i32_490 : BitVec 32 := 0#32
  let c1_i32_492 : BitVec 32 := 1#32
  let arg12 : BitVec 32 := Scf.iv c0_i32_490 c1_i32_492 k0_t32
  let c7_i32 : BitVec 32 := 7#32
  let v469 : BitVec 32 := Scalar.andi arg12 c7_i32
  let c3_i32 : BitVec 32 := 3#32
  let v468 : BitVec 32 := Scalar.shrsi arg12 c3_i32
  let c128_i32_501 : BitVec 32 := 128#32
  let v470 : BitVec 32 := Scalar.muli v468 c128_i32_501
  let v471 : BitVec 32 := v470
  ![v469.toNat, v471.toNat]
def k0_off115 (k0_t32 : Fin k0_t32_loop.trips) : Fin 2 → Nat :=
  let c0_i32_490 : BitVec 32 := 0#32
  let c1_i32_492 : BitVec 32 := 1#32
  let arg12 : BitVec 32 := Scf.iv c0_i32_490 c1_i32_492 k0_t32
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  ![v469.toNat, v474.toNat]

def k0_chk1 (v7 : IVec S16 32) : Prop :=
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a) ∧
  (∀ a x, ((![v7] : Fin 1 → IVec S16 32) a x).toNat < S128.size a)
instance k0_chk1.dec : ∀ (v7 : IVec S16 32), Decidable (k0_chk1 v7) := fun v7 => decidable_of_iff' _ (Iff.of_eq (k0_chk1.eq_1 v7))
theorem k0_idx1_inb : ∀ (v7 : IVec S16 32) (k0_hw1 : k0_chk1 v7), ∀ a x, ((![v7] : Fin 1 → IVec S16 32) a x).toNat < S128.size a := fun v7 k0_hw1 => k0_hw1.1
theorem k0_idx17_inb : ∀ (v7 : IVec S16 32) (k0_hw1 : k0_chk1 v7), ∀ a x, ((![v7] : Fin 1 → IVec S16 32) a x).toNat < S128.size a := fun v7 k0_hw1 => k0_hw1.2.1
theorem k0_idx33_inb : ∀ (v7 : IVec S16 32) (k0_hw1 : k0_chk1 v7), ∀ a x, ((![v7] : Fin 1 → IVec S16 32) a x).toNat < S128.size a := fun v7 k0_hw1 => k0_hw1.2.2.1
theorem k0_idx49_inb : ∀ (v7 : IVec S16 32) (k0_hw1 : k0_chk1 v7), ∀ a x, ((![v7] : Fin 1 → IVec S16 32) a x).toNat < S128.size a := fun v7 k0_hw1 => k0_hw1.2.2.2.1
theorem k0_idx65_inb : ∀ (v7 : IVec S16 32) (k0_hw1 : k0_chk1 v7), ∀ a x, ((![v7] : Fin 1 → IVec S16 32) a x).toNat < S128.size a := fun v7 k0_hw1 => k0_hw1.2.2.2.2.1
theorem k0_idx81_inb : ∀ (v7 : IVec S16 32) (k0_hw1 : k0_chk1 v7), ∀ a x, ((![v7] : Fin 1 → IVec S16 32) a x).toNat < S128.size a := fun v7 k0_hw1 => k0_hw1.2.2.2.2.2.1
theorem k0_idx97_inb : ∀ (v7 : IVec S16 32) (k0_hw1 : k0_chk1 v7), ∀ a x, ((![v7] : Fin 1 → IVec S16 32) a x).toNat < S128.size a := fun v7 k0_hw1 => k0_hw1.2.2.2.2.2.2.1
theorem k0_idx113_inb : ∀ (v7 : IVec S16 32) (k0_hw1 : k0_chk1 v7), ∀ a x, ((![v7] : Fin 1 → IVec S16 32) a x).toNat < S128.size a := fun v7 k0_hw1 => k0_hw1.2.2.2.2.2.2.2.1
theorem k0_idx129_inb : ∀ (v7 : IVec S16 32) (k0_hw1 : k0_chk1 v7), ∀ a x, ((![v7] : Fin 1 → IVec S16 32) a x).toNat < S128.size a := fun v7 k0_hw1 => k0_hw1.2.2.2.2.2.2.2.2.1
theorem k0_idx145_inb : ∀ (v7 : IVec S16 32) (k0_hw1 : k0_chk1 v7), ∀ a x, ((![v7] : Fin 1 → IVec S16 32) a x).toNat < S128.size a := fun v7 k0_hw1 => k0_hw1.2.2.2.2.2.2.2.2.2.1
theorem k0_idx161_inb : ∀ (v7 : IVec S16 32) (k0_hw1 : k0_chk1 v7), ∀ a x, ((![v7] : Fin 1 → IVec S16 32) a x).toNat < S128.size a := fun v7 k0_hw1 => k0_hw1.2.2.2.2.2.2.2.2.2.2.1
theorem k0_idx177_inb : ∀ (v7 : IVec S16 32) (k0_hw1 : k0_chk1 v7), ∀ a x, ((![v7] : Fin 1 → IVec S16 32) a x).toNat < S128.size a := fun v7 k0_hw1 => k0_hw1.2.2.2.2.2.2.2.2.2.2.2.1
theorem k0_idx193_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.1
theorem k0_idx209_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.1
theorem k0_idx225_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.1
theorem k0_idx241_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.1
theorem k0_idx257_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.1
theorem k0_idx273_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.1
theorem k0_idx289_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.1
theorem k0_idx305_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.1
theorem k0_idx321_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.1
theorem k0_idx337_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.1
theorem k0_idx353_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.1
theorem k0_idx369_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.1
theorem k0_idx385_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.1
theorem k0_idx401_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.1
theorem k0_idx417_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.1
theorem k0_idx433_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.2.1
theorem k0_idx449_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.2.2.1
theorem k0_idx465_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.2.2.2.1
theorem k0_idx481_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.2.2.2.2.1
theorem k0_idx497_inb : ∀ (v7 : IVec S16 32) (k0_hw1 : k0_chk1 v7), ∀ a x, ((![v7] : Fin 1 → IVec S16 32) a x).toNat < S128.size a := fun v7 k0_hw1 => k0_hw1.2.2.2.2.2.2.2.2.2.2.2.2.2.2.2.2.2.2.2.2.2.2.2.2.2.2.2.2.2.2.2

def k0_chk2 (v41 : IVec S16 32) : Prop :=
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a) ∧
  (∀ a x, ((![v41] : Fin 1 → IVec S16 32) a x).toNat < S128.size a)
instance k0_chk2.dec : ∀ (v41 : IVec S16 32), Decidable (k0_chk2 v41) := fun v41 => decidable_of_iff' _ (Iff.of_eq (k0_chk2.eq_1 v41))
theorem k0_idx2_inb : ∀ (v41 : IVec S16 32) (k0_hw2 : k0_chk2 v41), ∀ a x, ((![v41] : Fin 1 → IVec S16 32) a x).toNat < S128.size a := fun v41 k0_hw2 => k0_hw2.1
theorem k0_idx18_inb : ∀ (v41 : IVec S16 32) (k0_hw2 : k0_chk2 v41), ∀ a x, ((![v41] : Fin 1 → IVec S16 32) a x).toNat < S128.size a := fun v41 k0_hw2 => k0_hw2.2.1
theorem k0_idx34_inb : ∀ (v41 : IVec S16 32) (k0_hw2 : k0_chk2 v41), ∀ a x, ((![v41] : Fin 1 → IVec S16 32) a x).toNat < S128.size a := fun v41 k0_hw2 => k0_hw2.2.2.1
theorem k0_idx50_inb : ∀ (v41 : IVec S16 32) (k0_hw2 : k0_chk2 v41), ∀ a x, ((![v41] : Fin 1 → IVec S16 32) a x).toNat < S128.size a := fun v41 k0_hw2 => k0_hw2.2.2.2.1
theorem k0_idx66_inb : ∀ (v41 : IVec S16 32) (k0_hw2 : k0_chk2 v41), ∀ a x, ((![v41] : Fin 1 → IVec S16 32) a x).toNat < S128.size a := fun v41 k0_hw2 => k0_hw2.2.2.2.2.1
theorem k0_idx82_inb : ∀ (v41 : IVec S16 32) (k0_hw2 : k0_chk2 v41), ∀ a x, ((![v41] : Fin 1 → IVec S16 32) a x).toNat < S128.size a := fun v41 k0_hw2 => k0_hw2.2.2.2.2.2.1
theorem k0_idx98_inb : ∀ (v41 : IVec S16 32) (k0_hw2 : k0_chk2 v41), ∀ a x, ((![v41] : Fin 1 → IVec S16 32) a x).toNat < S128.size a := fun v41 k0_hw2 => k0_hw2.2.2.2.2.2.2.1
theorem k0_idx114_inb : ∀ (v41 : IVec S16 32) (k0_hw2 : k0_chk2 v41), ∀ a x, ((![v41] : Fin 1 → IVec S16 32) a x).toNat < S128.size a := fun v41 k0_hw2 => k0_hw2.2.2.2.2.2.2.2.1
theorem k0_idx130_inb : ∀ (v41 : IVec S16 32) (k0_hw2 : k0_chk2 v41), ∀ a x, ((![v41] : Fin 1 → IVec S16 32) a x).toNat < S128.size a := fun v41 k0_hw2 => k0_hw2.2.2.2.2.2.2.2.2.1
theorem k0_idx146_inb : ∀ (v41 : IVec S16 32) (k0_hw2 : k0_chk2 v41), ∀ a x, ((![v41] : Fin 1 → IVec S16 32) a x).toNat < S128.size a := fun v41 k0_hw2 => k0_hw2.2.2.2.2.2.2.2.2.2.1
theorem k0_idx162_inb : ∀ (v41 : IVec S16 32) (k0_hw2 : k0_chk2 v41), ∀ a x, ((![v41] : Fin 1 → IVec S16 32) a x).toNat < S128.size a := fun v41 k0_hw2 => k0_hw2.2.2.2.2.2.2.2.2.2.2.1
theorem k0_idx178_inb : ∀ (v41 : IVec S16 32) (k0_hw2 : k0_chk2 v41), ∀ a x, ((![v41] : Fin 1 → IVec S16 32) a x).toNat < S128.size a := fun v41 k0_hw2 => k0_hw2.2.2.2.2.2.2.2.2.2.2.2.1
theorem k0_idx194_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.1
theorem k0_idx210_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.1
theorem k0_idx226_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.1
theorem k0_idx242_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.1
theorem k0_idx258_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.1
theorem k0_idx274_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.1
theorem k0_idx290_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.1
theorem k0_idx306_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.1
theorem k0_idx322_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.1
theorem k0_idx338_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.1
theorem k0_idx354_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.1
theorem k0_idx370_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.1
theorem k0_idx386_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.1
theorem k0_idx402_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.1
theorem k0_idx418_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.1
theorem k0_idx434_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.2.1
theorem k0_idx450_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.2.2.1
theorem k0_idx466_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.2.2.2.1
theorem k0_idx482_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.2.2.2.2.1
theorem k0_idx498_inb : ∀ (v41 : IVec S16 32) (k0_hw2 : k0_chk2 v41), ∀ a x, ((![v41] : Fin 1 → IVec S16 32) a x).toNat < S128.size a := fun v41 k0_hw2 => k0_hw2.2.2.2.2.2.2.2.2.2.2.2.2.2.2.2.2.2.2.2.2.2.2.2.2.2.2.2.2.2.2.2

def k0_chk3 (v11 : IVec S16 32) : Prop :=
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a) ∧
  (∀ a x, ((![v11] : Fin 1 → IVec S16 32) a x).toNat < S128.size a)
instance k0_chk3.dec : ∀ (v11 : IVec S16 32), Decidable (k0_chk3 v11) := fun v11 => decidable_of_iff' _ (Iff.of_eq (k0_chk3.eq_1 v11))
theorem k0_idx3_inb : ∀ (v11 : IVec S16 32) (k0_hw3 : k0_chk3 v11), ∀ a x, ((![v11] : Fin 1 → IVec S16 32) a x).toNat < S128.size a := fun v11 k0_hw3 => k0_hw3.1
theorem k0_idx19_inb : ∀ (v11 : IVec S16 32) (k0_hw3 : k0_chk3 v11), ∀ a x, ((![v11] : Fin 1 → IVec S16 32) a x).toNat < S128.size a := fun v11 k0_hw3 => k0_hw3.2.1
theorem k0_idx35_inb : ∀ (v11 : IVec S16 32) (k0_hw3 : k0_chk3 v11), ∀ a x, ((![v11] : Fin 1 → IVec S16 32) a x).toNat < S128.size a := fun v11 k0_hw3 => k0_hw3.2.2.1
theorem k0_idx51_inb : ∀ (v11 : IVec S16 32) (k0_hw3 : k0_chk3 v11), ∀ a x, ((![v11] : Fin 1 → IVec S16 32) a x).toNat < S128.size a := fun v11 k0_hw3 => k0_hw3.2.2.2.1
theorem k0_idx67_inb : ∀ (v11 : IVec S16 32) (k0_hw3 : k0_chk3 v11), ∀ a x, ((![v11] : Fin 1 → IVec S16 32) a x).toNat < S128.size a := fun v11 k0_hw3 => k0_hw3.2.2.2.2.1
theorem k0_idx83_inb : ∀ (v11 : IVec S16 32) (k0_hw3 : k0_chk3 v11), ∀ a x, ((![v11] : Fin 1 → IVec S16 32) a x).toNat < S128.size a := fun v11 k0_hw3 => k0_hw3.2.2.2.2.2.1
theorem k0_idx99_inb : ∀ (v11 : IVec S16 32) (k0_hw3 : k0_chk3 v11), ∀ a x, ((![v11] : Fin 1 → IVec S16 32) a x).toNat < S128.size a := fun v11 k0_hw3 => k0_hw3.2.2.2.2.2.2.1
theorem k0_idx115_inb : ∀ (v11 : IVec S16 32) (k0_hw3 : k0_chk3 v11), ∀ a x, ((![v11] : Fin 1 → IVec S16 32) a x).toNat < S128.size a := fun v11 k0_hw3 => k0_hw3.2.2.2.2.2.2.2.1
theorem k0_idx131_inb : ∀ (v11 : IVec S16 32) (k0_hw3 : k0_chk3 v11), ∀ a x, ((![v11] : Fin 1 → IVec S16 32) a x).toNat < S128.size a := fun v11 k0_hw3 => k0_hw3.2.2.2.2.2.2.2.2.1
theorem k0_idx147_inb : ∀ (v11 : IVec S16 32) (k0_hw3 : k0_chk3 v11), ∀ a x, ((![v11] : Fin 1 → IVec S16 32) a x).toNat < S128.size a := fun v11 k0_hw3 => k0_hw3.2.2.2.2.2.2.2.2.2.1
theorem k0_idx163_inb : ∀ (v11 : IVec S16 32) (k0_hw3 : k0_chk3 v11), ∀ a x, ((![v11] : Fin 1 → IVec S16 32) a x).toNat < S128.size a := fun v11 k0_hw3 => k0_hw3.2.2.2.2.2.2.2.2.2.2.1
theorem k0_idx179_inb : ∀ (v11 : IVec S16 32) (k0_hw3 : k0_chk3 v11), ∀ a x, ((![v11] : Fin 1 → IVec S16 32) a x).toNat < S128.size a := fun v11 k0_hw3 => k0_hw3.2.2.2.2.2.2.2.2.2.2.2.1
theorem k0_idx195_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.1
theorem k0_idx211_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.1
theorem k0_idx227_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.1
theorem k0_idx243_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.1
theorem k0_idx259_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.1
theorem k0_idx275_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.1
theorem k0_idx291_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.1
theorem k0_idx307_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.1
theorem k0_idx323_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.1
theorem k0_idx339_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.1
theorem k0_idx355_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.1
theorem k0_idx371_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.1
theorem k0_idx387_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.1
theorem k0_idx403_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.1
theorem k0_idx419_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.1
theorem k0_idx435_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.2.1
theorem k0_idx451_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.2.2.1
theorem k0_idx467_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.2.2.2.1
theorem k0_idx483_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.2.2.2.2.1
theorem k0_idx499_inb : ∀ (v11 : IVec S16 32) (k0_hw3 : k0_chk3 v11), ∀ a x, ((![v11] : Fin 1 → IVec S16 32) a x).toNat < S128.size a := fun v11 k0_hw3 => k0_hw3.2.2.2.2.2.2.2.2.2.2.2.2.2.2.2.2.2.2.2.2.2.2.2.2.2.2.2.2.2.2.2

def k0_chk4 (v47 : IVec S16 32) : Prop :=
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a) ∧
  (∀ a x, ((![v47] : Fin 1 → IVec S16 32) a x).toNat < S128.size a)
instance k0_chk4.dec : ∀ (v47 : IVec S16 32), Decidable (k0_chk4 v47) := fun v47 => decidable_of_iff' _ (Iff.of_eq (k0_chk4.eq_1 v47))
theorem k0_idx4_inb : ∀ (v47 : IVec S16 32) (k0_hw4 : k0_chk4 v47), ∀ a x, ((![v47] : Fin 1 → IVec S16 32) a x).toNat < S128.size a := fun v47 k0_hw4 => k0_hw4.1
theorem k0_idx20_inb : ∀ (v47 : IVec S16 32) (k0_hw4 : k0_chk4 v47), ∀ a x, ((![v47] : Fin 1 → IVec S16 32) a x).toNat < S128.size a := fun v47 k0_hw4 => k0_hw4.2.1
theorem k0_idx36_inb : ∀ (v47 : IVec S16 32) (k0_hw4 : k0_chk4 v47), ∀ a x, ((![v47] : Fin 1 → IVec S16 32) a x).toNat < S128.size a := fun v47 k0_hw4 => k0_hw4.2.2.1
theorem k0_idx52_inb : ∀ (v47 : IVec S16 32) (k0_hw4 : k0_chk4 v47), ∀ a x, ((![v47] : Fin 1 → IVec S16 32) a x).toNat < S128.size a := fun v47 k0_hw4 => k0_hw4.2.2.2.1
theorem k0_idx68_inb : ∀ (v47 : IVec S16 32) (k0_hw4 : k0_chk4 v47), ∀ a x, ((![v47] : Fin 1 → IVec S16 32) a x).toNat < S128.size a := fun v47 k0_hw4 => k0_hw4.2.2.2.2.1
theorem k0_idx84_inb : ∀ (v47 : IVec S16 32) (k0_hw4 : k0_chk4 v47), ∀ a x, ((![v47] : Fin 1 → IVec S16 32) a x).toNat < S128.size a := fun v47 k0_hw4 => k0_hw4.2.2.2.2.2.1
theorem k0_idx100_inb : ∀ (v47 : IVec S16 32) (k0_hw4 : k0_chk4 v47), ∀ a x, ((![v47] : Fin 1 → IVec S16 32) a x).toNat < S128.size a := fun v47 k0_hw4 => k0_hw4.2.2.2.2.2.2.1
theorem k0_idx116_inb : ∀ (v47 : IVec S16 32) (k0_hw4 : k0_chk4 v47), ∀ a x, ((![v47] : Fin 1 → IVec S16 32) a x).toNat < S128.size a := fun v47 k0_hw4 => k0_hw4.2.2.2.2.2.2.2.1
theorem k0_idx132_inb : ∀ (v47 : IVec S16 32) (k0_hw4 : k0_chk4 v47), ∀ a x, ((![v47] : Fin 1 → IVec S16 32) a x).toNat < S128.size a := fun v47 k0_hw4 => k0_hw4.2.2.2.2.2.2.2.2.1
theorem k0_idx148_inb : ∀ (v47 : IVec S16 32) (k0_hw4 : k0_chk4 v47), ∀ a x, ((![v47] : Fin 1 → IVec S16 32) a x).toNat < S128.size a := fun v47 k0_hw4 => k0_hw4.2.2.2.2.2.2.2.2.2.1
theorem k0_idx164_inb : ∀ (v47 : IVec S16 32) (k0_hw4 : k0_chk4 v47), ∀ a x, ((![v47] : Fin 1 → IVec S16 32) a x).toNat < S128.size a := fun v47 k0_hw4 => k0_hw4.2.2.2.2.2.2.2.2.2.2.1
theorem k0_idx180_inb : ∀ (v47 : IVec S16 32) (k0_hw4 : k0_chk4 v47), ∀ a x, ((![v47] : Fin 1 → IVec S16 32) a x).toNat < S128.size a := fun v47 k0_hw4 => k0_hw4.2.2.2.2.2.2.2.2.2.2.2.1
theorem k0_idx196_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.1
theorem k0_idx212_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.1
theorem k0_idx228_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.1
theorem k0_idx244_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.1
theorem k0_idx260_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.1
theorem k0_idx276_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.1
theorem k0_idx292_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.1
theorem k0_idx308_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.1
theorem k0_idx324_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.1
theorem k0_idx340_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.1
theorem k0_idx356_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.1
theorem k0_idx372_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.1
theorem k0_idx388_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.1
theorem k0_idx404_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.1
theorem k0_idx420_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.1
theorem k0_idx436_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.2.1
theorem k0_idx452_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.2.2.1
theorem k0_idx468_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.2.2.2.1
theorem k0_idx484_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.2.2.2.2.1
theorem k0_idx500_inb : ∀ (v47 : IVec S16 32) (k0_hw4 : k0_chk4 v47), ∀ a x, ((![v47] : Fin 1 → IVec S16 32) a x).toNat < S128.size a := fun v47 k0_hw4 => k0_hw4.2.2.2.2.2.2.2.2.2.2.2.2.2.2.2.2.2.2.2.2.2.2.2.2.2.2.2.2.2.2.2

def k0_chk5 (v15 : IVec S16 32) : Prop :=
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a) ∧
  (∀ a x, ((![v15] : Fin 1 → IVec S16 32) a x).toNat < S128.size a)
instance k0_chk5.dec : ∀ (v15 : IVec S16 32), Decidable (k0_chk5 v15) := fun v15 => decidable_of_iff' _ (Iff.of_eq (k0_chk5.eq_1 v15))
theorem k0_idx5_inb : ∀ (v15 : IVec S16 32) (k0_hw5 : k0_chk5 v15), ∀ a x, ((![v15] : Fin 1 → IVec S16 32) a x).toNat < S128.size a := fun v15 k0_hw5 => k0_hw5.1
theorem k0_idx21_inb : ∀ (v15 : IVec S16 32) (k0_hw5 : k0_chk5 v15), ∀ a x, ((![v15] : Fin 1 → IVec S16 32) a x).toNat < S128.size a := fun v15 k0_hw5 => k0_hw5.2.1
theorem k0_idx37_inb : ∀ (v15 : IVec S16 32) (k0_hw5 : k0_chk5 v15), ∀ a x, ((![v15] : Fin 1 → IVec S16 32) a x).toNat < S128.size a := fun v15 k0_hw5 => k0_hw5.2.2.1
theorem k0_idx53_inb : ∀ (v15 : IVec S16 32) (k0_hw5 : k0_chk5 v15), ∀ a x, ((![v15] : Fin 1 → IVec S16 32) a x).toNat < S128.size a := fun v15 k0_hw5 => k0_hw5.2.2.2.1
theorem k0_idx69_inb : ∀ (v15 : IVec S16 32) (k0_hw5 : k0_chk5 v15), ∀ a x, ((![v15] : Fin 1 → IVec S16 32) a x).toNat < S128.size a := fun v15 k0_hw5 => k0_hw5.2.2.2.2.1
theorem k0_idx85_inb : ∀ (v15 : IVec S16 32) (k0_hw5 : k0_chk5 v15), ∀ a x, ((![v15] : Fin 1 → IVec S16 32) a x).toNat < S128.size a := fun v15 k0_hw5 => k0_hw5.2.2.2.2.2.1
theorem k0_idx101_inb : ∀ (v15 : IVec S16 32) (k0_hw5 : k0_chk5 v15), ∀ a x, ((![v15] : Fin 1 → IVec S16 32) a x).toNat < S128.size a := fun v15 k0_hw5 => k0_hw5.2.2.2.2.2.2.1
theorem k0_idx117_inb : ∀ (v15 : IVec S16 32) (k0_hw5 : k0_chk5 v15), ∀ a x, ((![v15] : Fin 1 → IVec S16 32) a x).toNat < S128.size a := fun v15 k0_hw5 => k0_hw5.2.2.2.2.2.2.2.1
theorem k0_idx133_inb : ∀ (v15 : IVec S16 32) (k0_hw5 : k0_chk5 v15), ∀ a x, ((![v15] : Fin 1 → IVec S16 32) a x).toNat < S128.size a := fun v15 k0_hw5 => k0_hw5.2.2.2.2.2.2.2.2.1
theorem k0_idx149_inb : ∀ (v15 : IVec S16 32) (k0_hw5 : k0_chk5 v15), ∀ a x, ((![v15] : Fin 1 → IVec S16 32) a x).toNat < S128.size a := fun v15 k0_hw5 => k0_hw5.2.2.2.2.2.2.2.2.2.1
theorem k0_idx165_inb : ∀ (v15 : IVec S16 32) (k0_hw5 : k0_chk5 v15), ∀ a x, ((![v15] : Fin 1 → IVec S16 32) a x).toNat < S128.size a := fun v15 k0_hw5 => k0_hw5.2.2.2.2.2.2.2.2.2.2.1
theorem k0_idx181_inb : ∀ (v15 : IVec S16 32) (k0_hw5 : k0_chk5 v15), ∀ a x, ((![v15] : Fin 1 → IVec S16 32) a x).toNat < S128.size a := fun v15 k0_hw5 => k0_hw5.2.2.2.2.2.2.2.2.2.2.2.1
theorem k0_idx197_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.1
theorem k0_idx213_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.1
theorem k0_idx229_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.1
theorem k0_idx245_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.1
theorem k0_idx261_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.1
theorem k0_idx277_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.1
theorem k0_idx293_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.1
theorem k0_idx309_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.1
theorem k0_idx325_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.1
theorem k0_idx341_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.1
theorem k0_idx357_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.1
theorem k0_idx373_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.1
theorem k0_idx389_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.1
theorem k0_idx405_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.1
theorem k0_idx421_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.1
theorem k0_idx437_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.2.1
theorem k0_idx453_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.2.2.1
theorem k0_idx469_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.2.2.2.1
theorem k0_idx485_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.2.2.2.2.1
theorem k0_idx501_inb : ∀ (v15 : IVec S16 32) (k0_hw5 : k0_chk5 v15), ∀ a x, ((![v15] : Fin 1 → IVec S16 32) a x).toNat < S128.size a := fun v15 k0_hw5 => k0_hw5.2.2.2.2.2.2.2.2.2.2.2.2.2.2.2.2.2.2.2.2.2.2.2.2.2.2.2.2.2.2.2

def k0_chk6 (v53 : IVec S16 32) : Prop :=
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a) ∧
  (∀ a x, ((![v53] : Fin 1 → IVec S16 32) a x).toNat < S128.size a)
instance k0_chk6.dec : ∀ (v53 : IVec S16 32), Decidable (k0_chk6 v53) := fun v53 => decidable_of_iff' _ (Iff.of_eq (k0_chk6.eq_1 v53))
theorem k0_idx6_inb : ∀ (v53 : IVec S16 32) (k0_hw6 : k0_chk6 v53), ∀ a x, ((![v53] : Fin 1 → IVec S16 32) a x).toNat < S128.size a := fun v53 k0_hw6 => k0_hw6.1
theorem k0_idx22_inb : ∀ (v53 : IVec S16 32) (k0_hw6 : k0_chk6 v53), ∀ a x, ((![v53] : Fin 1 → IVec S16 32) a x).toNat < S128.size a := fun v53 k0_hw6 => k0_hw6.2.1
theorem k0_idx38_inb : ∀ (v53 : IVec S16 32) (k0_hw6 : k0_chk6 v53), ∀ a x, ((![v53] : Fin 1 → IVec S16 32) a x).toNat < S128.size a := fun v53 k0_hw6 => k0_hw6.2.2.1
theorem k0_idx54_inb : ∀ (v53 : IVec S16 32) (k0_hw6 : k0_chk6 v53), ∀ a x, ((![v53] : Fin 1 → IVec S16 32) a x).toNat < S128.size a := fun v53 k0_hw6 => k0_hw6.2.2.2.1
theorem k0_idx70_inb : ∀ (v53 : IVec S16 32) (k0_hw6 : k0_chk6 v53), ∀ a x, ((![v53] : Fin 1 → IVec S16 32) a x).toNat < S128.size a := fun v53 k0_hw6 => k0_hw6.2.2.2.2.1
theorem k0_idx86_inb : ∀ (v53 : IVec S16 32) (k0_hw6 : k0_chk6 v53), ∀ a x, ((![v53] : Fin 1 → IVec S16 32) a x).toNat < S128.size a := fun v53 k0_hw6 => k0_hw6.2.2.2.2.2.1
theorem k0_idx102_inb : ∀ (v53 : IVec S16 32) (k0_hw6 : k0_chk6 v53), ∀ a x, ((![v53] : Fin 1 → IVec S16 32) a x).toNat < S128.size a := fun v53 k0_hw6 => k0_hw6.2.2.2.2.2.2.1
theorem k0_idx118_inb : ∀ (v53 : IVec S16 32) (k0_hw6 : k0_chk6 v53), ∀ a x, ((![v53] : Fin 1 → IVec S16 32) a x).toNat < S128.size a := fun v53 k0_hw6 => k0_hw6.2.2.2.2.2.2.2.1
theorem k0_idx134_inb : ∀ (v53 : IVec S16 32) (k0_hw6 : k0_chk6 v53), ∀ a x, ((![v53] : Fin 1 → IVec S16 32) a x).toNat < S128.size a := fun v53 k0_hw6 => k0_hw6.2.2.2.2.2.2.2.2.1
theorem k0_idx150_inb : ∀ (v53 : IVec S16 32) (k0_hw6 : k0_chk6 v53), ∀ a x, ((![v53] : Fin 1 → IVec S16 32) a x).toNat < S128.size a := fun v53 k0_hw6 => k0_hw6.2.2.2.2.2.2.2.2.2.1
theorem k0_idx166_inb : ∀ (v53 : IVec S16 32) (k0_hw6 : k0_chk6 v53), ∀ a x, ((![v53] : Fin 1 → IVec S16 32) a x).toNat < S128.size a := fun v53 k0_hw6 => k0_hw6.2.2.2.2.2.2.2.2.2.2.1
theorem k0_idx182_inb : ∀ (v53 : IVec S16 32) (k0_hw6 : k0_chk6 v53), ∀ a x, ((![v53] : Fin 1 → IVec S16 32) a x).toNat < S128.size a := fun v53 k0_hw6 => k0_hw6.2.2.2.2.2.2.2.2.2.2.2.1
theorem k0_idx198_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.1
theorem k0_idx214_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.1
theorem k0_idx230_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.1
theorem k0_idx246_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.1
theorem k0_idx262_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.1
theorem k0_idx278_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.1
theorem k0_idx294_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.1
theorem k0_idx310_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.1
theorem k0_idx326_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.1
theorem k0_idx342_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.1
theorem k0_idx358_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.1
theorem k0_idx374_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.1
theorem k0_idx390_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.1
theorem k0_idx406_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.1
theorem k0_idx422_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.1
theorem k0_idx438_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.2.1
theorem k0_idx454_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.2.2.1
theorem k0_idx470_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.2.2.2.1
theorem k0_idx486_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.2.2.2.2.1
theorem k0_idx502_inb : ∀ (v53 : IVec S16 32) (k0_hw6 : k0_chk6 v53), ∀ a x, ((![v53] : Fin 1 → IVec S16 32) a x).toNat < S128.size a := fun v53 k0_hw6 => k0_hw6.2.2.2.2.2.2.2.2.2.2.2.2.2.2.2.2.2.2.2.2.2.2.2.2.2.2.2.2.2.2.2

def k0_chk7 (v19 : IVec S16 32) : Prop :=
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a) ∧
  (∀ a x, ((![v19] : Fin 1 → IVec S16 32) a x).toNat < S128.size a)
instance k0_chk7.dec : ∀ (v19 : IVec S16 32), Decidable (k0_chk7 v19) := fun v19 => decidable_of_iff' _ (Iff.of_eq (k0_chk7.eq_1 v19))
theorem k0_idx7_inb : ∀ (v19 : IVec S16 32) (k0_hw7 : k0_chk7 v19), ∀ a x, ((![v19] : Fin 1 → IVec S16 32) a x).toNat < S128.size a := fun v19 k0_hw7 => k0_hw7.1
theorem k0_idx23_inb : ∀ (v19 : IVec S16 32) (k0_hw7 : k0_chk7 v19), ∀ a x, ((![v19] : Fin 1 → IVec S16 32) a x).toNat < S128.size a := fun v19 k0_hw7 => k0_hw7.2.1
theorem k0_idx39_inb : ∀ (v19 : IVec S16 32) (k0_hw7 : k0_chk7 v19), ∀ a x, ((![v19] : Fin 1 → IVec S16 32) a x).toNat < S128.size a := fun v19 k0_hw7 => k0_hw7.2.2.1
theorem k0_idx55_inb : ∀ (v19 : IVec S16 32) (k0_hw7 : k0_chk7 v19), ∀ a x, ((![v19] : Fin 1 → IVec S16 32) a x).toNat < S128.size a := fun v19 k0_hw7 => k0_hw7.2.2.2.1
theorem k0_idx71_inb : ∀ (v19 : IVec S16 32) (k0_hw7 : k0_chk7 v19), ∀ a x, ((![v19] : Fin 1 → IVec S16 32) a x).toNat < S128.size a := fun v19 k0_hw7 => k0_hw7.2.2.2.2.1
theorem k0_idx87_inb : ∀ (v19 : IVec S16 32) (k0_hw7 : k0_chk7 v19), ∀ a x, ((![v19] : Fin 1 → IVec S16 32) a x).toNat < S128.size a := fun v19 k0_hw7 => k0_hw7.2.2.2.2.2.1
theorem k0_idx103_inb : ∀ (v19 : IVec S16 32) (k0_hw7 : k0_chk7 v19), ∀ a x, ((![v19] : Fin 1 → IVec S16 32) a x).toNat < S128.size a := fun v19 k0_hw7 => k0_hw7.2.2.2.2.2.2.1
theorem k0_idx119_inb : ∀ (v19 : IVec S16 32) (k0_hw7 : k0_chk7 v19), ∀ a x, ((![v19] : Fin 1 → IVec S16 32) a x).toNat < S128.size a := fun v19 k0_hw7 => k0_hw7.2.2.2.2.2.2.2.1
theorem k0_idx135_inb : ∀ (v19 : IVec S16 32) (k0_hw7 : k0_chk7 v19), ∀ a x, ((![v19] : Fin 1 → IVec S16 32) a x).toNat < S128.size a := fun v19 k0_hw7 => k0_hw7.2.2.2.2.2.2.2.2.1
theorem k0_idx151_inb : ∀ (v19 : IVec S16 32) (k0_hw7 : k0_chk7 v19), ∀ a x, ((![v19] : Fin 1 → IVec S16 32) a x).toNat < S128.size a := fun v19 k0_hw7 => k0_hw7.2.2.2.2.2.2.2.2.2.1
theorem k0_idx167_inb : ∀ (v19 : IVec S16 32) (k0_hw7 : k0_chk7 v19), ∀ a x, ((![v19] : Fin 1 → IVec S16 32) a x).toNat < S128.size a := fun v19 k0_hw7 => k0_hw7.2.2.2.2.2.2.2.2.2.2.1
theorem k0_idx183_inb : ∀ (v19 : IVec S16 32) (k0_hw7 : k0_chk7 v19), ∀ a x, ((![v19] : Fin 1 → IVec S16 32) a x).toNat < S128.size a := fun v19 k0_hw7 => k0_hw7.2.2.2.2.2.2.2.2.2.2.2.1
theorem k0_idx199_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.1
theorem k0_idx215_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.1
theorem k0_idx231_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.1
theorem k0_idx247_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.1
theorem k0_idx263_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.1
theorem k0_idx279_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.1
theorem k0_idx295_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.1
theorem k0_idx311_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.1
theorem k0_idx327_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.1
theorem k0_idx343_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.1
theorem k0_idx359_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.1
theorem k0_idx375_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.1
theorem k0_idx391_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.1
theorem k0_idx407_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.1
theorem k0_idx423_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.1
theorem k0_idx439_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.2.1
theorem k0_idx455_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.2.2.1
theorem k0_idx471_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.2.2.2.1
theorem k0_idx487_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.2.2.2.2.1
theorem k0_idx503_inb : ∀ (v19 : IVec S16 32) (k0_hw7 : k0_chk7 v19), ∀ a x, ((![v19] : Fin 1 → IVec S16 32) a x).toNat < S128.size a := fun v19 k0_hw7 => k0_hw7.2.2.2.2.2.2.2.2.2.2.2.2.2.2.2.2.2.2.2.2.2.2.2.2.2.2.2.2.2.2.2

def k0_chk8 (v59 : IVec S16 32) : Prop :=
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a) ∧
  (∀ a x, ((![v59] : Fin 1 → IVec S16 32) a x).toNat < S128.size a)
instance k0_chk8.dec : ∀ (v59 : IVec S16 32), Decidable (k0_chk8 v59) := fun v59 => decidable_of_iff' _ (Iff.of_eq (k0_chk8.eq_1 v59))
theorem k0_idx8_inb : ∀ (v59 : IVec S16 32) (k0_hw8 : k0_chk8 v59), ∀ a x, ((![v59] : Fin 1 → IVec S16 32) a x).toNat < S128.size a := fun v59 k0_hw8 => k0_hw8.1
theorem k0_idx24_inb : ∀ (v59 : IVec S16 32) (k0_hw8 : k0_chk8 v59), ∀ a x, ((![v59] : Fin 1 → IVec S16 32) a x).toNat < S128.size a := fun v59 k0_hw8 => k0_hw8.2.1
theorem k0_idx40_inb : ∀ (v59 : IVec S16 32) (k0_hw8 : k0_chk8 v59), ∀ a x, ((![v59] : Fin 1 → IVec S16 32) a x).toNat < S128.size a := fun v59 k0_hw8 => k0_hw8.2.2.1
theorem k0_idx56_inb : ∀ (v59 : IVec S16 32) (k0_hw8 : k0_chk8 v59), ∀ a x, ((![v59] : Fin 1 → IVec S16 32) a x).toNat < S128.size a := fun v59 k0_hw8 => k0_hw8.2.2.2.1
theorem k0_idx72_inb : ∀ (v59 : IVec S16 32) (k0_hw8 : k0_chk8 v59), ∀ a x, ((![v59] : Fin 1 → IVec S16 32) a x).toNat < S128.size a := fun v59 k0_hw8 => k0_hw8.2.2.2.2.1
theorem k0_idx88_inb : ∀ (v59 : IVec S16 32) (k0_hw8 : k0_chk8 v59), ∀ a x, ((![v59] : Fin 1 → IVec S16 32) a x).toNat < S128.size a := fun v59 k0_hw8 => k0_hw8.2.2.2.2.2.1
theorem k0_idx104_inb : ∀ (v59 : IVec S16 32) (k0_hw8 : k0_chk8 v59), ∀ a x, ((![v59] : Fin 1 → IVec S16 32) a x).toNat < S128.size a := fun v59 k0_hw8 => k0_hw8.2.2.2.2.2.2.1
theorem k0_idx120_inb : ∀ (v59 : IVec S16 32) (k0_hw8 : k0_chk8 v59), ∀ a x, ((![v59] : Fin 1 → IVec S16 32) a x).toNat < S128.size a := fun v59 k0_hw8 => k0_hw8.2.2.2.2.2.2.2.1
theorem k0_idx136_inb : ∀ (v59 : IVec S16 32) (k0_hw8 : k0_chk8 v59), ∀ a x, ((![v59] : Fin 1 → IVec S16 32) a x).toNat < S128.size a := fun v59 k0_hw8 => k0_hw8.2.2.2.2.2.2.2.2.1
theorem k0_idx152_inb : ∀ (v59 : IVec S16 32) (k0_hw8 : k0_chk8 v59), ∀ a x, ((![v59] : Fin 1 → IVec S16 32) a x).toNat < S128.size a := fun v59 k0_hw8 => k0_hw8.2.2.2.2.2.2.2.2.2.1
theorem k0_idx168_inb : ∀ (v59 : IVec S16 32) (k0_hw8 : k0_chk8 v59), ∀ a x, ((![v59] : Fin 1 → IVec S16 32) a x).toNat < S128.size a := fun v59 k0_hw8 => k0_hw8.2.2.2.2.2.2.2.2.2.2.1
theorem k0_idx184_inb : ∀ (v59 : IVec S16 32) (k0_hw8 : k0_chk8 v59), ∀ a x, ((![v59] : Fin 1 → IVec S16 32) a x).toNat < S128.size a := fun v59 k0_hw8 => k0_hw8.2.2.2.2.2.2.2.2.2.2.2.1
theorem k0_idx200_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.1
theorem k0_idx216_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.1
theorem k0_idx232_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.1
theorem k0_idx248_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.1
theorem k0_idx264_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.1
theorem k0_idx280_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.1
theorem k0_idx296_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.1
theorem k0_idx312_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.1
theorem k0_idx328_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.1
theorem k0_idx344_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.1
theorem k0_idx360_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.1
theorem k0_idx376_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.1
theorem k0_idx392_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.1
theorem k0_idx408_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.1
theorem k0_idx424_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.1
theorem k0_idx440_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.2.1
theorem k0_idx456_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.2.2.1
theorem k0_idx472_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.2.2.2.1
theorem k0_idx488_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.2.2.2.2.1
theorem k0_idx504_inb : ∀ (v59 : IVec S16 32) (k0_hw8 : k0_chk8 v59), ∀ a x, ((![v59] : Fin 1 → IVec S16 32) a x).toNat < S128.size a := fun v59 k0_hw8 => k0_hw8.2.2.2.2.2.2.2.2.2.2.2.2.2.2.2.2.2.2.2.2.2.2.2.2.2.2.2.2.2.2.2
def k0_off116 (k0_t32 : Fin k0_t32_loop.trips) : Fin 2 → Nat :=
  let c0_i32_490 : BitVec 32 := 0#32
  let c1_i32_492 : BitVec 32 := 1#32
  let arg12 : BitVec 32 := Scf.iv c0_i32_490 c1_i32_492 k0_t32
  let c7_i32 : BitVec 32 := 7#32
  let v469 : BitVec 32 := Scalar.andi arg12 c7_i32
  let c2_i32_502 : BitVec 32 := 2#32
  let c3_i32 : BitVec 32 := 3#32
  let v468 : BitVec 32 := Scalar.shrsi arg12 c3_i32
  let v472 : BitVec 32 := Scalar.muli c2_i32_502 v468
  let c128_i32_503 : BitVec 32 := 128#32
  let v473 : BitVec 32 := Scalar.muli v472 c128_i32_503
  let v474 : BitVec 32 := v473
  let c128_i32_504 : BitVec 32 := 128#32
  let v475 : BitVec 32 := Scalar.addi v474 c128_i32_504
  ![v469.toNat, v475.toNat]

def k0_chk9 (v23 : IVec S16 32) : Prop :=
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a) ∧
  (∀ a x, ((![v23] : Fin 1 → IVec S16 32) a x).toNat < S128.size a)
instance k0_chk9.dec : ∀ (v23 : IVec S16 32), Decidable (k0_chk9 v23) := fun v23 => decidable_of_iff' _ (Iff.of_eq (k0_chk9.eq_1 v23))
theorem k0_idx9_inb : ∀ (v23 : IVec S16 32) (k0_hw9 : k0_chk9 v23), ∀ a x, ((![v23] : Fin 1 → IVec S16 32) a x).toNat < S128.size a := fun v23 k0_hw9 => k0_hw9.1
theorem k0_idx25_inb : ∀ (v23 : IVec S16 32) (k0_hw9 : k0_chk9 v23), ∀ a x, ((![v23] : Fin 1 → IVec S16 32) a x).toNat < S128.size a := fun v23 k0_hw9 => k0_hw9.2.1
theorem k0_idx41_inb : ∀ (v23 : IVec S16 32) (k0_hw9 : k0_chk9 v23), ∀ a x, ((![v23] : Fin 1 → IVec S16 32) a x).toNat < S128.size a := fun v23 k0_hw9 => k0_hw9.2.2.1
theorem k0_idx57_inb : ∀ (v23 : IVec S16 32) (k0_hw9 : k0_chk9 v23), ∀ a x, ((![v23] : Fin 1 → IVec S16 32) a x).toNat < S128.size a := fun v23 k0_hw9 => k0_hw9.2.2.2.1
theorem k0_idx73_inb : ∀ (v23 : IVec S16 32) (k0_hw9 : k0_chk9 v23), ∀ a x, ((![v23] : Fin 1 → IVec S16 32) a x).toNat < S128.size a := fun v23 k0_hw9 => k0_hw9.2.2.2.2.1
theorem k0_idx89_inb : ∀ (v23 : IVec S16 32) (k0_hw9 : k0_chk9 v23), ∀ a x, ((![v23] : Fin 1 → IVec S16 32) a x).toNat < S128.size a := fun v23 k0_hw9 => k0_hw9.2.2.2.2.2.1
theorem k0_idx105_inb : ∀ (v23 : IVec S16 32) (k0_hw9 : k0_chk9 v23), ∀ a x, ((![v23] : Fin 1 → IVec S16 32) a x).toNat < S128.size a := fun v23 k0_hw9 => k0_hw9.2.2.2.2.2.2.1
theorem k0_idx121_inb : ∀ (v23 : IVec S16 32) (k0_hw9 : k0_chk9 v23), ∀ a x, ((![v23] : Fin 1 → IVec S16 32) a x).toNat < S128.size a := fun v23 k0_hw9 => k0_hw9.2.2.2.2.2.2.2.1
theorem k0_idx137_inb : ∀ (v23 : IVec S16 32) (k0_hw9 : k0_chk9 v23), ∀ a x, ((![v23] : Fin 1 → IVec S16 32) a x).toNat < S128.size a := fun v23 k0_hw9 => k0_hw9.2.2.2.2.2.2.2.2.1
theorem k0_idx153_inb : ∀ (v23 : IVec S16 32) (k0_hw9 : k0_chk9 v23), ∀ a x, ((![v23] : Fin 1 → IVec S16 32) a x).toNat < S128.size a := fun v23 k0_hw9 => k0_hw9.2.2.2.2.2.2.2.2.2.1
theorem k0_idx169_inb : ∀ (v23 : IVec S16 32) (k0_hw9 : k0_chk9 v23), ∀ a x, ((![v23] : Fin 1 → IVec S16 32) a x).toNat < S128.size a := fun v23 k0_hw9 => k0_hw9.2.2.2.2.2.2.2.2.2.2.1
theorem k0_idx185_inb : ∀ (v23 : IVec S16 32) (k0_hw9 : k0_chk9 v23), ∀ a x, ((![v23] : Fin 1 → IVec S16 32) a x).toNat < S128.size a := fun v23 k0_hw9 => k0_hw9.2.2.2.2.2.2.2.2.2.2.2.1
theorem k0_idx201_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.1
theorem k0_idx217_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.1
theorem k0_idx233_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.1
theorem k0_idx249_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.1
theorem k0_idx265_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.1
theorem k0_idx281_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.1
theorem k0_idx297_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.1
theorem k0_idx313_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.1
theorem k0_idx329_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.1
theorem k0_idx345_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.1
theorem k0_idx361_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.1
theorem k0_idx377_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.1
theorem k0_idx393_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.1
theorem k0_idx409_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.1
theorem k0_idx425_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.1
theorem k0_idx441_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.2.1
theorem k0_idx457_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.2.2.1
theorem k0_idx473_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.2.2.2.1
theorem k0_idx489_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.2.2.2.2.1
theorem k0_idx505_inb : ∀ (v23 : IVec S16 32) (k0_hw9 : k0_chk9 v23), ∀ a x, ((![v23] : Fin 1 → IVec S16 32) a x).toNat < S128.size a := fun v23 k0_hw9 => k0_hw9.2.2.2.2.2.2.2.2.2.2.2.2.2.2.2.2.2.2.2.2.2.2.2.2.2.2.2.2.2.2.2

def k0_chk10 (v65 : IVec S16 32) : Prop :=
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a) ∧
  (∀ a x, ((![v65] : Fin 1 → IVec S16 32) a x).toNat < S128.size a)
instance k0_chk10.dec : ∀ (v65 : IVec S16 32), Decidable (k0_chk10 v65) := fun v65 => decidable_of_iff' _ (Iff.of_eq (k0_chk10.eq_1 v65))
theorem k0_idx10_inb : ∀ (v65 : IVec S16 32) (k0_hw10 : k0_chk10 v65), ∀ a x, ((![v65] : Fin 1 → IVec S16 32) a x).toNat < S128.size a := fun v65 k0_hw10 => k0_hw10.1
theorem k0_idx26_inb : ∀ (v65 : IVec S16 32) (k0_hw10 : k0_chk10 v65), ∀ a x, ((![v65] : Fin 1 → IVec S16 32) a x).toNat < S128.size a := fun v65 k0_hw10 => k0_hw10.2.1
theorem k0_idx42_inb : ∀ (v65 : IVec S16 32) (k0_hw10 : k0_chk10 v65), ∀ a x, ((![v65] : Fin 1 → IVec S16 32) a x).toNat < S128.size a := fun v65 k0_hw10 => k0_hw10.2.2.1
theorem k0_idx58_inb : ∀ (v65 : IVec S16 32) (k0_hw10 : k0_chk10 v65), ∀ a x, ((![v65] : Fin 1 → IVec S16 32) a x).toNat < S128.size a := fun v65 k0_hw10 => k0_hw10.2.2.2.1
theorem k0_idx74_inb : ∀ (v65 : IVec S16 32) (k0_hw10 : k0_chk10 v65), ∀ a x, ((![v65] : Fin 1 → IVec S16 32) a x).toNat < S128.size a := fun v65 k0_hw10 => k0_hw10.2.2.2.2.1
theorem k0_idx90_inb : ∀ (v65 : IVec S16 32) (k0_hw10 : k0_chk10 v65), ∀ a x, ((![v65] : Fin 1 → IVec S16 32) a x).toNat < S128.size a := fun v65 k0_hw10 => k0_hw10.2.2.2.2.2.1
theorem k0_idx106_inb : ∀ (v65 : IVec S16 32) (k0_hw10 : k0_chk10 v65), ∀ a x, ((![v65] : Fin 1 → IVec S16 32) a x).toNat < S128.size a := fun v65 k0_hw10 => k0_hw10.2.2.2.2.2.2.1
theorem k0_idx122_inb : ∀ (v65 : IVec S16 32) (k0_hw10 : k0_chk10 v65), ∀ a x, ((![v65] : Fin 1 → IVec S16 32) a x).toNat < S128.size a := fun v65 k0_hw10 => k0_hw10.2.2.2.2.2.2.2.1
theorem k0_idx138_inb : ∀ (v65 : IVec S16 32) (k0_hw10 : k0_chk10 v65), ∀ a x, ((![v65] : Fin 1 → IVec S16 32) a x).toNat < S128.size a := fun v65 k0_hw10 => k0_hw10.2.2.2.2.2.2.2.2.1
theorem k0_idx154_inb : ∀ (v65 : IVec S16 32) (k0_hw10 : k0_chk10 v65), ∀ a x, ((![v65] : Fin 1 → IVec S16 32) a x).toNat < S128.size a := fun v65 k0_hw10 => k0_hw10.2.2.2.2.2.2.2.2.2.1
theorem k0_idx170_inb : ∀ (v65 : IVec S16 32) (k0_hw10 : k0_chk10 v65), ∀ a x, ((![v65] : Fin 1 → IVec S16 32) a x).toNat < S128.size a := fun v65 k0_hw10 => k0_hw10.2.2.2.2.2.2.2.2.2.2.1
theorem k0_idx186_inb : ∀ (v65 : IVec S16 32) (k0_hw10 : k0_chk10 v65), ∀ a x, ((![v65] : Fin 1 → IVec S16 32) a x).toNat < S128.size a := fun v65 k0_hw10 => k0_hw10.2.2.2.2.2.2.2.2.2.2.2.1
theorem k0_idx202_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.1
theorem k0_idx218_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.1
theorem k0_idx234_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.1
theorem k0_idx250_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.1
theorem k0_idx266_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.1
theorem k0_idx282_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.1
theorem k0_idx298_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.1
theorem k0_idx314_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.1
theorem k0_idx330_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.1
theorem k0_idx346_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.1
theorem k0_idx362_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.1
theorem k0_idx378_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.1
theorem k0_idx394_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.1
theorem k0_idx410_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.1
theorem k0_idx426_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.1
theorem k0_idx442_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.2.1
theorem k0_idx458_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.2.2.1
theorem k0_idx474_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.2.2.2.1
theorem k0_idx490_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.2.2.2.2.1
theorem k0_idx506_inb : ∀ (v65 : IVec S16 32) (k0_hw10 : k0_chk10 v65), ∀ a x, ((![v65] : Fin 1 → IVec S16 32) a x).toNat < S128.size a := fun v65 k0_hw10 => k0_hw10.2.2.2.2.2.2.2.2.2.2.2.2.2.2.2.2.2.2.2.2.2.2.2.2.2.2.2.2.2.2.2

def k0_chk11 (v27 : IVec S16 32) : Prop :=
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a) ∧
  (∀ a x, ((![v27] : Fin 1 → IVec S16 32) a x).toNat < S128.size a)
instance k0_chk11.dec : ∀ (v27 : IVec S16 32), Decidable (k0_chk11 v27) := fun v27 => decidable_of_iff' _ (Iff.of_eq (k0_chk11.eq_1 v27))
theorem k0_idx11_inb : ∀ (v27 : IVec S16 32) (k0_hw11 : k0_chk11 v27), ∀ a x, ((![v27] : Fin 1 → IVec S16 32) a x).toNat < S128.size a := fun v27 k0_hw11 => k0_hw11.1
theorem k0_idx27_inb : ∀ (v27 : IVec S16 32) (k0_hw11 : k0_chk11 v27), ∀ a x, ((![v27] : Fin 1 → IVec S16 32) a x).toNat < S128.size a := fun v27 k0_hw11 => k0_hw11.2.1
theorem k0_idx43_inb : ∀ (v27 : IVec S16 32) (k0_hw11 : k0_chk11 v27), ∀ a x, ((![v27] : Fin 1 → IVec S16 32) a x).toNat < S128.size a := fun v27 k0_hw11 => k0_hw11.2.2.1
theorem k0_idx59_inb : ∀ (v27 : IVec S16 32) (k0_hw11 : k0_chk11 v27), ∀ a x, ((![v27] : Fin 1 → IVec S16 32) a x).toNat < S128.size a := fun v27 k0_hw11 => k0_hw11.2.2.2.1
theorem k0_idx75_inb : ∀ (v27 : IVec S16 32) (k0_hw11 : k0_chk11 v27), ∀ a x, ((![v27] : Fin 1 → IVec S16 32) a x).toNat < S128.size a := fun v27 k0_hw11 => k0_hw11.2.2.2.2.1
theorem k0_idx91_inb : ∀ (v27 : IVec S16 32) (k0_hw11 : k0_chk11 v27), ∀ a x, ((![v27] : Fin 1 → IVec S16 32) a x).toNat < S128.size a := fun v27 k0_hw11 => k0_hw11.2.2.2.2.2.1
theorem k0_idx107_inb : ∀ (v27 : IVec S16 32) (k0_hw11 : k0_chk11 v27), ∀ a x, ((![v27] : Fin 1 → IVec S16 32) a x).toNat < S128.size a := fun v27 k0_hw11 => k0_hw11.2.2.2.2.2.2.1
theorem k0_idx123_inb : ∀ (v27 : IVec S16 32) (k0_hw11 : k0_chk11 v27), ∀ a x, ((![v27] : Fin 1 → IVec S16 32) a x).toNat < S128.size a := fun v27 k0_hw11 => k0_hw11.2.2.2.2.2.2.2.1
theorem k0_idx139_inb : ∀ (v27 : IVec S16 32) (k0_hw11 : k0_chk11 v27), ∀ a x, ((![v27] : Fin 1 → IVec S16 32) a x).toNat < S128.size a := fun v27 k0_hw11 => k0_hw11.2.2.2.2.2.2.2.2.1
theorem k0_idx155_inb : ∀ (v27 : IVec S16 32) (k0_hw11 : k0_chk11 v27), ∀ a x, ((![v27] : Fin 1 → IVec S16 32) a x).toNat < S128.size a := fun v27 k0_hw11 => k0_hw11.2.2.2.2.2.2.2.2.2.1
theorem k0_idx171_inb : ∀ (v27 : IVec S16 32) (k0_hw11 : k0_chk11 v27), ∀ a x, ((![v27] : Fin 1 → IVec S16 32) a x).toNat < S128.size a := fun v27 k0_hw11 => k0_hw11.2.2.2.2.2.2.2.2.2.2.1
theorem k0_idx187_inb : ∀ (v27 : IVec S16 32) (k0_hw11 : k0_chk11 v27), ∀ a x, ((![v27] : Fin 1 → IVec S16 32) a x).toNat < S128.size a := fun v27 k0_hw11 => k0_hw11.2.2.2.2.2.2.2.2.2.2.2.1
theorem k0_idx203_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.1
theorem k0_idx219_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.1
theorem k0_idx235_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.1
theorem k0_idx251_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.1
theorem k0_idx267_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.1
theorem k0_idx283_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.1
theorem k0_idx299_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.1
theorem k0_idx315_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.1
theorem k0_idx331_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.1
theorem k0_idx347_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.1
theorem k0_idx363_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.1
theorem k0_idx379_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.1
theorem k0_idx395_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.1
theorem k0_idx411_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.1
theorem k0_idx427_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.1
theorem k0_idx443_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.2.1
theorem k0_idx459_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.2.2.1
theorem k0_idx475_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.2.2.2.1
theorem k0_idx491_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.2.2.2.2.1
theorem k0_idx507_inb : ∀ (v27 : IVec S16 32) (k0_hw11 : k0_chk11 v27), ∀ a x, ((![v27] : Fin 1 → IVec S16 32) a x).toNat < S128.size a := fun v27 k0_hw11 => k0_hw11.2.2.2.2.2.2.2.2.2.2.2.2.2.2.2.2.2.2.2.2.2.2.2.2.2.2.2.2.2.2.2

def k0_chk12 (v71 : IVec S16 32) : Prop :=
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a) ∧
  (∀ a x, ((![v71] : Fin 1 → IVec S16 32) a x).toNat < S128.size a)
instance k0_chk12.dec : ∀ (v71 : IVec S16 32), Decidable (k0_chk12 v71) := fun v71 => decidable_of_iff' _ (Iff.of_eq (k0_chk12.eq_1 v71))
theorem k0_idx12_inb : ∀ (v71 : IVec S16 32) (k0_hw12 : k0_chk12 v71), ∀ a x, ((![v71] : Fin 1 → IVec S16 32) a x).toNat < S128.size a := fun v71 k0_hw12 => k0_hw12.1
theorem k0_idx28_inb : ∀ (v71 : IVec S16 32) (k0_hw12 : k0_chk12 v71), ∀ a x, ((![v71] : Fin 1 → IVec S16 32) a x).toNat < S128.size a := fun v71 k0_hw12 => k0_hw12.2.1
theorem k0_idx44_inb : ∀ (v71 : IVec S16 32) (k0_hw12 : k0_chk12 v71), ∀ a x, ((![v71] : Fin 1 → IVec S16 32) a x).toNat < S128.size a := fun v71 k0_hw12 => k0_hw12.2.2.1
theorem k0_idx60_inb : ∀ (v71 : IVec S16 32) (k0_hw12 : k0_chk12 v71), ∀ a x, ((![v71] : Fin 1 → IVec S16 32) a x).toNat < S128.size a := fun v71 k0_hw12 => k0_hw12.2.2.2.1
theorem k0_idx76_inb : ∀ (v71 : IVec S16 32) (k0_hw12 : k0_chk12 v71), ∀ a x, ((![v71] : Fin 1 → IVec S16 32) a x).toNat < S128.size a := fun v71 k0_hw12 => k0_hw12.2.2.2.2.1
theorem k0_idx92_inb : ∀ (v71 : IVec S16 32) (k0_hw12 : k0_chk12 v71), ∀ a x, ((![v71] : Fin 1 → IVec S16 32) a x).toNat < S128.size a := fun v71 k0_hw12 => k0_hw12.2.2.2.2.2.1
theorem k0_idx108_inb : ∀ (v71 : IVec S16 32) (k0_hw12 : k0_chk12 v71), ∀ a x, ((![v71] : Fin 1 → IVec S16 32) a x).toNat < S128.size a := fun v71 k0_hw12 => k0_hw12.2.2.2.2.2.2.1
theorem k0_idx124_inb : ∀ (v71 : IVec S16 32) (k0_hw12 : k0_chk12 v71), ∀ a x, ((![v71] : Fin 1 → IVec S16 32) a x).toNat < S128.size a := fun v71 k0_hw12 => k0_hw12.2.2.2.2.2.2.2.1
theorem k0_idx140_inb : ∀ (v71 : IVec S16 32) (k0_hw12 : k0_chk12 v71), ∀ a x, ((![v71] : Fin 1 → IVec S16 32) a x).toNat < S128.size a := fun v71 k0_hw12 => k0_hw12.2.2.2.2.2.2.2.2.1
theorem k0_idx156_inb : ∀ (v71 : IVec S16 32) (k0_hw12 : k0_chk12 v71), ∀ a x, ((![v71] : Fin 1 → IVec S16 32) a x).toNat < S128.size a := fun v71 k0_hw12 => k0_hw12.2.2.2.2.2.2.2.2.2.1
theorem k0_idx172_inb : ∀ (v71 : IVec S16 32) (k0_hw12 : k0_chk12 v71), ∀ a x, ((![v71] : Fin 1 → IVec S16 32) a x).toNat < S128.size a := fun v71 k0_hw12 => k0_hw12.2.2.2.2.2.2.2.2.2.2.1
theorem k0_idx188_inb : ∀ (v71 : IVec S16 32) (k0_hw12 : k0_chk12 v71), ∀ a x, ((![v71] : Fin 1 → IVec S16 32) a x).toNat < S128.size a := fun v71 k0_hw12 => k0_hw12.2.2.2.2.2.2.2.2.2.2.2.1
theorem k0_idx204_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.1
theorem k0_idx220_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.1
theorem k0_idx236_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.1
theorem k0_idx252_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.1
theorem k0_idx268_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.1
theorem k0_idx284_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.1
theorem k0_idx300_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.1
theorem k0_idx316_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.1
theorem k0_idx332_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.1
theorem k0_idx348_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.1
theorem k0_idx364_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.1
theorem k0_idx380_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.1
theorem k0_idx396_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.1
theorem k0_idx412_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.1
theorem k0_idx428_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.1
theorem k0_idx444_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.2.1
theorem k0_idx460_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.2.2.1
theorem k0_idx476_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.2.2.2.1
theorem k0_idx492_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.2.2.2.2.1
theorem k0_idx508_inb : ∀ (v71 : IVec S16 32) (k0_hw12 : k0_chk12 v71), ∀ a x, ((![v71] : Fin 1 → IVec S16 32) a x).toNat < S128.size a := fun v71 k0_hw12 => k0_hw12.2.2.2.2.2.2.2.2.2.2.2.2.2.2.2.2.2.2.2.2.2.2.2.2.2.2.2.2.2.2.2

def k0_chk13 (v31 : IVec S16 32) : Prop :=
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a) ∧
  (∀ a x, ((![v31] : Fin 1 → IVec S16 32) a x).toNat < S128.size a)
instance k0_chk13.dec : ∀ (v31 : IVec S16 32), Decidable (k0_chk13 v31) := fun v31 => decidable_of_iff' _ (Iff.of_eq (k0_chk13.eq_1 v31))
theorem k0_idx13_inb : ∀ (v31 : IVec S16 32) (k0_hw13 : k0_chk13 v31), ∀ a x, ((![v31] : Fin 1 → IVec S16 32) a x).toNat < S128.size a := fun v31 k0_hw13 => k0_hw13.1
theorem k0_idx29_inb : ∀ (v31 : IVec S16 32) (k0_hw13 : k0_chk13 v31), ∀ a x, ((![v31] : Fin 1 → IVec S16 32) a x).toNat < S128.size a := fun v31 k0_hw13 => k0_hw13.2.1
theorem k0_idx45_inb : ∀ (v31 : IVec S16 32) (k0_hw13 : k0_chk13 v31), ∀ a x, ((![v31] : Fin 1 → IVec S16 32) a x).toNat < S128.size a := fun v31 k0_hw13 => k0_hw13.2.2.1
theorem k0_idx61_inb : ∀ (v31 : IVec S16 32) (k0_hw13 : k0_chk13 v31), ∀ a x, ((![v31] : Fin 1 → IVec S16 32) a x).toNat < S128.size a := fun v31 k0_hw13 => k0_hw13.2.2.2.1
theorem k0_idx77_inb : ∀ (v31 : IVec S16 32) (k0_hw13 : k0_chk13 v31), ∀ a x, ((![v31] : Fin 1 → IVec S16 32) a x).toNat < S128.size a := fun v31 k0_hw13 => k0_hw13.2.2.2.2.1
theorem k0_idx93_inb : ∀ (v31 : IVec S16 32) (k0_hw13 : k0_chk13 v31), ∀ a x, ((![v31] : Fin 1 → IVec S16 32) a x).toNat < S128.size a := fun v31 k0_hw13 => k0_hw13.2.2.2.2.2.1
theorem k0_idx109_inb : ∀ (v31 : IVec S16 32) (k0_hw13 : k0_chk13 v31), ∀ a x, ((![v31] : Fin 1 → IVec S16 32) a x).toNat < S128.size a := fun v31 k0_hw13 => k0_hw13.2.2.2.2.2.2.1
theorem k0_idx125_inb : ∀ (v31 : IVec S16 32) (k0_hw13 : k0_chk13 v31), ∀ a x, ((![v31] : Fin 1 → IVec S16 32) a x).toNat < S128.size a := fun v31 k0_hw13 => k0_hw13.2.2.2.2.2.2.2.1
theorem k0_idx141_inb : ∀ (v31 : IVec S16 32) (k0_hw13 : k0_chk13 v31), ∀ a x, ((![v31] : Fin 1 → IVec S16 32) a x).toNat < S128.size a := fun v31 k0_hw13 => k0_hw13.2.2.2.2.2.2.2.2.1
theorem k0_idx157_inb : ∀ (v31 : IVec S16 32) (k0_hw13 : k0_chk13 v31), ∀ a x, ((![v31] : Fin 1 → IVec S16 32) a x).toNat < S128.size a := fun v31 k0_hw13 => k0_hw13.2.2.2.2.2.2.2.2.2.1
theorem k0_idx173_inb : ∀ (v31 : IVec S16 32) (k0_hw13 : k0_chk13 v31), ∀ a x, ((![v31] : Fin 1 → IVec S16 32) a x).toNat < S128.size a := fun v31 k0_hw13 => k0_hw13.2.2.2.2.2.2.2.2.2.2.1
theorem k0_idx189_inb : ∀ (v31 : IVec S16 32) (k0_hw13 : k0_chk13 v31), ∀ a x, ((![v31] : Fin 1 → IVec S16 32) a x).toNat < S128.size a := fun v31 k0_hw13 => k0_hw13.2.2.2.2.2.2.2.2.2.2.2.1
theorem k0_idx205_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.1
theorem k0_idx221_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.1
theorem k0_idx237_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.1
theorem k0_idx253_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.1
theorem k0_idx269_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.1
theorem k0_idx285_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.1
theorem k0_idx301_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.1
theorem k0_idx317_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.1
theorem k0_idx333_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.1
theorem k0_idx349_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.1
theorem k0_idx365_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.1
theorem k0_idx381_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.1
theorem k0_idx397_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.1
theorem k0_idx413_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.1
theorem k0_idx429_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.1
theorem k0_idx445_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.2.1
theorem k0_idx461_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.2.2.1
theorem k0_idx477_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.2.2.2.1
theorem k0_idx493_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.2.2.2.2.1
theorem k0_idx509_inb : ∀ (v31 : IVec S16 32) (k0_hw13 : k0_chk13 v31), ∀ a x, ((![v31] : Fin 1 → IVec S16 32) a x).toNat < S128.size a := fun v31 k0_hw13 => k0_hw13.2.2.2.2.2.2.2.2.2.2.2.2.2.2.2.2.2.2.2.2.2.2.2.2.2.2.2.2.2.2.2

def k0_chk14 (v77 : IVec S16 32) : Prop :=
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a) ∧
  (∀ a x, ((![v77] : Fin 1 → IVec S16 32) a x).toNat < S128.size a)
instance k0_chk14.dec : ∀ (v77 : IVec S16 32), Decidable (k0_chk14 v77) := fun v77 => decidable_of_iff' _ (Iff.of_eq (k0_chk14.eq_1 v77))
theorem k0_idx14_inb : ∀ (v77 : IVec S16 32) (k0_hw14 : k0_chk14 v77), ∀ a x, ((![v77] : Fin 1 → IVec S16 32) a x).toNat < S128.size a := fun v77 k0_hw14 => k0_hw14.1
theorem k0_idx30_inb : ∀ (v77 : IVec S16 32) (k0_hw14 : k0_chk14 v77), ∀ a x, ((![v77] : Fin 1 → IVec S16 32) a x).toNat < S128.size a := fun v77 k0_hw14 => k0_hw14.2.1
theorem k0_idx46_inb : ∀ (v77 : IVec S16 32) (k0_hw14 : k0_chk14 v77), ∀ a x, ((![v77] : Fin 1 → IVec S16 32) a x).toNat < S128.size a := fun v77 k0_hw14 => k0_hw14.2.2.1
theorem k0_idx62_inb : ∀ (v77 : IVec S16 32) (k0_hw14 : k0_chk14 v77), ∀ a x, ((![v77] : Fin 1 → IVec S16 32) a x).toNat < S128.size a := fun v77 k0_hw14 => k0_hw14.2.2.2.1
theorem k0_idx78_inb : ∀ (v77 : IVec S16 32) (k0_hw14 : k0_chk14 v77), ∀ a x, ((![v77] : Fin 1 → IVec S16 32) a x).toNat < S128.size a := fun v77 k0_hw14 => k0_hw14.2.2.2.2.1
theorem k0_idx94_inb : ∀ (v77 : IVec S16 32) (k0_hw14 : k0_chk14 v77), ∀ a x, ((![v77] : Fin 1 → IVec S16 32) a x).toNat < S128.size a := fun v77 k0_hw14 => k0_hw14.2.2.2.2.2.1
theorem k0_idx110_inb : ∀ (v77 : IVec S16 32) (k0_hw14 : k0_chk14 v77), ∀ a x, ((![v77] : Fin 1 → IVec S16 32) a x).toNat < S128.size a := fun v77 k0_hw14 => k0_hw14.2.2.2.2.2.2.1
theorem k0_idx126_inb : ∀ (v77 : IVec S16 32) (k0_hw14 : k0_chk14 v77), ∀ a x, ((![v77] : Fin 1 → IVec S16 32) a x).toNat < S128.size a := fun v77 k0_hw14 => k0_hw14.2.2.2.2.2.2.2.1
theorem k0_idx142_inb : ∀ (v77 : IVec S16 32) (k0_hw14 : k0_chk14 v77), ∀ a x, ((![v77] : Fin 1 → IVec S16 32) a x).toNat < S128.size a := fun v77 k0_hw14 => k0_hw14.2.2.2.2.2.2.2.2.1
theorem k0_idx158_inb : ∀ (v77 : IVec S16 32) (k0_hw14 : k0_chk14 v77), ∀ a x, ((![v77] : Fin 1 → IVec S16 32) a x).toNat < S128.size a := fun v77 k0_hw14 => k0_hw14.2.2.2.2.2.2.2.2.2.1
theorem k0_idx174_inb : ∀ (v77 : IVec S16 32) (k0_hw14 : k0_chk14 v77), ∀ a x, ((![v77] : Fin 1 → IVec S16 32) a x).toNat < S128.size a := fun v77 k0_hw14 => k0_hw14.2.2.2.2.2.2.2.2.2.2.1
theorem k0_idx190_inb : ∀ (v77 : IVec S16 32) (k0_hw14 : k0_chk14 v77), ∀ a x, ((![v77] : Fin 1 → IVec S16 32) a x).toNat < S128.size a := fun v77 k0_hw14 => k0_hw14.2.2.2.2.2.2.2.2.2.2.2.1
theorem k0_idx206_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.1
theorem k0_idx222_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.1
theorem k0_idx238_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.1
theorem k0_idx254_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.1
theorem k0_idx270_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.1
theorem k0_idx286_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.1
theorem k0_idx302_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.1
theorem k0_idx318_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.1
theorem k0_idx334_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.1
theorem k0_idx350_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.1
theorem k0_idx366_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.1
theorem k0_idx382_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.1
theorem k0_idx398_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.1
theorem k0_idx414_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.1
theorem k0_idx430_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.1
theorem k0_idx446_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.2.1
theorem k0_idx462_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.2.2.1
theorem k0_idx478_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.2.2.2.1
theorem k0_idx494_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.2.2.2.2.1
theorem k0_idx510_inb : ∀ (v77 : IVec S16 32) (k0_hw14 : k0_chk14 v77), ∀ a x, ((![v77] : Fin 1 → IVec S16 32) a x).toNat < S128.size a := fun v77 k0_hw14 => k0_hw14.2.2.2.2.2.2.2.2.2.2.2.2.2.2.2.2.2.2.2.2.2.2.2.2.2.2.2.2.2.2.2

def k0_chk15 (v35 : IVec S16 32) : Prop :=
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a) ∧
  (∀ a x, ((![v35] : Fin 1 → IVec S16 32) a x).toNat < S128.size a)
instance k0_chk15.dec : ∀ (v35 : IVec S16 32), Decidable (k0_chk15 v35) := fun v35 => decidable_of_iff' _ (Iff.of_eq (k0_chk15.eq_1 v35))
theorem k0_idx15_inb : ∀ (v35 : IVec S16 32) (k0_hw15 : k0_chk15 v35), ∀ a x, ((![v35] : Fin 1 → IVec S16 32) a x).toNat < S128.size a := fun v35 k0_hw15 => k0_hw15.1
theorem k0_idx31_inb : ∀ (v35 : IVec S16 32) (k0_hw15 : k0_chk15 v35), ∀ a x, ((![v35] : Fin 1 → IVec S16 32) a x).toNat < S128.size a := fun v35 k0_hw15 => k0_hw15.2.1
theorem k0_idx47_inb : ∀ (v35 : IVec S16 32) (k0_hw15 : k0_chk15 v35), ∀ a x, ((![v35] : Fin 1 → IVec S16 32) a x).toNat < S128.size a := fun v35 k0_hw15 => k0_hw15.2.2.1
theorem k0_idx63_inb : ∀ (v35 : IVec S16 32) (k0_hw15 : k0_chk15 v35), ∀ a x, ((![v35] : Fin 1 → IVec S16 32) a x).toNat < S128.size a := fun v35 k0_hw15 => k0_hw15.2.2.2.1
theorem k0_idx79_inb : ∀ (v35 : IVec S16 32) (k0_hw15 : k0_chk15 v35), ∀ a x, ((![v35] : Fin 1 → IVec S16 32) a x).toNat < S128.size a := fun v35 k0_hw15 => k0_hw15.2.2.2.2.1
theorem k0_idx95_inb : ∀ (v35 : IVec S16 32) (k0_hw15 : k0_chk15 v35), ∀ a x, ((![v35] : Fin 1 → IVec S16 32) a x).toNat < S128.size a := fun v35 k0_hw15 => k0_hw15.2.2.2.2.2.1
theorem k0_idx111_inb : ∀ (v35 : IVec S16 32) (k0_hw15 : k0_chk15 v35), ∀ a x, ((![v35] : Fin 1 → IVec S16 32) a x).toNat < S128.size a := fun v35 k0_hw15 => k0_hw15.2.2.2.2.2.2.1
theorem k0_idx127_inb : ∀ (v35 : IVec S16 32) (k0_hw15 : k0_chk15 v35), ∀ a x, ((![v35] : Fin 1 → IVec S16 32) a x).toNat < S128.size a := fun v35 k0_hw15 => k0_hw15.2.2.2.2.2.2.2.1
theorem k0_idx143_inb : ∀ (v35 : IVec S16 32) (k0_hw15 : k0_chk15 v35), ∀ a x, ((![v35] : Fin 1 → IVec S16 32) a x).toNat < S128.size a := fun v35 k0_hw15 => k0_hw15.2.2.2.2.2.2.2.2.1
theorem k0_idx159_inb : ∀ (v35 : IVec S16 32) (k0_hw15 : k0_chk15 v35), ∀ a x, ((![v35] : Fin 1 → IVec S16 32) a x).toNat < S128.size a := fun v35 k0_hw15 => k0_hw15.2.2.2.2.2.2.2.2.2.1
theorem k0_idx175_inb : ∀ (v35 : IVec S16 32) (k0_hw15 : k0_chk15 v35), ∀ a x, ((![v35] : Fin 1 → IVec S16 32) a x).toNat < S128.size a := fun v35 k0_hw15 => k0_hw15.2.2.2.2.2.2.2.2.2.2.1
theorem k0_idx191_inb : ∀ (v35 : IVec S16 32) (k0_hw15 : k0_chk15 v35), ∀ a x, ((![v35] : Fin 1 → IVec S16 32) a x).toNat < S128.size a := fun v35 k0_hw15 => k0_hw15.2.2.2.2.2.2.2.2.2.2.2.1
theorem k0_idx207_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.1
theorem k0_idx223_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.1
theorem k0_idx239_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.1
theorem k0_idx255_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.1
theorem k0_idx271_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.1
theorem k0_idx287_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.1
theorem k0_idx303_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.1
theorem k0_idx319_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.1
theorem k0_idx335_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.1
theorem k0_idx351_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.1
theorem k0_idx367_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.1
theorem k0_idx383_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.1
theorem k0_idx399_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.1
theorem k0_idx415_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.1
theorem k0_idx431_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.1
theorem k0_idx447_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.2.1
theorem k0_idx463_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.2.2.1
theorem k0_idx479_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.2.2.2.1
theorem k0_idx495_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.2.2.2.2.1
theorem k0_idx511_inb : ∀ (v35 : IVec S16 32) (k0_hw15 : k0_chk15 v35), ∀ a x, ((![v35] : Fin 1 → IVec S16 32) a x).toNat < S128.size a := fun v35 k0_hw15 => k0_hw15.2.2.2.2.2.2.2.2.2.2.2.2.2.2.2.2.2.2.2.2.2.2.2.2.2.2.2.2.2.2.2

def k0_chk16 (v83 : IVec S16 32) : Prop :=
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a) ∧
  (∀ a x, ((![v83] : Fin 1 → IVec S16 32) a x).toNat < S128.size a)
instance k0_chk16.dec : ∀ (v83 : IVec S16 32), Decidable (k0_chk16 v83) := fun v83 => decidable_of_iff' _ (Iff.of_eq (k0_chk16.eq_1 v83))
theorem k0_idx16_inb : ∀ (v83 : IVec S16 32) (k0_hw16 : k0_chk16 v83), ∀ a x, ((![v83] : Fin 1 → IVec S16 32) a x).toNat < S128.size a := fun v83 k0_hw16 => k0_hw16.1
theorem k0_idx32_inb : ∀ (v83 : IVec S16 32) (k0_hw16 : k0_chk16 v83), ∀ a x, ((![v83] : Fin 1 → IVec S16 32) a x).toNat < S128.size a := fun v83 k0_hw16 => k0_hw16.2.1
theorem k0_idx48_inb : ∀ (v83 : IVec S16 32) (k0_hw16 : k0_chk16 v83), ∀ a x, ((![v83] : Fin 1 → IVec S16 32) a x).toNat < S128.size a := fun v83 k0_hw16 => k0_hw16.2.2.1
theorem k0_idx64_inb : ∀ (v83 : IVec S16 32) (k0_hw16 : k0_chk16 v83), ∀ a x, ((![v83] : Fin 1 → IVec S16 32) a x).toNat < S128.size a := fun v83 k0_hw16 => k0_hw16.2.2.2.1
theorem k0_idx80_inb : ∀ (v83 : IVec S16 32) (k0_hw16 : k0_chk16 v83), ∀ a x, ((![v83] : Fin 1 → IVec S16 32) a x).toNat < S128.size a := fun v83 k0_hw16 => k0_hw16.2.2.2.2.1
theorem k0_idx96_inb : ∀ (v83 : IVec S16 32) (k0_hw16 : k0_chk16 v83), ∀ a x, ((![v83] : Fin 1 → IVec S16 32) a x).toNat < S128.size a := fun v83 k0_hw16 => k0_hw16.2.2.2.2.2.1
theorem k0_idx112_inb : ∀ (v83 : IVec S16 32) (k0_hw16 : k0_chk16 v83), ∀ a x, ((![v83] : Fin 1 → IVec S16 32) a x).toNat < S128.size a := fun v83 k0_hw16 => k0_hw16.2.2.2.2.2.2.1
theorem k0_idx128_inb : ∀ (v83 : IVec S16 32) (k0_hw16 : k0_chk16 v83), ∀ a x, ((![v83] : Fin 1 → IVec S16 32) a x).toNat < S128.size a := fun v83 k0_hw16 => k0_hw16.2.2.2.2.2.2.2.1
theorem k0_idx144_inb : ∀ (v83 : IVec S16 32) (k0_hw16 : k0_chk16 v83), ∀ a x, ((![v83] : Fin 1 → IVec S16 32) a x).toNat < S128.size a := fun v83 k0_hw16 => k0_hw16.2.2.2.2.2.2.2.2.1
theorem k0_idx160_inb : ∀ (v83 : IVec S16 32) (k0_hw16 : k0_chk16 v83), ∀ a x, ((![v83] : Fin 1 → IVec S16 32) a x).toNat < S128.size a := fun v83 k0_hw16 => k0_hw16.2.2.2.2.2.2.2.2.2.1
theorem k0_idx176_inb : ∀ (v83 : IVec S16 32) (k0_hw16 : k0_chk16 v83), ∀ a x, ((![v83] : Fin 1 → IVec S16 32) a x).toNat < S128.size a := fun v83 k0_hw16 => k0_hw16.2.2.2.2.2.2.2.2.2.2.1
theorem k0_idx192_inb : ∀ (v83 : IVec S16 32) (k0_hw16 : k0_chk16 v83), ∀ a x, ((![v83] : Fin 1 → IVec S16 32) a x).toNat < S128.size a := fun v83 k0_hw16 => k0_hw16.2.2.2.2.2.2.2.2.2.2.2.1
theorem k0_idx208_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.1
theorem k0_idx224_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.1
theorem k0_idx240_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.1
theorem k0_idx256_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.1
theorem k0_idx272_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.1
theorem k0_idx288_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.1
theorem k0_idx304_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.1
theorem k0_idx320_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.1
theorem k0_idx336_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.1
theorem k0_idx352_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.1
theorem k0_idx368_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.1
theorem k0_idx384_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.1
theorem k0_idx400_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.1
theorem k0_idx416_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.1
theorem k0_idx432_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.1
theorem k0_idx448_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.2.1
theorem k0_idx464_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.2.2.1
theorem k0_idx480_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.2.2.2.1
theorem k0_idx496_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.2.2.2.2.1
theorem k0_idx512_inb : ∀ (v83 : IVec S16 32) (k0_hw16 : k0_chk16 v83), ∀ a x, ((![v83] : Fin 1 → IVec S16 32) a x).toNat < S128.size a := fun v83 k0_hw16 => k0_hw16.2.2.2.2.2.2.2.2.2.2.2.2.2.2.2.2.2.2.2.2.2.2.2.2.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x2048x4096_S4096x4096 : S2x2048x4096.ShapeCasts S4096x4096
  iota_S16_d0_w32_scVector : S16.Iotas .scVector 32 [0]
  squeezes_S1x128_S128 : S1x128.Squeezes S128
  inb_S128_S16_0 : ∀ a, (![0] : Fin 1 → Nat) a + S16.size a ≤ S128.size a
  h_S16 : 0 < S16.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  h_S128 : 0 < S128.numel
  shapeCasts_S4096x8192_S2x2048x8192 : S4096x8192.ShapeCasts S2x2048x8192
  hcc0_scratch4 : 0 + S_.numel ≤ 4
  hcc0_scratch5 : 1 + S_.numel ≤ 4
  hcc0_scratch6 : 2 + S_.numel ≤ 4
  hcc0_scratch7 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x2048.size a ≤ S4096x4096.size a
  k0_off2_inb : ∀ i : grid0.Coords, ∀ a, (k0_off2 i) a + S8x2048.size a ≤ S4096x4096.size a
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_off3_inb : ∀ k0_t1 : Fin k0_t1_loop.trips, ∀ a, (k0_off3 k0_t1) a + S1x128.size a ≤ S8x2048.size a
  k0_off4_inb : ∀ k0_t1 : Fin k0_t1_loop.trips, ∀ a, (k0_off4 k0_t1) a + S1x128.size a ≤ S8x4096.size a
  k0_off5_inb : ∀ k0_t1 : Fin k0_t1_loop.trips, ∀ a, (k0_off5 k0_t1) a + S1x128.size a ≤ S8x4096.size a
  k0_off6_inb : ∀ k0_t1 : Fin k0_t1_loop.trips, ∀ a, (k0_off6 k0_t1) a + S1x128.size a ≤ S8x4096.size a
  k0_off7_inb : ∀ k0_t1 : Fin k0_t1_loop.trips, ∀ a, (k0_off7 k0_t1) a + S1x128.size a ≤ S8x4096.size a
  k0_off8_inb : ∀ k0_t1 : Fin k0_t1_loop.trips, ∀ a, (k0_off8 k0_t1) a + S1x128.size a ≤ S8x4096.size a
  k0_off9_inb : ∀ k0_t1 : Fin k0_t1_loop.trips, ∀ a, (k0_off9 k0_t1) a + S1x128.size a ≤ S8x4096.size a
  k0_off10_inb : ∀ k0_t1 : Fin k0_t1_loop.trips, ∀ a, (k0_off10 k0_t1) a + S1x128.size a ≤ S8x4096.size a
  k0_off11_inb : ∀ k0_t1 : Fin k0_t1_loop.trips, ∀ a, (k0_off11 k0_t1) a + S1x128.size a ≤ S8x4096.size a
  k0_off12_inb : ∀ k0_t1 : Fin k0_t1_loop.trips, ∀ a, (k0_off12 k0_t1) a + S1x128.size a ≤ S8x4096.size a
  k0_off13_inb : ∀ k0_t1 : Fin k0_t1_loop.trips, ∀ a, (k0_off13 k0_t1) a + S1x128.size a ≤ S8x4096.size a
  k0_off14_inb : ∀ k0_t1 : Fin k0_t1_loop.trips, ∀ a, (k0_off14 k0_t1) a + S1x128.size a ≤ S8x4096.size a
  k0_off15_inb : ∀ k0_t1 : Fin k0_t1_loop.trips, ∀ a, (k0_off15 k0_t1) a + S1x128.size a ≤ S8x4096.size a
  k0_off16_inb : ∀ k0_t1 : Fin k0_t1_loop.trips, ∀ a, (k0_off16 k0_t1) a + S1x128.size a ≤ S8x4096.size a
  k0_off17_inb : ∀ k0_t1 : Fin k0_t1_loop.trips, ∀ a, (k0_off17 k0_t1) a + S1x128.size a ≤ S8x4096.size a
  k0_off18_inb : ∀ k0_t1 : Fin k0_t1_loop.trips, ∀ a, (k0_off18 k0_t1) a + S1x128.size a ≤ S8x4096.size a
  k0_off19_inb : ∀ k0_t1 : Fin k0_t1_loop.trips, ∀ a, (k0_off19 k0_t1) a + S1x128.size a ≤ S8x4096.size a
  k0_off20_inb : ∀ i : grid0.Coords, ∀ (r : Fin 16), ∀ a, (k0_off20 i (BitVec.ofNat 32 (8 * r.val))) a + S8x4096.size a ≤ S4096x8192.size a
  k0_off21_inb : ∀ i : grid0.Coords, ∀ (r : Fin 15), ∀ a, (k0_off21 i (BitVec.ofNat 32 (8 + 8 * r.val))) a + S8x2048.size a ≤ S4096x4096.size a
  k0_off22_inb : ∀ i : grid0.Coords, ∀ (r : Fin 16), ∀ a, (k0_off22 i (BitVec.ofNat 32 (8 * r.val))) a + S8x2048.size a ≤ S4096x4096.size a
  k0_t2_ok : k0_t2_loop.OK
  k0_mult3_dvd : ∀ k0_t2 : Fin k0_t2_loop.trips, 128 ∣ (k0_mult3 k0_t2).toNat
  k0_mult4_dvd : ∀ k0_t2 : Fin k0_t2_loop.trips, 128 ∣ (k0_mult4 k0_t2).toNat
  k0_off23_inb : ∀ k0_t2 : Fin k0_t2_loop.trips, ∀ a, (k0_off23 k0_t2) a + S1x128.size a ≤ S8x2048.size a
  k0_off24_inb : ∀ k0_t2 : Fin k0_t2_loop.trips, ∀ a, (k0_off24 k0_t2) a + S1x128.size a ≤ S8x4096.size a
  k0_off25_inb : ∀ k0_t2 : Fin k0_t2_loop.trips, ∀ a, (k0_off25 k0_t2) a + S1x128.size a ≤ S8x4096.size a
  k0_off26_inb : ∀ i : grid0.Coords, ∀ (r : Fin 16), ∀ a, (k0_off26 i (BitVec.ofNat 32 (8 * r.val))) a + S8x4096.size a ≤ S4096x8192.size a
  k0_t3_ok : k0_t3_loop.OK
  k0_mult5_dvd : ∀ k0_t3 : Fin k0_t3_loop.trips, 128 ∣ (k0_mult5 k0_t3).toNat
  k0_mult6_dvd : ∀ k0_t3 : Fin k0_t3_loop.trips, 128 ∣ (k0_mult6 k0_t3).toNat
  k0_off27_inb : ∀ k0_t3 : Fin k0_t3_loop.trips, ∀ a, (k0_off27 k0_t3) a + S1x128.size a ≤ S8x2048.size a
  k0_off28_inb : ∀ k0_t3 : Fin k0_t3_loop.trips, ∀ a, (k0_off28 k0_t3) a + S1x128.size a ≤ S8x4096.size a
  k0_off29_inb : ∀ k0_t3 : Fin k0_t3_loop.trips, ∀ a, (k0_off29 k0_t3) a + S1x128.size a ≤ S8x4096.size a
  k0_t4_ok : k0_t4_loop.OK
  k0_mult7_dvd : ∀ k0_t4 : Fin k0_t4_loop.trips, 128 ∣ (k0_mult7 k0_t4).toNat
  k0_mult8_dvd : ∀ k0_t4 : Fin k0_t4_loop.trips, 128 ∣ (k0_mult8 k0_t4).toNat
  k0_off30_inb : ∀ k0_t4 : Fin k0_t4_loop.trips, ∀ a, (k0_off30 k0_t4) a + S1x128.size a ≤ S8x2048.size a
  k0_off31_inb : ∀ k0_t4 : Fin k0_t4_loop.trips, ∀ a, (k0_off31 k0_t4) a + S1x128.size a ≤ S8x4096.size a
  k0_off32_inb : ∀ k0_t4 : Fin k0_t4_loop.trips, ∀ a, (k0_off32 k0_t4) a + S1x128.size a ≤ S8x4096.size a
  k0_t5_ok : k0_t5_loop.OK
  k0_mult9_dvd : ∀ k0_t5 : Fin k0_t5_loop.trips, 128 ∣ (k0_mult9 k0_t5).toNat
  k0_mult10_dvd : ∀ k0_t5 : Fin k0_t5_loop.trips, 128 ∣ (k0_mult10 k0_t5).toNat
  k0_off33_inb : ∀ k0_t5 : Fin k0_t5_loop.trips, ∀ a, (k0_off33 k0_t5) a + S1x128.size a ≤ S8x2048.size a
  k0_off34_inb : ∀ k0_t5 : Fin k0_t5_loop.trips, ∀ a, (k0_off34 k0_t5) a + S1x128.size a ≤ S8x4096.size a
  k0_off35_inb : ∀ k0_t5 : Fin k0_t5_loop.trips, ∀ a, (k0_off35 k0_t5) a + S1x128.size a ≤ S8x4096.size a
  k0_t6_ok : k0_t6_loop.OK
  k0_mult11_dvd : ∀ k0_t6 : Fin k0_t6_loop.trips, 128 ∣ (k0_mult11 k0_t6).toNat
  k0_mult12_dvd : ∀ k0_t6 : Fin k0_t6_loop.trips, 128 ∣ (k0_mult12 k0_t6).toNat
  k0_off36_inb : ∀ k0_t6 : Fin k0_t6_loop.trips, ∀ a, (k0_off36 k0_t6) a + S1x128.size a ≤ S8x2048.size a
  k0_off37_inb : ∀ k0_t6 : Fin k0_t6_loop.trips, ∀ a, (k0_off37 k0_t6) a + S1x128.size a ≤ S8x4096.size a
  k0_off38_inb : ∀ k0_t6 : Fin k0_t6_loop.trips, ∀ a, (k0_off38 k0_t6) a + S1x128.size a ≤ S8x4096.size a
  k0_t7_ok : k0_t7_loop.OK
  k0_mult13_dvd : ∀ k0_t7 : Fin k0_t7_loop.trips, 128 ∣ (k0_mult13 k0_t7).toNat
  k0_mult14_dvd : ∀ k0_t7 : Fin k0_t7_loop.trips, 128 ∣ (k0_mult14 k0_t7).toNat
  k0_off39_inb : ∀ k0_t7 : Fin k0_t7_loop.trips, ∀ a, (k0_off39 k0_t7) a + S1x128.size a ≤ S8x2048.size a
  k0_off40_inb : ∀ k0_t7 : Fin k0_t7_loop.trips, ∀ a, (k0_off40 k0_t7) a + S1x128.size a ≤ S8x4096.size a
  k0_off41_inb : ∀ k0_t7 : Fin k0_t7_loop.trips, ∀ a, (k0_off41 k0_t7) a + S1x128.size a ≤ S8x4096.size a
  k0_t8_ok : k0_t8_loop.OK
  k0_mult15_dvd : ∀ k0_t8 : Fin k0_t8_loop.trips, 128 ∣ (k0_mult15 k0_t8).toNat
  k0_mult16_dvd : ∀ k0_t8 : Fin k0_t8_loop.trips, 128 ∣ (k0_mult16 k0_t8).toNat
  k0_off42_inb : ∀ k0_t8 : Fin k0_t8_loop.trips, ∀ a, (k0_off42 k0_t8) a + S1x128.size a ≤ S8x2048.size a
  k0_off43_inb : ∀ k0_t8 : Fin k0_t8_loop.trips, ∀ a, (k0_off43 k0_t8) a + S1x128.size a ≤ S8x4096.size a
  k0_off44_inb : ∀ k0_t8 : Fin k0_t8_loop.trips, ∀ a, (k0_off44 k0_t8) a + S1x128.size a ≤ S8x4096.size a
  k0_t9_ok : k0_t9_loop.OK
  k0_mult17_dvd : ∀ k0_t9 : Fin k0_t9_loop.trips, 128 ∣ (k0_mult17 k0_t9).toNat
  k0_mult18_dvd : ∀ k0_t9 : Fin k0_t9_loop.trips, 128 ∣ (k0_mult18 k0_t9).toNat
  k0_off45_inb : ∀ k0_t9 : Fin k0_t9_loop.trips, ∀ a, (k0_off45 k0_t9) a + S1x128.size a ≤ S8x2048.size a
  k0_off46_inb : ∀ k0_t9 : Fin k0_t9_loop.trips, ∀ a, (k0_off46 k0_t9) a + S1x128.size a ≤ S8x4096.size a
  k0_off47_inb : ∀ k0_t9 : Fin k0_t9_loop.trips, ∀ a, (k0_off47 k0_t9) a + S1x128.size a ≤ S8x4096.size a
  k0_t10_ok : k0_t10_loop.OK
  k0_mult19_dvd : ∀ k0_t10 : Fin k0_t10_loop.trips, 128 ∣ (k0_mult19 k0_t10).toNat
  k0_mult20_dvd : ∀ k0_t10 : Fin k0_t10_loop.trips, 128 ∣ (k0_mult20 k0_t10).toNat
  k0_off48_inb : ∀ k0_t10 : Fin k0_t10_loop.trips, ∀ a, (k0_off48 k0_t10) a + S1x128.size a ≤ S8x2048.size a
  k0_off49_inb : ∀ k0_t10 : Fin k0_t10_loop.trips, ∀ a, (k0_off49 k0_t10) a + S1x128.size a ≤ S8x4096.size a
  k0_off50_inb : ∀ k0_t10 : Fin k0_t10_loop.trips, ∀ a, (k0_off50 k0_t10) a + S1x128.size a ≤ S8x4096.size a
  k0_t11_ok : k0_t11_loop.OK
  k0_mult21_dvd : ∀ k0_t11 : Fin k0_t11_loop.trips, 128 ∣ (k0_mult21 k0_t11).toNat
  k0_mult22_dvd : ∀ k0_t11 : Fin k0_t11_loop.trips, 128 ∣ (k0_mult22 k0_t11).toNat
  k0_off51_inb : ∀ k0_t11 : Fin k0_t11_loop.trips, ∀ a, (k0_off51 k0_t11) a + S1x128.size a ≤ S8x2048.size a
  k0_off52_inb : ∀ k0_t11 : Fin k0_t11_loop.trips, ∀ a, (k0_off52 k0_t11) a + S1x128.size a ≤ S8x4096.size a
  k0_off53_inb : ∀ k0_t11 : Fin k0_t11_loop.trips, ∀ a, (k0_off53 k0_t11) a + S1x128.size a ≤ S8x4096.size a
  k0_t12_ok : k0_t12_loop.OK
  k0_mult23_dvd : ∀ k0_t12 : Fin k0_t12_loop.trips, 128 ∣ (k0_mult23 k0_t12).toNat
  k0_mult24_dvd : ∀ k0_t12 : Fin k0_t12_loop.trips, 128 ∣ (k0_mult24 k0_t12).toNat
  k0_off54_inb : ∀ k0_t12 : Fin k0_t12_loop.trips, ∀ a, (k0_off54 k0_t12) a + S1x128.size a ≤ S8x2048.size a
  k0_off55_inb : ∀ k0_t12 : Fin k0_t12_loop.trips, ∀ a, (k0_off55 k0_t12) a + S1x128.size a ≤ S8x4096.size a
  k0_off56_inb : ∀ k0_t12 : Fin k0_t12_loop.trips, ∀ a, (k0_off56 k0_t12) a + S1x128.size a ≤ S8x4096.size a
  k0_t13_ok : k0_t13_loop.OK
  k0_mult25_dvd : ∀ k0_t13 : Fin k0_t13_loop.trips, 128 ∣ (k0_mult25 k0_t13).toNat
  k0_mult26_dvd : ∀ k0_t13 : Fin k0_t13_loop.trips, 128 ∣ (k0_mult26 k0_t13).toNat
  k0_off57_inb : ∀ k0_t13 : Fin k0_t13_loop.trips, ∀ a, (k0_off57 k0_t13) a + S1x128.size a ≤ S8x2048.size a
  k0_off58_inb : ∀ k0_t13 : Fin k0_t13_loop.trips, ∀ a, (k0_off58 k0_t13) a + S1x128.size a ≤ S8x4096.size a
  k0_off59_inb : ∀ k0_t13 : Fin k0_t13_loop.trips, ∀ a, (k0_off59 k0_t13) a + S1x128.size a ≤ S8x4096.size a
  k0_t14_ok : k0_t14_loop.OK
  k0_mult27_dvd : ∀ k0_t14 : Fin k0_t14_loop.trips, 128 ∣ (k0_mult27 k0_t14).toNat
  k0_mult28_dvd : ∀ k0_t14 : Fin k0_t14_loop.trips, 128 ∣ (k0_mult28 k0_t14).toNat
  k0_off60_inb : ∀ k0_t14 : Fin k0_t14_loop.trips, ∀ a, (k0_off60 k0_t14) a + S1x128.size a ≤ S8x2048.size a
  k0_off61_inb : ∀ k0_t14 : Fin k0_t14_loop.trips, ∀ a, (k0_off61 k0_t14) a + S1x128.size a ≤ S8x4096.size a
  k0_off62_inb : ∀ k0_t14 : Fin k0_t14_loop.trips, ∀ a, (k0_off62 k0_t14) a + S1x128.size a ≤ S8x4096.size a
  k0_t15_ok : k0_t15_loop.OK
  k0_mult29_dvd : ∀ k0_t15 : Fin k0_t15_loop.trips, 128 ∣ (k0_mult29 k0_t15).toNat
  k0_mult30_dvd : ∀ k0_t15 : Fin k0_t15_loop.trips, 128 ∣ (k0_mult30 k0_t15).toNat
  k0_off63_inb : ∀ k0_t15 : Fin k0_t15_loop.trips, ∀ a, (k0_off63 k0_t15) a + S1x128.size a ≤ S8x2048.size a
  k0_off64_inb : ∀ k0_t15 : Fin k0_t15_loop.trips, ∀ a, (k0_off64 k0_t15) a + S1x128.size a ≤ S8x4096.size a
  k0_off65_inb : ∀ k0_t15 : Fin k0_t15_loop.trips, ∀ a, (k0_off65 k0_t15) a + S1x128.size a ≤ S8x4096.size a
  k0_t16_ok : k0_t16_loop.OK
  k0_mult31_dvd : ∀ k0_t16 : Fin k0_t16_loop.trips, 128 ∣ (k0_mult31 k0_t16).toNat
  k0_mult32_dvd : ∀ k0_t16 : Fin k0_t16_loop.trips, 128 ∣ (k0_mult32 k0_t16).toNat
  k0_off66_inb : ∀ k0_t16 : Fin k0_t16_loop.trips, ∀ a, (k0_off66 k0_t16) a + S1x128.size a ≤ S8x2048.size a
  k0_off67_inb : ∀ k0_t16 : Fin k0_t16_loop.trips, ∀ a, (k0_off67 k0_t16) a + S1x128.size a ≤ S8x4096.size a
  k0_off68_inb : ∀ k0_t16 : Fin k0_t16_loop.trips, ∀ a, (k0_off68 k0_t16) a + S1x128.size a ≤ S8x4096.size a
  k0_t17_ok : k0_t17_loop.OK
  k0_mult33_dvd : ∀ k0_t17 : Fin k0_t17_loop.trips, 128 ∣ (k0_mult33 k0_t17).toNat
  k0_mult34_dvd : ∀ k0_t17 : Fin k0_t17_loop.trips, 128 ∣ (k0_mult34 k0_t17).toNat
  k0_off69_inb : ∀ k0_t17 : Fin k0_t17_loop.trips, ∀ a, (k0_off69 k0_t17) a + S1x128.size a ≤ S8x2048.size a
  k0_off70_inb : ∀ k0_t17 : Fin k0_t17_loop.trips, ∀ a, (k0_off70 k0_t17) a + S1x128.size a ≤ S8x4096.size a
  k0_off71_inb : ∀ k0_t17 : Fin k0_t17_loop.trips, ∀ a, (k0_off71 k0_t17) a + S1x128.size a ≤ S8x4096.size a
  k0_t18_ok : k0_t18_loop.OK
  k0_mult35_dvd : ∀ k0_t18 : Fin k0_t18_loop.trips, 128 ∣ (k0_mult35 k0_t18).toNat
  k0_mult36_dvd : ∀ k0_t18 : Fin k0_t18_loop.trips, 128 ∣ (k0_mult36 k0_t18).toNat
  k0_off72_inb : ∀ k0_t18 : Fin k0_t18_loop.trips, ∀ a, (k0_off72 k0_t18) a + S1x128.size a ≤ S8x2048.size a
  k0_off73_inb : ∀ k0_t18 : Fin k0_t18_loop.trips, ∀ a, (k0_off73 k0_t18) a + S1x128.size a ≤ S8x4096.size a
  k0_off74_inb : ∀ k0_t18 : Fin k0_t18_loop.trips, ∀ a, (k0_off74 k0_t18) a + S1x128.size a ≤ S8x4096.size a
  k0_t19_ok : k0_t19_loop.OK
  k0_mult37_dvd : ∀ k0_t19 : Fin k0_t19_loop.trips, 128 ∣ (k0_mult37 k0_t19).toNat
  k0_mult38_dvd : ∀ k0_t19 : Fin k0_t19_loop.trips, 128 ∣ (k0_mult38 k0_t19).toNat
  k0_off75_inb : ∀ k0_t19 : Fin k0_t19_loop.trips, ∀ a, (k0_off75 k0_t19) a + S1x128.size a ≤ S8x2048.size a
  k0_off76_inb : ∀ k0_t19 : Fin k0_t19_loop.trips, ∀ a, (k0_off76 k0_t19) a + S1x128.size a ≤ S8x4096.size a
  k0_off77_inb : ∀ k0_t19 : Fin k0_t19_loop.trips, ∀ a, (k0_off77 k0_t19) a + S1x128.size a ≤ S8x4096.size a
  k0_t20_ok : k0_t20_loop.OK
  k0_mult39_dvd : ∀ k0_t20 : Fin k0_t20_loop.trips, 128 ∣ (k0_mult39 k0_t20).toNat
  k0_mult40_dvd : ∀ k0_t20 : Fin k0_t20_loop.trips, 128 ∣ (k0_mult40 k0_t20).toNat
  k0_off78_inb : ∀ k0_t20 : Fin k0_t20_loop.trips, ∀ a, (k0_off78 k0_t20) a + S1x128.size a ≤ S8x2048.size a
  k0_off79_inb : ∀ k0_t20 : Fin k0_t20_loop.trips, ∀ a, (k0_off79 k0_t20) a + S1x128.size a ≤ S8x4096.size a
  k0_off80_inb : ∀ k0_t20 : Fin k0_t20_loop.trips, ∀ a, (k0_off80 k0_t20) a + S1x128.size a ≤ S8x4096.size a
  k0_t21_ok : k0_t21_loop.OK
  k0_mult41_dvd : ∀ k0_t21 : Fin k0_t21_loop.trips, 128 ∣ (k0_mult41 k0_t21).toNat
  k0_mult42_dvd : ∀ k0_t21 : Fin k0_t21_loop.trips, 128 ∣ (k0_mult42 k0_t21).toNat
  k0_off81_inb : ∀ k0_t21 : Fin k0_t21_loop.trips, ∀ a, (k0_off81 k0_t21) a + S1x128.size a ≤ S8x2048.size a
  k0_off82_inb : ∀ k0_t21 : Fin k0_t21_loop.trips, ∀ a, (k0_off82 k0_t21) a + S1x128.size a ≤ S8x4096.size a
  k0_off83_inb : ∀ k0_t21 : Fin k0_t21_loop.trips, ∀ a, (k0_off83 k0_t21) a + S1x128.size a ≤ S8x4096.size a
  k0_t22_ok : k0_t22_loop.OK
  k0_mult43_dvd : ∀ k0_t22 : Fin k0_t22_loop.trips, 128 ∣ (k0_mult43 k0_t22).toNat
  k0_mult44_dvd : ∀ k0_t22 : Fin k0_t22_loop.trips, 128 ∣ (k0_mult44 k0_t22).toNat
  k0_off84_inb : ∀ k0_t22 : Fin k0_t22_loop.trips, ∀ a, (k0_off84 k0_t22) a + S1x128.size a ≤ S8x2048.size a
  k0_off85_inb : ∀ k0_t22 : Fin k0_t22_loop.trips, ∀ a, (k0_off85 k0_t22) a + S1x128.size a ≤ S8x4096.size a
  k0_off86_inb : ∀ k0_t22 : Fin k0_t22_loop.trips, ∀ a, (k0_off86 k0_t22) a + S1x128.size a ≤ S8x4096.size a
  k0_t23_ok : k0_t23_loop.OK
  k0_mult45_dvd : ∀ k0_t23 : Fin k0_t23_loop.trips, 128 ∣ (k0_mult45 k0_t23).toNat
  k0_mult46_dvd : ∀ k0_t23 : Fin k0_t23_loop.trips, 128 ∣ (k0_mult46 k0_t23).toNat
  k0_off87_inb : ∀ k0_t23 : Fin k0_t23_loop.trips, ∀ a, (k0_off87 k0_t23) a + S1x128.size a ≤ S8x2048.size a
  k0_off88_inb : ∀ k0_t23 : Fin k0_t23_loop.trips, ∀ a, (k0_off88 k0_t23) a + S1x128.size a ≤ S8x4096.size a
  k0_off89_inb : ∀ k0_t23 : Fin k0_t23_loop.trips, ∀ a, (k0_off89 k0_t23) a + S1x128.size a ≤ S8x4096.size a
  k0_t24_ok : k0_t24_loop.OK
  k0_mult47_dvd : ∀ k0_t24 : Fin k0_t24_loop.trips, 128 ∣ (k0_mult47 k0_t24).toNat
  k0_mult48_dvd : ∀ k0_t24 : Fin k0_t24_loop.trips, 128 ∣ (k0_mult48 k0_t24).toNat
  k0_off90_inb : ∀ k0_t24 : Fin k0_t24_loop.trips, ∀ a, (k0_off90 k0_t24) a + S1x128.size a ≤ S8x2048.size a
  k0_off91_inb : ∀ k0_t24 : Fin k0_t24_loop.trips, ∀ a, (k0_off91 k0_t24) a + S1x128.size a ≤ S8x4096.size a
  k0_off92_inb : ∀ k0_t24 : Fin k0_t24_loop.trips, ∀ a, (k0_off92 k0_t24) a + S1x128.size a ≤ S8x4096.size a
  k0_t25_ok : k0_t25_loop.OK
  k0_mult49_dvd : ∀ k0_t25 : Fin k0_t25_loop.trips, 128 ∣ (k0_mult49 k0_t25).toNat
  k0_mult50_dvd : ∀ k0_t25 : Fin k0_t25_loop.trips, 128 ∣ (k0_mult50 k0_t25).toNat
  k0_off93_inb : ∀ k0_t25 : Fin k0_t25_loop.trips, ∀ a, (k0_off93 k0_t25) a + S1x128.size a ≤ S8x2048.size a
  k0_off94_inb : ∀ k0_t25 : Fin k0_t25_loop.trips, ∀ a, (k0_off94 k0_t25) a + S1x128.size a ≤ S8x4096.size a
  k0_off95_inb : ∀ k0_t25 : Fin k0_t25_loop.trips, ∀ a, (k0_off95 k0_t25) a + S1x128.size a ≤ S8x4096.size a
  k0_t26_ok : k0_t26_loop.OK
  k0_mult51_dvd : ∀ k0_t26 : Fin k0_t26_loop.trips, 128 ∣ (k0_mult51 k0_t26).toNat
  k0_mult52_dvd : ∀ k0_t26 : Fin k0_t26_loop.trips, 128 ∣ (k0_mult52 k0_t26).toNat
  k0_off96_inb : ∀ k0_t26 : Fin k0_t26_loop.trips, ∀ a, (k0_off96 k0_t26) a + S1x128.size a ≤ S8x2048.size a
  k0_off97_inb : ∀ k0_t26 : Fin k0_t26_loop.trips, ∀ a, (k0_off97 k0_t26) a + S1x128.size a ≤ S8x4096.size a
  k0_off98_inb : ∀ k0_t26 : Fin k0_t26_loop.trips, ∀ a, (k0_off98 k0_t26) a + S1x128.size a ≤ S8x4096.size a
  k0_t27_ok : k0_t27_loop.OK
  k0_mult53_dvd : ∀ k0_t27 : Fin k0_t27_loop.trips, 128 ∣ (k0_mult53 k0_t27).toNat
  k0_mult54_dvd : ∀ k0_t27 : Fin k0_t27_loop.trips, 128 ∣ (k0_mult54 k0_t27).toNat
  k0_off99_inb : ∀ k0_t27 : Fin k0_t27_loop.trips, ∀ a, (k0_off99 k0_t27) a + S1x128.size a ≤ S8x2048.size a
  k0_off100_inb : ∀ k0_t27 : Fin k0_t27_loop.trips, ∀ a, (k0_off100 k0_t27) a + S1x128.size a ≤ S8x4096.size a
  k0_off101_inb : ∀ k0_t27 : Fin k0_t27_loop.trips, ∀ a, (k0_off101 k0_t27) a + S1x128.size a ≤ S8x4096.size a
  k0_t28_ok : k0_t28_loop.OK
  k0_mult55_dvd : ∀ k0_t28 : Fin k0_t28_loop.trips, 128 ∣ (k0_mult55 k0_t28).toNat
  k0_mult56_dvd : ∀ k0_t28 : Fin k0_t28_loop.trips, 128 ∣ (k0_mult56 k0_t28).toNat
  k0_off102_inb : ∀ k0_t28 : Fin k0_t28_loop.trips, ∀ a, (k0_off102 k0_t28) a + S1x128.size a ≤ S8x2048.size a
  k0_off103_inb : ∀ k0_t28 : Fin k0_t28_loop.trips, ∀ a, (k0_off103 k0_t28) a + S1x128.size a ≤ S8x4096.size a
  k0_off104_inb : ∀ k0_t28 : Fin k0_t28_loop.trips, ∀ a, (k0_off104 k0_t28) a + S1x128.size a ≤ S8x4096.size a
  k0_t29_ok : k0_t29_loop.OK
  k0_mult57_dvd : ∀ k0_t29 : Fin k0_t29_loop.trips, 128 ∣ (k0_mult57 k0_t29).toNat
  k0_mult58_dvd : ∀ k0_t29 : Fin k0_t29_loop.trips, 128 ∣ (k0_mult58 k0_t29).toNat
  k0_off105_inb : ∀ k0_t29 : Fin k0_t29_loop.trips, ∀ a, (k0_off105 k0_t29) a + S1x128.size a ≤ S8x2048.size a
  k0_off106_inb : ∀ k0_t29 : Fin k0_t29_loop.trips, ∀ a, (k0_off106 k0_t29) a + S1x128.size a ≤ S8x4096.size a
  k0_off107_inb : ∀ k0_t29 : Fin k0_t29_loop.trips, ∀ a, (k0_off107 k0_t29) a + S1x128.size a ≤ S8x4096.size a
  k0_t30_ok : k0_t30_loop.OK
  k0_mult59_dvd : ∀ k0_t30 : Fin k0_t30_loop.trips, 128 ∣ (k0_mult59 k0_t30).toNat
  k0_mult60_dvd : ∀ k0_t30 : Fin k0_t30_loop.trips, 128 ∣ (k0_mult60 k0_t30).toNat
  k0_off108_inb : ∀ k0_t30 : Fin k0_t30_loop.trips, ∀ a, (k0_off108 k0_t30) a + S1x128.size a ≤ S8x2048.size a
  k0_off109_inb : ∀ k0_t30 : Fin k0_t30_loop.trips, ∀ a, (k0_off109 k0_t30) a + S1x128.size a ≤ S8x4096.size a
  k0_off110_inb : ∀ k0_t30 : Fin k0_t30_loop.trips, ∀ a, (k0_off110 k0_t30) a + S1x128.size a ≤ S8x4096.size a
  k0_t31_ok : k0_t31_loop.OK
  k0_mult61_dvd : ∀ k0_t31 : Fin k0_t31_loop.trips, 128 ∣ (k0_mult61 k0_t31).toNat
  k0_mult62_dvd : ∀ k0_t31 : Fin k0_t31_loop.trips, 128 ∣ (k0_mult62 k0_t31).toNat
  k0_off111_inb : ∀ k0_t31 : Fin k0_t31_loop.trips, ∀ a, (k0_off111 k0_t31) a + S1x128.size a ≤ S8x2048.size a
  k0_off112_inb : ∀ k0_t31 : Fin k0_t31_loop.trips, ∀ a, (k0_off112 k0_t31) a + S1x128.size a ≤ S8x4096.size a
  k0_off113_inb : ∀ k0_t31 : Fin k0_t31_loop.trips, ∀ a, (k0_off113 k0_t31) a + S1x128.size a ≤ S8x4096.size a
  k0_t32_ok : k0_t32_loop.OK
  k0_mult63_dvd : ∀ k0_t32 : Fin k0_t32_loop.trips, 128 ∣ (k0_mult63 k0_t32).toNat
  k0_mult64_dvd : ∀ k0_t32 : Fin k0_t32_loop.trips, 128 ∣ (k0_mult64 k0_t32).toNat
  k0_off114_inb : ∀ k0_t32 : Fin k0_t32_loop.trips, ∀ a, (k0_off114 k0_t32) a + S1x128.size a ≤ S8x2048.size a
  k0_off115_inb : ∀ k0_t32 : Fin k0_t32_loop.trips, ∀ a, (k0_off115 k0_t32) a + S1x128.size a ≤ S8x4096.size a
  k0_off116_inb : ∀ k0_t32 : Fin k0_t32_loop.trips, ∀ a, (k0_off116 k0_t32) a + S1x128.size a ≤ S8x4096.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

class Facts : Prop extends Facts₀ where

variable [Facts]
-- ==== ReferenceIdeal.lean ====
abbrev S2x2048x4096 : Shape := ⟨3, ![2, 2048, 4096]⟩
abbrev S2x2048x4096x2 : Shape := ⟨4, ![2, 2048, 4096, 2]⟩
abbrev S2x2048x8192 : Shape := ⟨3, ![2, 2048, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096x2, .f32⟩
  | .hbm, ⟨2, _⟩ => ⟨S2x2048x8192, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  bcast_S2x2048x4096_S2x2048x4096x2_0_1_2 : S2x2048x4096.BroadcastsInDim S2x2048x4096x2 (![0, 1, 2] : Fin 3 → Fin S2x2048x4096x2.rank)
  shapeCasts_S2x2048x4096x2_S2x2048x8192 : S2x2048x4096x2.ShapeCasts S2x2048x8192

variable [Facts₀]

class Facts : Prop extends Facts₀ where

variable [Facts]
-- ==== Proof.RepSpec.lean ====
/-
  The specification, free of any program: repeating every element of a 4096 × 4096 array twice along its rows.
  `rep2 X` is the 4096 × 8192 array whose entry `(r, c)` is `X (r, c / 2)`: columns `2n` and `2n + 1` both hold
  `X (r, n)`. This is what the kernel's result array holds before the final reshape, and, read through the two
  reshapes, what repeating along the last axis of the rank-3 argument gives.
-/
import Idealize.ShloMosaic.PureOps
import Idealize.ShloMosaic.Lib.ValueIdx

namespace Cert.RepSpec

open Idealize.ShloMosaic

abbrev Sin : Shape := ⟨2, ![4096, 4096]⟩
abbrev Sout : Shape := ⟨2, ![4096, 8192]⟩

/-- The source position of entry `j` of the repeated array: same row, half the column. -/
def half (j : Sout.Idx) : Sin.Idx := fun a => match a with
  | ⟨0, _⟩ => ⟨(j 0).val, (j 0).isLt⟩
  | ⟨1, _⟩ => ⟨(j 1).val / 2, by have h : (j 1).val < 8192 := (j 1).isLt; show (j 1).val / 2 < 4096; omega⟩

theorem half_zero (j : Sout.Idx) : (half j 0).val = (j 0).val := rfl
theorem half_one (j : Sout.Idx) : (half j 1).val = (j 1).val / 2 := rfl

/-- Every element repeated twice along the rows. -/
def rep2 {α : Type} (X : Sin.Idx → α) : Sout.Idx → α := fun j => X (half j)

theorem rep2_apply {α : Type} (X : Sin.Idx → α) (j : Sout.Idx) : rep2 X j = X (half j) := rfl

end Cert.RepSpec
-- ==== Proof.Bridge.lean ====
/-
  The value bridge: the kernel's result, read through its two reshapes, is the reference's result.
  The kernel reshapes the rank-3 argument [2, 2048, 4096] to [4096, 4096], repeats every element twice along the rows
  (`Cert.RepSpec.rep2`), and reshapes [4096, 8192] to [2, 2048, 8192]. The reference broadcasts the argument to
  [2, 2048, 4096, 2] and reshapes that to [2, 2048, 8192]. Both read, at result index (a, b, c), the argument at
  (a, b, c / 2): on the kernel's side the row of the rank-2 array is 2048 a + b and the column is halved; on the
  reference's side the row-major position ((2048 a + b) 8192 + c) of the rank-4 array is split back into
  (a, b, c / 2, c % 2) and the last coordinate is dropped. No float operation occurs: it is all layout.
-/
import proofs.«217870_g8959301779661_cont_9to1_m_809_16_alg».proof.Defs
import proofs.«217870_g8959301779661_cont_9to1_m_809_16_alg».proof.Proof.RepSpec
import proofs.«217870_g8959301779661_cont_9to1_m_809_16_alg».proof.Proof.Gen.KernelIdeal
import proofs.«217870_g8959301779661_cont_9to1_m_809_16_alg».proof.Proof.Gen.ReferenceIdeal.Read
import Idealize.ShloMosaic.Lib.Pipeline.Value
import Idealize.ShloMosaic.Lib.ValueIdx

noncomputable section

namespace Cert.Bridge

open Idealize.ShloMosaic Idealize.SL.Sem

variable {F : FTy → Type} [FloatOps F]

/-- The entry of the rank-2 result array that entry `i` of the rank-3 result is: row `2048 a + b`, column `c`. -/
def mid (i : Cert.KernelIdeal.S2x2048x8192.Idx) : Cert.KernelIdeal.S4096x8192.Idx := fun a => match a with
  | ⟨0, _⟩ => ⟨(i 0).val * 2048 + (i 1).val, by
      have h0 : (i 0).val < 2 := (i 0).isLt; have h1 : (i 1).val < 2048 := (i 1).isLt
      show (i 0).val * 2048 + (i 1).val < 4096; omega⟩
  | ⟨1, _⟩ => ⟨(i 2).val, (i 2).isLt⟩

/-- The entry of the rank-3 argument that entry `i` of the rank-3 result repeats: `(a, b, c / 2)`. -/
def src (i : Cert.KernelIdeal.S2x2048x8192.Idx) : Cert.KernelIdeal.S2x2048x4096.Idx := fun a => match a with
  | ⟨0, _⟩ => ⟨(i 0).val, (i 0).isLt⟩
  | ⟨1, _⟩ => ⟨(i 1).val, (i 1).isLt⟩
  | ⟨2, _⟩ => ⟨(i 2).val / 2, by have h2 : (i 2).val < 8192 := (i 2).isLt; show (i 2).val / 2 < 4096; omega⟩

/-- The kernel's side read at an index: reshape, repeat, reshape reads the argument at `src i`. -/
theorem kernel_apply (x : (⟨Cert.KernelIdeal.S2x2048x4096, .f32⟩ : BufTy).Contents (Elt F)) (i : Cert.KernelIdeal.S2x2048x8192.Idx) :
    shapeCast Cert.KernelIdeal.S2x2048x8192
        (Cert.RepSpec.rep2 (shapeCast Cert.KernelIdeal.S4096x4096 x Cert.KernelIdeal.Gen.shapeCasts_S2x2048x4096_S4096x4096))
        Cert.KernelIdeal.Gen.shapeCasts_S4096x8192_S2x2048x8192 i
      = x (src i) := by
  have h0 : (i 0).val < 2 := (i 0).isLt
  have h1 : (i 1).val < 2048 := (i 1).isLt
  have h2 : (i 2).val < 8192 := (i 2).isLt
  rw [shapeCast_apply _ Cert.KernelIdeal.Gen.shapeCasts_S4096x8192_S2x2048x8192 i (mid i)
    (by rewrite [Shape.rowMajor_val_two, Shape.rowMajor_val_three]
        show ((i 0).val * 2048 + (i 1).val) * 8192 + (i 2).val = ((i 0).val * 2048 + (i 1).val) * 8192 + (i 2).val
        rfl)]
  rw [Cert.RepSpec.rep2_apply]
  exact shapeCast_apply x Cert.KernelIdeal.Gen.shapeCasts_S2x2048x4096_S4096x4096 (Cert.RepSpec.half (mid i)) (src i)
    (by rewrite [Shape.rowMajor_val_three, Shape.rowMajor_val_two]
        show ((i 0).val * 2048 + (i 1).val) * 4096 + (i 2).val / 2 = ((i 0).val * 2048 + (i 1).val) * 4096 + (i 2).val / 2
        rfl)

/-- The reference's side read at an index: broadcast, reshape reads the argument at `src i`. -/
theorem reference_apply (x : (⟨Cert.KernelIdeal.S2x2048x4096, .f32⟩ : BufTy).Contents (Elt F)) (i : Cert.KernelIdeal.S2x2048x8192.Idx) :
    Cert.ReferenceIdeal.Read.val_main_v1 (F := F) x i = x (src i) := by
  have h0 : (i 0).val < 2 := (i 0).isLt
  have h1 : (i 1).val < 2048 := (i 1).isLt
  have h2 : (i 2).val < 8192 := (i 2).isLt
  rw [Cert.ReferenceIdeal.Read.val_main_v1_apply, Cert.ReferenceIdeal.Read.val_main_v0_apply]
  refine congrArg x (funext fun a => ?_)
  match a with
  | ⟨0, _⟩ =>
    refine Fin.ext ?_
    show (((i 0).val * 2048 + (i 1).val) * 8192 + (i 2).val) / 16777216 = (i 0).val
    omega
  | ⟨1, _⟩ =>
    refine Fin.ext ?_
    show (((i 0).val * 2048 + (i 1).val) * 8192 + (i 2).val) / 8192 % 2048 = (i 1).val
    omega
  | ⟨2, _⟩ =>
    refine Fin.ext ?_
    show (((i 0).val * 2048 + (i 1).val) * 8192 + (i 2).val) / 2 % 4096 = (i 2).val / 2
    omega

/-- The kernel's result term equals the reference's: the two programs compute the same array of the argument. -/
theorem result_eq (x : (⟨Cert.KernelIdeal.S2x2048x4096, .f32⟩ : BufTy).Contents (Elt F)) :
    shapeCast Cert.KernelIdeal.S2x2048x8192
        (Cert.RepSpec.rep2 (shapeCast Cert.KernelIdeal.S4096x4096 x Cert.KernelIdeal.Gen.shapeCasts_S2x2048x4096_S4096x4096))
        Cert.KernelIdeal.Gen.shapeCasts_S4096x8192_S2x2048x8192
      = Cert.ReferenceIdeal.Read.val_main_v1 (F := F) x := by
  funext i
  rw [kernel_apply, reference_apply]

end Cert.Bridge

end
-- ==== Proof.KernelIdeal.Base.lean ====
/-
  What the body's proof and the launch's proof share, for the program read at any float instance `F`: the program as the
  launch theorem sees it, the resource algebra (the handshakes' rounds beside the transfers' counters: the kernel only
  makes local copies and waits for them, so it needs no schedule of its own), the four arrays of @main as locations,
  the kernel's memrefs, and the geometry of the work: tile `(c, s)` is worker `2 s + c`, owns rows
  `[128 (2 s + c), 128 (2 s + c) + 128)`, and moves them in 32 chunks of 8 rows by half the columns.
-/
import proofs.«217870_g8959301779661_cont_9to1_m_809_16_alg».proof.KernelIdeal
import proofs.«217870_g8959301779661_cont_9to1_m_809_16_alg».proof.Proof.Gen.KernelIdeal
import proofs.«217870_g8959301779661_cont_9to1_m_809_16_alg».proof.Proof.Gen.KernelIdeal.Skeleton
import proofs.«217870_g8959301779661_cont_9to1_m_809_16_alg».proof.Proof.RepSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Rep

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model of the proof's assertions. -/
abbrev MM (F : FTy → Type) : Type := MT nD τ sig (HIx 1) (Elt F) ℕ UU ℕ

/-- The handshakes' rounds, the left factor; the transfers' counters are found by instance in the right. -/
abbrev EH : Emb UH (MM F) := embL

/-! ## The arrays and the kernel's memrefs -/

/-- The argument `x`, its reshape `X2` to 4096 × 4096, the kernel's result `out` (4096 × 8192), and @main's result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S4096x4096 .f32 := Memref.whole main_v0_scv
abbrev oV : Memref sig .scVector .hbm S4096x8192 .f32 := Memref.whole main_v1_scv
/-- A tile's scratch: the two input slots (8 × 2048) and the two output slots (8 × 4096). -/
abbrev s0 : Memref sig .scVector .vmem S8x2048 .f32 := Memref.whole cc0_scratch0
abbrev s1 : Memref sig .scVector .vmem S8x2048 .f32 := Memref.whole cc0_scratch1
abbrev s2 : Memref sig .scVector .vmem S8x4096 .f32 := Memref.whole cc0_scratch2
abbrev s3 : Memref sig .scVector .vmem S8x4096 .f32 := Memref.whole cc0_scratch3

/-- The 4096 × 4096 array the kernel reads: the argument's elements at that shape. -/
def X2 (m : (ℓ : Loc nD τ sig) → Buf (Elt F) ℓ) (d : Dev nD) : Buf (Elt F) (xLoc d) :=
  shapeCast S4096x4096 (m (aLoc d)) shapeCasts_S2x2048x4096_S4096x4096

/-- Every element repeated twice along its row: what the kernel leaves in `out`. -/
def rep {d : Dev nD} (X : Buf (Elt F) (xLoc d)) : Buf (Elt F) (oLoc d) := Cert.RepSpec.rep2 X

theorem rep_apply {d : Dev nD} (X : Buf (Elt F) (xLoc d)) (j : S4096x8192.Idx) : rep X j = X (Cert.RepSpec.half j) := rfl

/-! ## The geometry -/

abbrev cV (L : grid0.Coords) : Fin τ.nSC := (L 0).castLE hcore0
abbrev jV (L : grid0.Coords) : Fin τ.nSub := (L 1).castLE hsub0

/-- The worker number of tile `(core L 0, subcore L 1)`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- Where chunk `t` of worker `wid L` sits in `out`: 8 rows from `128 wid + 8 (t / 2)`, 4096 columns from `4096 (t % 2)`. -/
def chunkOff (L : grid0.Coords) (t : Fin 32) : Fin 2 → Nat := ![128 * wid L + 8 * (t.val / 2), 4096 * (t.val % 2)]

theorem chunkOff_inb (L : grid0.Coords) (t : Fin 32) : ∀ a, chunkOff L t a + S8x4096.size a ≤ S4096x8192.size a := by
  have hw := wid_lt L
  have ht : t.val < 32 := t.isLt
  intro a
  match a with
  | ⟨0, _⟩ => show 128 * wid L + 8 * (t.val / 2) + 8 ≤ 4096; omega
  | ⟨1, _⟩ => show 4096 * (t.val % 2) + 4096 ≤ 8192; omega

def chunkRect (L : grid0.Coords) (t : Fin 32) : Rect S4096x8192 := Rect.unit (s := S4096x8192) (chunkOff L t) S8x4096.size (chunkOff_inb L t)

/-- Chunk `t` of tile `L`, as a set of positions of `out`. -/
abbrev chunkSet (L : grid0.Coords) (t : Fin 32) : Finset S4096x8192.Idx :=
  ((oV : Memref sig .scVector .hbm S4096x8192 .f32).view.slice (chunkRect L t)).set

end Cert.KernelIdeal.Rep

end
-- ==== Proof.Scatter.lean ====
/-
  Scatter stores, as pure functions on a buffer's contents.
  An unmasked, non-accumulating indexed store writes lane `k` of the stored vector at the position the index vectors name
  for lane `k`, lanes in ascending order. When distinct lanes name distinct positions the order does not matter: after the
  store every named position holds its lane's value (`storeIdx_hit`) and every other position is unchanged
  (`storeIdx_miss`). The same holds for the buffer under a view, when the view's contents are read, scattered into and
  written back whole (`scat_hit`, `scat_miss`). `Writes` states the pair of facts abstractly, and `Writes.chain` composes
  a sequence of such stores whose positions are pairwise distinct: at the end every position written holds the value
  of the one store that named it, and every position no store named is as at the start.
-/
import Idealize.ShloMosaic.PureOps
import Idealize.ShloMosaic.Signature.View

namespace Cert.Scatter

open Idealize.ShloMosaic

/-! ## A fold of point updates over a list without repetitions -/

section Fold

variable {ι I α : Type} (hit : ι → I → Prop) [∀ k j, Decidable (hit k j)] (y : ι → α)

/-- A position no update of the list names keeps its value. -/
theorem foldl_upd_miss (l : List ι) (f : I → α) (j : I) (hj : ∀ k ∈ l, ¬ hit k j) :
    (l.foldl (fun g k => fun j' => if hit k j' then y k else g j') f) j = f j := by
  induction l generalizing f with
  | nil => rfl
  | cons k l ih =>
    rw [List.foldl_cons, ih _ (fun k' hk' => hj k' (List.mem_cons_of_mem _ hk'))]
    exact if_neg (hj k List.mem_cons_self)

/-- A position exactly one update of the list names holds that update's value. -/
theorem foldl_upd_hit (l : List ι) (f : I → α) (j : I) (k₀ : ι) (hk₀ : k₀ ∈ l) (h₀ : hit k₀ j)
    (huniq : ∀ k ∈ l, hit k j → k = k₀) (hnd : l.Nodup) :
    (l.foldl (fun g k => fun j' => if hit k j' then y k else g j') f) j = y k₀ := by
  induction l generalizing f with
  | nil => cases hk₀
  | cons k l ih =>
    rw [List.foldl_cons]
    by_cases hmem : k₀ ∈ l
    · exact ih _ hmem (fun k' hk' => huniq k' (List.mem_cons_of_mem _ hk')) (List.nodup_cons.mp hnd).2
    · have hk : k₀ = k := (List.mem_cons.mp hk₀).resolve_right hmem
      subst hk
      rw [foldl_upd_miss hit y l _ j (fun k' hk' hh => hmem (huniq k' (List.mem_cons_of_mem _ hk') hh ▸ hk'))]
      exact if_pos h₀

end Fold

/-! ## The indexed store on a vector -/

section Store

variable {F : FTy → Type} [FloatOps F] {s : Shape} {e : EltTy} {d : Fin 1 → Nat}

/-- The unmasked, non-accumulating store is the fold of the lanes' point updates. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j' =>
          if (∀ a, (j' a).val = (idxAt idxs h (Shape.ofLane k) a).val) then v (Shape.ofLane k) else g j') f := by
  unfold storeIdx
  rfl

/-- Distinct lanes naming distinct positions: the position lane `k` names holds lane `k` of the stored vector. -/
theorem storeIdx_hit (f : Vec F s e) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_upd_hit (fun (k : Fin (d 0)) (j' : s.Idx) => ∀ a, (j' a).val = (idxAt idxs h (Shape.ofLane k) a).val)
    (fun k => v (Shape.ofLane k)) (List.finRange (d 0)) f _ k (List.mem_finRange k) (fun _ => rfl)
    (fun k' _ hk' => hinj k' k (funext fun a => Fin.ext (hk' a).symm)) (List.nodup_finRange _)

/-- A position no lane names is unchanged. -/
theorem storeIdx_miss (f : Vec F s e) (idxs : Fin s.rank → IVec ⟨1, d⟩ 32) (v : Vec F ⟨1, d⟩ e)
    (h : ∀ a x, (idxs a x).toNat < s.size a) (j : s.Idx)
    (hj : ∀ k : Fin (d 0), idxAt idxs h (Shape.ofLane k) ≠ j) :
    storeIdx f idxs v (fun _ => 1#1) false h j = f j := by
  rw [storeIdx_eq_foldl]
  exact foldl_upd_miss (fun (k : Fin (d 0)) (j' : s.Idx) => ∀ a, (j' a).val = (idxAt idxs h (Shape.ofLane k) a).val)
    (fun k => v (Shape.ofLane k)) (List.finRange (d 0)) f j
    (fun k _ hk => hj k (funext fun a => Fin.ext (hk a).symm))

end Store

/-! ## The indexed store on the buffer under a view -/

section ViewStore

variable {F : FTy → Type} [FloatOps F] {sig : RefSig} {κ : Kind} {sp : Space} {s : Shape} {e : EltTy} {d : Fin 1 → Nat}

/-- The buffer's contents after the view's contents are read, scattered into, and written back whole. -/
def scat (ρ : View sig κ sp s e) (g : ρ.ty.Contents (Elt F)) (idxs : Fin s.rank → IVec ⟨1, d⟩ 32) (v : Vec F ⟨1, d⟩ e)
    (h : ∀ a x, (idxs a x).toNat < s.size a) : ρ.ty.Contents (Elt F) :=
  ρ.write (Elt F) g (storeIdx (ρ.read (Elt F) g) idxs v (fun _ => 1#1) false h) Finset.univ

/-- The buffer's element under the position lane `k` names holds lane `k` of the stored vector. -/
theorem scat_hit (ρ : View sig κ sp s e) (g : ρ.ty.Contents (Elt F)) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    scat ρ g idxs v h (ρ.emb (idxAt idxs h (Shape.ofLane k)))
      = _root_.cast (congrArg (Elt F) ρ.elt_eq.symm) (v (Shape.ofLane k)) := by
  unfold scat
  rw [View.write_emb_of_mem _ _ (Finset.mem_univ _), storeIdx_hit _ idxs v h hinj k]

/-- An element of the buffer under no named position — outside the view, or under a position of the view no lane
    names — is unchanged. -/
theorem scat_miss (ρ : View sig κ sp s e) (g : ρ.ty.Contents (Elt F)) (idxs : Fin s.rank → IVec ⟨1, d⟩ 32) (v : Vec F ⟨1, d⟩ e)
    (h : ∀ a x, (idxs a x).toNat < s.size a) (i : ρ.ty.Idx)
    (hi : ∀ k : Fin (d 0), ρ.emb (idxAt idxs h (Shape.ofLane k)) ≠ i) :
    scat ρ g idxs v h i = g i := by
  unfold scat
  by_cases hmem : i ∈ ρ.setOn Finset.univ
  · obtain ⟨p, -, rfl⟩ := Finset.mem_map.mp hmem
    rw [View.write_emb_of_mem _ _ (Finset.mem_univ p),
      storeIdx_miss _ idxs v h p (fun k hk => hi k (by rw [hk])), View.read_apply, cast_cast, cast_eq]
  · exact View.write_of_not_mem _ _ _ hmem

end ViewStore

/-! ## A sequence of stores at pairwise distinct positions -/

/-- `g'` is `g` with `val l` written at `pos l` for every `l`, and nothing else changed. -/
structure Writes {I α ι : Type} (g g' : I → α) (pos : ι → I) (val : ι → α) : Prop where
  hit : ∀ l, g' (pos l) = val l
  miss : ∀ i, (∀ l, pos l ≠ i) → g' i = g i

/-- The scatter through a view is such a write: lane `k` at the buffer's element under the position it names. -/
theorem scat_writes {F : FTy → Type} [FloatOps F] {sig : RefSig} {κ : Kind} {sp : Space} {s : Shape} {e : EltTy} {d : Fin 1 → Nat}
    (ρ : View sig κ sp s e) (g : ρ.ty.Contents (Elt F)) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') :
    Writes g (scat ρ g idxs v h) (fun k : Fin (d 0) => ρ.emb (idxAt idxs h (Shape.ofLane k)))
      (fun k => _root_.cast (congrArg (Elt F) ρ.elt_eq.symm) (v (Shape.ofLane k))) :=
  ⟨scat_hit ρ g idxs v h hinj, scat_miss ρ g idxs v h⟩

/-- `n` writes in turn, store `m` taking `gs m` to `gs (m + 1)`, at positions distinct across stores and within each:
    at the end every position some store named holds that store's value, and every other position is as at the start
    (a later store misses every earlier store's positions). -/
theorem Writes.chain {I α ι : Type} (n : ℕ) (gs : ℕ → I → α) (pos : ℕ → ι → I) (val : ℕ → ι → α)
    (hstep : ∀ m < n, Writes (gs m) (gs (m + 1)) (pos m) (val m))
    (hinj : ∀ m < n, ∀ m' < n, ∀ l l', pos m l = pos m' l' → m = m' ∧ l = l') :
    (∀ m < n, ∀ l, gs n (pos m l) = val m l) ∧ (∀ i, (∀ m < n, ∀ l, pos m l ≠ i) → gs n i = gs 0 i) := by
  induction n with
  | zero => exact ⟨fun m hm => absurd hm (Nat.not_lt_zero m), fun _ _ => rfl⟩
  | succ n ih =>
    have ih' := ih (fun m hm => hstep m (Nat.lt_succ_of_lt hm))
      (fun m hm m' hm' => hinj m (Nat.lt_succ_of_lt hm) m' (Nat.lt_succ_of_lt hm'))
    have hn := hstep n (Nat.lt_succ_self n)
    refine ⟨fun m hm l => ?_, fun i hi => ?_⟩
    · rcases Nat.lt_succ_iff_lt_or_eq.mp hm with hlt | heq
      · rw [hn.miss (pos m l) (fun l' hl' =>
          absurd (hinj n (Nat.lt_succ_self n) m hm l' l hl').1 (Nat.ne_of_gt hlt))]
        exact ih'.1 m hlt l
      · subst heq; exact hn.hit l
    · rw [hn.miss i (hi n (Nat.lt_succ_self n))]
      exact ih'.2 i (fun m hm => hi m (Nat.lt_succ_of_lt hm))

end Cert.Scatter
-- ==== Proof.TripSpec.lean ====
/-
  One trip of the inner loop, and all 128 of them, as pure statements about the 8 × 4096 output scratch.
  Trip `k` works on row `k % 8` and column tile `k / 8`: it holds 8 vectors `w u` of 16 lanes, lane `l` of vector `u`
  being the input scratch's entry `(k % 8, 128 (k / 8) + 16 u + l)`, and makes 16 scatter stores; store `n` writes lane
  `l` of vector `n / 2` at column `256 (k / 8) + 32 (n / 2) + 2 l + n % 2` of row `k % 8`. The 256 columns so named are
  pairwise distinct and fill the tile `[256 (k / 8), 256 (k / 8) + 256)` of the row: column `c` of the tile is named by
  store `2 ((c % 256) / 32) + c % 2`, lane `(c % 32) / 2`, and receives the input's column `c / 2`. So a trip leaves the
  input row's 128 columns of the tile each repeated twice and nothing else changed (`trip_spec`); the trips visit the
  (column tile, row) pairs in the order of `8 (k / 8) + k % 8 = k`, so after `k` trips every entry whose pair comes before
  `k` holds the input's entry at half its column (`Done`, `done_step`), and after 128 trips every entry does (`done_all`).
-/
import proofs.«217870_g8959301779661_cont_9to1_m_809_16_alg».proof.Proof.Scatter
import Idealize.ShloMosaic.Lib.ValueIdx

namespace Cert.TripSpec

open Idealize.ShloMosaic Cert.Scatter

/-- The input scratch (8 rows of 2048) and the output scratch (8 rows of 4096). -/
abbrev Sin8 : Shape := ⟨2, ![8, 2048]⟩
abbrev Sout8 : Shape := ⟨2, ![8, 4096]⟩

/-- An entry by its row and column. -/
abbrev mkIn (r : Fin 8) (c : Fin 2048) : Sin8.Idx := ValueIdx.ix2 r c
abbrev mkOut (r : Fin 8) (c : Fin 4096) : Sout8.Idx := ValueIdx.ix2 r c

theorem eq_mkIn (j : Sin8.Idx) : j = mkIn (j 0) (j 1) := ValueIdx.eq_ix2 j
theorem eq_mkOut (j : Sout8.Idx) : j = mkOut (j 0) (j 1) := ValueIdx.eq_ix2 j

/-! ## The bounds the statements carry -/

theorem row_lt (k : ℕ) : k % 8 < 8 := Nat.mod_lt _ (by decide)

theorem col_lt {k n : ℕ} (hk : k < 128) (hn : n < 16) (l : Fin 16) :
    256 * (k / 8) + 32 * (n / 2) + 2 * l.val + n % 2 < 4096 := by
  have hl := l.isLt; omega

theorem lane_lt (c : ℕ) : c % 32 / 2 < 16 := by omega

theorem half_lt (c : Fin 4096) : c.val / 2 < 2048 := by
  have hc := c.isLt; omega

theorem src_lt {k u : ℕ} (hk : k < 128) (hu : u < 8) (l : Fin 16) : 128 * (k / 8) + 16 * u + l.val < 2048 := by
  have hl := l.isLt; omega

/-! ## One trip -/

/-- The 16 stores of trip `k`, their positions given by coordinates: at the end the tile of row `k % 8` holds the
    vectors' lanes, column `c` of the tile the lane `(c % 32) / 2` of vector `(c % 256) / 32`, and every other entry is
    as before the trip. -/
theorem trip_spec_gen {α : Type} (k : ℕ) (hk : k < 128) (gs : ℕ → Sout8.Idx → α) (w : ℕ → Fin 16 → α)
    (pos : ℕ → Fin 16 → Sout8.Idx) (val : ℕ → Fin 16 → α)
    (hrow : ∀ n < 16, ∀ l, (pos n l 0).val = k % 8)
    (hcol : ∀ n < 16, ∀ l, (pos n l 1).val = 256 * (k / 8) + 32 * (n / 2) + 2 * l.val + n % 2)
    (hval : ∀ n < 16, ∀ l, val n l = w (n / 2) l)
    (hstep : ∀ n < 16, Writes (gs n) (gs (n + 1)) (pos n) (val n))
    (r : Fin 8) (c : Fin 4096) :
    gs 16 (mkOut r c)
      = if r.val = k % 8 ∧ c.val / 256 = k / 8 then w (c.val % 256 / 32) ⟨c.val % 32 / 2, lane_lt _⟩
        else gs 0 (mkOut r c) := by
  have hc := c.isLt
  have hr := r.isLt
  obtain ⟨hhit, hmiss⟩ := Writes.chain 16 gs pos val hstep (by
    intro m hm m' hm' l l' heq
    have h1 : (pos m l 1).val = (pos m' l' 1).val := by rw [heq]
    rw [hcol m hm l, hcol m' hm' l'] at h1
    have hl := l.isLt
    have hl' := l'.isLt
    exact ⟨by omega, Fin.ext (by omega)⟩)
  by_cases htile : r.val = k % 8 ∧ c.val / 256 = k / 8
  · rw [if_pos htile]
    obtain ⟨n, hn⟩ : ∃ n, n = 2 * (c.val % 256 / 32) + c.val % 2 := ⟨_, rfl⟩
    have hn16 : n < 16 := by omega
    have hn2 : n / 2 = c.val % 256 / 32 := by omega
    have hpos : mkOut r c = pos n ⟨c.val % 32 / 2, lane_lt _⟩ := by
      funext a
      match a with
      | ⟨0, _⟩ =>
        have h := hrow n hn16 ⟨c.val % 32 / 2, lane_lt _⟩
        refine Fin.ext ?_
        show r.val = (pos n ⟨c.val % 32 / 2, lane_lt _⟩ 0).val
        rw [h]; exact htile.1
      | ⟨1, _⟩ =>
        have h := hcol n hn16 ⟨c.val % 32 / 2, lane_lt _⟩
        refine Fin.ext ?_
        show c.val = (pos n ⟨c.val % 32 / 2, lane_lt _⟩ 1).val
        rw [h]
        show c.val = 256 * (k / 8) + 32 * (n / 2) + 2 * (c.val % 32 / 2) + n % 2
        omega
    rw [hpos, hhit n hn16, hval n hn16, hn2]
  · rw [if_neg htile]
    refine hmiss _ (fun m hm l heq => htile ?_)
    have h0 : (pos m l 0).val = r.val := congrArg (fun j : Sout8.Idx => (j 0).val) heq
    have h1 : (pos m l 1).val = c.val := congrArg (fun j : Sout8.Idx => (j 1).val) heq
    rw [hrow m hm l] at h0
    rw [hcol m hm l] at h1
    have hl := l.isLt
    exact ⟨h0.symm, by omega⟩

/-- The same with the positions spelled out: store `n` writes lane `l` of vector `n / 2` at
    `(k % 8, 256 (k / 8) + 32 (n / 2) + 2 l + n % 2)`. -/
theorem trip_spec {α : Type} (k : ℕ) (hk : k < 128) (gs : ℕ → Sout8.Idx → α) (w : ℕ → Fin 16 → α)
    (hstep : ∀ n (hn : n < 16), Writes (gs n) (gs (n + 1))
      (fun l : Fin 16 => mkOut ⟨k % 8, row_lt k⟩ ⟨256 * (k / 8) + 32 * (n / 2) + 2 * l.val + n % 2, col_lt hk hn l⟩)
      (fun l => w (n / 2) l))
    (r : Fin 8) (c : Fin 4096) :
    gs 16 (mkOut r c)
      = if r.val = k % 8 ∧ c.val / 256 = k / 8 then w (c.val % 256 / 32) ⟨c.val % 32 / 2, lane_lt _⟩
        else gs 0 (mkOut r c) := by
  refine trip_spec_gen k hk gs w
    (fun n l => if hn : n < 16 then
        mkOut ⟨k % 8, row_lt k⟩ ⟨256 * (k / 8) + 32 * (n / 2) + 2 * l.val + n % 2, col_lt hk hn l⟩
      else mkOut ⟨0, by decide⟩ ⟨0, by decide⟩)
    (fun n l => w (n / 2) l) ?_ ?_ (fun _ _ _ => rfl) ?_ r c
  · intro n hn l
    show ((if hn : n < 16 then _ else _ : Sout8.Idx) 0).val = k % 8
    rw [dif_pos hn]
  · intro n hn l
    show ((if hn : n < 16 then _ else _ : Sout8.Idx) 1).val = _
    rw [dif_pos hn]
  · intro n hn
    have hp : (fun l : Fin 16 => if hn : n < 16 then
          mkOut ⟨k % 8, row_lt k⟩ ⟨256 * (k / 8) + 32 * (n / 2) + 2 * l.val + n % 2, col_lt hk hn l⟩
        else mkOut ⟨0, by decide⟩ ⟨0, by decide⟩)
        = fun l : Fin 16 => mkOut ⟨k % 8, row_lt k⟩ ⟨256 * (k / 8) + 32 * (n / 2) + 2 * l.val + n % 2, col_lt hk hn l⟩ :=
      funext fun l => dif_pos hn
    show Writes (gs n) (gs (n + 1)) (fun l : Fin 16 => if hn : n < 16 then _ else _) _
    rw [hp]
    exact hstep n hn

/-! ## All the trips -/

/-- After `k` trips: every entry of a (column tile, row) pair that comes before `k` holds the input's entry of its row at
    half its column. -/
def Done {α : Type} (fI : Sin8.Idx → α) (k : ℕ) (g : Sout8.Idx → α) : Prop :=
  ∀ (r : Fin 8) (c : Fin 4096), c.val / 256 * 8 + r.val < k → g (mkOut r c) = fI (mkIn r ⟨c.val / 2, half_lt c⟩)

theorem done_zero {α : Type} (fI : Sin8.Idx → α) (g : Sout8.Idx → α) : Done fI 0 g :=
  fun _ _ h => absurd h (Nat.not_lt_zero _)

/-- Trip `k`, its vectors read off the input's row `k % 8`, takes `k` trips done to `k + 1`. -/
theorem done_step_gen {α : Type} (fI : Sin8.Idx → α) (k : ℕ) (hk : k < 128) (gs : ℕ → Sout8.Idx → α) (w : ℕ → Fin 16 → α)
    (pos : ℕ → Fin 16 → Sout8.Idx) (val : ℕ → Fin 16 → α)
    (hrow : ∀ n < 16, ∀ l, (pos n l 0).val = k % 8)
    (hcol : ∀ n < 16, ∀ l, (pos n l 1).val = 256 * (k / 8) + 32 * (n / 2) + 2 * l.val + n % 2)
    (hval : ∀ n < 16, ∀ l, val n l = w (n / 2) l)
    (hstep : ∀ n < 16, Writes (gs n) (gs (n + 1)) (pos n) (val n))
    (hw : ∀ u (hu : u < 8) (l : Fin 16),
      w u l = fI (mkIn ⟨k % 8, row_lt k⟩ ⟨128 * (k / 8) + 16 * u + l.val, src_lt hk hu l⟩))
    (h0 : Done fI k (gs 0)) : Done fI (k + 1) (gs 16) := by
  intro r c hlt
  have hc := c.isLt
  have hr := r.isLt
  rw [trip_spec_gen k hk gs w pos val hrow hcol hval hstep r c]
  by_cases htile : r.val = k % 8 ∧ c.val / 256 = k / 8
  · rw [if_pos htile, hw (c.val % 256 / 32) (by omega) ⟨c.val % 32 / 2, lane_lt _⟩]
    refine congrArg fI ?_
    funext a
    match a with
    | ⟨0, _⟩ => exact Fin.ext (by show k % 8 = r.val; exact htile.1.symm)
    | ⟨1, _⟩ =>
      exact Fin.ext (by
        show 128 * (k / 8) + 16 * (c.val % 256 / 32) + c.val % 32 / 2 = c.val / 2
        omega)
  · rw [if_neg htile]
    exact h0 r c (by omega)

/-- The same with the positions spelled out. -/
theorem done_step {α : Type} (fI : Sin8.Idx → α) (k : ℕ) (hk : k < 128) (gs : ℕ → Sout8.Idx → α) (w : ℕ → Fin 16 → α)
    (hw : ∀ u (hu : u < 8) (l : Fin 16),
      w u l = fI (mkIn ⟨k % 8, row_lt k⟩ ⟨128 * (k / 8) + 16 * u + l.val, src_lt hk hu l⟩))
    (hstep : ∀ n (hn : n < 16), Writes (gs n) (gs (n + 1))
      (fun l : Fin 16 => mkOut ⟨k % 8, row_lt k⟩ ⟨256 * (k / 8) + 32 * (n / 2) + 2 * l.val + n % 2, col_lt hk hn l⟩)
      (fun l => w (n / 2) l))
    (h0 : Done fI k (gs 0)) : Done fI (k + 1) (gs 16) := by
  intro r c hlt
  have hc := c.isLt
  have hr := r.isLt
  rw [trip_spec k hk gs w hstep r c]
  by_cases htile : r.val = k % 8 ∧ c.val / 256 = k / 8
  · rw [if_pos htile, hw (c.val % 256 / 32) (by omega) ⟨c.val % 32 / 2, lane_lt _⟩]
    refine congrArg fI ?_
    funext a
    match a with
    | ⟨0, _⟩ => exact Fin.ext (by show k % 8 = r.val; exact htile.1.symm)
    | ⟨1, _⟩ =>
      exact Fin.ext (by
        show 128 * (k / 8) + 16 * (c.val % 256 / 32) + c.val % 32 / 2 = c.val / 2
        omega)
  · rw [if_neg htile]
    exact h0 r c (by omega)

/-- After all 128 trips the output scratch is the input scratch with every entry repeated twice along its row. -/
theorem done_all {α : Type} (fI : Sin8.Idx → α) (g : Sout8.Idx → α) (h : Done fI 128 g) :
    g = fun j => fI (mkIn (j 0) ⟨(j 1).val / 2, half_lt (j 1)⟩) := by
  funext j
  have hr : (j 0).val < 8 := (j 0).isLt
  have hc : (j 1).val < 4096 := (j 1).isLt
  exact (congrArg g (eq_mkOut j)).trans (h (j 0) (j 1) (by omega))

end Cert.TripSpec
-- ==== Proof.KernelIdeal.Offs.lean ====
/-
  The closed forms of the inner loops' slice offsets. Each of the 32 counted loops has 128 trips; trip `k` works on row
  `k % 8` and column tile `k / 8`: it reads a 1 × 128 piece of the input scratch at `(k % 8, 128 (k / 8))` and writes two
  1 × 128 pieces of the output scratch, at `(k % 8, 256 (k / 8))` and at `(k % 8, 256 (k / 8) + 128)`. The program computes
  these offsets on 32-bit words (the trip's low three bits, its arithmetic shift by three, products with 128 and 2);
  here they are evaluated at every trip and found equal to the closed forms.
-/
import proofs.«217870_g8959301779661_cont_9to1_m_809_16_alg».proof.Proof.KernelIdeal.Base

set_option Elab.async false

namespace Cert.KernelIdeal.Rep

open Cert.KernelIdeal Cert.KernelIdeal.Gen
open Idealize.ShloMosaic

/-! ### Loop 1 -/

theorem trips_1 : k0_t1_loop.trips = 128 := by decide +kernel
theorem trips_1' : Scf.trips k0_t1_loop.lb k0_t1_loop.ub k0_t1_loop.st = 128 := trips_1
theorem off_eq_3 : ∀ k : Fin k0_t1_loop.trips, k0_off3 k = ![k.val % 8, 128 * (k.val / 8)] := by
  have h : ∀ k : Fin k0_t1_loop.trips, ∀ a, k0_off3 k a = (![k.val % 8, 128 * (k.val / 8)] : Fin 2 → Nat) a := by decide +kernel
  exact fun k => funext (h k)
theorem off_eq_4 : ∀ k : Fin k0_t1_loop.trips, k0_off4 k = ![k.val % 8, 256 * (k.val / 8)] := by
  have h : ∀ k : Fin k0_t1_loop.trips, ∀ a, k0_off4 k a = (![k.val % 8, 256 * (k.val / 8)] : Fin 2 → Nat) a := by decide +kernel
  exact fun k => funext (h k)
theorem off_eq_5 : ∀ k : Fin k0_t1_loop.trips, k0_off5 k = ![k.val % 8, 256 * (k.val / 8)] := by
  have h : ∀ k : Fin k0_t1_loop.trips, ∀ a, k0_off5 k a = (![k.val % 8, 256 * (k.val / 8)] : Fin 2 → Nat) a := by decide +kernel
  exact fun k => funext (h k)
theorem off_eq_6 : ∀ k : Fin k0_t1_loop.trips, k0_off6 k = ![k.val % 8, 256 * (k.val / 8)] := by
  have h : ∀ k : Fin k0_t1_loop.trips, ∀ a, k0_off6 k a = (![k.val % 8, 256 * (k.val / 8)] : Fin 2 → Nat) a := by decide +kernel
  exact fun k => funext (h k)
theorem off_eq_7 : ∀ k : Fin k0_t1_loop.trips, k0_off7 k = ![k.val % 8, 256 * (k.val / 8)] := by
  have h : ∀ k : Fin k0_t1_loop.trips, ∀ a, k0_off7 k a = (![k.val % 8, 256 * (k.val / 8)] : Fin 2 → Nat) a := by decide +kernel
  exact fun k => funext (h k)
theorem off_eq_8 : ∀ k : Fin k0_t1_loop.trips, k0_off8 k = ![k.val % 8, 256 * (k.val / 8)] := by
  have h : ∀ k : Fin k0_t1_loop.trips, ∀ a, k0_off8 k a = (![k.val % 8, 256 * (k.val / 8)] : Fin 2 → Nat) a := by decide +kernel
  exact fun k => funext (h k)
theorem off_eq_9 : ∀ k : Fin k0_t1_loop.trips, k0_off9 k = ![k.val % 8, 256 * (k.val / 8)] := by
  have h : ∀ k : Fin k0_t1_loop.trips, ∀ a, k0_off9 k a = (![k.val % 8, 256 * (k.val / 8)] : Fin 2 → Nat) a := by decide +kernel
  exact fun k => funext (h k)
theorem off_eq_10 : ∀ k : Fin k0_t1_loop.trips, k0_off10 k = ![k.val % 8, 256 * (k.val / 8)] := by
  have h : ∀ k : Fin k0_t1_loop.trips, ∀ a, k0_off10 k a = (![k.val % 8, 256 * (k.val / 8)] : Fin 2 → Nat) a := by decide +kernel
  exact fun k => funext (h k)
theorem off_eq_11 : ∀ k : Fin k0_t1_loop.trips, k0_off11 k = ![k.val % 8, 256 * (k.val / 8)] := by
  have h : ∀ k : Fin k0_t1_loop.trips, ∀ a, k0_off11 k a = (![k.val % 8, 256 * (k.val / 8)] : Fin 2 → Nat) a := by decide +kernel
  exact fun k => funext (h k)
theorem off_eq_12 : ∀ k : Fin k0_t1_loop.trips, k0_off12 k = ![k.val % 8, 256 * (k.val / 8) + 128] := by
  have h : ∀ k : Fin k0_t1_loop.trips, ∀ a, k0_off12 k a = (![k.val % 8, 256 * (k.val / 8) + 128] : Fin 2 → Nat) a := by decide +kernel
  exact fun k => funext (h k)
theorem off_eq_13 : ∀ k : Fin k0_t1_loop.trips, k0_off13 k = ![k.val % 8, 256 * (k.val / 8) + 128] := by
  have h : ∀ k : Fin k0_t1_loop.trips, ∀ a, k0_off13 k a = (![k.val % 8, 256 * (k.val / 8) + 128] : Fin 2 → Nat) a := by decide +kernel
  exact fun k => funext (h k)
theorem off_eq_14 : ∀ k : Fin k0_t1_loop.trips, k0_off14 k = ![k.val % 8, 256 * (k.val / 8) + 128] := by
  have h : ∀ k : Fin k0_t1_loop.trips, ∀ a, k0_off14 k a = (![k.val % 8, 256 * (k.val / 8) + 128] : Fin 2 → Nat) a := by decide +kernel
  exact fun k => funext (h k)
theorem off_eq_15 : ∀ k : Fin k0_t1_loop.trips, k0_off15 k = ![k.val % 8, 256 * (k.val / 8) + 128] := by
  have h : ∀ k : Fin k0_t1_loop.trips, ∀ a, k0_off15 k a = (![k.val % 8, 256 * (k.val / 8) + 128] : Fin 2 → Nat) a := by decide +kernel
  exact fun k => funext (h k)
theorem off_eq_16 : ∀ k : Fin k0_t1_loop.trips, k0_off16 k = ![k.val % 8, 256 * (k.val / 8) + 128] := by
  have h : ∀ k : Fin k0_t1_loop.trips, ∀ a, k0_off16 k a = (![k.val % 8, 256 * (k.val / 8) + 128] : Fin 2 → Nat) a := by decide +kernel
  exact fun k => funext (h k)
theorem off_eq_17 : ∀ k : Fin k0_t1_loop.trips, k0_off17 k = ![k.val % 8, 256 * (k.val / 8) + 128] := by
  have h : ∀ k : Fin k0_t1_loop.trips, ∀ a, k0_off17 k a = (![k.val % 8, 256 * (k.val / 8) + 128] : Fin 2 → Nat) a := by decide +kernel
  exact fun k => funext (h k)
theorem off_eq_18 : ∀ k : Fin k0_t1_loop.trips, k0_off18 k = ![k.val % 8, 256 * (k.val / 8) + 128] := by
  have h : ∀ k : Fin k0_t1_loop.trips, ∀ a, k0_off18 k a = (![k.val % 8, 256 * (k.val / 8) + 128] : Fin 2 → Nat) a := by decide +kernel
  exact fun k => funext (h k)
theorem off_eq_19 : ∀ k : Fin k0_t1_loop.trips, k0_off19 k = ![k.val % 8, 256 * (k.val / 8) + 128] := by
  have h : ∀ k : Fin k0_t1_loop.trips, ∀ a, k0_off19 k a = (![k.val % 8, 256 * (k.val / 8) + 128] : Fin 2 → Nat) a := by decide +kernel
  exact fun k => funext (h k)

/-! ### Loop 2 -/

theorem trips_2 : k0_t2_loop.trips = 128 := by decide +kernel
theorem trips_2' : Scf.trips k0_t2_loop.lb k0_t2_loop.ub k0_t2_loop.st = 128 := trips_2
theorem off_eq_23 : ∀ k : Fin k0_t2_loop.trips, k0_off23 k = ![k.val % 8, 128 * (k.val / 8)] := by
  have h : ∀ k : Fin k0_t2_loop.trips, ∀ a, k0_off23 k a = (![k.val % 8, 128 * (k.val / 8)] : Fin 2 → Nat) a := by decide +kernel
  exact fun k => funext (h k)
theorem off_eq_24 : ∀ k : Fin k0_t2_loop.trips, k0_off24 k = ![k.val % 8, 256 * (k.val / 8)] := by
  have h : ∀ k : Fin k0_t2_loop.trips, ∀ a, k0_off24 k a = (![k.val % 8, 256 * (k.val / 8)] : Fin 2 → Nat) a := by decide +kernel
  exact fun k => funext (h k)
theorem off_eq_25 : ∀ k : Fin k0_t2_loop.trips, k0_off25 k = ![k.val % 8, 256 * (k.val / 8) + 128] := by
  have h : ∀ k : Fin k0_t2_loop.trips, ∀ a, k0_off25 k a = (![k.val % 8, 256 * (k.val / 8) + 128] : Fin 2 → Nat) a := by decide +kernel
  exact fun k => funext (h k)

/-! ### Loop 3 -/

theorem trips_3 : k0_t3_loop.trips = 128 := by decide +kernel
theorem trips_3' : Scf.trips k0_t3_loop.lb k0_t3_loop.ub k0_t3_loop.st = 128 := trips_3
theorem off_eq_27 : ∀ k : Fin k0_t3_loop.trips, k0_off27 k = ![k.val % 8, 128 * (k.val / 8)] := by
  have h : ∀ k : Fin k0_t3_loop.trips, ∀ a, k0_off27 k a = (![k.val % 8, 128 * (k.val / 8)] : Fin 2 → Nat) a := by decide +kernel
  exact fun k => funext (h k)
theorem off_eq_28 : ∀ k : Fin k0_t3_loop.trips, k0_off28 k = ![k.val % 8, 256 * (k.val / 8)] := by
  have h : ∀ k : Fin k0_t3_loop.trips, ∀ a, k0_off28 k a = (![k.val % 8, 256 * (k.val / 8)] : Fin 2 → Nat) a := by decide +kernel
  exact fun k => funext (h k)
theorem off_eq_29 : ∀ k : Fin k0_t3_loop.trips, k0_off29 k = ![k.val % 8, 256 * (k.val / 8) + 128] := by
  have h : ∀ k : Fin k0_t3_loop.trips, ∀ a, k0_off29 k a = (![k.val % 8, 256 * (k.val / 8) + 128] : Fin 2 → Nat) a := by decide +kernel
  exact fun k => funext (h k)

/-! ### Loop 4 -/

theorem trips_4 : k0_t4_loop.trips = 128 := by decide +kernel
theorem trips_4' : Scf.trips k0_t4_loop.lb k0_t4_loop.ub k0_t4_loop.st = 128 := trips_4
theorem off_eq_30 : ∀ k : Fin k0_t4_loop.trips, k0_off30 k = ![k.val % 8, 128 * (k.val / 8)] := by
  have h : ∀ k : Fin k0_t4_loop.trips, ∀ a, k0_off30 k a = (![k.val % 8, 128 * (k.val / 8)] : Fin 2 → Nat) a := by decide +kernel
  exact fun k => funext (h k)
theorem off_eq_31 : ∀ k : Fin k0_t4_loop.trips, k0_off31 k = ![k.val % 8, 256 * (k.val / 8)] := by
  have h : ∀ k : Fin k0_t4_loop.trips, ∀ a, k0_off31 k a = (![k.val % 8, 256 * (k.val / 8)] : Fin 2 → Nat) a := by decide +kernel
  exact fun k => funext (h k)
theorem off_eq_32 : ∀ k : Fin k0_t4_loop.trips, k0_off32 k = ![k.val % 8, 256 * (k.val / 8) + 128] := by
  have h : ∀ k : Fin k0_t4_loop.trips, ∀ a, k0_off32 k a = (![k.val % 8, 256 * (k.val / 8) + 128] : Fin 2 → Nat) a := by decide +kernel
  exact fun k => funext (h k)

/-! ### Loop 5 -/

theorem trips_5 : k0_t5_loop.trips = 128 := by decide +kernel
theorem trips_5' : Scf.trips k0_t5_loop.lb k0_t5_loop.ub k0_t5_loop.st = 128 := trips_5
theorem off_eq_33 : ∀ k : Fin k0_t5_loop.trips, k0_off33 k = ![k.val % 8, 128 * (k.val / 8)] := by
  have h : ∀ k : Fin k0_t5_loop.trips, ∀ a, k0_off33 k a = (![k.val % 8, 128 * (k.val / 8)] : Fin 2 → Nat) a := by decide +kernel
  exact fun k => funext (h k)
theorem off_eq_34 : ∀ k : Fin k0_t5_loop.trips, k0_off34 k = ![k.val % 8, 256 * (k.val / 8)] := by
  have h : ∀ k : Fin k0_t5_loop.trips, ∀ a, k0_off34 k a = (![k.val % 8, 256 * (k.val / 8)] : Fin 2 → Nat) a := by decide +kernel
  exact fun k => funext (h k)
theorem off_eq_35 : ∀ k : Fin k0_t5_loop.trips, k0_off35 k = ![k.val % 8, 256 * (k.val / 8) + 128] := by
  have h : ∀ k : Fin k0_t5_loop.trips, ∀ a, k0_off35 k a = (![k.val % 8, 256 * (k.val / 8) + 128] : Fin 2 → Nat) a := by decide +kernel
  exact fun k => funext (h k)

/-! ### Loop 6 -/

theorem trips_6 : k0_t6_loop.trips = 128 := by decide +kernel
theorem trips_6' : Scf.trips k0_t6_loop.lb k0_t6_loop.ub k0_t6_loop.st = 128 := trips_6
theorem off_eq_36 : ∀ k : Fin k0_t6_loop.trips, k0_off36 k = ![k.val % 8, 128 * (k.val / 8)] := by
  have h : ∀ k : Fin k0_t6_loop.trips, ∀ a, k0_off36 k a = (![k.val % 8, 128 * (k.val / 8)] : Fin 2 → Nat) a := by decide +kernel
  exact fun k => funext (h k)
theorem off_eq_37 : ∀ k : Fin k0_t6_loop.trips, k0_off37 k = ![k.val % 8, 256 * (k.val / 8)] := by
  have h : ∀ k : Fin k0_t6_loop.trips, ∀ a, k0_off37 k a = (![k.val % 8, 256 * (k.val / 8)] : Fin 2 → Nat) a := by decide +kernel
  exact fun k => funext (h k)
theorem off_eq_38 : ∀ k : Fin k0_t6_loop.trips, k0_off38 k = ![k.val % 8, 256 * (k.val / 8) + 128] := by
  have h : ∀ k : Fin k0_t6_loop.trips, ∀ a, k0_off38 k a = (![k.val % 8, 256 * (k.val / 8) + 128] : Fin 2 → Nat) a := by decide +kernel
  exact fun k => funext (h k)

/-! ### Loop 7 -/

theorem trips_7 : k0_t7_loop.trips = 128 := by decide +kernel
theorem trips_7' : Scf.trips k0_t7_loop.lb k0_t7_loop.ub k0_t7_loop.st = 128 := trips_7
theorem off_eq_39 : ∀ k : Fin k0_t7_loop.trips, k0_off39 k = ![k.val % 8, 128 * (k.val / 8)] := by
  have h : ∀ k : Fin k0_t7_loop.trips, ∀ a, k0_off39 k a = (![k.val % 8, 128 * (k.val / 8)] : Fin 2 → Nat) a := by decide +kernel
  exact fun k => funext (h k)
theorem off_eq_40 : ∀ k : Fin k0_t7_loop.trips, k0_off40 k = ![k.val % 8, 256 * (k.val / 8)] := by
  have h : ∀ k : Fin k0_t7_loop.trips, ∀ a, k0_off40 k a = (![k.val % 8, 256 * (k.val / 8)] : Fin 2 → Nat) a := by decide +kernel
  exact fun k => funext (h k)
theorem off_eq_41 : ∀ k : Fin k0_t7_loop.trips, k0_off41 k = ![k.val % 8, 256 * (k.val / 8) + 128] := by
  have h : ∀ k : Fin k0_t7_loop.trips, ∀ a, k0_off41 k a = (![k.val % 8, 256 * (k.val / 8) + 128] : Fin 2 → Nat) a := by decide +kernel
  exact fun k => funext (h k)

/-! ### Loop 8 -/

theorem trips_8 : k0_t8_loop.trips = 128 := by decide +kernel
theorem trips_8' : Scf.trips k0_t8_loop.lb k0_t8_loop.ub k0_t8_loop.st = 128 := trips_8
theorem off_eq_42 : ∀ k : Fin k0_t8_loop.trips, k0_off42 k = ![k.val % 8, 128 * (k.val / 8)] := by
  have h : ∀ k : Fin k0_t8_loop.trips, ∀ a, k0_off42 k a = (![k.val % 8, 128 * (k.val / 8)] : Fin 2 → Nat) a := by decide +kernel
  exact fun k => funext (h k)
theorem off_eq_43 : ∀ k : Fin k0_t8_loop.trips, k0_off43 k = ![k.val % 8, 256 * (k.val / 8)] := by
  have h : ∀ k : Fin k0_t8_loop.trips, ∀ a, k0_off43 k a = (![k.val % 8, 256 * (k.val / 8)] : Fin 2 → Nat) a := by decide +kernel
  exact fun k => funext (h k)
theorem off_eq_44 : ∀ k : Fin k0_t8_loop.trips, k0_off44 k = ![k.val % 8, 256 * (k.val / 8) + 128] := by
  have h : ∀ k : Fin k0_t8_loop.trips, ∀ a, k0_off44 k a = (![k.val % 8, 256 * (k.val / 8) + 128] : Fin 2 → Nat) a := by decide +kernel
  exact fun k => funext (h k)

/-! ### Loop 9 -/

theorem trips_9 : k0_t9_loop.trips = 128 := by decide +kernel
theorem trips_9' : Scf.trips k0_t9_loop.lb k0_t9_loop.ub k0_t9_loop.st = 128 := trips_9
theorem off_eq_45 : ∀ k : Fin k0_t9_loop.trips, k0_off45 k = ![k.val % 8, 128 * (k.val / 8)] := by
  have h : ∀ k : Fin k0_t9_loop.trips, ∀ a, k0_off45 k a = (![k.val % 8, 128 * (k.val / 8)] : Fin 2 → Nat) a := by decide +kernel
  exact fun k => funext (h k)
theorem off_eq_46 : ∀ k : Fin k0_t9_loop.trips, k0_off46 k = ![k.val % 8, 256 * (k.val / 8)] := by
  have h : ∀ k : Fin k0_t9_loop.trips, ∀ a, k0_off46 k a = (![k.val % 8, 256 * (k.val / 8)] : Fin 2 → Nat) a := by decide +kernel
  exact fun k => funext (h k)
theorem off_eq_47 : ∀ k : Fin k0_t9_loop.trips, k0_off47 k = ![k.val % 8, 256 * (k.val / 8) + 128] := by
  have h : ∀ k : Fin k0_t9_loop.trips, ∀ a, k0_off47 k a = (![k.val % 8, 256 * (k.val / 8) + 128] : Fin 2 → Nat) a := by decide +kernel
  exact fun k => funext (h k)

/-! ### Loop 10 -/

theorem trips_10 : k0_t10_loop.trips = 128 := by decide +kernel
theorem trips_10' : Scf.trips k0_t10_loop.lb k0_t10_loop.ub k0_t10_loop.st = 128 := trips_10
theorem off_eq_48 : ∀ k : Fin k0_t10_loop.trips, k0_off48 k = ![k.val % 8, 128 * (k.val / 8)] := by
  have h : ∀ k : Fin k0_t10_loop.trips, ∀ a, k0_off48 k a = (![k.val % 8, 128 * (k.val / 8)] : Fin 2 → Nat) a := by decide +kernel
  exact fun k => funext (h k)
theorem off_eq_49 : ∀ k : Fin k0_t10_loop.trips, k0_off49 k = ![k.val % 8, 256 * (k.val / 8)] := by
  have h : ∀ k : Fin k0_t10_loop.trips, ∀ a, k0_off49 k a = (![k.val % 8, 256 * (k.val / 8)] : Fin 2 → Nat) a := by decide +kernel
  exact fun k => funext (h k)
theorem off_eq_50 : ∀ k : Fin k0_t10_loop.trips, k0_off50 k = ![k.val % 8, 256 * (k.val / 8) + 128] := by
  have h : ∀ k : Fin k0_t10_loop.trips, ∀ a, k0_off50 k a = (![k.val % 8, 256 * (k.val / 8) + 128] : Fin 2 → Nat) a := by decide +kernel
  exact fun k => funext (h k)

/-! ### Loop 11 -/

theorem trips_11 : k0_t11_loop.trips = 128 := by decide +kernel
theorem trips_11' : Scf.trips k0_t11_loop.lb k0_t11_loop.ub k0_t11_loop.st = 128 := trips_11
theorem off_eq_51 : ∀ k : Fin k0_t11_loop.trips, k0_off51 k = ![k.val % 8, 128 * (k.val / 8)] := by
  have h : ∀ k : Fin k0_t11_loop.trips, ∀ a, k0_off51 k a = (![k.val % 8, 128 * (k.val / 8)] : Fin 2 → Nat) a := by decide +kernel
  exact fun k => funext (h k)
theorem off_eq_52 : ∀ k : Fin k0_t11_loop.trips, k0_off52 k = ![k.val % 8, 256 * (k.val / 8)] := by
  have h : ∀ k : Fin k0_t11_loop.trips, ∀ a, k0_off52 k a = (![k.val % 8, 256 * (k.val / 8)] : Fin 2 → Nat) a := by decide +kernel
  exact fun k => funext (h k)
theorem off_eq_53 : ∀ k : Fin k0_t11_loop.trips, k0_off53 k = ![k.val % 8, 256 * (k.val / 8) + 128] := by
  have h : ∀ k : Fin k0_t11_loop.trips, ∀ a, k0_off53 k a = (![k.val % 8, 256 * (k.val / 8) + 128] : Fin 2 → Nat) a := by decide +kernel
  exact fun k => funext (h k)

/-! ### Loop 12 -/

theorem trips_12 : k0_t12_loop.trips = 128 := by decide +kernel
theorem trips_12' : Scf.trips k0_t12_loop.lb k0_t12_loop.ub k0_t12_loop.st = 128 := trips_12
theorem off_eq_54 : ∀ k : Fin k0_t12_loop.trips, k0_off54 k = ![k.val % 8, 128 * (k.val / 8)] := by
  have h : ∀ k : Fin k0_t12_loop.trips, ∀ a, k0_off54 k a = (![k.val % 8, 128 * (k.val / 8)] : Fin 2 → Nat) a := by decide +kernel
  exact fun k => funext (h k)
theorem off_eq_55 : ∀ k : Fin k0_t12_loop.trips, k0_off55 k = ![k.val % 8, 256 * (k.val / 8)] := by
  have h : ∀ k : Fin k0_t12_loop.trips, ∀ a, k0_off55 k a = (![k.val % 8, 256 * (k.val / 8)] : Fin 2 → Nat) a := by decide +kernel
  exact fun k => funext (h k)
theorem off_eq_56 : ∀ k : Fin k0_t12_loop.trips, k0_off56 k = ![k.val % 8, 256 * (k.val / 8) + 128] := by
  have h : ∀ k : Fin k0_t12_loop.trips, ∀ a, k0_off56 k a = (![k.val % 8, 256 * (k.val / 8) + 128] : Fin 2 → Nat) a := by decide +kernel
  exact fun k => funext (h k)

/-! ### Loop 13 -/

theorem trips_13 : k0_t13_loop.trips = 128 := by decide +kernel
theorem trips_13' : Scf.trips k0_t13_loop.lb k0_t13_loop.ub k0_t13_loop.st = 128 := trips_13
theorem off_eq_57 : ∀ k : Fin k0_t13_loop.trips, k0_off57 k = ![k.val % 8, 128 * (k.val / 8)] := by
  have h : ∀ k : Fin k0_t13_loop.trips, ∀ a, k0_off57 k a = (![k.val % 8, 128 * (k.val / 8)] : Fin 2 → Nat) a := by decide +kernel
  exact fun k => funext (h k)
theorem off_eq_58 : ∀ k : Fin k0_t13_loop.trips, k0_off58 k = ![k.val % 8, 256 * (k.val / 8)] := by
  have h : ∀ k : Fin k0_t13_loop.trips, ∀ a, k0_off58 k a = (![k.val % 8, 256 * (k.val / 8)] : Fin 2 → Nat) a := by decide +kernel
  exact fun k => funext (h k)
theorem off_eq_59 : ∀ k : Fin k0_t13_loop.trips, k0_off59 k = ![k.val % 8, 256 * (k.val / 8) + 128] := by
  have h : ∀ k : Fin k0_t13_loop.trips, ∀ a, k0_off59 k a = (![k.val % 8, 256 * (k.val / 8) + 128] : Fin 2 → Nat) a := by decide +kernel
  exact fun k => funext (h k)

/-! ### Loop 14 -/

theorem trips_14 : k0_t14_loop.trips = 128 := by decide +kernel
theorem trips_14' : Scf.trips k0_t14_loop.lb k0_t14_loop.ub k0_t14_loop.st = 128 := trips_14
theorem off_eq_60 : ∀ k : Fin k0_t14_loop.trips, k0_off60 k = ![k.val % 8, 128 * (k.val / 8)] := by
  have h : ∀ k : Fin k0_t14_loop.trips, ∀ a, k0_off60 k a = (![k.val % 8, 128 * (k.val / 8)] : Fin 2 → Nat) a := by decide +kernel
  exact fun k => funext (h k)
theorem off_eq_61 : ∀ k : Fin k0_t14_loop.trips, k0_off61 k = ![k.val % 8, 256 * (k.val / 8)] := by
  have h : ∀ k : Fin k0_t14_loop.trips, ∀ a, k0_off61 k a = (![k.val % 8, 256 * (k.val / 8)] : Fin 2 → Nat) a := by decide +kernel
  exact fun k => funext (h k)
theorem off_eq_62 : ∀ k : Fin k0_t14_loop.trips, k0_off62 k = ![k.val % 8, 256 * (k.val / 8) + 128] := by
  have h : ∀ k : Fin k0_t14_loop.trips, ∀ a, k0_off62 k a = (![k.val % 8, 256 * (k.val / 8) + 128] : Fin 2 → Nat) a := by decide +kernel
  exact fun k => funext (h k)

/-! ### Loop 15 -/

theorem trips_15 : k0_t15_loop.trips = 128 := by decide +kernel
theorem trips_15' : Scf.trips k0_t15_loop.lb k0_t15_loop.ub k0_t15_loop.st = 128 := trips_15
theorem off_eq_63 : ∀ k : Fin k0_t15_loop.trips, k0_off63 k = ![k.val % 8, 128 * (k.val / 8)] := by
  have h : ∀ k : Fin k0_t15_loop.trips, ∀ a, k0_off63 k a = (![k.val % 8, 128 * (k.val / 8)] : Fin 2 → Nat) a := by decide +kernel
  exact fun k => funext (h k)
theorem off_eq_64 : ∀ k : Fin k0_t15_loop.trips, k0_off64 k = ![k.val % 8, 256 * (k.val / 8)] := by
  have h : ∀ k : Fin k0_t15_loop.trips, ∀ a, k0_off64 k a = (![k.val % 8, 256 * (k.val / 8)] : Fin 2 → Nat) a := by decide +kernel
  exact fun k => funext (h k)
theorem off_eq_65 : ∀ k : Fin k0_t15_loop.trips, k0_off65 k = ![k.val % 8, 256 * (k.val / 8) + 128] := by
  have h : ∀ k : Fin k0_t15_loop.trips, ∀ a, k0_off65 k a = (![k.val % 8, 256 * (k.val / 8) + 128] : Fin 2 → Nat) a := by decide +kernel
  exact fun k => funext (h k)

/-! ### Loop 16 -/

theorem trips_16 : k0_t16_loop.trips = 128 := by decide +kernel
theorem trips_16' : Scf.trips k0_t16_loop.lb k0_t16_loop.ub k0_t16_loop.st = 128 := trips_16
theorem off_eq_66 : ∀ k : Fin k0_t16_loop.trips, k0_off66 k = ![k.val % 8, 128 * (k.val / 8)] := by
  have h : ∀ k : Fin k0_t16_loop.trips, ∀ a, k0_off66 k a = (![k.val % 8, 128 * (k.val / 8)] : Fin 2 → Nat) a := by decide +kernel
  exact fun k => funext (h k)
theorem off_eq_67 : ∀ k : Fin k0_t16_loop.trips, k0_off67 k = ![k.val % 8, 256 * (k.val / 8)] := by
  have h : ∀ k : Fin k0_t16_loop.trips, ∀ a, k0_off67 k a = (![k.val % 8, 256 * (k.val / 8)] : Fin 2 → Nat) a := by decide +kernel
  exact fun k => funext (h k)
theorem off_eq_68 : ∀ k : Fin k0_t16_loop.trips, k0_off68 k = ![k.val % 8, 256 * (k.val / 8) + 128] := by
  have h : ∀ k : Fin k0_t16_loop.trips, ∀ a, k0_off68 k a = (![k.val % 8, 256 * (k.val / 8) + 128] : Fin 2 → Nat) a := by decide +kernel
  exact fun k => funext (h k)

/-! ### Loop 17 -/

theorem trips_17 : k0_t17_loop.trips = 128 := by decide +kernel
theorem trips_17' : Scf.trips k0_t17_loop.lb k0_t17_loop.ub k0_t17_loop.st = 128 := trips_17
theorem off_eq_69 : ∀ k : Fin k0_t17_loop.trips, k0_off69 k = ![k.val % 8, 128 * (k.val / 8)] := by
  have h : ∀ k : Fin k0_t17_loop.trips, ∀ a, k0_off69 k a = (![k.val % 8, 128 * (k.val / 8)] : Fin 2 → Nat) a := by decide +kernel
  exact fun k => funext (h k)
theorem off_eq_70 : ∀ k : Fin k0_t17_loop.trips, k0_off70 k = ![k.val % 8, 256 * (k.val / 8)] := by
  have h : ∀ k : Fin k0_t17_loop.trips, ∀ a, k0_off70 k a = (![k.val % 8, 256 * (k.val / 8)] : Fin 2 → Nat) a := by decide +kernel
  exact fun k => funext (h k)
theorem off_eq_71 : ∀ k : Fin k0_t17_loop.trips, k0_off71 k = ![k.val % 8, 256 * (k.val / 8) + 128] := by
  have h : ∀ k : Fin k0_t17_loop.trips, ∀ a, k0_off71 k a = (![k.val % 8, 256 * (k.val / 8) + 128] : Fin 2 → Nat) a := by decide +kernel
  exact fun k => funext (h k)

/-! ### Loop 18 -/

theorem trips_18 : k0_t18_loop.trips = 128 := by decide +kernel
theorem trips_18' : Scf.trips k0_t18_loop.lb k0_t18_loop.ub k0_t18_loop.st = 128 := trips_18
theorem off_eq_72 : ∀ k : Fin k0_t18_loop.trips, k0_off72 k = ![k.val % 8, 128 * (k.val / 8)] := by
  have h : ∀ k : Fin k0_t18_loop.trips, ∀ a, k0_off72 k a = (![k.val % 8, 128 * (k.val / 8)] : Fin 2 → Nat) a := by decide +kernel
  exact fun k => funext (h k)
theorem off_eq_73 : ∀ k : Fin k0_t18_loop.trips, k0_off73 k = ![k.val % 8, 256 * (k.val / 8)] := by
  have h : ∀ k : Fin k0_t18_loop.trips, ∀ a, k0_off73 k a = (![k.val % 8, 256 * (k.val / 8)] : Fin 2 → Nat) a := by decide +kernel
  exact fun k => funext (h k)
theorem off_eq_74 : ∀ k : Fin k0_t18_loop.trips, k0_off74 k = ![k.val % 8, 256 * (k.val / 8) + 128] := by
  have h : ∀ k : Fin k0_t18_loop.trips, ∀ a, k0_off74 k a = (![k.val % 8, 256 * (k.val / 8) + 128] : Fin 2 → Nat) a := by decide +kernel
  exact fun k => funext (h k)

/-! ### Loop 19 -/

theorem trips_19 : k0_t19_loop.trips = 128 := by decide +kernel
theorem trips_19' : Scf.trips k0_t19_loop.lb k0_t19_loop.ub k0_t19_loop.st = 128 := trips_19
theorem off_eq_75 : ∀ k : Fin k0_t19_loop.trips, k0_off75 k = ![k.val % 8, 128 * (k.val / 8)] := by
  have h : ∀ k : Fin k0_t19_loop.trips, ∀ a, k0_off75 k a = (![k.val % 8, 128 * (k.val / 8)] : Fin 2 → Nat) a := by decide +kernel
  exact fun k => funext (h k)
theorem off_eq_76 : ∀ k : Fin k0_t19_loop.trips, k0_off76 k = ![k.val % 8, 256 * (k.val / 8)] := by
  have h : ∀ k : Fin k0_t19_loop.trips, ∀ a, k0_off76 k a = (![k.val % 8, 256 * (k.val / 8)] : Fin 2 → Nat) a := by decide +kernel
  exact fun k => funext (h k)
theorem off_eq_77 : ∀ k : Fin k0_t19_loop.trips, k0_off77 k = ![k.val % 8, 256 * (k.val / 8) + 128] := by
  have h : ∀ k : Fin k0_t19_loop.trips, ∀ a, k0_off77 k a = (![k.val % 8, 256 * (k.val / 8) + 128] : Fin 2 → Nat) a := by decide +kernel
  exact fun k => funext (h k)

/-! ### Loop 20 -/

theorem trips_20 : k0_t20_loop.trips = 128 := by decide +kernel
theorem trips_20' : Scf.trips k0_t20_loop.lb k0_t20_loop.ub k0_t20_loop.st = 128 := trips_20
theorem off_eq_78 : ∀ k : Fin k0_t20_loop.trips, k0_off78 k = ![k.val % 8, 128 * (k.val / 8)] := by
  have h : ∀ k : Fin k0_t20_loop.trips, ∀ a, k0_off78 k a = (![k.val % 8, 128 * (k.val / 8)] : Fin 2 → Nat) a := by decide +kernel
  exact fun k => funext (h k)
theorem off_eq_79 : ∀ k : Fin k0_t20_loop.trips, k0_off79 k = ![k.val % 8, 256 * (k.val / 8)] := by
  have h : ∀ k : Fin k0_t20_loop.trips, ∀ a, k0_off79 k a = (![k.val % 8, 256 * (k.val / 8)] : Fin 2 → Nat) a := by decide +kernel
  exact fun k => funext (h k)
theorem off_eq_80 : ∀ k : Fin k0_t20_loop.trips, k0_off80 k = ![k.val % 8, 256 * (k.val / 8) + 128] := by
  have h : ∀ k : Fin k0_t20_loop.trips, ∀ a, k0_off80 k a = (![k.val % 8, 256 * (k.val / 8) + 128] : Fin 2 → Nat) a := by decide +kernel
  exact fun k => funext (h k)

/-! ### Loop 21 -/

theorem trips_21 : k0_t21_loop.trips = 128 := by decide +kernel
theorem trips_21' : Scf.trips k0_t21_loop.lb k0_t21_loop.ub k0_t21_loop.st = 128 := trips_21
theorem off_eq_81 : ∀ k : Fin k0_t21_loop.trips, k0_off81 k = ![k.val % 8, 128 * (k.val / 8)] := by
  have h : ∀ k : Fin k0_t21_loop.trips, ∀ a, k0_off81 k a = (![k.val % 8, 128 * (k.val / 8)] : Fin 2 → Nat) a := by decide +kernel
  exact fun k => funext (h k)
theorem off_eq_82 : ∀ k : Fin k0_t21_loop.trips, k0_off82 k = ![k.val % 8, 256 * (k.val / 8)] := by
  have h : ∀ k : Fin k0_t21_loop.trips, ∀ a, k0_off82 k a = (![k.val % 8, 256 * (k.val / 8)] : Fin 2 → Nat) a := by decide +kernel
  exact fun k => funext (h k)
theorem off_eq_83 : ∀ k : Fin k0_t21_loop.trips, k0_off83 k = ![k.val % 8, 256 * (k.val / 8) + 128] := by
  have h : ∀ k : Fin k0_t21_loop.trips, ∀ a, k0_off83 k a = (![k.val % 8, 256 * (k.val / 8) + 128] : Fin 2 → Nat) a := by decide +kernel
  exact fun k => funext (h k)

/-! ### Loop 22 -/

theorem trips_22 : k0_t22_loop.trips = 128 := by decide +kernel
theorem trips_22' : Scf.trips k0_t22_loop.lb k0_t22_loop.ub k0_t22_loop.st = 128 := trips_22
theorem off_eq_84 : ∀ k : Fin k0_t22_loop.trips, k0_off84 k = ![k.val % 8, 128 * (k.val / 8)] := by
  have h : ∀ k : Fin k0_t22_loop.trips, ∀ a, k0_off84 k a = (![k.val % 8, 128 * (k.val / 8)] : Fin 2 → Nat) a := by decide +kernel
  exact fun k => funext (h k)
theorem off_eq_85 : ∀ k : Fin k0_t22_loop.trips, k0_off85 k = ![k.val % 8, 256 * (k.val / 8)] := by
  have h : ∀ k : Fin k0_t22_loop.trips, ∀ a, k0_off85 k a = (![k.val % 8, 256 * (k.val / 8)] : Fin 2 → Nat) a := by decide +kernel
  exact fun k => funext (h k)
theorem off_eq_86 : ∀ k : Fin k0_t22_loop.trips, k0_off86 k = ![k.val % 8, 256 * (k.val / 8) + 128] := by
  have h : ∀ k : Fin k0_t22_loop.trips, ∀ a, k0_off86 k a = (![k.val % 8, 256 * (k.val / 8) + 128] : Fin 2 → Nat) a := by decide +kernel
  exact fun k => funext (h k)

/-! ### Loop 23 -/

theorem trips_23 : k0_t23_loop.trips = 128 := by decide +kernel
theorem trips_23' : Scf.trips k0_t23_loop.lb k0_t23_loop.ub k0_t23_loop.st = 128 := trips_23
theorem off_eq_87 : ∀ k : Fin k0_t23_loop.trips, k0_off87 k = ![k.val % 8, 128 * (k.val / 8)] := by
  have h : ∀ k : Fin k0_t23_loop.trips, ∀ a, k0_off87 k a = (![k.val % 8, 128 * (k.val / 8)] : Fin 2 → Nat) a := by decide +kernel
  exact fun k => funext (h k)
theorem off_eq_88 : ∀ k : Fin k0_t23_loop.trips, k0_off88 k = ![k.val % 8, 256 * (k.val / 8)] := by
  have h : ∀ k : Fin k0_t23_loop.trips, ∀ a, k0_off88 k a = (![k.val % 8, 256 * (k.val / 8)] : Fin 2 → Nat) a := by decide +kernel
  exact fun k => funext (h k)
theorem off_eq_89 : ∀ k : Fin k0_t23_loop.trips, k0_off89 k = ![k.val % 8, 256 * (k.val / 8) + 128] := by
  have h : ∀ k : Fin k0_t23_loop.trips, ∀ a, k0_off89 k a = (![k.val % 8, 256 * (k.val / 8) + 128] : Fin 2 → Nat) a := by decide +kernel
  exact fun k => funext (h k)

/-! ### Loop 24 -/

theorem trips_24 : k0_t24_loop.trips = 128 := by decide +kernel
theorem trips_24' : Scf.trips k0_t24_loop.lb k0_t24_loop.ub k0_t24_loop.st = 128 := trips_24
theorem off_eq_90 : ∀ k : Fin k0_t24_loop.trips, k0_off90 k = ![k.val % 8, 128 * (k.val / 8)] := by
  have h : ∀ k : Fin k0_t24_loop.trips, ∀ a, k0_off90 k a = (![k.val % 8, 128 * (k.val / 8)] : Fin 2 → Nat) a := by decide +kernel
  exact fun k => funext (h k)
theorem off_eq_91 : ∀ k : Fin k0_t24_loop.trips, k0_off91 k = ![k.val % 8, 256 * (k.val / 8)] := by
  have h : ∀ k : Fin k0_t24_loop.trips, ∀ a, k0_off91 k a = (![k.val % 8, 256 * (k.val / 8)] : Fin 2 → Nat) a := by decide +kernel
  exact fun k => funext (h k)
theorem off_eq_92 : ∀ k : Fin k0_t24_loop.trips, k0_off92 k = ![k.val % 8, 256 * (k.val / 8) + 128] := by
  have h : ∀ k : Fin k0_t24_loop.trips, ∀ a, k0_off92 k a = (![k.val % 8, 256 * (k.val / 8) + 128] : Fin 2 → Nat) a := by decide +kernel
  exact fun k => funext (h k)

/-! ### Loop 25 -/

theorem trips_25 : k0_t25_loop.trips = 128 := by decide +kernel
theorem trips_25' : Scf.trips k0_t25_loop.lb k0_t25_loop.ub k0_t25_loop.st = 128 := trips_25
theorem off_eq_93 : ∀ k : Fin k0_t25_loop.trips, k0_off93 k = ![k.val % 8, 128 * (k.val / 8)] := by
  have h : ∀ k : Fin k0_t25_loop.trips, ∀ a, k0_off93 k a = (![k.val % 8, 128 * (k.val / 8)] : Fin 2 → Nat) a := by decide +kernel
  exact fun k => funext (h k)
theorem off_eq_94 : ∀ k : Fin k0_t25_loop.trips, k0_off94 k = ![k.val % 8, 256 * (k.val / 8)] := by
  have h : ∀ k : Fin k0_t25_loop.trips, ∀ a, k0_off94 k a = (![k.val % 8, 256 * (k.val / 8)] : Fin 2 → Nat) a := by decide +kernel
  exact fun k => funext (h k)
theorem off_eq_95 : ∀ k : Fin k0_t25_loop.trips, k0_off95 k = ![k.val % 8, 256 * (k.val / 8) + 128] := by
  have h : ∀ k : Fin k0_t25_loop.trips, ∀ a, k0_off95 k a = (![k.val % 8, 256 * (k.val / 8) + 128] : Fin 2 → Nat) a := by decide +kernel
  exact fun k => funext (h k)

/-! ### Loop 26 -/

theorem trips_26 : k0_t26_loop.trips = 128 := by decide +kernel
theorem trips_26' : Scf.trips k0_t26_loop.lb k0_t26_loop.ub k0_t26_loop.st = 128 := trips_26
theorem off_eq_96 : ∀ k : Fin k0_t26_loop.trips, k0_off96 k = ![k.val % 8, 128 * (k.val / 8)] := by
  have h : ∀ k : Fin k0_t26_loop.trips, ∀ a, k0_off96 k a = (![k.val % 8, 128 * (k.val / 8)] : Fin 2 → Nat) a := by decide +kernel
  exact fun k => funext (h k)
theorem off_eq_97 : ∀ k : Fin k0_t26_loop.trips, k0_off97 k = ![k.val % 8, 256 * (k.val / 8)] := by
  have h : ∀ k : Fin k0_t26_loop.trips, ∀ a, k0_off97 k a = (![k.val % 8, 256 * (k.val / 8)] : Fin 2 → Nat) a := by decide +kernel
  exact fun k => funext (h k)
theorem off_eq_98 : ∀ k : Fin k0_t26_loop.trips, k0_off98 k = ![k.val % 8, 256 * (k.val / 8) + 128] := by
  have h : ∀ k : Fin k0_t26_loop.trips, ∀ a, k0_off98 k a = (![k.val % 8, 256 * (k.val / 8) + 128] : Fin 2 → Nat) a := by decide +kernel
  exact fun k => funext (h k)

/-! ### Loop 27 -/

theorem trips_27 : k0_t27_loop.trips = 128 := by decide +kernel
theorem trips_27' : Scf.trips k0_t27_loop.lb k0_t27_loop.ub k0_t27_loop.st = 128 := trips_27
theorem off_eq_99 : ∀ k : Fin k0_t27_loop.trips, k0_off99 k = ![k.val % 8, 128 * (k.val / 8)] := by
  have h : ∀ k : Fin k0_t27_loop.trips, ∀ a, k0_off99 k a = (![k.val % 8, 128 * (k.val / 8)] : Fin 2 → Nat) a := by decide +kernel
  exact fun k => funext (h k)
theorem off_eq_100 : ∀ k : Fin k0_t27_loop.trips, k0_off100 k = ![k.val % 8, 256 * (k.val / 8)] := by
  have h : ∀ k : Fin k0_t27_loop.trips, ∀ a, k0_off100 k a = (![k.val % 8, 256 * (k.val / 8)] : Fin 2 → Nat) a := by decide +kernel
  exact fun k => funext (h k)
theorem off_eq_101 : ∀ k : Fin k0_t27_loop.trips, k0_off101 k = ![k.val % 8, 256 * (k.val / 8) + 128] := by
  have h : ∀ k : Fin k0_t27_loop.trips, ∀ a, k0_off101 k a = (![k.val % 8, 256 * (k.val / 8) + 128] : Fin 2 → Nat) a := by decide +kernel
  exact fun k => funext (h k)

/-! ### Loop 28 -/

theorem trips_28 : k0_t28_loop.trips = 128 := by decide +kernel
theorem trips_28' : Scf.trips k0_t28_loop.lb k0_t28_loop.ub k0_t28_loop.st = 128 := trips_28
theorem off_eq_102 : ∀ k : Fin k0_t28_loop.trips, k0_off102 k = ![k.val % 8, 128 * (k.val / 8)] := by
  have h : ∀ k : Fin k0_t28_loop.trips, ∀ a, k0_off102 k a = (![k.val % 8, 128 * (k.val / 8)] : Fin 2 → Nat) a := by decide +kernel
  exact fun k => funext (h k)
theorem off_eq_103 : ∀ k : Fin k0_t28_loop.trips, k0_off103 k = ![k.val % 8, 256 * (k.val / 8)] := by
  have h : ∀ k : Fin k0_t28_loop.trips, ∀ a, k0_off103 k a = (![k.val % 8, 256 * (k.val / 8)] : Fin 2 → Nat) a := by decide +kernel
  exact fun k => funext (h k)
theorem off_eq_104 : ∀ k : Fin k0_t28_loop.trips, k0_off104 k = ![k.val % 8, 256 * (k.val / 8) + 128] := by
  have h : ∀ k : Fin k0_t28_loop.trips, ∀ a, k0_off104 k a = (![k.val % 8, 256 * (k.val / 8) + 128] : Fin 2 → Nat) a := by decide +kernel
  exact fun k => funext (h k)

/-! ### Loop 29 -/

theorem trips_29 : k0_t29_loop.trips = 128 := by decide +kernel
theorem trips_29' : Scf.trips k0_t29_loop.lb k0_t29_loop.ub k0_t29_loop.st = 128 := trips_29
theorem off_eq_105 : ∀ k : Fin k0_t29_loop.trips, k0_off105 k = ![k.val % 8, 128 * (k.val / 8)] := by
  have h : ∀ k : Fin k0_t29_loop.trips, ∀ a, k0_off105 k a = (![k.val % 8, 128 * (k.val / 8)] : Fin 2 → Nat) a := by decide +kernel
  exact fun k => funext (h k)
theorem off_eq_106 : ∀ k : Fin k0_t29_loop.trips, k0_off106 k = ![k.val % 8, 256 * (k.val / 8)] := by
  have h : ∀ k : Fin k0_t29_loop.trips, ∀ a, k0_off106 k a = (![k.val % 8, 256 * (k.val / 8)] : Fin 2 → Nat) a := by decide +kernel
  exact fun k => funext (h k)
theorem off_eq_107 : ∀ k : Fin k0_t29_loop.trips, k0_off107 k = ![k.val % 8, 256 * (k.val / 8) + 128] := by
  have h : ∀ k : Fin k0_t29_loop.trips, ∀ a, k0_off107 k a = (![k.val % 8, 256 * (k.val / 8) + 128] : Fin 2 → Nat) a := by decide +kernel
  exact fun k => funext (h k)

/-! ### Loop 30 -/

theorem trips_30 : k0_t30_loop.trips = 128 := by decide +kernel
theorem trips_30' : Scf.trips k0_t30_loop.lb k0_t30_loop.ub k0_t30_loop.st = 128 := trips_30
theorem off_eq_108 : ∀ k : Fin k0_t30_loop.trips, k0_off108 k = ![k.val % 8, 128 * (k.val / 8)] := by
  have h : ∀ k : Fin k0_t30_loop.trips, ∀ a, k0_off108 k a = (![k.val % 8, 128 * (k.val / 8)] : Fin 2 → Nat) a := by decide +kernel
  exact fun k => funext (h k)
theorem off_eq_109 : ∀ k : Fin k0_t30_loop.trips, k0_off109 k = ![k.val % 8, 256 * (k.val / 8)] := by
  have h : ∀ k : Fin k0_t30_loop.trips, ∀ a, k0_off109 k a = (![k.val % 8, 256 * (k.val / 8)] : Fin 2 → Nat) a := by decide +kernel
  exact fun k => funext (h k)
theorem off_eq_110 : ∀ k : Fin k0_t30_loop.trips, k0_off110 k = ![k.val % 8, 256 * (k.val / 8) + 128] := by
  have h : ∀ k : Fin k0_t30_loop.trips, ∀ a, k0_off110 k a = (![k.val % 8, 256 * (k.val / 8) + 128] : Fin 2 → Nat) a := by decide +kernel
  exact fun k => funext (h k)

/-! ### Loop 31 -/

theorem trips_31 : k0_t31_loop.trips = 128 := by decide +kernel
theorem trips_31' : Scf.trips k0_t31_loop.lb k0_t31_loop.ub k0_t31_loop.st = 128 := trips_31
theorem off_eq_111 : ∀ k : Fin k0_t31_loop.trips, k0_off111 k = ![k.val % 8, 128 * (k.val / 8)] := by
  have h : ∀ k : Fin k0_t31_loop.trips, ∀ a, k0_off111 k a = (![k.val % 8, 128 * (k.val / 8)] : Fin 2 → Nat) a := by decide +kernel
  exact fun k => funext (h k)
theorem off_eq_112 : ∀ k : Fin k0_t31_loop.trips, k0_off112 k = ![k.val % 8, 256 * (k.val / 8)] := by
  have h : ∀ k : Fin k0_t31_loop.trips, ∀ a, k0_off112 k a = (![k.val % 8, 256 * (k.val / 8)] : Fin 2 → Nat) a := by decide +kernel
  exact fun k => funext (h k)
theorem off_eq_113 : ∀ k : Fin k0_t31_loop.trips, k0_off113 k = ![k.val % 8, 256 * (k.val / 8) + 128] := by
  have h : ∀ k : Fin k0_t31_loop.trips, ∀ a, k0_off113 k a = (![k.val % 8, 256 * (k.val / 8) + 128] : Fin 2 → Nat) a := by decide +kernel
  exact fun k => funext (h k)

/-! ### Loop 32 -/

theorem trips_32 : k0_t32_loop.trips = 128 := by decide +kernel
theorem trips_32' : Scf.trips k0_t32_loop.lb k0_t32_loop.ub k0_t32_loop.st = 128 := trips_32
theorem off_eq_114 : ∀ k : Fin k0_t32_loop.trips, k0_off114 k = ![k.val % 8, 128 * (k.val / 8)] := by
  have h : ∀ k : Fin k0_t32_loop.trips, ∀ a, k0_off114 k a = (![k.val % 8, 128 * (k.val / 8)] : Fin 2 → Nat) a := by decide +kernel
  exact fun k => funext (h k)
theorem off_eq_115 : ∀ k : Fin k0_t32_loop.trips, k0_off115 k = ![k.val % 8, 256 * (k.val / 8)] := by
  have h : ∀ k : Fin k0_t32_loop.trips, ∀ a, k0_off115 k a = (![k.val % 8, 256 * (k.val / 8)] : Fin 2 → Nat) a := by decide +kernel
  exact fun k => funext (h k)
theorem off_eq_116 : ∀ k : Fin k0_t32_loop.trips, k0_off116 k = ![k.val % 8, 256 * (k.val / 8) + 128] := by
  have h : ∀ k : Fin k0_t32_loop.trips, ∀ a, k0_off116 k a = (![k.val % 8, 256 * (k.val / 8) + 128] : Fin 2 → Nat) a := by decide +kernel
  exact fun k => funext (h k)

end Cert.KernelIdeal.Rep
-- ==== Proof.KernelIdeal.Glue.lean ====
/-
  Where the elements a tile's loads, indexed stores and copies touch sit in the arrays, as plain arithmetic on rows and
  columns. A row segment of 128 of a scratch array, addressed as a vector of 128, puts its position `p` at the segment's
  row and at the segment's first column plus `p`; an indexed store through it is a set of point writes at the columns
  the index vector names; a 16-lane load through it reads 16 consecutive columns; the copy into an input slot lands a
  window of the 4096 × 4096 array, and the copy out of an output slot that holds its input slot repeated lands the
  repeated array's values on the chunk.
-/
import proofs.«217870_g8959301779661_cont_9to1_m_809_16_alg».proof.Proof.KernelIdeal.Base
import proofs.«217870_g8959301779661_cont_9to1_m_809_16_alg».proof.Proof.Scatter
import proofs.«217870_g8959301779661_cont_9to1_m_809_16_alg».proof.Proof.TripSpec

noncomputable section

namespace Cert.KernelIdeal.Rep

open Cert.KernelIdeal Cert.KernelIdeal.Gen

open Idealize.ShloMosaic
open Idealize.ShloMosaic.SparseCore (S V T)

variable {F : FTy → Type}

/-! ## Row segments of the scratch arrays -/

section Segments

variable {κ : Kind} {sp : Space} {e : EltTy}

/-- A row segment of 128 of an 8 × 4096 array (an output slot), and of an 8 × 2048 array (an input slot), as vectors of 128. -/
abbrev segO (M : Memref sig κ sp S8x4096 e) (off : Fin 2 → Nat) (hinb : ∀ a, off a + S1x128.size a ≤ S8x4096.size a) :
    Memref sig κ sp S128 e :=
  (M.slice (Rect.unit (s := S8x4096) off S1x128.size hinb) (fun _ => rfl)).squeeze S128 squeezes_S1x128_S128
abbrev segI (M : Memref sig κ sp S8x2048 e) (off : Fin 2 → Nat) (hinb : ∀ a, off a + S1x128.size a ≤ S8x2048.size a) :
    Memref sig κ sp S128 e :=
  (M.slice (Rect.unit (s := S8x2048) off S1x128.size hinb) (fun _ => rfl)).squeeze S128 squeezes_S1x128_S128

theorem segO_row_lt {off : Fin 2 → Nat} (hinb : ∀ a, off a + S1x128.size a ≤ S8x4096.size a) : off 0 < 8 := by
  have h := hinb 0; change off 0 + 1 ≤ 8 at h; omega
theorem segO_col_lt {off : Fin 2 → Nat} (hinb : ∀ a, off a + S1x128.size a ≤ S8x4096.size a) {p : Nat} (hp : p < 128) : off 1 + p < 4096 := by
  have h := hinb 1; change off 1 + 128 ≤ 4096 at h; omega
theorem segI_row_lt {off : Fin 2 → Nat} (hinb : ∀ a, off a + S1x128.size a ≤ S8x2048.size a) : off 0 < 8 := by
  have h := hinb 0; change off 0 + 1 ≤ 8 at h; omega
theorem segI_col_lt {off : Fin 2 → Nat} (hinb : ∀ a, off a + S1x128.size a ≤ S8x2048.size a) {p : Nat} (hp : p < 128) : off 1 + p < 2048 := by
  have h := hinb 1; change off 1 + 128 ≤ 2048 at h; omega

/-- Position `p` of a vector of 128 is position `(0, p)` of the 1 × 128 array with the same elements in the same order. -/
theorem unsqueeze_128 (p : S128.Idx) :
    Shape.reshapeEquiv squeezes_S1x128_S128.numel_eq p = (ValueIdx.ix2 (n0 := 1) (n1 := 128) ⟨0, by decide⟩ (p 0) : S1x128.Idx) := by
  refine Shape.reshapeEquiv_eq_of_rowMajor _ ?_
  rw [Shape.rowMajor_val_two, Shape.rowMajor_val_one]
  show 0 * 128 + (p 0).val = (p 0).val
  omega

/-- Where position `p` of an output slot's row segment sits in the slot: the segment's row, its first column plus `p`. -/
theorem segO_emb (M : Memref sig κ sp S8x4096 e) (off : Fin 2 → Nat) (hinb : ∀ a, off a + S1x128.size a ≤ S8x4096.size a) (p : S128.Idx) :
    (segO M off hinb).view.emb p
      = M.view.emb (ValueIdx.ix2 (n0 := 8) (n1 := 4096) ⟨off 0, segO_row_lt hinb⟩ ⟨off 1 + (p 0).val, segO_col_lt hinb (p 0).isLt⟩) := by
  show M.view.emb ((Rect.unit (s := S8x4096) off S1x128.size hinb).emb (Shape.reshapeEquiv squeezes_S1x128_S128.numel_eq p)) = _
  refine congrArg M.view.emb ?_
  rw [unsqueeze_128]
  funext a
  match a with
  | ⟨0, _⟩ => exact Fin.ext (by show off 0 + 1 * 0 = off 0; omega)
  | ⟨1, _⟩ => exact Fin.ext (by show off 1 + 1 * (p 0).val = off 1 + (p 0).val; omega)

theorem segI_emb (M : Memref sig κ sp S8x2048 e) (off : Fin 2 → Nat) (hinb : ∀ a, off a + S1x128.size a ≤ S8x2048.size a) (p : S128.Idx) :
    (segI M off hinb).view.emb p
      = M.view.emb (ValueIdx.ix2 (n0 := 8) (n1 := 2048) ⟨off 0, segI_row_lt hinb⟩ ⟨off 1 + (p 0).val, segI_col_lt hinb (p 0).isLt⟩) := by
  show M.view.emb ((Rect.unit (s := S8x2048) off S1x128.size hinb).emb (Shape.reshapeEquiv squeezes_S1x128_S128.numel_eq p)) = _
  refine congrArg M.view.emb ?_
  rw [unsqueeze_128]
  funext a
  match a with
  | ⟨0, _⟩ => exact Fin.ext (by show off 0 + 1 * 0 = off 0; omega)
  | ⟨1, _⟩ => exact Fin.ext (by show off 1 + 1 * (p 0).val = off 1 + (p 0).val; omega)

end Segments

/-! ## An indexed store through a row segment of an output slot -/

section Store

variable [FloatOps F] {κ : Kind} {sp : Space} {e : EltTy}

/-- The view an indexed store through a row segment goes through: all 128 positions of the segment. -/
abbrev segOAcc (M : Memref sig κ sp S8x4096 e) (off : Fin 2 → Nat) (hinb : ∀ a, off a + S1x128.size a ≤ S8x4096.size a) :
    View sig κ sp (Rect.whole S128).shape e := (segO M off hinb).access (Rect.whole S128)

theorem idx_col_lt {off : Fin 2 → Nat} (hinb : ∀ a, off a + S1x128.size a ≤ S8x4096.size a) {idx : IVec S16 32}
    (h : ∀ a x, ((![idx] : Fin 1 → IVec S16 32) a x).toNat < S128.size a) (l : Fin 16) :
    off 1 + (idx (Shape.ofLane (d := ![16]) l)).toNat < 4096 :=
  segO_col_lt hinb (h 0 (Shape.ofLane (d := ![16]) l))

/-- Position `p` of that view sits where position `p` of the segment does. -/
theorem segOAcc_emb (M : Memref sig κ sp S8x4096 e) (off : Fin 2 → Nat) (hinb : ∀ a, off a + S1x128.size a ≤ S8x4096.size a)
    (p : (Rect.whole S128).shape.Idx) :
    (segOAcc M off hinb).emb p
      = M.view.emb (ValueIdx.ix2 (n0 := 8) (n1 := 4096) ⟨off 0, segO_row_lt hinb⟩ ⟨off 1 + (p 0).val, segO_col_lt hinb (p 0).isLt⟩) := by
  show (segO M off hinb).view.emb ((Rect.whole S128).emb p) = _
  rw [Rect.emb_whole_apply, segO_emb]

/-- An unmasked indexed store of 16 lanes through a row segment, the lanes' columns pairwise distinct: lane `l` is
    written at the segment's row, at the segment's first column plus the lane's index; nothing else changes. -/
theorem segO_store_writes (M : Memref sig κ sp S8x4096 e) (off : Fin 2 → Nat) (hinb : ∀ a, off a + S1x128.size a ≤ S8x4096.size a)
    (idx : IVec S16 32) (v : Vec F S16 e) (h : ∀ a x, ((![idx] : Fin 1 → IVec S16 32) a x).toNat < S128.size a)
    (g g' : (segOAcc M off hinb).ty.Contents (Elt F))
    (hg : g' = Cert.Scatter.scat (segOAcc M off hinb) g ![idx] v h)
    (hinj : ∀ l l' : Fin 16, (idx (Shape.ofLane (d := ![16]) l)).toNat = (idx (Shape.ofLane (d := ![16]) l')).toNat → l = l') :
    Cert.Scatter.Writes g g'
      (fun l : Fin 16 => M.view.emb (ValueIdx.ix2 (n0 := 8) (n1 := 4096) ⟨off 0, segO_row_lt hinb⟩
        ⟨off 1 + (idx (Shape.ofLane (d := ![16]) l)).toNat, idx_col_lt hinb h l⟩))
      (fun l : Fin 16 => _root_.cast (congrArg (Elt F) M.view.elt_eq.symm) (v (Shape.ofLane (d := ![16]) l))) := by
  have key := Cert.Scatter.scat_writes (segOAcc M off hinb) g ![idx] v h (fun k k' hk => hinj k k' (by
    have := congrArg (fun j : (Rect.whole S128).shape.Idx => (j 0).val) hk
    exact this))
  have pos_eq : ∀ l : Fin 16, (segOAcc M off hinb).emb (idxAt ![idx] h (Shape.ofLane (d := ![16]) l))
      = M.view.emb (ValueIdx.ix2 (n0 := 8) (n1 := 4096) ⟨off 0, segO_row_lt hinb⟩
        ⟨off 1 + (idx (Shape.ofLane (d := ![16]) l)).toNat, idx_col_lt hinb h l⟩) := fun l => by
    rw [segOAcc_emb]; rfl
  rw [← hg] at key
  refine ⟨fun l => ?_, fun i hi => ?_⟩
  · exact (congrArg g' (pos_eq l).symm).trans (key.hit l)
  · exact key.miss i (fun l e => hi l ((pos_eq l).symm.trans e))

end Store

/-! ## A 16-lane load through a row segment of an input slot -/

section Load

variable {κ : Kind} {sp : Space} {e : EltTy}

theorem lane_col_lt {offI : Fin 2 → Nat} (hbI : ∀ a, offI a + S1x128.size a ≤ S8x2048.size a) {o : ℕ}
    (hu : ∀ a, (![o] : Fin 1 → Nat) a + S16.size a ≤ S128.size a) (l : Fin 16) : offI 1 + (o + l.val) < 2048 := by
  have h := hu 0; change o + 16 ≤ 128 at h
  have hl := l.isLt
  exact segI_col_lt hbI (by omega)

/-- Lane `l` of the 16 lanes loaded from position `o` of a row segment is the slot's element at the segment's row, at the
    segment's first column plus `o + l`. -/
theorem segI_load (M : Memref sig κ sp S8x2048 e) (offI : Fin 2 → Nat) (hbI : ∀ a, offI a + S1x128.size a ≤ S8x2048.size a) (o : ℕ)
    (hu : ∀ a, (![o] : Fin 1 → Nat) a + S16.size a ≤ S128.size a) (f : (segI M offI hbI).view.ty.Contents (Elt F)) (l : Fin 16) :
    View.readAt (Elt F) (segI M offI hbI).view (Rect.unit (s := S128) ![o] S16.size hu).toLoadRect f (Shape.ofLane (d := ![16]) l)
      = _root_.cast (congrArg (Elt F) M.view.elt_eq)
          (f (M.view.emb (ValueIdx.ix2 (n0 := 8) (n1 := 2048) ⟨offI 0, segI_row_lt hbI⟩ ⟨offI 1 + (o + l.val), lane_col_lt hbI hu l⟩))) := by
  rw [View.readAt_apply, View.read_apply, segI_emb]
  refine congrArg (fun y : S8x2048.Idx => _root_.cast (congrArg (Elt F) M.view.elt_eq) (f (M.view.emb y))) ?_
  funext a
  match a with
  | ⟨0, _⟩ => rfl
  | ⟨1, _⟩ => exact Fin.ext (by show offI 1 + (o + 1 * l.val) = offI 1 + (o + l.val); omega)

end Load

/-! ## The two slot pairs -/

section Slots

variable [FloatOps F]

/-- Where a store's lane `l` lands in the output slot, and what a load's lane `l` is in the input slot. -/
abbrev lanePos (off : Fin 2 → Nat) (hb : ∀ a, off a + S1x128.size a ≤ S8x4096.size a) (idx : IVec S16 32)
    (hi : ∀ a x, ((![idx] : Fin 1 → IVec S16 32) a x).toNat < S128.size a) : Fin 16 → S8x4096.Idx :=
  fun l => ValueIdx.ix2 (n0 := 8) (n1 := 4096) ⟨off 0, segO_row_lt hb⟩ ⟨off 1 + (idx (Shape.ofLane (d := ![16]) l)).toNat, idx_col_lt hb hi l⟩
abbrev laneVal {α : Type} (fI : S8x2048.Idx → α) (offI : Fin 2 → Nat) (hbI : ∀ a, offI a + S1x128.size a ≤ S8x2048.size a) (o : ℕ)
    (hu : ∀ a, (![o] : Fin 1 → Nat) a + S16.size a ≤ S128.size a) : Fin 16 → α :=
  fun l => fI (ValueIdx.ix2 (n0 := 8) (n1 := 2048) ⟨offI 0, segI_row_lt hbI⟩ ⟨offI 1 + (o + l.val), lane_col_lt hbI hu l⟩)

theorem lanes_inj {idx : IVec S16 32} {b : ℕ} (hl : ∀ l : Fin 16, (idx (Shape.ofLane (d := ![16]) l)).toNat = b + 2 * l.val) :
    ∀ l l' : Fin 16, (idx (Shape.ofLane (d := ![16]) l)).toNat = (idx (Shape.ofLane (d := ![16]) l')).toNat → l = l' := by
  intro l l' h
  rw [hl l, hl l'] at h
  exact Fin.ext (by omega)

/-- A store of a loaded vector, slots (0, 2): lane `l` of the load lands where lane `l` of the index vector names. -/
theorem store_step02 (offI : Fin 2 → Nat) (hbI : ∀ a, offI a + S1x128.size a ≤ S8x2048.size a) (o : ℕ)
    (hu : ∀ a, (![o] : Fin 1 → Nat) a + S16.size a ≤ S128.size a)
    (off : Fin 2 → Nat) (hb : ∀ a, off a + S1x128.size a ≤ S8x4096.size a) (idx : IVec S16 32)
    (hi : ∀ a x, ((![idx] : Fin 1 → IVec S16 32) a x).toNat < S128.size a)
    (hinj : ∀ l l' : Fin 16, (idx (Shape.ofLane (d := ![16]) l)).toNat = (idx (Shape.ofLane (d := ![16]) l')).toNat → l = l')
    (fI : S8x2048.Idx → Elt F .f32) (g g' : S8x4096.Idx → Elt F .f32)
    (e : g' = Cert.Scatter.scat (segOAcc (s2 : Memref sig .scVector .vmem S8x4096 .f32) off hb) g ![idx]
      (View.readAt (Elt F) (segI (s0 : Memref sig .scVector .vmem S8x2048 .f32) offI hbI).view (Rect.unit (s := S128) ![o] S16.size hu).toLoadRect fI) hi) :
    Cert.Scatter.Writes g g' (lanePos off hb idx hi) (laneVal fI offI hbI o hu) := by
  have key := segO_store_writes (F := F) (s2 : Memref sig .scVector .vmem S8x4096 .f32) off hb idx
    (View.readAt (Elt F) (segI (s0 : Memref sig .scVector .vmem S8x2048 .f32) offI hbI).view (Rect.unit (s := S128) ![o] S16.size hu).toLoadRect fI)
    hi g g' e hinj
  refine ⟨fun l => ?_, fun i hi' => key.miss i hi'⟩
  refine (key.hit l).trans ((cast_eq _ _).trans ?_)
  exact (segI_load (F := F) (s0 : Memref sig .scVector .vmem S8x2048 .f32) offI hbI o hu fI l).trans (cast_eq _ _)

/-- The same, slots (1, 3). -/
theorem store_step13 (offI : Fin 2 → Nat) (hbI : ∀ a, offI a + S1x128.size a ≤ S8x2048.size a) (o : ℕ)
    (hu : ∀ a, (![o] : Fin 1 → Nat) a + S16.size a ≤ S128.size a)
    (off : Fin 2 → Nat) (hb : ∀ a, off a + S1x128.size a ≤ S8x4096.size a) (idx : IVec S16 32)
    (hi : ∀ a x, ((![idx] : Fin 1 → IVec S16 32) a x).toNat < S128.size a)
    (hinj : ∀ l l' : Fin 16, (idx (Shape.ofLane (d := ![16]) l)).toNat = (idx (Shape.ofLane (d := ![16]) l')).toNat → l = l')
    (fI : S8x2048.Idx → Elt F .f32) (g g' : S8x4096.Idx → Elt F .f32)
    (e : g' = Cert.Scatter.scat (segOAcc (s3 : Memref sig .scVector .vmem S8x4096 .f32) off hb) g ![idx]
      (View.readAt (Elt F) (segI (s1 : Memref sig .scVector .vmem S8x2048 .f32) offI hbI).view (Rect.unit (s := S128) ![o] S16.size hu).toLoadRect fI) hi) :
    Cert.Scatter.Writes g g' (lanePos off hb idx hi) (laneVal fI offI hbI o hu) := by
  have key := segO_store_writes (F := F) (s3 : Memref sig .scVector .vmem S8x4096 .f32) off hb idx
    (View.readAt (Elt F) (segI (s1 : Memref sig .scVector .vmem S8x2048 .f32) offI hbI).view (Rect.unit (s := S128) ![o] S16.size hu).toLoadRect fI)
    hi g g' e hinj
  refine ⟨fun l => ?_, fun i hi' => key.miss i hi'⟩
  refine (key.hit l).trans ((cast_eq _ _).trans ?_)
  exact (segI_load (F := F) (s1 : Memref sig .scVector .vmem S8x2048 .f32) offI hbI o hu fI l).trans (cast_eq _ _)

end Slots

/-! ## One trip of the inner loop: 16 stores of 8 loaded vectors -/

section Trip

theorem wcol_lt {offI : Fin 2 → Nat} (hbI : ∀ a, offI a + S1x128.size a ≤ S8x2048.size a) (u : ℕ) (l : Fin 16) :
    offI 1 + (16 * (u % 8) + l.val) < 2048 := by
  have hl := l.isLt
  exact segI_col_lt hbI (by omega)

/-- Trip `k`: the 16 stores, each a set of point writes of a loaded vector's lanes (`W0` … `W15`), the segments'
    offsets and the index vectors' lanes as the trip has them, take `k` trips done to `k + 1`. -/
theorem region_assemble {α : Type} (k : ℕ) (hk : k < 128)
    (fI : S8x2048.Idx → α) (fO : S8x4096.Idx → α)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → α)
    (g2 : S8x4096.Idx → α)
    (g3 : S8x4096.Idx → α)
    (g4 : S8x4096.Idx → α)
    (g5 : S8x4096.Idx → α)
    (g6 : S8x4096.Idx → α)
    (g7 : S8x4096.Idx → α)
    (g8 : S8x4096.Idx → α)
    (g9 : S8x4096.Idx → α)
    (g10 : S8x4096.Idx → α)
    (g11 : S8x4096.Idx → α)
    (g12 : S8x4096.Idx → α)
    (g13 : S8x4096.Idx → α)
    (g14 : S8x4096.Idx → α)
    (g15 : S8x4096.Idx → α)
    (g16 : S8x4096.Idx → α)
    (hD : Cert.TripSpec.Done fI k fO)
    (W0 : Cert.Scatter.Writes fO g1 (lanePos off0 hb0 idx0 hi0) (laneVal fI offI hbI 0 hu0))
    (W1 : Cert.Scatter.Writes g1 g2 (lanePos off1 hb1 idx1 hi1) (laneVal fI offI hbI 0 hu0))
    (W2 : Cert.Scatter.Writes g2 g3 (lanePos off2 hb2 idx2 hi2) (laneVal fI offI hbI 16 hu1))
    (W3 : Cert.Scatter.Writes g3 g4 (lanePos off3 hb3 idx3 hi3) (laneVal fI offI hbI 16 hu1))
    (W4 : Cert.Scatter.Writes g4 g5 (lanePos off4 hb4 idx4 hi4) (laneVal fI offI hbI 32 hu2))
    (W5 : Cert.Scatter.Writes g5 g6 (lanePos off5 hb5 idx5 hi5) (laneVal fI offI hbI 32 hu2))
    (W6 : Cert.Scatter.Writes g6 g7 (lanePos off6 hb6 idx6 hi6) (laneVal fI offI hbI 48 hu3))
    (W7 : Cert.Scatter.Writes g7 g8 (lanePos off7 hb7 idx7 hi7) (laneVal fI offI hbI 48 hu3))
    (W8 : Cert.Scatter.Writes g8 g9 (lanePos off8 hb8 idx8 hi8) (laneVal fI offI hbI 64 hu4))
    (W9 : Cert.Scatter.Writes g9 g10 (lanePos off9 hb9 idx9 hi9) (laneVal fI offI hbI 64 hu4))
    (W10 : Cert.Scatter.Writes g10 g11 (lanePos off10 hb10 idx10 hi10) (laneVal fI offI hbI 80 hu5))
    (W11 : Cert.Scatter.Writes g11 g12 (lanePos off11 hb11 idx11 hi11) (laneVal fI offI hbI 80 hu5))
    (W12 : Cert.Scatter.Writes g12 g13 (lanePos off12 hb12 idx12 hi12) (laneVal fI offI hbI 96 hu6))
    (W13 : Cert.Scatter.Writes g13 g14 (lanePos off13 hb13 idx13 hi13) (laneVal fI offI hbI 96 hu6))
    (W14 : Cert.Scatter.Writes g14 g15 (lanePos off14 hb14 idx14 hi14) (laneVal fI offI hbI 112 hu7))
    (W15 : Cert.Scatter.Writes g15 g16 (lanePos off15 hb15 idx15 hi15) (laneVal fI offI hbI 112 hu7))
    : Cert.TripSpec.Done fI (k + 1) g16 := by
  refine Cert.TripSpec.done_step_gen fI k hk
    (fun n => match n with | 0 => fO | 1 => g1 | 2 => g2 | 3 => g3 | 4 => g4 | 5 => g5 | 6 => g6 | 7 => g7 | 8 => g8 | 9 => g9 | 10 => g10 | 11 => g11 | 12 => g12 | 13 => g13 | 14 => g14 | 15 => g15 | _ => g16)
    (fun u l => fI (ValueIdx.ix2 (n0 := 8) (n1 := 2048) ⟨offI 0, segI_row_lt hbI⟩ ⟨offI 1 + (16 * (u % 8) + l.val), wcol_lt hbI u l⟩))
    (fun n => match n with | 0 => lanePos off0 hb0 idx0 hi0 | 1 => lanePos off1 hb1 idx1 hi1 | 2 => lanePos off2 hb2 idx2 hi2 | 3 => lanePos off3 hb3 idx3 hi3 | 4 => lanePos off4 hb4 idx4 hi4 | 5 => lanePos off5 hb5 idx5 hi5 | 6 => lanePos off6 hb6 idx6 hi6 | 7 => lanePos off7 hb7 idx7 hi7 | 8 => lanePos off8 hb8 idx8 hi8 | 9 => lanePos off9 hb9 idx9 hi9 | 10 => lanePos off10 hb10 idx10 hi10 | 11 => lanePos off11 hb11 idx11 hi11 | 12 => lanePos off12 hb12 idx12 hi12 | 13 => lanePos off13 hb13 idx13 hi13 | 14 => lanePos off14 hb14 idx14 hi14 | _ => lanePos off15 hb15 idx15 hi15)
    (fun n l => fI (ValueIdx.ix2 (n0 := 8) (n1 := 2048) ⟨offI 0, segI_row_lt hbI⟩ ⟨offI 1 + (16 * (n / 2 % 8) + l.val), wcol_lt hbI (n / 2) l⟩))
    ?hrow ?hcol ?hval ?hstep ?hw hD
  case hrow =>
    intro n hn l
    exact match n, hn with
    | 0, _ => show off0 0 = k % 8 from by rw [ho0]; rfl
    | 1, _ => show off1 0 = k % 8 from by rw [ho1]; rfl
    | 2, _ => show off2 0 = k % 8 from by rw [ho2]; rfl
    | 3, _ => show off3 0 = k % 8 from by rw [ho3]; rfl
    | 4, _ => show off4 0 = k % 8 from by rw [ho4]; rfl
    | 5, _ => show off5 0 = k % 8 from by rw [ho5]; rfl
    | 6, _ => show off6 0 = k % 8 from by rw [ho6]; rfl
    | 7, _ => show off7 0 = k % 8 from by rw [ho7]; rfl
    | 8, _ => show off8 0 = k % 8 from by rw [ho8]; rfl
    | 9, _ => show off9 0 = k % 8 from by rw [ho9]; rfl
    | 10, _ => show off10 0 = k % 8 from by rw [ho10]; rfl
    | 11, _ => show off11 0 = k % 8 from by rw [ho11]; rfl
    | 12, _ => show off12 0 = k % 8 from by rw [ho12]; rfl
    | 13, _ => show off13 0 = k % 8 from by rw [ho13]; rfl
    | 14, _ => show off14 0 = k % 8 from by rw [ho14]; rfl
    | 15, _ => show off15 0 = k % 8 from by rw [ho15]; rfl
    | n + 16, h => absurd h (by omega)
  case hcol =>
    intro n hn l
    exact match n, hn with
    | 0, _ => by
      show off0 1 + (idx0 (Shape.ofLane l)).toNat = 256 * (k / 8) + 32 * (0 / 2) + 2 * l.val + 0 % 2
      rw [hl0 l, ho0]
      show 256 * (k / 8) + (0 + 2 * l.val) = 256 * (k / 8) + 32 * (0 / 2) + 2 * l.val + 0 % 2
      omega
    | 1, _ => by
      show off1 1 + (idx1 (Shape.ofLane l)).toNat = 256 * (k / 8) + 32 * (1 / 2) + 2 * l.val + 1 % 2
      rw [hl1 l, ho1]
      show 256 * (k / 8) + (1 + 2 * l.val) = 256 * (k / 8) + 32 * (1 / 2) + 2 * l.val + 1 % 2
      omega
    | 2, _ => by
      show off2 1 + (idx2 (Shape.ofLane l)).toNat = 256 * (k / 8) + 32 * (2 / 2) + 2 * l.val + 2 % 2
      rw [hl2 l, ho2]
      show 256 * (k / 8) + (32 + 2 * l.val) = 256 * (k / 8) + 32 * (2 / 2) + 2 * l.val + 2 % 2
      omega
    | 3, _ => by
      show off3 1 + (idx3 (Shape.ofLane l)).toNat = 256 * (k / 8) + 32 * (3 / 2) + 2 * l.val + 3 % 2
      rw [hl3 l, ho3]
      show 256 * (k / 8) + (33 + 2 * l.val) = 256 * (k / 8) + 32 * (3 / 2) + 2 * l.val + 3 % 2
      omega
    | 4, _ => by
      show off4 1 + (idx4 (Shape.ofLane l)).toNat = 256 * (k / 8) + 32 * (4 / 2) + 2 * l.val + 4 % 2
      rw [hl4 l, ho4]
      show 256 * (k / 8) + (64 + 2 * l.val) = 256 * (k / 8) + 32 * (4 / 2) + 2 * l.val + 4 % 2
      omega
    | 5, _ => by
      show off5 1 + (idx5 (Shape.ofLane l)).toNat = 256 * (k / 8) + 32 * (5 / 2) + 2 * l.val + 5 % 2
      rw [hl5 l, ho5]
      show 256 * (k / 8) + (65 + 2 * l.val) = 256 * (k / 8) + 32 * (5 / 2) + 2 * l.val + 5 % 2
      omega
    | 6, _ => by
      show off6 1 + (idx6 (Shape.ofLane l)).toNat = 256 * (k / 8) + 32 * (6 / 2) + 2 * l.val + 6 % 2
      rw [hl6 l, ho6]
      show 256 * (k / 8) + (96 + 2 * l.val) = 256 * (k / 8) + 32 * (6 / 2) + 2 * l.val + 6 % 2
      omega
    | 7, _ => by
      show off7 1 + (idx7 (Shape.ofLane l)).toNat = 256 * (k / 8) + 32 * (7 / 2) + 2 * l.val + 7 % 2
      rw [hl7 l, ho7]
      show 256 * (k / 8) + (97 + 2 * l.val) = 256 * (k / 8) + 32 * (7 / 2) + 2 * l.val + 7 % 2
      omega
    | 8, _ => by
      show off8 1 + (idx8 (Shape.ofLane l)).toNat = 256 * (k / 8) + 32 * (8 / 2) + 2 * l.val + 8 % 2
      rw [hl8 l, ho8]
      show 256 * (k / 8) + 128 + (0 + 2 * l.val) = 256 * (k / 8) + 32 * (8 / 2) + 2 * l.val + 8 % 2
      omega
    | 9, _ => by
      show off9 1 + (idx9 (Shape.ofLane l)).toNat = 256 * (k / 8) + 32 * (9 / 2) + 2 * l.val + 9 % 2
      rw [hl9 l, ho9]
      show 256 * (k / 8) + 128 + (1 + 2 * l.val) = 256 * (k / 8) + 32 * (9 / 2) + 2 * l.val + 9 % 2
      omega
    | 10, _ => by
      show off10 1 + (idx10 (Shape.ofLane l)).toNat = 256 * (k / 8) + 32 * (10 / 2) + 2 * l.val + 10 % 2
      rw [hl10 l, ho10]
      show 256 * (k / 8) + 128 + (32 + 2 * l.val) = 256 * (k / 8) + 32 * (10 / 2) + 2 * l.val + 10 % 2
      omega
    | 11, _ => by
      show off11 1 + (idx11 (Shape.ofLane l)).toNat = 256 * (k / 8) + 32 * (11 / 2) + 2 * l.val + 11 % 2
      rw [hl11 l, ho11]
      show 256 * (k / 8) + 128 + (33 + 2 * l.val) = 256 * (k / 8) + 32 * (11 / 2) + 2 * l.val + 11 % 2
      omega
    | 12, _ => by
      show off12 1 + (idx12 (Shape.ofLane l)).toNat = 256 * (k / 8) + 32 * (12 / 2) + 2 * l.val + 12 % 2
      rw [hl12 l, ho12]
      show 256 * (k / 8) + 128 + (64 + 2 * l.val) = 256 * (k / 8) + 32 * (12 / 2) + 2 * l.val + 12 % 2
      omega
    | 13, _ => by
      show off13 1 + (idx13 (Shape.ofLane l)).toNat = 256 * (k / 8) + 32 * (13 / 2) + 2 * l.val + 13 % 2
      rw [hl13 l, ho13]
      show 256 * (k / 8) + 128 + (65 + 2 * l.val) = 256 * (k / 8) + 32 * (13 / 2) + 2 * l.val + 13 % 2
      omega
    | 14, _ => by
      show off14 1 + (idx14 (Shape.ofLane l)).toNat = 256 * (k / 8) + 32 * (14 / 2) + 2 * l.val + 14 % 2
      rw [hl14 l, ho14]
      show 256 * (k / 8) + 128 + (96 + 2 * l.val) = 256 * (k / 8) + 32 * (14 / 2) + 2 * l.val + 14 % 2
      omega
    | 15, _ => by
      show off15 1 + (idx15 (Shape.ofLane l)).toNat = 256 * (k / 8) + 32 * (15 / 2) + 2 * l.val + 15 % 2
      rw [hl15 l, ho15]
      show 256 * (k / 8) + 128 + (97 + 2 * l.val) = 256 * (k / 8) + 32 * (15 / 2) + 2 * l.val + 15 % 2
      omega
    | n + 16, h => absurd h (by omega)
  case hval => intro n hn l; rfl
  case hstep =>
    intro n hn
    exact match n, hn with
    | 0, _ => W0
    | 1, _ => W1
    | 2, _ => W2
    | 3, _ => W3
    | 4, _ => W4
    | 5, _ => W5
    | 6, _ => W6
    | 7, _ => W7
    | 8, _ => W8
    | 9, _ => W9
    | 10, _ => W10
    | 11, _ => W11
    | 12, _ => W12
    | 13, _ => W13
    | 14, _ => W14
    | 15, _ => W15
    | n + 16, h => absurd h (by omega)
  case hw =>
    intro u hu l
    refine congrArg fI ?_
    funext a
    match a with
    | ⟨0, _⟩ => exact Fin.ext (show offI 0 = k % 8 by rw [hoI]; rfl)
    | ⟨1, _⟩ =>
      exact Fin.ext (by
        show offI 1 + (16 * (u % 8) + l.val) = 128 * (k / 8) + 16 * u + l.val
        rw [hoI]
        show 128 * (k / 8) + (16 * (u % 8) + l.val) = 128 * (k / 8) + 16 * u + l.val
        omega)

end Trip

/-! ## One trip, as the loop's step sees it -/

section Region

variable [FloatOps F]

/-- Trip `k` on slots (0, 2): the 16 stores of the 8 loaded vectors, as they stand after the loads and stores have been
    run, take `k` trips done to `k + 1`. -/
theorem region_done02 (k : ℕ) (hk : k < 128)
    (fI : S8x2048.Idx → Elt F .f32) (fO : S8x4096.Idx → Elt F .f32)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → Elt F .f32)
    (g2 : S8x4096.Idx → Elt F .f32)
    (g3 : S8x4096.Idx → Elt F .f32)
    (g4 : S8x4096.Idx → Elt F .f32)
    (g5 : S8x4096.Idx → Elt F .f32)
    (g6 : S8x4096.Idx → Elt F .f32)
    (g7 : S8x4096.Idx → Elt F .f32)
    (g8 : S8x4096.Idx → Elt F .f32)
    (g9 : S8x4096.Idx → Elt F .f32)
    (g10 : S8x4096.Idx → Elt F .f32)
    (g11 : S8x4096.Idx → Elt F .f32)
    (g12 : S8x4096.Idx → Elt F .f32)
    (g13 : S8x4096.Idx → Elt F .f32)
    (g14 : S8x4096.Idx → Elt F .f32)
    (g15 : S8x4096.Idx → Elt F .f32)
    (g16 : S8x4096.Idx → Elt F .f32)
    (hD : Cert.TripSpec.Done fI k fO)
    (e1 : g1 = Cert.Scatter.scat ((((s2 : Memref sig .scVector .vmem S8x4096 .f32).slice (Rect.unit (s := S8x4096) off0 S1x128.size hb0) (fun _ => rfl)).squeeze S128 squeezes_S1x128_S128).access (Rect.whole S128)) fO ![idx0] (View.readAt (Elt F) (((s0 : Memref sig .scVector .vmem S8x2048 .f32).slice (Rect.unit (s := S8x2048) offI S1x128.size hbI) (fun _ => rfl)).squeeze S128 squeezes_S1x128_S128).view (Rect.unit (s := S128) ![0] S16.size hu0).toLoadRect fI) hi0)
    (e2 : g2 = Cert.Scatter.scat ((((s2 : Memref sig .scVector .vmem S8x4096 .f32).slice (Rect.unit (s := S8x4096) off1 S1x128.size hb1) (fun _ => rfl)).squeeze S128 squeezes_S1x128_S128).access (Rect.whole S128)) g1 ![idx1] (View.readAt (Elt F) (((s0 : Memref sig .scVector .vmem S8x2048 .f32).slice (Rect.unit (s := S8x2048) offI S1x128.size hbI) (fun _ => rfl)).squeeze S128 squeezes_S1x128_S128).view (Rect.unit (s := S128) ![0] S16.size hu0).toLoadRect fI) hi1)
    (e3 : g3 = Cert.Scatter.scat ((((s2 : Memref sig .scVector .vmem S8x4096 .f32).slice (Rect.unit (s := S8x4096) off2 S1x128.size hb2) (fun _ => rfl)).squeeze S128 squeezes_S1x128_S128).access (Rect.whole S128)) g2 ![idx2] (View.readAt (Elt F) (((s0 : Memref sig .scVector .vmem S8x2048 .f32).slice (Rect.unit (s := S8x2048) offI S1x128.size hbI) (fun _ => rfl)).squeeze S128 squeezes_S1x128_S128).view (Rect.unit (s := S128) ![16] S16.size hu1).toLoadRect fI) hi2)
    (e4 : g4 = Cert.Scatter.scat ((((s2 : Memref sig .scVector .vmem S8x4096 .f32).slice (Rect.unit (s := S8x4096) off3 S1x128.size hb3) (fun _ => rfl)).squeeze S128 squeezes_S1x128_S128).access (Rect.whole S128)) g3 ![idx3] (View.readAt (Elt F) (((s0 : Memref sig .scVector .vmem S8x2048 .f32).slice (Rect.unit (s := S8x2048) offI S1x128.size hbI) (fun _ => rfl)).squeeze S128 squeezes_S1x128_S128).view (Rect.unit (s := S128) ![16] S16.size hu1).toLoadRect fI) hi3)
    (e5 : g5 = Cert.Scatter.scat ((((s2 : Memref sig .scVector .vmem S8x4096 .f32).slice (Rect.unit (s := S8x4096) off4 S1x128.size hb4) (fun _ => rfl)).squeeze S128 squeezes_S1x128_S128).access (Rect.whole S128)) g4 ![idx4] (View.readAt (Elt F) (((s0 : Memref sig .scVector .vmem S8x2048 .f32).slice (Rect.unit (s := S8x2048) offI S1x128.size hbI) (fun _ => rfl)).squeeze S128 squeezes_S1x128_S128).view (Rect.unit (s := S128) ![32] S16.size hu2).toLoadRect fI) hi4)
    (e6 : g6 = Cert.Scatter.scat ((((s2 : Memref sig .scVector .vmem S8x4096 .f32).slice (Rect.unit (s := S8x4096) off5 S1x128.size hb5) (fun _ => rfl)).squeeze S128 squeezes_S1x128_S128).access (Rect.whole S128)) g5 ![idx5] (View.readAt (Elt F) (((s0 : Memref sig .scVector .vmem S8x2048 .f32).slice (Rect.unit (s := S8x2048) offI S1x128.size hbI) (fun _ => rfl)).squeeze S128 squeezes_S1x128_S128).view (Rect.unit (s := S128) ![32] S16.size hu2).toLoadRect fI) hi5)
    (e7 : g7 = Cert.Scatter.scat ((((s2 : Memref sig .scVector .vmem S8x4096 .f32).slice (Rect.unit (s := S8x4096) off6 S1x128.size hb6) (fun _ => rfl)).squeeze S128 squeezes_S1x128_S128).access (Rect.whole S128)) g6 ![idx6] (View.readAt (Elt F) (((s0 : Memref sig .scVector .vmem S8x2048 .f32).slice (Rect.unit (s := S8x2048) offI S1x128.size hbI) (fun _ => rfl)).squeeze S128 squeezes_S1x128_S128).view (Rect.unit (s := S128) ![48] S16.size hu3).toLoadRect fI) hi6)
    (e8 : g8 = Cert.Scatter.scat ((((s2 : Memref sig .scVector .vmem S8x4096 .f32).slice (Rect.unit (s := S8x4096) off7 S1x128.size hb7) (fun _ => rfl)).squeeze S128 squeezes_S1x128_S128).access (Rect.whole S128)) g7 ![idx7] (View.readAt (Elt F) (((s0 : Memref sig .scVector .vmem S8x2048 .f32).slice (Rect.unit (s := S8x2048) offI S1x128.size hbI) (fun _ => rfl)).squeeze S128 squeezes_S1x128_S128).view (Rect.unit (s := S128) ![48] S16.size hu3).toLoadRect fI) hi7)
    (e9 : g9 = Cert.Scatter.scat ((((s2 : Memref sig .scVector .vmem S8x4096 .f32).slice (Rect.unit (s := S8x4096) off8 S1x128.size hb8) (fun _ => rfl)).squeeze S128 squeezes_S1x128_S128).access (Rect.whole S128)) g8 ![idx8] (View.readAt (Elt F) (((s0 : Memref sig .scVector .vmem S8x2048 .f32).slice (Rect.unit (s := S8x2048) offI S1x128.size hbI) (fun _ => rfl)).squeeze S128 squeezes_S1x128_S128).view (Rect.unit (s := S128) ![64] S16.size hu4).toLoadRect fI) hi8)
    (e10 : g10 = Cert.Scatter.scat ((((s2 : Memref sig .scVector .vmem S8x4096 .f32).slice (Rect.unit (s := S8x4096) off9 S1x128.size hb9) (fun _ => rfl)).squeeze S128 squeezes_S1x128_S128).access (Rect.whole S128)) g9 ![idx9] (View.readAt (Elt F) (((s0 : Memref sig .scVector .vmem S8x2048 .f32).slice (Rect.unit (s := S8x2048) offI S1x128.size hbI) (fun _ => rfl)).squeeze S128 squeezes_S1x128_S128).view (Rect.unit (s := S128) ![64] S16.size hu4).toLoadRect fI) hi9)
    (e11 : g11 = Cert.Scatter.scat ((((s2 : Memref sig .scVector .vmem S8x4096 .f32).slice (Rect.unit (s := S8x4096) off10 S1x128.size hb10) (fun _ => rfl)).squeeze S128 squeezes_S1x128_S128).access (Rect.whole S128)) g10 ![idx10] (View.readAt (Elt F) (((s0 : Memref sig .scVector .vmem S8x2048 .f32).slice (Rect.unit (s := S8x2048) offI S1x128.size hbI) (fun _ => rfl)).squeeze S128 squeezes_S1x128_S128).view (Rect.unit (s := S128) ![80] S16.size hu5).toLoadRect fI) hi10)
    (e12 : g12 = Cert.Scatter.scat ((((s2 : Memref sig .scVector .vmem S8x4096 .f32).slice (Rect.unit (s := S8x4096) off11 S1x128.size hb11) (fun _ => rfl)).squeeze S128 squeezes_S1x128_S128).access (Rect.whole S128)) g11 ![idx11] (View.readAt (Elt F) (((s0 : Memref sig .scVector .vmem S8x2048 .f32).slice (Rect.unit (s := S8x2048) offI S1x128.size hbI) (fun _ => rfl)).squeeze S128 squeezes_S1x128_S128).view (Rect.unit (s := S128) ![80] S16.size hu5).toLoadRect fI) hi11)
    (e13 : g13 = Cert.Scatter.scat ((((s2 : Memref sig .scVector .vmem S8x4096 .f32).slice (Rect.unit (s := S8x4096) off12 S1x128.size hb12) (fun _ => rfl)).squeeze S128 squeezes_S1x128_S128).access (Rect.whole S128)) g12 ![idx12] (View.readAt (Elt F) (((s0 : Memref sig .scVector .vmem S8x2048 .f32).slice (Rect.unit (s := S8x2048) offI S1x128.size hbI) (fun _ => rfl)).squeeze S128 squeezes_S1x128_S128).view (Rect.unit (s := S128) ![96] S16.size hu6).toLoadRect fI) hi12)
    (e14 : g14 = Cert.Scatter.scat ((((s2 : Memref sig .scVector .vmem S8x4096 .f32).slice (Rect.unit (s := S8x4096) off13 S1x128.size hb13) (fun _ => rfl)).squeeze S128 squeezes_S1x128_S128).access (Rect.whole S128)) g13 ![idx13] (View.readAt (Elt F) (((s0 : Memref sig .scVector .vmem S8x2048 .f32).slice (Rect.unit (s := S8x2048) offI S1x128.size hbI) (fun _ => rfl)).squeeze S128 squeezes_S1x128_S128).view (Rect.unit (s := S128) ![96] S16.size hu6).toLoadRect fI) hi13)
    (e15 : g15 = Cert.Scatter.scat ((((s2 : Memref sig .scVector .vmem S8x4096 .f32).slice (Rect.unit (s := S8x4096) off14 S1x128.size hb14) (fun _ => rfl)).squeeze S128 squeezes_S1x128_S128).access (Rect.whole S128)) g14 ![idx14] (View.readAt (Elt F) (((s0 : Memref sig .scVector .vmem S8x2048 .f32).slice (Rect.unit (s := S8x2048) offI S1x128.size hbI) (fun _ => rfl)).squeeze S128 squeezes_S1x128_S128).view (Rect.unit (s := S128) ![112] S16.size hu7).toLoadRect fI) hi14)
    (e16 : g16 = Cert.Scatter.scat ((((s2 : Memref sig .scVector .vmem S8x4096 .f32).slice (Rect.unit (s := S8x4096) off15 S1x128.size hb15) (fun _ => rfl)).squeeze S128 squeezes_S1x128_S128).access (Rect.whole S128)) g15 ![idx15] (View.readAt (Elt F) (((s0 : Memref sig .scVector .vmem S8x2048 .f32).slice (Rect.unit (s := S8x2048) offI S1x128.size hbI) (fun _ => rfl)).squeeze S128 squeezes_S1x128_S128).view (Rect.unit (s := S128) ![112] S16.size hu7).toLoadRect fI) hi15)
    : Cert.TripSpec.Done fI (k + 1) g16 := by
  exact region_assemble k hk fI fO offI hbI hoI hu0 hu1 hu2 hu3 hu4 hu5 hu6 hu7
    off0 hb0 ho0 off1 hb1 ho1 off2 hb2 ho2 off3 hb3 ho3 off4 hb4 ho4 off5 hb5 ho5 off6 hb6 ho6 off7 hb7 ho7 off8 hb8 ho8 off9 hb9 ho9 off10 hb10 ho10 off11 hb11 ho11 off12 hb12 ho12 off13 hb13 ho13 off14 hb14 ho14 off15 hb15 ho15
    idx0 hi0 hl0 idx1 hi1 hl1 idx2 hi2 hl2 idx3 hi3 hl3 idx4 hi4 hl4 idx5 hi5 hl5 idx6 hi6 hl6 idx7 hi7 hl7 idx8 hi8 hl8 idx9 hi9 hl9 idx10 hi10 hl10 idx11 hi11 hl11 idx12 hi12 hl12 idx13 hi13 hl13 idx14 hi14 hl14 idx15 hi15 hl15
    g1 g2 g3 g4 g5 g6 g7 g8 g9 g10 g11 g12 g13 g14 g15 g16 hD
    (store_step02 offI hbI 0 hu0 off0 hb0 idx0 hi0 (lanes_inj hl0) fI fO g1 e1)
    (store_step02 offI hbI 0 hu0 off1 hb1 idx1 hi1 (lanes_inj hl1) fI g1 g2 e2)
    (store_step02 offI hbI 16 hu1 off2 hb2 idx2 hi2 (lanes_inj hl2) fI g2 g3 e3)
    (store_step02 offI hbI 16 hu1 off3 hb3 idx3 hi3 (lanes_inj hl3) fI g3 g4 e4)
    (store_step02 offI hbI 32 hu2 off4 hb4 idx4 hi4 (lanes_inj hl4) fI g4 g5 e5)
    (store_step02 offI hbI 32 hu2 off5 hb5 idx5 hi5 (lanes_inj hl5) fI g5 g6 e6)
    (store_step02 offI hbI 48 hu3 off6 hb6 idx6 hi6 (lanes_inj hl6) fI g6 g7 e7)
    (store_step02 offI hbI 48 hu3 off7 hb7 idx7 hi7 (lanes_inj hl7) fI g7 g8 e8)
    (store_step02 offI hbI 64 hu4 off8 hb8 idx8 hi8 (lanes_inj hl8) fI g8 g9 e9)
    (store_step02 offI hbI 64 hu4 off9 hb9 idx9 hi9 (lanes_inj hl9) fI g9 g10 e10)
    (store_step02 offI hbI 80 hu5 off10 hb10 idx10 hi10 (lanes_inj hl10) fI g10 g11 e11)
    (store_step02 offI hbI 80 hu5 off11 hb11 idx11 hi11 (lanes_inj hl11) fI g11 g12 e12)
    (store_step02 offI hbI 96 hu6 off12 hb12 idx12 hi12 (lanes_inj hl12) fI g12 g13 e13)
    (store_step02 offI hbI 96 hu6 off13 hb13 idx13 hi13 (lanes_inj hl13) fI g13 g14 e14)
    (store_step02 offI hbI 112 hu7 off14 hb14 idx14 hi14 (lanes_inj hl14) fI g14 g15 e15)
    (store_step02 offI hbI 112 hu7 off15 hb15 idx15 hi15 (lanes_inj hl15) fI g15 g16 e16)

/-- The same on slots (1, 3). -/
theorem region_done13 (k : ℕ) (hk : k < 128)
    (fI : S8x2048.Idx → Elt F .f32) (fO : S8x4096.Idx → Elt F .f32)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → Elt F .f32)
    (g2 : S8x4096.Idx → Elt F .f32)
    (g3 : S8x4096.Idx → Elt F .f32)
    (g4 : S8x4096.Idx → Elt F .f32)
    (g5 : S8x4096.Idx → Elt F .f32)
    (g6 : S8x4096.Idx → Elt F .f32)
    (g7 : S8x4096.Idx → Elt F .f32)
    (g8 : S8x4096.Idx → Elt F .f32)
    (g9 : S8x4096.Idx → Elt F .f32)
    (g10 : S8x4096.Idx → Elt F .f32)
    (g11 : S8x4096.Idx → Elt F .f32)
    (g12 : S8x4096.Idx → Elt F .f32)
    (g13 : S8x4096.Idx → Elt F .f32)
    (g14 : S8x4096.Idx → Elt F .f32)
    (g15 : S8x4096.Idx → Elt F .f32)
    (g16 : S8x4096.Idx → Elt F .f32)
    (hD : Cert.TripSpec.Done fI k fO)
    (e1 : g1 = Cert.Scatter.scat ((((s3 : Memref sig .scVector .vmem S8x4096 .f32).slice (Rect.unit (s := S8x4096) off0 S1x128.size hb0) (fun _ => rfl)).squeeze S128 squeezes_S1x128_S128).access (Rect.whole S128)) fO ![idx0] (View.readAt (Elt F) (((s1 : Memref sig .scVector .vmem S8x2048 .f32).slice (Rect.unit (s := S8x2048) offI S1x128.size hbI) (fun _ => rfl)).squeeze S128 squeezes_S1x128_S128).view (Rect.unit (s := S128) ![0] S16.size hu0).toLoadRect fI) hi0)
    (e2 : g2 = Cert.Scatter.scat ((((s3 : Memref sig .scVector .vmem S8x4096 .f32).slice (Rect.unit (s := S8x4096) off1 S1x128.size hb1) (fun _ => rfl)).squeeze S128 squeezes_S1x128_S128).access (Rect.whole S128)) g1 ![idx1] (View.readAt (Elt F) (((s1 : Memref sig .scVector .vmem S8x2048 .f32).slice (Rect.unit (s := S8x2048) offI S1x128.size hbI) (fun _ => rfl)).squeeze S128 squeezes_S1x128_S128).view (Rect.unit (s := S128) ![0] S16.size hu0).toLoadRect fI) hi1)
    (e3 : g3 = Cert.Scatter.scat ((((s3 : Memref sig .scVector .vmem S8x4096 .f32).slice (Rect.unit (s := S8x4096) off2 S1x128.size hb2) (fun _ => rfl)).squeeze S128 squeezes_S1x128_S128).access (Rect.whole S128)) g2 ![idx2] (View.readAt (Elt F) (((s1 : Memref sig .scVector .vmem S8x2048 .f32).slice (Rect.unit (s := S8x2048) offI S1x128.size hbI) (fun _ => rfl)).squeeze S128 squeezes_S1x128_S128).view (Rect.unit (s := S128) ![16] S16.size hu1).toLoadRect fI) hi2)
    (e4 : g4 = Cert.Scatter.scat ((((s3 : Memref sig .scVector .vmem S8x4096 .f32).slice (Rect.unit (s := S8x4096) off3 S1x128.size hb3) (fun _ => rfl)).squeeze S128 squeezes_S1x128_S128).access (Rect.whole S128)) g3 ![idx3] (View.readAt (Elt F) (((s1 : Memref sig .scVector .vmem S8x2048 .f32).slice (Rect.unit (s := S8x2048) offI S1x128.size hbI) (fun _ => rfl)).squeeze S128 squeezes_S1x128_S128).view (Rect.unit (s := S128) ![16] S16.size hu1).toLoadRect fI) hi3)
    (e5 : g5 = Cert.Scatter.scat ((((s3 : Memref sig .scVector .vmem S8x4096 .f32).slice (Rect.unit (s := S8x4096) off4 S1x128.size hb4) (fun _ => rfl)).squeeze S128 squeezes_S1x128_S128).access (Rect.whole S128)) g4 ![idx4] (View.readAt (Elt F) (((s1 : Memref sig .scVector .vmem S8x2048 .f32).slice (Rect.unit (s := S8x2048) offI S1x128.size hbI) (fun _ => rfl)).squeeze S128 squeezes_S1x128_S128).view (Rect.unit (s := S128) ![32] S16.size hu2).toLoadRect fI) hi4)
    (e6 : g6 = Cert.Scatter.scat ((((s3 : Memref sig .scVector .vmem S8x4096 .f32).slice (Rect.unit (s := S8x4096) off5 S1x128.size hb5) (fun _ => rfl)).squeeze S128 squeezes_S1x128_S128).access (Rect.whole S128)) g5 ![idx5] (View.readAt (Elt F) (((s1 : Memref sig .scVector .vmem S8x2048 .f32).slice (Rect.unit (s := S8x2048) offI S1x128.size hbI) (fun _ => rfl)).squeeze S128 squeezes_S1x128_S128).view (Rect.unit (s := S128) ![32] S16.size hu2).toLoadRect fI) hi5)
    (e7 : g7 = Cert.Scatter.scat ((((s3 : Memref sig .scVector .vmem S8x4096 .f32).slice (Rect.unit (s := S8x4096) off6 S1x128.size hb6) (fun _ => rfl)).squeeze S128 squeezes_S1x128_S128).access (Rect.whole S128)) g6 ![idx6] (View.readAt (Elt F) (((s1 : Memref sig .scVector .vmem S8x2048 .f32).slice (Rect.unit (s := S8x2048) offI S1x128.size hbI) (fun _ => rfl)).squeeze S128 squeezes_S1x128_S128).view (Rect.unit (s := S128) ![48] S16.size hu3).toLoadRect fI) hi6)
    (e8 : g8 = Cert.Scatter.scat ((((s3 : Memref sig .scVector .vmem S8x4096 .f32).slice (Rect.unit (s := S8x4096) off7 S1x128.size hb7) (fun _ => rfl)).squeeze S128 squeezes_S1x128_S128).access (Rect.whole S128)) g7 ![idx7] (View.readAt (Elt F) (((s1 : Memref sig .scVector .vmem S8x2048 .f32).slice (Rect.unit (s := S8x2048) offI S1x128.size hbI) (fun _ => rfl)).squeeze S128 squeezes_S1x128_S128).view (Rect.unit (s := S128) ![48] S16.size hu3).toLoadRect fI) hi7)
    (e9 : g9 = Cert.Scatter.scat ((((s3 : Memref sig .scVector .vmem S8x4096 .f32).slice (Rect.unit (s := S8x4096) off8 S1x128.size hb8) (fun _ => rfl)).squeeze S128 squeezes_S1x128_S128).access (Rect.whole S128)) g8 ![idx8] (View.readAt (Elt F) (((s1 : Memref sig .scVector .vmem S8x2048 .f32).slice (Rect.unit (s := S8x2048) offI S1x128.size hbI) (fun _ => rfl)).squeeze S128 squeezes_S1x128_S128).view (Rect.unit (s := S128) ![64] S16.size hu4).toLoadRect fI) hi8)
    (e10 : g10 = Cert.Scatter.scat ((((s3 : Memref sig .scVector .vmem S8x4096 .f32).slice (Rect.unit (s := S8x4096) off9 S1x128.size hb9) (fun _ => rfl)).squeeze S128 squeezes_S1x128_S128).access (Rect.whole S128)) g9 ![idx9] (View.readAt (Elt F) (((s1 : Memref sig .scVector .vmem S8x2048 .f32).slice (Rect.unit (s := S8x2048) offI S1x128.size hbI) (fun _ => rfl)).squeeze S128 squeezes_S1x128_S128).view (Rect.unit (s := S128) ![64] S16.size hu4).toLoadRect fI) hi9)
    (e11 : g11 = Cert.Scatter.scat ((((s3 : Memref sig .scVector .vmem S8x4096 .f32).slice (Rect.unit (s := S8x4096) off10 S1x128.size hb10) (fun _ => rfl)).squeeze S128 squeezes_S1x128_S128).access (Rect.whole S128)) g10 ![idx10] (View.readAt (Elt F) (((s1 : Memref sig .scVector .vmem S8x2048 .f32).slice (Rect.unit (s := S8x2048) offI S1x128.size hbI) (fun _ => rfl)).squeeze S128 squeezes_S1x128_S128).view (Rect.unit (s := S128) ![80] S16.size hu5).toLoadRect fI) hi10)
    (e12 : g12 = Cert.Scatter.scat ((((s3 : Memref sig .scVector .vmem S8x4096 .f32).slice (Rect.unit (s := S8x4096) off11 S1x128.size hb11) (fun _ => rfl)).squeeze S128 squeezes_S1x128_S128).access (Rect.whole S128)) g11 ![idx11] (View.readAt (Elt F) (((s1 : Memref sig .scVector .vmem S8x2048 .f32).slice (Rect.unit (s := S8x2048) offI S1x128.size hbI) (fun _ => rfl)).squeeze S128 squeezes_S1x128_S128).view (Rect.unit (s := S128) ![80] S16.size hu5).toLoadRect fI) hi11)
    (e13 : g13 = Cert.Scatter.scat ((((s3 : Memref sig .scVector .vmem S8x4096 .f32).slice (Rect.unit (s := S8x4096) off12 S1x128.size hb12) (fun _ => rfl)).squeeze S128 squeezes_S1x128_S128).access (Rect.whole S128)) g12 ![idx12] (View.readAt (Elt F) (((s1 : Memref sig .scVector .vmem S8x2048 .f32).slice (Rect.unit (s := S8x2048) offI S1x128.size hbI) (fun _ => rfl)).squeeze S128 squeezes_S1x128_S128).view (Rect.unit (s := S128) ![96] S16.size hu6).toLoadRect fI) hi12)
    (e14 : g14 = Cert.Scatter.scat ((((s3 : Memref sig .scVector .vmem S8x4096 .f32).slice (Rect.unit (s := S8x4096) off13 S1x128.size hb13) (fun _ => rfl)).squeeze S128 squeezes_S1x128_S128).access (Rect.whole S128)) g13 ![idx13] (View.readAt (Elt F) (((s1 : Memref sig .scVector .vmem S8x2048 .f32).slice (Rect.unit (s := S8x2048) offI S1x128.size hbI) (fun _ => rfl)).squeeze S128 squeezes_S1x128_S128).view (Rect.unit (s := S128) ![96] S16.size hu6).toLoadRect fI) hi13)
    (e15 : g15 = Cert.Scatter.scat ((((s3 : Memref sig .scVector .vmem S8x4096 .f32).slice (Rect.unit (s := S8x4096) off14 S1x128.size hb14) (fun _ => rfl)).squeeze S128 squeezes_S1x128_S128).access (Rect.whole S128)) g14 ![idx14] (View.readAt (Elt F) (((s1 : Memref sig .scVector .vmem S8x2048 .f32).slice (Rect.unit (s := S8x2048) offI S1x128.size hbI) (fun _ => rfl)).squeeze S128 squeezes_S1x128_S128).view (Rect.unit (s := S128) ![112] S16.size hu7).toLoadRect fI) hi14)
    (e16 : g16 = Cert.Scatter.scat ((((s3 : Memref sig .scVector .vmem S8x4096 .f32).slice (Rect.unit (s := S8x4096) off15 S1x128.size hb15) (fun _ => rfl)).squeeze S128 squeezes_S1x128_S128).access (Rect.whole S128)) g15 ![idx15] (View.readAt (Elt F) (((s1 : Memref sig .scVector .vmem S8x2048 .f32).slice (Rect.unit (s := S8x2048) offI S1x128.size hbI) (fun _ => rfl)).squeeze S128 squeezes_S1x128_S128).view (Rect.unit (s := S128) ![112] S16.size hu7).toLoadRect fI) hi15)
    : Cert.TripSpec.Done fI (k + 1) g16 := by
  exact region_assemble k hk fI fO offI hbI hoI hu0 hu1 hu2 hu3 hu4 hu5 hu6 hu7
    off0 hb0 ho0 off1 hb1 ho1 off2 hb2 ho2 off3 hb3 ho3 off4 hb4 ho4 off5 hb5 ho5 off6 hb6 ho6 off7 hb7 ho7 off8 hb8 ho8 off9 hb9 ho9 off10 hb10 ho10 off11 hb11 ho11 off12 hb12 ho12 off13 hb13 ho13 off14 hb14 ho14 off15 hb15 ho15
    idx0 hi0 hl0 idx1 hi1 hl1 idx2 hi2 hl2 idx3 hi3 hl3 idx4 hi4 hl4 idx5 hi5 hl5 idx6 hi6 hl6 idx7 hi7 hl7 idx8 hi8 hl8 idx9 hi9 hl9 idx10 hi10 hl10 idx11 hi11 hl11 idx12 hi12 hl12 idx13 hi13 hl13 idx14 hi14 hl14 idx15 hi15 hl15
    g1 g2 g3 g4 g5 g6 g7 g8 g9 g10 g11 g12 g13 g14 g15 g16 hD
    (store_step13 offI hbI 0 hu0 off0 hb0 idx0 hi0 (lanes_inj hl0) fI fO g1 e1)
    (store_step13 offI hbI 0 hu0 off1 hb1 idx1 hi1 (lanes_inj hl1) fI g1 g2 e2)
    (store_step13 offI hbI 16 hu1 off2 hb2 idx2 hi2 (lanes_inj hl2) fI g2 g3 e3)
    (store_step13 offI hbI 16 hu1 off3 hb3 idx3 hi3 (lanes_inj hl3) fI g3 g4 e4)
    (store_step13 offI hbI 32 hu2 off4 hb4 idx4 hi4 (lanes_inj hl4) fI g4 g5 e5)
    (store_step13 offI hbI 32 hu2 off5 hb5 idx5 hi5 (lanes_inj hl5) fI g5 g6 e6)
    (store_step13 offI hbI 48 hu3 off6 hb6 idx6 hi6 (lanes_inj hl6) fI g6 g7 e7)
    (store_step13 offI hbI 48 hu3 off7 hb7 idx7 hi7 (lanes_inj hl7) fI g7 g8 e8)
    (store_step13 offI hbI 64 hu4 off8 hb8 idx8 hi8 (lanes_inj hl8) fI g8 g9 e9)
    (store_step13 offI hbI 64 hu4 off9 hb9 idx9 hi9 (lanes_inj hl9) fI g9 g10 e10)
    (store_step13 offI hbI 80 hu5 off10 hb10 idx10 hi10 (lanes_inj hl10) fI g10 g11 e11)
    (store_step13 offI hbI 80 hu5 off11 hb11 idx11 hi11 (lanes_inj hl11) fI g11 g12 e12)
    (store_step13 offI hbI 96 hu6 off12 hb12 idx12 hi12 (lanes_inj hl12) fI g12 g13 e13)
    (store_step13 offI hbI 96 hu6 off13 hb13 idx13 hi13 (lanes_inj hl13) fI g13 g14 e14)
    (store_step13 offI hbI 112 hu7 off14 hb14 idx14 hi14 (lanes_inj hl14) fI g14 g15 e15)
    (store_step13 offI hbI 112 hu7 off15 hb15 idx15 hi15 (lanes_inj hl15) fI g15 g16 e16)

end Region

end Cert.KernelIdeal.Rep

end
-- ==== Proof.KernelIdeal.Glue4.lean ====
/-
  What a tile's copies carry and land, as plain arithmetic on rows and columns: the copy into an input slot lands a window
  of the 4096 × 4096 array; the copy out of an output slot that holds, at `(r, c)`, the array's element at the chunk's row
  `r` and at half the column lands the repeated array's values on the chunk.
-/
import proofs.«217870_g8959301779661_cont_9to1_m_809_16_alg».proof.Proof.KernelIdeal.Glue
import Idealize.ShloMosaic.Lib.Writes

noncomputable section

namespace Cert.KernelIdeal.Rep

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The copies -/

section Copies

theorem win_row_lt {offx : Fin 2 → Nat} (hinbx : ∀ a, offx a + S8x2048.size a ≤ S4096x4096.size a) {r : ℕ} (hr : r < 8) : offx 0 + r < 4096 := by
  have h := hinbx 0; change offx 0 + 8 ≤ 4096 at h; omega
theorem win_col_lt {offx : Fin 2 → Nat} (hinbx : ∀ a, offx a + S8x2048.size a ≤ S4096x4096.size a) {c : ℕ} (hc : c < 2048) : offx 1 + c < 4096 := by
  have h := hinbx 1; change offx 1 + 2048 ≤ 4096 at h; omega

/-- What the copy into an input slot carries: the 8 × 2048 window of the 4096 × 4096 array at the offsets. -/
theorem window_read (offx : Fin 2 → Nat) (hinbx : ∀ a, offx a + S8x2048.size a ≤ S4096x4096.size a) (X : S4096x4096.Idx → Elt F .f32) :
    View.read (Elt F) ((xV : Memref sig .scVector .hbm S4096x4096 .f32).slice (Rect.unit (s := S4096x4096) offx S8x2048.size hinbx) (fun _ => rfl)).view X
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) := by
  funext y
  rw [View.read_apply]
  refine (cast_eq _ _).trans (congrArg X ?_)
  funext a
  match a with
  | ⟨0, _⟩ => exact Fin.ext (by show offx 0 + 1 * (y 0).val = offx 0 + (y 0).val; omega)
  | ⟨1, _⟩ => exact Fin.ext (by show offx 1 + 1 * (y 1).val = offx 1 + (y 1).val; omega)

/-- The copy into input slot 0, landed whole: the slot holds the window. -/
theorem in_lands_s0 (offx : Fin 2 → Nat) (hinbx : ∀ a, offx a + S8x2048.size a ≤ S4096x4096.size a) (f : S8x2048.Idx → Elt F .f32)
    (X : S4096x4096.Idx → Elt F .f32) :
    View.write (Elt F) (s0 : Memref sig .scVector .vmem S8x2048 .f32).view f
        (ReadAs.same.apply (View.read (Elt F) ((xV : Memref sig .scVector .hbm S4096x4096 .f32).slice (Rect.unit (s := S4096x4096) offx S8x2048.size hinbx) (fun _ => rfl)).view X))
        Finset.univ
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) :=
  (View.write_whole_univ _ _ _).trans (window_read offx hinbx X)
/-- The same for input slot 1. -/
theorem in_lands_s1 (offx : Fin 2 → Nat) (hinbx : ∀ a, offx a + S8x2048.size a ≤ S4096x4096.size a) (f : S8x2048.Idx → Elt F .f32)
    (X : S4096x4096.Idx → Elt F .f32) :
    View.write (Elt F) (s1 : Memref sig .scVector .vmem S8x2048 .f32).view f
        (ReadAs.same.apply (View.read (Elt F) ((xV : Memref sig .scVector .hbm S4096x4096 .f32).slice (Rect.unit (s := S4096x4096) offx S8x2048.size hinbx) (fun _ => rfl)).view X))
        Finset.univ
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) :=
  (View.write_whole_univ _ _ _).trans (window_read offx hinbx X)

theorem chunkSet_rect (L : grid0.Coords) (t : Fin 32) : chunkSet L t = (chunkRect L t).set := by
  show ((View.whole (main_v1_scv : Ref sig .scVector)).slice (chunkRect L t)).set = _
  rw [View.set_slice]; exact Finset.map_refl

/-- The part of the result array a copy out of an output slot writes, when its offsets are chunk `t`'s, is chunk `t`. -/
theorem out_set_eq (off : Fin 2 → Nat) (hinb : ∀ a, off a + S8x4096.size a ≤ S4096x8192.size a) (L : grid0.Coords) (t : Fin 32)
    (hoff : off = chunkOff L t) :
    ((oV : Memref sig .scVector .hbm S4096x8192 .f32).slice (Rect.unit (s := S4096x8192) off S8x4096.size hinb) (fun _ => rfl)).view.set = chunkSet L t := by
  subst hoff; rfl

theorem src_row_lt (L : grid0.Coords) (t : Fin 32) {r : ℕ} (hr : r < 8) : chunkOff L t 0 + r < 4096 := by
  have h := chunkOff_inb L t 0; change chunkOff L t 0 + 8 ≤ 4096 at h; omega
theorem src_col_lt (t : Fin 32) {c : ℕ} (hc : c < 4096) : 2048 * (t.val % 2) + c / 2 < 4096 := by omega

/-- The copy out of an output slot into chunk `t`, landed: if the slot holds, at `(r, c)`, the 4096 × 4096 array's element at
    the chunk's row `r` and at column `2048 (t % 2) + c / 2`, every position of the chunk holds the repeated array's value. -/
theorem out_lands {d : Dev nD} (X : Buf (Elt F) (xLoc d)) (off : Fin 2 → Nat) (hinb : ∀ a, off a + S8x4096.size a ≤ S4096x8192.size a)
    (L : grid0.Coords) (t : Fin 32) (hoff : off = chunkOff L t) (fo : S4096x8192.Idx → Elt F .f32)
    (w : (Rect.whole (Rect.unit (s := S4096x8192) off S8x4096.size hinb).shape).shape.Idx → Elt F .f32)
    (fO : S8x4096.Idx → Elt F .f32) (hw : ∀ y, w y = fO y)
    (hfO : ∀ y : S8x4096.Idx, fO y = X (ValueIdx.ix2 (n0 := 4096) (n1 := 4096) ⟨chunkOff L t 0 + (y 0).val, src_row_lt L t (y 0).isLt⟩
      ⟨2048 * (t.val % 2) + (y 1).val / 2, src_col_lt t (y 1).isLt⟩))
    (j : S4096x8192.Idx) (hj : j ∈ chunkSet L t) :
    ((oV : Memref sig .scVector .hbm S4096x8192 .f32).slice (Rect.unit (s := S4096x8192) off S8x4096.size hinb) (fun _ => rfl)).view.writes (Elt F) fo
        [⟨Rect.whole (Rect.unit (s := S4096x8192) off S8x4096.size hinb).shape, w⟩] j
      = rep X j := by
  subst hoff
  rw [chunkSet_rect, ← Rect.map_emb_univ] at hj
  obtain ⟨y, -, rfl⟩ := Finset.mem_map.mp hj
  rw [View.writes_singleton]
  have he : ((((oV : Memref sig .scVector .hbm S4096x8192 .f32).slice (chunkRect L t) (fun _ => rfl)).view).slice
      (Rect.whole (chunkRect L t).shape)).emb y = (chunkRect L t).emb y := by
    show (chunkRect L t).emb ((Rect.whole (chunkRect L t).shape).emb y) = _
    rw [Rect.emb_whole_apply]
  refine (congrArg _ he.symm).trans ((View.write_emb_of_mem _ _ (Finset.mem_univ y)).trans ((cast_eq _ _).trans ?_))
  refine ((hw y).trans (hfO y)).trans ((congrArg X ?_).trans (rep_apply X _).symm)
  have hy0 : (y 0).val < 8 := (y 0).isLt
  have hy1 : (y 1).val < 4096 := (y 1).isLt
  have ht : t.val < 32 := t.isLt
  funext a
  match a with
  | ⟨0, _⟩ =>
    exact Fin.ext (by
      show chunkOff L t 0 + (y 0).val = (Cert.RepSpec.half ((chunkRect L t).emb y) 0).val
      rw [Cert.RepSpec.half_zero]
      show chunkOff L t 0 + (y 0).val = chunkOff L t 0 + 1 * (y 0).val
      omega)
  | ⟨1, _⟩ =>
    exact Fin.ext (by
      show 2048 * (t.val % 2) + (y 1).val / 2 = (Cert.RepSpec.half ((chunkRect L t).emb y) 1).val
      rw [Cert.RepSpec.half_one]
      show 2048 * (t.val % 2) + (y 1).val / 2 = (4096 * (t.val % 2) + 1 * (y 1).val) / 2
      omega)

end Copies

/-! ## Chunk `t` of a tile: what its input slot holds, what lands on the result array -/

section Chunks

theorem xIdx_row_lt (L : grid0.Coords) {t : ℕ} (ht : t < 32) {r : ℕ} (hr : r < 8) : 128 * wid L + 8 * (t / 2) + r < 4096 := by
  have hw := wid_lt L; omega
theorem xIdx_col_lt (t : ℕ) {c : ℕ} (hc : c < 2048) : 2048 * (t % 2) + c < 4096 := by omega

/-- Position `y` of chunk `t` of tile `L` in the 4096 × 4096 array. -/
def xIdx (L : grid0.Coords) (t : ℕ) (ht : t < 32) (y : S8x2048.Idx) : S4096x4096.Idx :=
  ValueIdx.ix2 (n0 := 4096) (n1 := 4096) ⟨128 * wid L + 8 * (t / 2) + (y 0).val, xIdx_row_lt L ht (y 0).isLt⟩
    ⟨2048 * (t % 2) + (y 1).val, xIdx_col_lt t (y 1).isLt⟩

/-- The input slot holds chunk `t`. -/
def InIs (d : Dev nD) (L : grid0.Coords) (X : Buf (Elt F) (xLoc d)) (t : ℕ) (ht : t < 32) (fI : S8x2048.Idx → Elt F .f32) : Prop :=
  ∀ y, fI y = X (xIdx L t ht y)

theorem pair_eq {a b a' b' : ℕ} (ha : a = a') (hb : b = b') : (![a, b] : Fin 2 → ℕ) = ![a', b'] := by rw [ha, hb]

/-- The copy into input slot 0 at chunk `t`'s offsets, landed: the slot holds chunk `t`. -/
theorem inIs_of_dma0 (d : Dev nD) (L : grid0.Coords) (X : Buf (Elt F) (xLoc d)) (t : ℕ) (ht : t < 32) (f : S8x2048.Idx → Elt F .f32)
    (offx : Fin 2 → Nat) (hinbx : ∀ a, offx a + S8x2048.size a ≤ S4096x4096.size a)
    (hoffx : offx = ![128 * wid L + 8 * (t / 2), 2048 * (t % 2)]) :
    InIs d L X t ht (View.write (Elt F) (s0 : Memref sig .scVector .vmem S8x2048 .f32).view f
      (ReadAs.same.apply (View.read (Elt F) ((xV : Memref sig .scVector .hbm S4096x4096 .f32).slice (Rect.unit (s := S4096x4096) offx S8x2048.size hinbx) (fun _ => rfl)).view X))
      Finset.univ) := by
  subst hoffx
  intro y
  rw [in_lands_s0]
  rfl
/-- The same for input slot 1. -/
theorem inIs_of_dma1 (d : Dev nD) (L : grid0.Coords) (X : Buf (Elt F) (xLoc d)) (t : ℕ) (ht : t < 32) (f : S8x2048.Idx → Elt F .f32)
    (offx : Fin 2 → Nat) (hinbx : ∀ a, offx a + S8x2048.size a ≤ S4096x4096.size a)
    (hoffx : offx = ![128 * wid L + 8 * (t / 2), 2048 * (t % 2)]) :
    InIs d L X t ht (View.write (Elt F) (s1 : Memref sig .scVector .vmem S8x2048 .f32).view f
      (ReadAs.same.apply (View.read (Elt F) ((xV : Memref sig .scVector .hbm S4096x4096 .f32).slice (Rect.unit (s := S4096x4096) offx S8x2048.size hinbx) (fun _ => rfl)).view X))
      Finset.univ) := by
  subst hoffx
  intro y
  rw [in_lands_s1]
  rfl

/-- The copy out of an output slot at chunk `t`'s offsets, landed, the slot holding its input slot's chunk `t` repeated: the
    chunk of the result array holds the repeated array. -/
theorem chunk_lands (d : Dev nD) (L : grid0.Coords) (X : Buf (Elt F) (xLoc d)) (off : Fin 2 → Nat)
    (hinb : ∀ a, off a + S8x4096.size a ≤ S4096x8192.size a) (t : ℕ) (ht : t < 32) (hoff : off = chunkOff L ⟨t, ht⟩)
    (base : S4096x8192.Idx → Elt F .f32)
    (w : (Rect.whole (Rect.unit (s := S4096x8192) off S8x4096.size hinb).shape).shape.Idx → Elt F .f32)
    (fI : S8x2048.Idx → Elt F .f32) (fO : S8x4096.Idx → Elt F .f32) (hw : ∀ y, w y = fO y) (hIn : InIs d L X t ht fI)
    (hD : Cert.TripSpec.Done fI 128 fO) :
    ((((oV : Memref sig .scVector .hbm S4096x8192 .f32).slice (Rect.unit (s := S4096x8192) off S8x4096.size hinb) (fun _ => rfl)).view.loc (V d (cV L) (jV L))
        ↦[((oV : Memref sig .scVector .hbm S4096x8192 .f32).slice (Rect.unit (s := S4096x8192) off S8x4096.size hinb) (fun _ => rfl)).view.set]{fullShare}
        ((oV : Memref sig .scVector .hbm S4096x8192 .f32).slice (Rect.unit (s := S4096x8192) off S8x4096.size hinb) (fun _ => rfl)).view.writes (Elt F) base
          [⟨Rect.whole (Rect.unit (s := S4096x8192) off S8x4096.size hinb).shape, w⟩]) : sProp (MM F))
      = (oLoc d ↦[chunkSet L ⟨t, ht⟩]{fullShare} rep X) := by
  subst hoff
  have hfO := Cert.TripSpec.done_all fI fO hD
  have key : ∀ j ∈ chunkSet L ⟨t, ht⟩,
      ((oV : Memref sig .scVector .hbm S4096x8192 .f32).slice (Rect.unit (s := S4096x8192) (chunkOff L ⟨t, ht⟩) S8x4096.size hinb) (fun _ => rfl)).view.writes (Elt F) base
        [⟨Rect.whole (Rect.unit (s := S4096x8192) (chunkOff L ⟨t, ht⟩) S8x4096.size hinb).shape, w⟩] j = rep X j :=
    fun j hj => out_lands X _ hinb L ⟨t, ht⟩ rfl base w fO hw (fun y => by
      rw [hfO]
      show fI (Cert.TripSpec.mkIn (y 0) ⟨(y 1).val / 2, Cert.TripSpec.half_lt (y 1)⟩) = _
      exact hIn _) j hj
  rw [out_set_eq _ hinb L ⟨t, ht⟩ rfl]
  exact pointsTo_congr key

/-! ## The program's chunk offsets, in the chunks' terms -/

theorem xoff1 (L : grid0.Coords) : k0_off1 L = ![128 * wid L + 8 * (0 / 2), 2048 * (0 % 2)] :=
  (k0_off1_eq L).trans (pair_eq (by unfold wid; omega) (by omega))
theorem xoff2 (L : grid0.Coords) : k0_off2 L = ![128 * wid L + 8 * (1 / 2), 2048 * (1 % 2)] :=
  (k0_off2_eq L).trans (pair_eq (by unfold wid; omega) (by omega))
theorem xoff21 (L : grid0.Coords) (r : Fin 15) :
    k0_off21 L (BitVec.ofNat 32 (8 + 8 * r.val)) = ![128 * wid L + 8 * ((2 * r.val + 2) / 2), 2048 * ((2 * r.val + 2) % 2)] :=
  (k0_off21_eq L r).trans (pair_eq (by unfold wid; omega) (by omega))
theorem xoff22 (L : grid0.Coords) (r : Fin 16) :
    k0_off22 L (BitVec.ofNat 32 (8 * r.val)) = ![128 * wid L + 8 * ((2 * r.val + 1) / 2), 2048 * ((2 * r.val + 1) % 2)] :=
  (k0_off22_eq L r).trans (pair_eq (by unfold wid; omega) (by omega))
theorem chunk_even_lt (r : Fin 16) : 2 * r.val < 32 := by have := r.isLt; omega
theorem chunk_odd_lt (r : Fin 16) : 2 * r.val + 1 < 32 := by have := r.isLt; omega
theorem ooff20 (L : grid0.Coords) (r : Fin 16) : k0_off20 L (BitVec.ofNat 32 (8 * r.val)) = chunkOff L ⟨2 * r.val, chunk_even_lt r⟩ := by
  refine (k0_off20_eq L r).trans ?_
  show _ = (![128 * wid L + 8 * (2 * r.val / 2), 4096 * (2 * r.val % 2)] : Fin 2 → ℕ)
  exact pair_eq (by unfold wid; omega) (by omega)
theorem ooff26 (L : grid0.Coords) (r : Fin 16) : k0_off26 L (BitVec.ofNat 32 (8 * r.val)) = chunkOff L ⟨2 * r.val + 1, chunk_odd_lt r⟩ := by
  refine (k0_off26_eq L r).trans ?_
  show _ = (![128 * wid L + 8 * ((2 * r.val + 1) / 2), 4096 * ((2 * r.val + 1) % 2)] : Fin 2 → ℕ)
  exact pair_eq (by unfold wid; omega) (by omega)

end Chunks

end Cert.KernelIdeal.Rep

end
-- ==== Proof.KernelIdeal.Body.lean ====
/-
  One tile's task. Tile `(c, s)` is worker `2 s + c` and owns rows `[128 (2 s + c), 128 (2 s + c) + 128)` of the
  4096 × 4096 array `X` it reads and of the 4096 × 8192 array it writes. It works through 32 chunks (8 rows by 2048
  columns of `X`, giving 8 rows by 4096 columns of the result), double-buffered: chunk `t` is copied into input slot
  `t % 2` while chunk `t - 1` is being worked on, and written out of output slot `t % 2` while chunk `t + 1` is being
  worked on; every copy has a semaphore of its own slot, is waited for before its destination is read and before its
  source is overwritten, so no element is touched while a copy of it is pending.
  A chunk's loop has 128 trips; trip `k` takes row `k % 8`, input columns `[128 (k / 8), 128 (k / 8) + 128)` as
  eight vectors of 16 lanes, and scatters vector `u` twice, at the even and at the odd positions of the 32 output
  columns from `256 (k / 8) + 32 u`: the sixteen stores write pairwise distinct positions, so after the trip those 256
  output columns of the row hold each input element twice, and after 128 trips the out-slot is the in-slot with every
  element repeated along its row (`Cert.TripSpec.Done`, `done_step_gen`, `done_all`). The invariant of a chunk's loop
  carries exactly this, beside the fact that the in-slot holds chunk `t` of `X` (`InIs`); a landed write-out then holds
  `X (r, c / 2)` at every position `(r, c)` of its chunk (`chunk_lands`), and the 32 chunks are given back at that one
  whole-array function.
-/
import proofs.«217870_g8959301779661_cont_9to1_m_809_16_alg».proof.Proof.KernelIdeal.Base
import proofs.«217870_g8959301779661_cont_9to1_m_809_16_alg».proof.Proof.Scatter
import proofs.«217870_g8959301779661_cont_9to1_m_809_16_alg».proof.Proof.TripSpec
import proofs.«217870_g8959301779661_cont_9to1_m_809_16_alg».proof.Proof.KernelIdeal.Offs
import proofs.«217870_g8959301779661_cont_9to1_m_809_16_alg».proof.Proof.KernelIdeal.Glue
import proofs.«217870_g8959301779661_cont_9to1_m_809_16_alg».proof.Proof.KernelIdeal.Glue4

noncomputable section

namespace Cert.KernelIdeal.Rep

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The tile's own semaphores and scratch -/

abbrev cell4 (d : Dev nD) (c : Fin τ.nSC) (i : Fin τ.nSub) : GSem nD τ sig := (V d c i, .dma cc0_scratch4.sem)
abbrev cell5 (d : Dev nD) (c : Fin τ.nSC) (i : Fin τ.nSub) : GSem nD τ sig := (V d c i, .dma cc0_scratch5.sem)
abbrev cell6 (d : Dev nD) (c : Fin τ.nSC) (i : Fin τ.nSub) : GSem nD τ sig := (V d c i, .dma cc0_scratch6.sem)
abbrev cell7 (d : Dev nD) (c : Fin τ.nSC) (i : Fin τ.nSub) : GSem nD τ sig := (V d c i, .dma cc0_scratch7.sem)

section Tile
variable (d : Dev nD) (L : grid0.Coords)

omit [FloatOps F] in
theorem ownSems0_V :
    (ownSems0 (V d (cV L) (jV L)) : sProp (MM F))
      = iprop(semVal (cell4 d (cV L) (jV L)) 0 ∗ semVal (cell5 d (cV L) (jV L)) 0 ∗ semVal (cell6 d (cV L) (jV L)) 0 ∗ semVal (cell7 d (cV L) (jV L)) 0
          ∗ bigSep (((((ownCells (V d (cV L) (jV L))).erase (cell4 d (cV L) (jV L))).erase (cell5 d (cV L) (jV L))).erase (cell6 d (cV L) (jV L))).erase (cell7 d (cV L) (jV L)))
              fun g => semVal g 0) := by
  unfold SparseCore.Cfg.ownSems0
  rw [SparseCore.bigSep_erase' ((mem_ownCells (g := cell4 d (cV L) (jV L))).mpr ⟨rfl, by
      show (SemLoc.dma cc0_scratch4.sem : SemLoc sig).isScoped .scVector = true; decide⟩),
    SparseCore.bigSep_erase' (Finset.mem_erase.mpr ⟨by simp [cell4, cell5]; decide, (mem_ownCells (g := cell5 d (cV L) (jV L))).mpr ⟨rfl, by
      show (SemLoc.dma cc0_scratch5.sem : SemLoc sig).isScoped .scVector = true; decide⟩⟩),
    SparseCore.bigSep_erase' (Finset.mem_erase.mpr ⟨by simp [cell5, cell6]; decide, Finset.mem_erase.mpr ⟨by simp [cell4, cell6]; decide,
      (mem_ownCells (g := cell6 d (cV L) (jV L))).mpr ⟨rfl, by show (SemLoc.dma cc0_scratch6.sem : SemLoc sig).isScoped .scVector = true; decide⟩⟩⟩),
    SparseCore.bigSep_erase' (Finset.mem_erase.mpr ⟨by simp [cell6, cell7]; decide, Finset.mem_erase.mpr ⟨by simp [cell5, cell7]; decide, Finset.mem_erase.mpr ⟨by simp [cell4, cell7]; decide,
      (mem_ownCells (g := cell7 d (cV L) (jV L))).mpr ⟨rfl, by show (SemLoc.dma cc0_scratch7.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_x (q : PosShare TreeShare) (f : Buf (Elt F) (xLoc d)) :
    ((xV : Memref sig .scVector .hbm S4096x4096 .f32).view.loc (V d (cV L) (jV L)) ↦{q} f : sProp (MM F)) = xLoc d ↦{q} f := by
  simp only [Memref.view_whole, View.set_whole]

end Tile

/-- The tile's thread. -/
abbrev thr (d : Dev nD) (L : grid0.Coords) : Thread nD τ := V d (cV L) (jV L)

section TileS
variable (d : Dev nD) (L : grid0.Coords)
omit [FloatOps F] in
theorem pts_s0 (f : Buf (Elt F) ((V d (cV L) (jV L)).loc cc0_scratch0)) :
    ((s0 : Memref sig .scVector .vmem S8x2048 .f32).view.loc (V d (cV L) (jV L)) ↦{fullShare} f : sProp (MM F)) = (V d (cV L) (jV L)).loc cc0_scratch0 ↦{fullShare} f := rfl
omit [FloatOps F] in
theorem pts_s1 (f : Buf (Elt F) ((V d (cV L) (jV L)).loc cc0_scratch1)) :
    ((s1 : Memref sig .scVector .vmem S8x2048 .f32).view.loc (V d (cV L) (jV L)) ↦{fullShare} f : sProp (MM F)) = (V d (cV L) (jV L)).loc cc0_scratch1 ↦{fullShare} f := rfl
omit [FloatOps F] in
theorem pts_s2 (f : Buf (Elt F) ((V d (cV L) (jV L)).loc cc0_scratch2)) :
    ((s2 : Memref sig .scVector .vmem S8x4096 .f32).view.loc (V d (cV L) (jV L)) ↦{fullShare} f : sProp (MM F)) = (V d (cV L) (jV L)).loc cc0_scratch2 ↦{fullShare} f := rfl
omit [FloatOps F] in
theorem pts_s3 (f : Buf (Elt F) ((V d (cV L) (jV L)).loc cc0_scratch3)) :
    ((s3 : Memref sig .scVector .vmem S8x4096 .f32).view.loc (V d (cV L) (jV L)) ↦{fullShare} f : sProp (MM F)) = (V d (cV L) (jV L)).loc cc0_scratch3 ↦{fullShare} f := rfl
end TileS

/-! ## A scatter store through a row of a buffer held whole -/

section Rule
open Idealize.ShloMosaic.SparseCore
variable {Λ : Labels} {defs : Defs nD τ sig (Elt F) Λ} (𝒱 : Variants) (c : Thread nD τ) (bd : Option 𝒱.V) (E : Set ℕ)
variable {s : Shape} {e : EltTy} {α : Type} {Q : α → sProp (MM F)}

/-- An unmasked, non-accumulating `vectorStoreIdx` at the head of a program, holding outright a set `S` of the buffer's
    elements that includes the row's: the program continues holding `S` at contents `f'`, the scatter of the stored
    vector into the row of the old contents (`Cert.Scatter.scat`). -/
theorem wp_scatterStore {dd : Fin 1 → Nat} {base : Memref sig c.2.kind .vmem s e} {idxs : Fin s.rank → IVec ⟨1, dd⟩ 32} {v : Vec F ⟨1, dd⟩ e}
    {h : ∀ a x, (idxs a x).toNat < s.size a} {hs : (base.access (.whole s)).Stores Finset.univ}
    {k : PUnit → Prog (TpuEff nD τ sig (Elt F) Λ c.2) α} {S : Finset (Idx ((base.access (.whole s)).loc c))} {f : Buf (Elt F) ((base.access (.whole s)).loc c)}
    (hS : (base.access (.whole s)).set ⊆ S) :
    ((base.access (.whole s)).loc c ↦[S]{fullShare} f : sProp (MM F))
      ⊢ iprop((∀ (f' : Buf (Elt F) ((base.access (.whole s)).loc c)) (_ : f' = Cert.Scatter.scat (base.access (.whole s)) f idxs v h),
            ((base.access (.whole s)).loc c ↦[S]{fullShare} f') -∗ wp frame (wpE defs 𝒱 c bd) E (k ⟨⟩) Q)
        -∗ wp frame (wpE defs 𝒱 c bd) E (vectorStoreIdx base idxs v (fun _ => 1#1) false h hs >>= k) Q) := by
  rw [vectorStoreIdx_bind]
  unfold Cert.Scatter.scat
  iintro H Hk
  iapply (wp_load_rect (defs := defs) 𝒱 c bd E (Q := Q) (r := Rect.whole s) (hl := View.loadsAt_rect hs.loads)
    (k := fun f' => .op (.store base (.whole s) (storeIdx f' idxs v (fun _ => 1#1) false h) Finset.univ hs (.inl rfl)) k)
    (q := fullShare) (f := f) hS) $$ H
  iintro H
  iapply (wp_store (defs := defs) 𝒱 c bd E (Q := Q) (m := base) (r := .whole s) (Mk := Finset.univ)
    (hx := hs) (hm := .inl rfl) (k := k) (f := f) (S := S) hS) $$ H
  iintro H
  ispecialize Hk $$ %((base.access (.whole s)).write (Elt F) f (storeIdx ((base.access (.whole s)).read (Elt F) f) idxs v (fun _ => 1#1) false h) Finset.univ) %rfl H
  iexact Hk

end Rule

section Chunks
variable (d : Dev nD) (L : grid0.Coords)

omit [FloatOps F] in
theorem chunkRect_even (r : Fin 16) :
    Rect.unit (s := S4096x8192) (k0_off20 L (BitVec.ofNat 32 (8 * r.val))) S8x4096.size (k0_off20_inb L r) = chunkRect L ⟨2 * r.val, by have := r.isLt; omega⟩ := by
  unfold chunkRect
  congr 1
  rw [k0_off20_eq L r]
  unfold chunkOff wid
  have h0 : (2 * r.val) / 2 = r.val := by omega
  have h1 : (2 * r.val) % 2 = 0 := by omega
  funext a
  match a with
  | ⟨0, _⟩ => show 256 * (L 1).val + 128 * (L 0).val + 8 * r.val = 128 * (2 * (L 1).val + (L 0).val) + 8 * ((2 * r.val) / 2); rw [h0]; omega
  | ⟨1, _⟩ => show 0 = 4096 * ((2 * r.val) % 2); rw [h1]

omit [FloatOps F] in
theorem chunkRect_odd (r : Fin 16) :
    Rect.unit (s := S4096x8192) (k0_off26 L (BitVec.ofNat 32 (8 * r.val))) S8x4096.size (k0_off26_inb L r) = chunkRect L ⟨2 * r.val + 1, by have := r.isLt; omega⟩ := by
  unfold chunkRect
  congr 1
  rw [k0_off26_eq L r]
  unfold chunkOff wid
  have h0 : (2 * r.val + 1) / 2 = r.val := by omega
  have h1 : (2 * r.val + 1) % 2 = 1 := by omega
  funext a
  match a with
  | ⟨0, _⟩ => show 256 * (L 1).val + 128 * (L 0).val + 8 * r.val = 128 * (2 * (L 1).val + (L 0).val) + 8 * ((2 * r.val + 1) / 2); rw [h0]; omega
  | ⟨1, _⟩ => show 4096 = 4096 * ((2 * r.val + 1) % 2); rw [h1]

/-- Chunk `2 r` of `out` as the program slices it. -/
abbrev oEven (L : grid0.Coords) (r : Fin 16) : Memref sig .scVector .hbm S8x4096 .f32 :=
  (oV : Memref sig .scVector .hbm S4096x8192 .f32).slice (Rect.unit (s := S4096x8192) (k0_off20 L (BitVec.ofNat 32 (8 * r.val))) S8x4096.size (k0_off20_inb L r)) (fun _ => rfl)
/-- Chunk `2 r + 1` of `out` as the program slices it. -/
abbrev oOdd (L : grid0.Coords) (r : Fin 16) : Memref sig .scVector .hbm S8x4096 .f32 :=
  (oV : Memref sig .scVector .hbm S4096x8192 .f32).slice (Rect.unit (s := S4096x8192) (k0_off26 L (BitVec.ofNat 32 (8 * r.val))) S8x4096.size (k0_off26_inb L r)) (fun _ => rfl)

omit [FloatOps F] in
theorem set_oEven (r : Fin 16) : (oEven L r).view.set = chunkSet L ⟨2 * r.val, by have := r.isLt; omega⟩ :=
  (View.set_slice _ _).trans ((congrArg (fun R : Rect S4096x8192 => R.set.map (oV : Memref sig .scVector .hbm S4096x8192 .f32).view.emb) (chunkRect_even L r)).trans (View.set_slice _ _).symm)
omit [FloatOps F] in
theorem set_oOdd (r : Fin 16) : (oOdd L r).view.set = chunkSet L ⟨2 * r.val + 1, by have := r.isLt; omega⟩ :=
  (View.set_slice _ _).trans ((congrArg (fun R : Rect S4096x8192 => R.set.map (oV : Memref sig .scVector .hbm S4096x8192 .f32).view.emb) (chunkRect_odd L r)).trans (View.set_slice _ _).symm)
omit [FloatOps F] in
theorem pts_oEven (r : Fin 16) (f : Buf (Elt F) (oLoc d)) :
    ((oEven L r).view.loc (thr d L) ↦[(oEven L r).view.set]{fullShare} f : sProp (MM F))
      = oLoc d ↦[chunkSet L ⟨2 * r.val, by have := r.isLt; omega⟩]{fullShare} f := by
  rw [set_oEven]
omit [FloatOps F] in
theorem pts_oOdd (r : Fin 16) (f : Buf (Elt F) (oLoc d)) :
    ((oOdd L r).view.loc (thr d L) ↦[(oOdd L r).view.set]{fullShare} f : sProp (MM F))
      = oLoc d ↦[chunkSet L ⟨2 * r.val + 1, by have := r.isLt; omega⟩]{fullShare} f := by
  rw [set_oOdd]

omit [FloatOps F] in
/-- A product over the 32 chunks, written out. -/
theorem bigSep_fin32 (Φ : Fin 32 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide]
  repeat rw [SparseCore.bigSep_insert' (by decide)]
  rw [bigSep_singleton]

end Chunks

omit [FloatOps F] in
/-- A wait recorded at no launch index keeps the recorded waits within those the launch allows. -/
theorem waits_ok {W S : Waits sig (HIx 1)} (h : ∀ p ∈ S, p ∈ W ∨ p.2 = none) (x : SemLoc sig) :
    ∀ p ∈ insert (x, (default : HIx 1)) S, p ∈ W ∨ p.2 = none := by
  intro p hp
  rcases Finset.mem_insert.mp hp with rfl | hp
  · exact .inr rfl
  · exact h p hp

section Inv
variable (d : Dev nD) (L : grid0.Coords) (X : Buf (Elt F) (xLoc d))

/-- Before trip `k` of chunk `t`'s loop on slots 0 (in) and 2 (out): the in-slot holds chunk `t` of the array read,
    the out-slot its repeat on the rows and column tiles of the trips done. -/
def inv0 (t : ℕ) (ht : t < 32) (k : Nat) (_ : BitVec 32) : sProp (MM F) :=
  iprop(∃ (fI : S8x2048.Idx → Elt F .f32) (fO : S8x4096.Idx → Elt F .f32),
    ((s0 : Memref sig .scVector .vmem S8x2048 .f32).view.loc (thr d L) ↦{fullShare} fI)
    ∗ ((s2 : Memref sig .scVector .vmem S8x4096 .f32).view.loc (thr d L) ↦{fullShare} fO)
    ∗ ⌜InIs d L X t ht fI ∧ Cert.TripSpec.Done fI k fO⌝)
/-- The same on slots 1 (in) and 3 (out). -/
def inv1 (t : ℕ) (ht : t < 32) (k : Nat) (_ : BitVec 32) : sProp (MM F) :=
  iprop(∃ (fI : S8x2048.Idx → Elt F .f32) (fO : S8x4096.Idx → Elt F .f32),
    ((s1 : Memref sig .scVector .vmem S8x2048 .f32).view.loc (thr d L) ↦{fullShare} fI)
    ∗ ((s3 : Memref sig .scVector .vmem S8x4096 .f32).view.loc (thr d L) ↦{fullShare} fO)
    ∗ ⌜InIs d L X t ht fI ∧ Cert.TripSpec.Done fI k fO⌝)
end Inv

/-! ## The task -/

section Tile2
variable (d : Dev nD) (L : grid0.Coords)
set_option maxHeartbeats 0 in
theorem tile_body (hF : (K (F := F)).Facts) (d : Dev nD) (L : grid0.Coords) (X : Buf (Elt F) (xLoc d)) (fo : Buf (Elt F) (oLoc d)) (q : PosShare TreeShare)
    (O : CellTallies nD τ sig (HIx 1)) (W : Waits sig (HIx 1)) (hO : ∀ g, O g none = 0) :
    (iprop(levAts (K (F := F)).L (K (F := F)).lev ∗ emp
        ∗ ((xLoc d ↦{q} X) ∗ bigSep Finset.univ fun t : Fin 32 => oLoc d ↦[chunkSet L t]{fullShare} fo)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0__sc_body L xV (Memref.isWhole_whole _) oV (Memref.isWhole_whole _) s0 (Memref.isWhole_whole _) s1 (Memref.isWhole_whole _)
            s2 (Memref.isWhole_whole _) s3 (Memref.isWhole_whole _) cc0_scratch4 cc0_scratch5 cc0_scratch6 cc0_scratch7)
          fun _ => iprop(((xLoc d ↦{q} X) ∗ bigSep Finset.univ fun t : Fin 32 => oLoc d ↦[chunkSet L t]{fullShare} rep X)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f0, Hs0⟩, ⟨%f1, Hs1⟩, ⟨%f2, Hs2⟩, ⟨%f3, Hs3⟩, Hbufs⟩, ⟨Hsem4, Hsem5, Hsem6, Hsem7, Hsems⟩, HO⟩
  ihave Hmw := ((K (F := F)).mayWaits_none (thr := V d (cV L) (jV L)) hO) $$ Hlv
  ihave Hx' := (Entails.of_eq (pts_x (F := F) d L q X).symm) $$ Hx
  ihave Hs0' := (Entails.of_eq (pts_s0 (F := F) d L f0).symm) $$ Hs0
  ihave Hs1' := (Entails.of_eq (pts_s1 (F := F) d L f1).symm) $$ Hs1
  ihave Hs2' := (Entails.of_eq (pts_s2 (F := F) d L f2).symm) $$ Hs2
  ihave Hs3' := (Entails.of_eq (pts_s3 (F := F) d L f3).symm) $$ Hs3
  ihave Ho' := (Entails.of_eq (bigSep_fin32 (F := F) (fun t : Fin 32 => oLoc d ↦[chunkSet L t]{fullShare} fo))) $$ Ho
  icases Ho' with ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩
  ihave Ho0' := (Entails.of_eq (show ((((oV : Memref sig .scVector .hbm S4096x8192 .f32).slice (Rect.unit (s := S4096x8192) (k0_off20 L 0#32) S8x4096.size (k0_off20_inb L 0)) (fun _ => rfl)).view.loc (thr d L) ↦[((oV : Memref sig .scVector .hbm S4096x8192 .f32).slice (Rect.unit (s := S4096x8192) (k0_off20 L 0#32) S8x4096.size (k0_off20_inb L 0)) (fun _ => rfl)).view.set]{fullShare} fo : sProp (MM F)) = oLoc d ↦[chunkSet L 0]{fullShare} fo) from pts_oEven (F := F) d L 0 fo).symm) $$ Ho0
  ihave Ho1' := (Entails.of_eq (show ((((oV : Memref sig .scVector .hbm S4096x8192 .f32).slice (Rect.unit (s := S4096x8192) (k0_off26 L 0#32) S8x4096.size (k0_off26_inb L 0)) (fun _ => rfl)).view.loc (thr d L) ↦[((oV : Memref sig .scVector .hbm S4096x8192 .f32).slice (Rect.unit (s := S4096x8192) (k0_off26 L 0#32) S8x4096.size (k0_off26_inb L 0)) (fun _ => rfl)).view.set]{fullShare} fo : sProp (MM F)) = oLoc d ↦[chunkSet L 1]{fullShare} fo) from pts_oOdd (F := F) d L 0 fo).symm) $$ Ho1
  ihave Ho2' := (Entails.of_eq (show ((((oV : Memref sig .scVector .hbm S4096x8192 .f32).slice (Rect.unit (s := S4096x8192) (k0_off20 L 8#32) S8x4096.size (k0_off20_inb L 1)) (fun _ => rfl)).view.loc (thr d L) ↦[((oV : Memref sig .scVector .hbm S4096x8192 .f32).slice (Rect.unit (s := S4096x8192) (k0_off20 L 8#32) S8x4096.size (k0_off20_inb L 1)) (fun _ => rfl)).view.set]{fullShare} fo : sProp (MM F)) = oLoc d ↦[chunkSet L 2]{fullShare} fo) from pts_oEven (F := F) d L 1 fo).symm) $$ Ho2
  ihave Ho3' := (Entails.of_eq (show ((((oV : Memref sig .scVector .hbm S4096x8192 .f32).slice (Rect.unit (s := S4096x8192) (k0_off26 L 8#32) S8x4096.size (k0_off26_inb L 1)) (fun _ => rfl)).view.loc (thr d L) ↦[((oV : Memref sig .scVector .hbm S4096x8192 .f32).slice (Rect.unit (s := S4096x8192) (k0_off26 L 8#32) S8x4096.size (k0_off26_inb L 1)) (fun _ => rfl)).view.set]{fullShare} fo : sProp (MM F)) = oLoc d ↦[chunkSet L 3]{fullShare} fo) from pts_oOdd (F := F) d L 1 fo).symm) $$ Ho3
  ihave Ho4' := (Entails.of_eq (show ((((oV : Memref sig .scVector .hbm S4096x8192 .f32).slice (Rect.unit (s := S4096x8192) (k0_off20 L 16#32) S8x4096.size (k0_off20_inb L 2)) (fun _ => rfl)).view.loc (thr d L) ↦[((oV : Memref sig .scVector .hbm S4096x8192 .f32).slice (Rect.unit (s := S4096x8192) (k0_off20 L 16#32) S8x4096.size (k0_off20_inb L 2)) (fun _ => rfl)).view.set]{fullShare} fo : sProp (MM F)) = oLoc d ↦[chunkSet L 4]{fullShare} fo) from pts_oEven (F := F) d L 2 fo).symm) $$ Ho4
  ihave Ho5' := (Entails.of_eq (show ((((oV : Memref sig .scVector .hbm S4096x8192 .f32).slice (Rect.unit (s := S4096x8192) (k0_off26 L 16#32) S8x4096.size (k0_off26_inb L 2)) (fun _ => rfl)).view.loc (thr d L) ↦[((oV : Memref sig .scVector .hbm S4096x8192 .f32).slice (Rect.unit (s := S4096x8192) (k0_off26 L 16#32) S8x4096.size (k0_off26_inb L 2)) (fun _ => rfl)).view.set]{fullShare} fo : sProp (MM F)) = oLoc d ↦[chunkSet L 5]{fullShare} fo) from pts_oOdd (F := F) d L 2 fo).symm) $$ Ho5
  ihave Ho6' := (Entails.of_eq (show ((((oV : Memref sig .scVector .hbm S4096x8192 .f32).slice (Rect.unit (s := S4096x8192) (k0_off20 L 24#32) S8x4096.size (k0_off20_inb L 3)) (fun _ => rfl)).view.loc (thr d L) ↦[((oV : Memref sig .scVector .hbm S4096x8192 .f32).slice (Rect.unit (s := S4096x8192) (k0_off20 L 24#32) S8x4096.size (k0_off20_inb L 3)) (fun _ => rfl)).view.set]{fullShare} fo : sProp (MM F)) = oLoc d ↦[chunkSet L 6]{fullShare} fo) from pts_oEven (F := F) d L 3 fo).symm) $$ Ho6
  ihave Ho7' := (Entails.of_eq (show ((((oV : Memref sig .scVector .hbm S4096x8192 .f32).slice (Rect.unit (s := S4096x8192) (k0_off26 L 24#32) S8x4096.size (k0_off26_inb L 3)) (fun _ => rfl)).view.loc (thr d L) ↦[((oV : Memref sig .scVector .hbm S4096x8192 .f32).slice (Rect.unit (s := S4096x8192) (k0_off26 L 24#32) S8x4096.size (k0_off26_inb L 3)) (fun _ => rfl)).view.set]{fullShare} fo : sProp (MM F)) = oLoc d ↦[chunkSet L 7]{fullShare} fo) from pts_oOdd (F := F) d L 3 fo).symm) $$ Ho7
  ihave Ho8' := (Entails.of_eq (show ((((oV : Memref sig .scVector .hbm S4096x8192 .f32).slice (Rect.unit (s := S4096x8192) (k0_off20 L 32#32) S8x4096.size (k0_off20_inb L 4)) (fun _ => rfl)).view.loc (thr d L) ↦[((oV : Memref sig .scVector .hbm S4096x8192 .f32).slice (Rect.unit (s := S4096x8192) (k0_off20 L 32#32) S8x4096.size (k0_off20_inb L 4)) (fun _ => rfl)).view.set]{fullShare} fo : sProp (MM F)) = oLoc d ↦[chunkSet L 8]{fullShare} fo) from pts_oEven (F := F) d L 4 fo).symm) $$ Ho8
  ihave Ho9' := (Entails.of_eq (show ((((oV : Memref sig .scVector .hbm S4096x8192 .f32).slice (Rect.unit (s := S4096x8192) (k0_off26 L 32#32) S8x4096.size (k0_off26_inb L 4)) (fun _ => rfl)).view.loc (thr d L) ↦[((oV : Memref sig .scVector .hbm S4096x8192 .f32).slice (Rect.unit (s := S4096x8192) (k0_off26 L 32#32) S8x4096.size (k0_off26_inb L 4)) (fun _ => rfl)).view.set]{fullShare} fo : sProp (MM F)) = oLoc d ↦[chunkSet L 9]{fullShare} fo) from pts_oOdd (F := F) d L 4 fo).symm) $$ Ho9
  ihave Ho10' := (Entails.of_eq (show ((((oV : Memref sig .scVector .hbm S4096x8192 .f32).slice (Rect.unit (s := S4096x8192) (k0_off20 L 40#32) S8x4096.size (k0_off20_inb L 5)) (fun _ => rfl)).view.loc (thr d L) ↦[((oV : Memref sig .scVector .hbm S4096x8192 .f32).slice (Rect.unit (s := S4096x8192) (k0_off20 L 40#32) S8x4096.size (k0_off20_inb L 5)) (fun _ => rfl)).view.set]{fullShare} fo : sProp (MM F)) = oLoc d ↦[chunkSet L 10]{fullShare} fo) from pts_oEven (F := F) d L 5 fo).symm) $$ Ho10
  ihave Ho11' := (Entails.of_eq (show ((((oV : Memref sig .scVector .hbm S4096x8192 .f32).slice (Rect.unit (s := S4096x8192) (k0_off26 L 40#32) S8x4096.size (k0_off26_inb L 5)) (fun _ => rfl)).view.loc (thr d L) ↦[((oV : Memref sig .scVector .hbm S4096x8192 .f32).slice (Rect.unit (s := S4096x8192) (k0_off26 L 40#32) S8x4096.size (k0_off26_inb L 5)) (fun _ => rfl)).view.set]{fullShare} fo : sProp (MM F)) = oLoc d ↦[chunkSet L 11]{fullShare} fo) from pts_oOdd (F := F) d L 5 fo).symm) $$ Ho11
  ihave Ho12' := (Entails.of_eq (show ((((oV : Memref sig .scVector .hbm S4096x8192 .f32).slice (Rect.unit (s := S4096x8192) (k0_off20 L 48#32) S8x4096.size (k0_off20_inb L 6)) (fun _ => rfl)).view.loc (thr d L) ↦[((oV : Memref sig .scVector .hbm S4096x8192 .f32).slice (Rect.unit (s := S4096x8192) (k0_off20 L 48#32) S8x4096.size (k0_off20_inb L 6)) (fun _ => rfl)).view.set]{fullShare} fo : sProp (MM F)) = oLoc d ↦[chunkSet L 12]{fullShare} fo) from pts_oEven (F := F) d L 6 fo).symm) $$ Ho12
  ihave Ho13' := (Entails.of_eq (show ((((oV : Memref sig .scVector .hbm S4096x8192 .f32).slice (Rect.unit (s := S4096x8192) (k0_off26 L 48#32) S8x4096.size (k0_off26_inb L 6)) (fun _ => rfl)).view.loc (thr d L) ↦[((oV : Memref sig .scVector .hbm S4096x8192 .f32).slice (Rect.unit (s := S4096x8192) (k0_off26 L 48#32) S8x4096.size (k0_off26_inb L 6)) (fun _ => rfl)).view.set]{fullShare} fo : sProp (MM F)) = oLoc d ↦[chunkSet L 13]{fullShare} fo) from pts_oOdd (F := F) d L 6 fo).symm) $$ Ho13
  ihave Ho14' := (Entails.of_eq (show ((((oV : Memref sig .scVector .hbm S4096x8192 .f32).slice (Rect.unit (s := S4096x8192) (k0_off20 L 56#32) S8x4096.size (k0_off20_inb L 7)) (fun _ => rfl)).view.loc (thr d L) ↦[((oV : Memref sig .scVector .hbm S4096x8192 .f32).slice (Rect.unit (s := S4096x8192) (k0_off20 L 56#32) S8x4096.size (k0_off20_inb L 7)) (fun _ => rfl)).view.set]{fullShare} fo : sProp (MM F)) = oLoc d ↦[chunkSet L 14]{fullShare} fo) from pts_oEven (F := F) d L 7 fo).symm) $$ Ho14
  ihave Ho15' := (Entails.of_eq (show ((((oV : Memref sig .scVector .hbm S4096x8192 .f32).slice (Rect.unit (s := S4096x8192) (k0_off26 L 56#32) S8x4096.size (k0_off26_inb L 7)) (fun _ => rfl)).view.loc (thr d L) ↦[((oV : Memref sig .scVector .hbm S4096x8192 .f32).slice (Rect.unit (s := S4096x8192) (k0_off26 L 56#32) S8x4096.size (k0_off26_inb L 7)) (fun _ => rfl)).view.set]{fullShare} fo : sProp (MM F)) = oLoc d ↦[chunkSet L 15]{fullShare} fo) from pts_oOdd (F := F) d L 7 fo).symm) $$ Ho15
  ihave Ho16' := (Entails.of_eq (show ((((oV : Memref sig .scVector .hbm S4096x8192 .f32).slice (Rect.unit (s := S4096x8192) (k0_off20 L 64#32) S8x4096.size (k0_off20_inb L 8)) (fun _ => rfl)).view.loc (thr d L) ↦[((oV : Memref sig .scVector .hbm S4096x8192 .f32).slice (Rect.unit (s := S4096x8192) (k0_off20 L 64#32) S8x4096.size (k0_off20_inb L 8)) (fun _ => rfl)).view.set]{fullShare} fo : sProp (MM F)) = oLoc d ↦[chunkSet L 16]{fullShare} fo) from pts_oEven (F := F) d L 8 fo).symm) $$ Ho16
  ihave Ho17' := (Entails.of_eq (show ((((oV : Memref sig .scVector .hbm S4096x8192 .f32).slice (Rect.unit (s := S4096x8192) (k0_off26 L 64#32) S8x4096.size (k0_off26_inb L 8)) (fun _ => rfl)).view.loc (thr d L) ↦[((oV : Memref sig .scVector .hbm S4096x8192 .f32).slice (Rect.unit (s := S4096x8192) (k0_off26 L 64#32) S8x4096.size (k0_off26_inb L 8)) (fun _ => rfl)).view.set]{fullShare} fo : sProp (MM F)) = oLoc d ↦[chunkSet L 17]{fullShare} fo) from pts_oOdd (F := F) d L 8 fo).symm) $$ Ho17
  ihave Ho18' := (Entails.of_eq (show ((((oV : Memref sig .scVector .hbm S4096x8192 .f32).slice (Rect.unit (s := S4096x8192) (k0_off20 L 72#32) S8x4096.size (k0_off20_inb L 9)) (fun _ => rfl)).view.loc (thr d L) ↦[((oV : Memref sig .scVector .hbm S4096x8192 .f32).slice (Rect.unit (s := S4096x8192) (k0_off20 L 72#32) S8x4096.size (k0_off20_inb L 9)) (fun _ => rfl)).view.set]{fullShare} fo : sProp (MM F)) = oLoc d ↦[chunkSet L 18]{fullShare} fo) from pts_oEven (F := F) d L 9 fo).symm) $$ Ho18
  ihave Ho19' := (Entails.of_eq (show ((((oV : Memref sig .scVector .hbm S4096x8192 .f32).slice (Rect.unit (s := S4096x8192) (k0_off26 L 72#32) S8x4096.size (k0_off26_inb L 9)) (fun _ => rfl)).view.loc (thr d L) ↦[((oV : Memref sig .scVector .hbm S4096x8192 .f32).slice (Rect.unit (s := S4096x8192) (k0_off26 L 72#32) S8x4096.size (k0_off26_inb L 9)) (fun _ => rfl)).view.set]{fullShare} fo : sProp (MM F)) = oLoc d ↦[chunkSet L 19]{fullShare} fo) from pts_oOdd (F := F) d L 9 fo).symm) $$ Ho19
  ihave Ho20' := (Entails.of_eq (show ((((oV : Memref sig .scVector .hbm S4096x8192 .f32).slice (Rect.unit (s := S4096x8192) (k0_off20 L 80#32) S8x4096.size (k0_off20_inb L 10)) (fun _ => rfl)).view.loc (thr d L) ↦[((oV : Memref sig .scVector .hbm S4096x8192 .f32).slice (Rect.unit (s := S4096x8192) (k0_off20 L 80#32) S8x4096.size (k0_off20_inb L 10)) (fun _ => rfl)).view.set]{fullShare} fo : sProp (MM F)) = oLoc d ↦[chunkSet L 20]{fullShare} fo) from pts_oEven (F := F) d L 10 fo).symm) $$ Ho20
  ihave Ho21' := (Entails.of_eq (show ((((oV : Memref sig .scVector .hbm S4096x8192 .f32).slice (Rect.unit (s := S4096x8192) (k0_off26 L 80#32) S8x4096.size (k0_off26_inb L 10)) (fun _ => rfl)).view.loc (thr d L) ↦[((oV : Memref sig .scVector .hbm S4096x8192 .f32).slice (Rect.unit (s := S4096x8192) (k0_off26 L 80#32) S8x4096.size (k0_off26_inb L 10)) (fun _ => rfl)).view.set]{fullShare} fo : sProp (MM F)) = oLoc d ↦[chunkSet L 21]{fullShare} fo) from pts_oOdd (F := F) d L 10 fo).symm) $$ Ho21
  ihave Ho22' := (Entails.of_eq (show ((((oV : Memref sig .scVector .hbm S4096x8192 .f32).slice (Rect.unit (s := S4096x8192) (k0_off20 L 88#32) S8x4096.size (k0_off20_inb L 11)) (fun _ => rfl)).view.loc (thr d L) ↦[((oV : Memref sig .scVector .hbm S4096x8192 .f32).slice (Rect.unit (s := S4096x8192) (k0_off20 L 88#32) S8x4096.size (k0_off20_inb L 11)) (fun _ => rfl)).view.set]{fullShare} fo : sProp (MM F)) = oLoc d ↦[chunkSet L 22]{fullShare} fo) from pts_oEven (F := F) d L 11 fo).symm) $$ Ho22
  ihave Ho23' := (Entails.of_eq (show ((((oV : Memref sig .scVector .hbm S4096x8192 .f32).slice (Rect.unit (s := S4096x8192) (k0_off26 L 88#32) S8x4096.size (k0_off26_inb L 11)) (fun _ => rfl)).view.loc (thr d L) ↦[((oV : Memref sig .scVector .hbm S4096x8192 .f32).slice (Rect.unit (s := S4096x8192) (k0_off26 L 88#32) S8x4096.size (k0_off26_inb L 11)) (fun _ => rfl)).view.set]{fullShare} fo : sProp (MM F)) = oLoc d ↦[chunkSet L 23]{fullShare} fo) from pts_oOdd (F := F) d L 11 fo).symm) $$ Ho23
  ihave Ho24' := (Entails.of_eq (show ((((oV : Memref sig .scVector .hbm S4096x8192 .f32).slice (Rect.unit (s := S4096x8192) (k0_off20 L 96#32) S8x4096.size (k0_off20_inb L 12)) (fun _ => rfl)).view.loc (thr d L) ↦[((oV : Memref sig .scVector .hbm S4096x8192 .f32).slice (Rect.unit (s := S4096x8192) (k0_off20 L 96#32) S8x4096.size (k0_off20_inb L 12)) (fun _ => rfl)).view.set]{fullShare} fo : sProp (MM F)) = oLoc d ↦[chunkSet L 24]{fullShare} fo) from pts_oEven (F := F) d L 12 fo).symm) $$ Ho24
  ihave Ho25' := (Entails.of_eq (show ((((oV : Memref sig .scVector .hbm S4096x8192 .f32).slice (Rect.unit (s := S4096x8192) (k0_off26 L 96#32) S8x4096.size (k0_off26_inb L 12)) (fun _ => rfl)).view.loc (thr d L) ↦[((oV : Memref sig .scVector .hbm S4096x8192 .f32).slice (Rect.unit (s := S4096x8192) (k0_off26 L 96#32) S8x4096.size (k0_off26_inb L 12)) (fun _ => rfl)).view.set]{fullShare} fo : sProp (MM F)) = oLoc d ↦[chunkSet L 25]{fullShare} fo) from pts_oOdd (F := F) d L 12 fo).symm) $$ Ho25
  ihave Ho26' := (Entails.of_eq (show ((((oV : Memref sig .scVector .hbm S4096x8192 .f32).slice (Rect.unit (s := S4096x8192) (k0_off20 L 104#32) S8x4096.size (k0_off20_inb L 13)) (fun _ => rfl)).view.loc (thr d L) ↦[((oV : Memref sig .scVector .hbm S4096x8192 .f32).slice (Rect.unit (s := S4096x8192) (k0_off20 L 104#32) S8x4096.size (k0_off20_inb L 13)) (fun _ => rfl)).view.set]{fullShare} fo : sProp (MM F)) = oLoc d ↦[chunkSet L 26]{fullShare} fo) from pts_oEven (F := F) d L 13 fo).symm) $$ Ho26
  ihave Ho27' := (Entails.of_eq (show ((((oV : Memref sig .scVector .hbm S4096x8192 .f32).slice (Rect.unit (s := S4096x8192) (k0_off26 L 104#32) S8x4096.size (k0_off26_inb L 13)) (fun _ => rfl)).view.loc (thr d L) ↦[((oV : Memref sig .scVector .hbm S4096x8192 .f32).slice (Rect.unit (s := S4096x8192) (k0_off26 L 104#32) S8x4096.size (k0_off26_inb L 13)) (fun _ => rfl)).view.set]{fullShare} fo : sProp (MM F)) = oLoc d ↦[chunkSet L 27]{fullShare} fo) from pts_oOdd (F := F) d L 13 fo).symm) $$ Ho27
  ihave Ho28' := (Entails.of_eq (show ((((oV : Memref sig .scVector .hbm S4096x8192 .f32).slice (Rect.unit (s := S4096x8192) (k0_off20 L 112#32) S8x4096.size (k0_off20_inb L 14)) (fun _ => rfl)).view.loc (thr d L) ↦[((oV : Memref sig .scVector .hbm S4096x8192 .f32).slice (Rect.unit (s := S4096x8192) (k0_off20 L 112#32) S8x4096.size (k0_off20_inb L 14)) (fun _ => rfl)).view.set]{fullShare} fo : sProp (MM F)) = oLoc d ↦[chunkSet L 28]{fullShare} fo) from pts_oEven (F := F) d L 14 fo).symm) $$ Ho28
  ihave Ho29' := (Entails.of_eq (show ((((oV : Memref sig .scVector .hbm S4096x8192 .f32).slice (Rect.unit (s := S4096x8192) (k0_off26 L 112#32) S8x4096.size (k0_off26_inb L 14)) (fun _ => rfl)).view.loc (thr d L) ↦[((oV : Memref sig .scVector .hbm S4096x8192 .f32).slice (Rect.unit (s := S4096x8192) (k0_off26 L 112#32) S8x4096.size (k0_off26_inb L 14)) (fun _ => rfl)).view.set]{fullShare} fo : sProp (MM F)) = oLoc d ↦[chunkSet L 29]{fullShare} fo) from pts_oOdd (F := F) d L 14 fo).symm) $$ Ho29
  ihave Ho30' := (Entails.of_eq (show ((((oV : Memref sig .scVector .hbm S4096x8192 .f32).slice (Rect.unit (s := S4096x8192) (k0_off20 L 120#32) S8x4096.size (k0_off20_inb L 15)) (fun _ => rfl)).view.loc (thr d L) ↦[((oV : Memref sig .scVector .hbm S4096x8192 .f32).slice (Rect.unit (s := S4096x8192) (k0_off20 L 120#32) S8x4096.size (k0_off20_inb L 15)) (fun _ => rfl)).view.set]{fullShare} fo : sProp (MM F)) = oLoc d ↦[chunkSet L 30]{fullShare} fo) from pts_oEven (F := F) d L 15 fo).symm) $$ Ho30
  ihave Ho31' := (Entails.of_eq (show ((((oV : Memref sig .scVector .hbm S4096x8192 .f32).slice (Rect.unit (s := S4096x8192) (k0_off26 L 120#32) S8x4096.size (k0_off26_inb L 15)) (fun _ => rfl)).view.loc (thr d L) ↦[((oV : Memref sig .scVector .hbm S4096x8192 .f32).slice (Rect.unit (s := S4096x8192) (k0_off26 L 120#32) S8x4096.size (k0_off26_inb L 15)) (fun _ => rfl)).view.set]{fullShare} fo : sProp (MM F)) = oLoc d ↦[chunkSet L 31]{fullShare} fo) from pts_oOdd (F := F) d L 15 fo).symm) $$ Ho31
  -- chunk 0: the transfers around it, then its loop on slots 0 (in) and 2 (out)
  sl_exec
  have hA0 : ∀ l : Fin 16, ((tile_body.sl.v7 : IVec S16 32) (Shape.ofLane l)).toNat = 0 + 2 * l.val := by decide +kernel
  have hA1 : ∀ l : Fin 16, ((addi tile_body.sl.v7 tile_body.sl.v40 : IVec S16 32) (Shape.ofLane l)).toNat = 1 + 2 * l.val := by decide +kernel
  have hA2 : ∀ l : Fin 16, ((tile_body.sl.v11 : IVec S16 32) (Shape.ofLane l)).toNat = 32 + 2 * l.val := by decide +kernel
  have hA3 : ∀ l : Fin 16, ((addi tile_body.sl.v11 tile_body.sl.v40 : IVec S16 32) (Shape.ofLane l)).toNat = 33 + 2 * l.val := by decide +kernel
  have hA4 : ∀ l : Fin 16, ((tile_body.sl.v15 : IVec S16 32) (Shape.ofLane l)).toNat = 64 + 2 * l.val := by decide +kernel
  have hA5 : ∀ l : Fin 16, ((addi tile_body.sl.v15 tile_body.sl.v40 : IVec S16 32) (Shape.ofLane l)).toNat = 65 + 2 * l.val := by decide +kernel
  have hA6 : ∀ l : Fin 16, ((tile_body.sl.v19 : IVec S16 32) (Shape.ofLane l)).toNat = 96 + 2 * l.val := by decide +kernel
  have hA7 : ∀ l : Fin 16, ((addi tile_body.sl.v19 tile_body.sl.v40 : IVec S16 32) (Shape.ofLane l)).toNat = 97 + 2 * l.val := by decide +kernel
  have hB11 : ∀ l : Fin 16, ((k0_pay16 tile_body.sl.v11 : IVec S16 32) (Shape.ofLane l)).toNat = 33 + 2 * l.val := by decide +kernel
  have hB13 : ∀ l : Fin 16, ((k0_pay17 tile_body.sl.v3 : IVec S16 32) (Shape.ofLane l)).toNat = 65 + 2 * l.val := by decide +kernel
  have hB15 : ∀ l : Fin 16, ((k0_pay18 tile_body.sl.v3 : IVec S16 32) (Shape.ofLane l)).toNat = 97 + 2 * l.val := by decide +kernel
  sl_for (inv0 (F := F) d L X 0 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off4 k) S1x128.size (k0_off4_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off5 k) S1x128.size (k0_off5_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off6 k) S1x128.size (k0_off6_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off7 k) S1x128.size (k0_off7_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off8 k) S1x128.size (k0_off8_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off9 k) S1x128.size (k0_off9_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off10 k) S1x128.size (k0_off10_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off11 k) S1x128.size (k0_off11_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off12 k) S1x128.size (k0_off12_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off13 k) S1x128.size (k0_off13_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off14 k) S1x128.size (k0_off14_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off15 k) S1x128.size (k0_off15_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off16 k) S1x128.size (k0_off16_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off17 k) S1x128.size (k0_off17_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off18 k) S1x128.size (k0_off18_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off19 k) S1x128.size (k0_off19_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_1') fI fO _ _ (off_eq_3 k) _ _ _ _ _ _ _ _ _ _ (off_eq_4 k) _ _ (off_eq_5 k) _ _ (off_eq_6 k) _ _ (off_eq_7 k) _ _ (off_eq_8 k) _ _ (off_eq_9 k) _ _ (off_eq_10 k) _ _ (off_eq_11 k) _ _ (off_eq_12 k) _ _ (off_eq_13 k) _ _ (off_eq_14 k) _ _ (off_eq_15 k) _ _ (off_eq_16 k) _ _ (off_eq_17 k) _ _ (off_eq_18 k) _ _ (off_eq_19 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 0 (by decide) _ _ _ (show _ = ![128 * wid L + 8 * (0 / 2), 2048 * (0 % 2)] from xoff1 L), Cert.TripSpec.done_zero _ _⟩
  iintro %acc1 HI1
  unfold inv0
  icases HI1 with ⟨%fI0, %fO0, Hs0', Hs2', %hP0⟩
  -- chunk 1: the transfers around it, then its loop on slots 1 (in) and 3 (out)
  sl_exec
  sl_for (inv1 (F := F) d L X 1 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_2') fI fO _ _ (off_eq_23 k) _ _ _ _ _ _ _ _ _ _ (off_eq_24 k) _ _ (off_eq_24 k) _ _ (off_eq_24 k) _ _ (off_eq_24 k) _ _ (off_eq_24 k) _ _ (off_eq_24 k) _ _ (off_eq_24 k) _ _ (off_eq_24 k) _ _ (off_eq_25 k) _ _ (off_eq_25 k) _ _ (off_eq_25 k) _ _ (off_eq_25 k) _ _ (off_eq_25 k) _ _ (off_eq_25 k) _ _ (off_eq_25 k) _ _ (off_eq_25 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 1 (by decide) _ _ _ (show _ = ![128 * wid L + 8 * (1 / 2), 2048 * (1 % 2)] from xoff2 L), Cert.TripSpec.done_zero _ _⟩
  iintro %acc2 HI2
  unfold inv1
  icases HI2 with ⟨%fI1, %fO1, Hs1', Hs3', %hP1⟩
  -- chunk 2: the transfers around it, then its loop on slots 0 (in) and 2 (out)
  sl_exec
  sl_for (inv0 (F := F) d L X 2 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_3') fI fO _ _ (off_eq_27 k) _ _ _ _ _ _ _ _ _ _ (off_eq_28 k) _ _ (off_eq_28 k) _ _ (off_eq_28 k) _ _ (off_eq_28 k) _ _ (off_eq_28 k) _ _ (off_eq_28 k) _ _ (off_eq_28 k) _ _ (off_eq_28 k) _ _ (off_eq_29 k) _ _ (off_eq_29 k) _ _ (off_eq_29 k) _ _ (off_eq_29 k) _ _ (off_eq_29 k) _ _ (off_eq_29 k) _ _ (off_eq_29 k) _ _ (off_eq_29 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 2 (by decide) _ _ _ (show _ = ![128 * wid L + 8 * (2 / 2), 2048 * (2 % 2)] from xoff21 L 0), Cert.TripSpec.done_zero _ _⟩
  iintro %acc3 HI3
  unfold inv0
  icases HI3 with ⟨%fI2, %fO2, Hs0', Hs2', %hP2⟩
  -- chunk 3: the transfers around it, then its loop on slots 1 (in) and 3 (out)
  sl_exec
  sl_for (inv1 (F := F) d L X 3 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_4') fI fO _ _ (off_eq_30 k) _ _ _ _ _ _ _ _ _ _ (off_eq_31 k) _ _ (off_eq_31 k) _ _ (off_eq_31 k) _ _ (off_eq_31 k) _ _ (off_eq_31 k) _ _ (off_eq_31 k) _ _ (off_eq_31 k) _ _ (off_eq_31 k) _ _ (off_eq_32 k) _ _ (off_eq_32 k) _ _ (off_eq_32 k) _ _ (off_eq_32 k) _ _ (off_eq_32 k) _ _ (off_eq_32 k) _ _ (off_eq_32 k) _ _ (off_eq_32 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 3 (by decide) _ _ _ (show _ = ![128 * wid L + 8 * (3 / 2), 2048 * (3 % 2)] from xoff22 L 1), Cert.TripSpec.done_zero _ _⟩
  iintro %acc4 HI4
  unfold inv1
  icases HI4 with ⟨%fI3, %fO3, Hs1', Hs3', %hP3⟩
  -- chunk 4: the transfers around it, then its loop on slots 0 (in) and 2 (out)
  sl_exec
  sl_for (inv0 (F := F) d L X 4 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_5') fI fO _ _ (off_eq_33 k) _ _ _ _ _ _ _ _ _ _ (off_eq_34 k) _ _ (off_eq_34 k) _ _ (off_eq_34 k) _ _ (off_eq_34 k) _ _ (off_eq_34 k) _ _ (off_eq_34 k) _ _ (off_eq_34 k) _ _ (off_eq_34 k) _ _ (off_eq_35 k) _ _ (off_eq_35 k) _ _ (off_eq_35 k) _ _ (off_eq_35 k) _ _ (off_eq_35 k) _ _ (off_eq_35 k) _ _ (off_eq_35 k) _ _ (off_eq_35 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 4 (by decide) _ _ _ (show _ = ![128 * wid L + 8 * (4 / 2), 2048 * (4 % 2)] from xoff21 L 1), Cert.TripSpec.done_zero _ _⟩
  iintro %acc5 HI5
  unfold inv0
  icases HI5 with ⟨%fI4, %fO4, Hs0', Hs2', %hP4⟩
  -- chunk 5: the transfers around it, then its loop on slots 1 (in) and 3 (out)
  sl_exec
  sl_for (inv1 (F := F) d L X 5 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_6') fI fO _ _ (off_eq_36 k) _ _ _ _ _ _ _ _ _ _ (off_eq_37 k) _ _ (off_eq_37 k) _ _ (off_eq_37 k) _ _ (off_eq_37 k) _ _ (off_eq_37 k) _ _ (off_eq_37 k) _ _ (off_eq_37 k) _ _ (off_eq_37 k) _ _ (off_eq_38 k) _ _ (off_eq_38 k) _ _ (off_eq_38 k) _ _ (off_eq_38 k) _ _ (off_eq_38 k) _ _ (off_eq_38 k) _ _ (off_eq_38 k) _ _ (off_eq_38 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 5 (by decide) _ _ _ (show _ = ![128 * wid L + 8 * (5 / 2), 2048 * (5 % 2)] from xoff22 L 2), Cert.TripSpec.done_zero _ _⟩
  iintro %acc6 HI6
  unfold inv1
  icases HI6 with ⟨%fI5, %fO5, Hs1', Hs3', %hP5⟩
  -- chunk 6: the transfers around it, then its loop on slots 0 (in) and 2 (out)
  sl_exec
  sl_for (inv0 (F := F) d L X 6 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_7') fI fO _ _ (off_eq_39 k) _ _ _ _ _ _ _ _ _ _ (off_eq_40 k) _ _ (off_eq_40 k) _ _ (off_eq_40 k) _ _ (off_eq_40 k) _ _ (off_eq_40 k) _ _ (off_eq_40 k) _ _ (off_eq_40 k) _ _ (off_eq_40 k) _ _ (off_eq_41 k) _ _ (off_eq_41 k) _ _ (off_eq_41 k) _ _ (off_eq_41 k) _ _ (off_eq_41 k) _ _ (off_eq_41 k) _ _ (off_eq_41 k) _ _ (off_eq_41 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 6 (by decide) _ _ _ (show _ = ![128 * wid L + 8 * (6 / 2), 2048 * (6 % 2)] from xoff21 L 2), Cert.TripSpec.done_zero _ _⟩
  iintro %acc7 HI7
  unfold inv0
  icases HI7 with ⟨%fI6, %fO6, Hs0', Hs2', %hP6⟩
  -- chunk 7: the transfers around it, then its loop on slots 1 (in) and 3 (out)
  sl_exec
  sl_for (inv1 (F := F) d L X 7 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_8') fI fO _ _ (off_eq_42 k) _ _ _ _ _ _ _ _ _ _ (off_eq_43 k) _ _ (off_eq_43 k) _ _ (off_eq_43 k) _ _ (off_eq_43 k) _ _ (off_eq_43 k) _ _ (off_eq_43 k) _ _ (off_eq_43 k) _ _ (off_eq_43 k) _ _ (off_eq_44 k) _ _ (off_eq_44 k) _ _ (off_eq_44 k) _ _ (off_eq_44 k) _ _ (off_eq_44 k) _ _ (off_eq_44 k) _ _ (off_eq_44 k) _ _ (off_eq_44 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 7 (by decide) _ _ _ (show _ = ![128 * wid L + 8 * (7 / 2), 2048 * (7 % 2)] from xoff22 L 3), Cert.TripSpec.done_zero _ _⟩
  iintro %acc8 HI8
  unfold inv1
  icases HI8 with ⟨%fI7, %fO7, Hs1', Hs3', %hP7⟩
  -- chunk 8: the transfers around it, then its loop on slots 0 (in) and 2 (out)
  sl_exec
  sl_for (inv0 (F := F) d L X 8 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_9') fI fO _ _ (off_eq_45 k) _ _ _ _ _ _ _ _ _ _ (off_eq_46 k) _ _ (off_eq_46 k) _ _ (off_eq_46 k) _ _ (off_eq_46 k) _ _ (off_eq_46 k) _ _ (off_eq_46 k) _ _ (off_eq_46 k) _ _ (off_eq_46 k) _ _ (off_eq_47 k) _ _ (off_eq_47 k) _ _ (off_eq_47 k) _ _ (off_eq_47 k) _ _ (off_eq_47 k) _ _ (off_eq_47 k) _ _ (off_eq_47 k) _ _ (off_eq_47 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 8 (by decide) _ _ _ (show _ = ![128 * wid L + 8 * (8 / 2), 2048 * (8 % 2)] from xoff21 L 3), Cert.TripSpec.done_zero _ _⟩
  iintro %acc9 HI9
  unfold inv0
  icases HI9 with ⟨%fI8, %fO8, Hs0', Hs2', %hP8⟩
  -- chunk 9: the transfers around it, then its loop on slots 1 (in) and 3 (out)
  sl_exec
  sl_for (inv1 (F := F) d L X 9 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_10') fI fO _ _ (off_eq_48 k) _ _ _ _ _ _ _ _ _ _ (off_eq_49 k) _ _ (off_eq_49 k) _ _ (off_eq_49 k) _ _ (off_eq_49 k) _ _ (off_eq_49 k) _ _ (off_eq_49 k) _ _ (off_eq_49 k) _ _ (off_eq_49 k) _ _ (off_eq_50 k) _ _ (off_eq_50 k) _ _ (off_eq_50 k) _ _ (off_eq_50 k) _ _ (off_eq_50 k) _ _ (off_eq_50 k) _ _ (off_eq_50 k) _ _ (off_eq_50 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 9 (by decide) _ _ _ (show _ = ![128 * wid L + 8 * (9 / 2), 2048 * (9 % 2)] from xoff22 L 4), Cert.TripSpec.done_zero _ _⟩
  iintro %acc10 HI10
  unfold inv1
  icases HI10 with ⟨%fI9, %fO9, Hs1', Hs3', %hP9⟩
  -- chunk 10: the transfers around it, then its loop on slots 0 (in) and 2 (out)
  sl_exec
  sl_for (inv0 (F := F) d L X 10 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_11') fI fO _ _ (off_eq_51 k) _ _ _ _ _ _ _ _ _ _ (off_eq_52 k) _ _ (off_eq_52 k) _ _ (off_eq_52 k) _ _ (off_eq_52 k) _ _ (off_eq_52 k) _ _ (off_eq_52 k) _ _ (off_eq_52 k) _ _ (off_eq_52 k) _ _ (off_eq_53 k) _ _ (off_eq_53 k) _ _ (off_eq_53 k) _ _ (off_eq_53 k) _ _ (off_eq_53 k) _ _ (off_eq_53 k) _ _ (off_eq_53 k) _ _ (off_eq_53 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 10 (by decide) _ _ _ (show _ = ![128 * wid L + 8 * (10 / 2), 2048 * (10 % 2)] from xoff21 L 4), Cert.TripSpec.done_zero _ _⟩
  iintro %acc11 HI11
  unfold inv0
  icases HI11 with ⟨%fI10, %fO10, Hs0', Hs2', %hP10⟩
  -- chunk 11: the transfers around it, then its loop on slots 1 (in) and 3 (out)
  sl_exec
  sl_for (inv1 (F := F) d L X 11 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_12') fI fO _ _ (off_eq_54 k) _ _ _ _ _ _ _ _ _ _ (off_eq_55 k) _ _ (off_eq_55 k) _ _ (off_eq_55 k) _ _ (off_eq_55 k) _ _ (off_eq_55 k) _ _ (off_eq_55 k) _ _ (off_eq_55 k) _ _ (off_eq_55 k) _ _ (off_eq_56 k) _ _ (off_eq_56 k) _ _ (off_eq_56 k) _ _ (off_eq_56 k) _ _ (off_eq_56 k) _ _ (off_eq_56 k) _ _ (off_eq_56 k) _ _ (off_eq_56 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 11 (by decide) _ _ _ (show _ = ![128 * wid L + 8 * (11 / 2), 2048 * (11 % 2)] from xoff22 L 5), Cert.TripSpec.done_zero _ _⟩
  iintro %acc12 HI12
  unfold inv1
  icases HI12 with ⟨%fI11, %fO11, Hs1', Hs3', %hP11⟩
  -- chunk 12: the transfers around it, then its loop on slots 0 (in) and 2 (out)
  sl_exec
  sl_for (inv0 (F := F) d L X 12 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_13') fI fO _ _ (off_eq_57 k) _ _ _ _ _ _ _ _ _ _ (off_eq_58 k) _ _ (off_eq_58 k) _ _ (off_eq_58 k) _ _ (off_eq_58 k) _ _ (off_eq_58 k) _ _ (off_eq_58 k) _ _ (off_eq_58 k) _ _ (off_eq_58 k) _ _ (off_eq_59 k) _ _ (off_eq_59 k) _ _ (off_eq_59 k) _ _ (off_eq_59 k) _ _ (off_eq_59 k) _ _ (off_eq_59 k) _ _ (off_eq_59 k) _ _ (off_eq_59 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 12 (by decide) _ _ _ (show _ = ![128 * wid L + 8 * (12 / 2), 2048 * (12 % 2)] from xoff21 L 5), Cert.TripSpec.done_zero _ _⟩
  iintro %acc13 HI13
  unfold inv0
  icases HI13 with ⟨%fI12, %fO12, Hs0', Hs2', %hP12⟩
  -- chunk 13: the transfers around it, then its loop on slots 1 (in) and 3 (out)
  sl_exec
  sl_for (inv1 (F := F) d L X 13 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_14') fI fO _ _ (off_eq_60 k) _ _ _ _ _ _ _ _ _ _ (off_eq_61 k) _ _ (off_eq_61 k) _ _ (off_eq_61 k) _ _ (off_eq_61 k) _ _ (off_eq_61 k) _ _ (off_eq_61 k) _ _ (off_eq_61 k) _ _ (off_eq_61 k) _ _ (off_eq_62 k) _ _ (off_eq_62 k) _ _ (off_eq_62 k) _ _ (off_eq_62 k) _ _ (off_eq_62 k) _ _ (off_eq_62 k) _ _ (off_eq_62 k) _ _ (off_eq_62 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 13 (by decide) _ _ _ (show _ = ![128 * wid L + 8 * (13 / 2), 2048 * (13 % 2)] from xoff22 L 6), Cert.TripSpec.done_zero _ _⟩
  iintro %acc14 HI14
  unfold inv1
  icases HI14 with ⟨%fI13, %fO13, Hs1', Hs3', %hP13⟩
  -- chunk 14: the transfers around it, then its loop on slots 0 (in) and 2 (out)
  sl_exec
  sl_for (inv0 (F := F) d L X 14 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_15') fI fO _ _ (off_eq_63 k) _ _ _ _ _ _ _ _ _ _ (off_eq_64 k) _ _ (off_eq_64 k) _ _ (off_eq_64 k) _ _ (off_eq_64 k) _ _ (off_eq_64 k) _ _ (off_eq_64 k) _ _ (off_eq_64 k) _ _ (off_eq_64 k) _ _ (off_eq_65 k) _ _ (off_eq_65 k) _ _ (off_eq_65 k) _ _ (off_eq_65 k) _ _ (off_eq_65 k) _ _ (off_eq_65 k) _ _ (off_eq_65 k) _ _ (off_eq_65 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 14 (by decide) _ _ _ (show _ = ![128 * wid L + 8 * (14 / 2), 2048 * (14 % 2)] from xoff21 L 6), Cert.TripSpec.done_zero _ _⟩
  iintro %acc15 HI15
  unfold inv0
  icases HI15 with ⟨%fI14, %fO14, Hs0', Hs2', %hP14⟩
  -- chunk 15: the transfers around it, then its loop on slots 1 (in) and 3 (out)
  sl_exec
  sl_for (inv1 (F := F) d L X 15 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_16') fI fO _ _ (off_eq_66 k) _ _ _ _ _ _ _ _ _ _ (off_eq_67 k) _ _ (off_eq_67 k) _ _ (off_eq_67 k) _ _ (off_eq_67 k) _ _ (off_eq_67 k) _ _ (off_eq_67 k) _ _ (off_eq_67 k) _ _ (off_eq_67 k) _ _ (off_eq_68 k) _ _ (off_eq_68 k) _ _ (off_eq_68 k) _ _ (off_eq_68 k) _ _ (off_eq_68 k) _ _ (off_eq_68 k) _ _ (off_eq_68 k) _ _ (off_eq_68 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 15 (by decide) _ _ _ (show _ = ![128 * wid L + 8 * (15 / 2), 2048 * (15 % 2)] from xoff22 L 7), Cert.TripSpec.done_zero _ _⟩
  iintro %acc16 HI16
  unfold inv1
  icases HI16 with ⟨%fI15, %fO15, Hs1', Hs3', %hP15⟩
  -- chunk 16: the transfers around it, then its loop on slots 0 (in) and 2 (out)
  sl_exec
  sl_for (inv0 (F := F) d L X 16 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_17') fI fO _ _ (off_eq_69 k) _ _ _ _ _ _ _ _ _ _ (off_eq_70 k) _ _ (off_eq_70 k) _ _ (off_eq_70 k) _ _ (off_eq_70 k) _ _ (off_eq_70 k) _ _ (off_eq_70 k) _ _ (off_eq_70 k) _ _ (off_eq_70 k) _ _ (off_eq_71 k) _ _ (off_eq_71 k) _ _ (off_eq_71 k) _ _ (off_eq_71 k) _ _ (off_eq_71 k) _ _ (off_eq_71 k) _ _ (off_eq_71 k) _ _ (off_eq_71 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 16 (by decide) _ _ _ (show _ = ![128 * wid L + 8 * (16 / 2), 2048 * (16 % 2)] from xoff21 L 7), Cert.TripSpec.done_zero _ _⟩
  iintro %acc17 HI17
  unfold inv0
  icases HI17 with ⟨%fI16, %fO16, Hs0', Hs2', %hP16⟩
  -- chunk 17: the transfers around it, then its loop on slots 1 (in) and 3 (out)
  sl_exec
  sl_for (inv1 (F := F) d L X 17 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_18') fI fO _ _ (off_eq_72 k) _ _ _ _ _ _ _ _ _ _ (off_eq_73 k) _ _ (off_eq_73 k) _ _ (off_eq_73 k) _ _ (off_eq_73 k) _ _ (off_eq_73 k) _ _ (off_eq_73 k) _ _ (off_eq_73 k) _ _ (off_eq_73 k) _ _ (off_eq_74 k) _ _ (off_eq_74 k) _ _ (off_eq_74 k) _ _ (off_eq_74 k) _ _ (off_eq_74 k) _ _ (off_eq_74 k) _ _ (off_eq_74 k) _ _ (off_eq_74 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 17 (by decide) _ _ _ (show _ = ![128 * wid L + 8 * (17 / 2), 2048 * (17 % 2)] from xoff22 L 8), Cert.TripSpec.done_zero _ _⟩
  iintro %acc18 HI18
  unfold inv1
  icases HI18 with ⟨%fI17, %fO17, Hs1', Hs3', %hP17⟩
  -- chunk 18: the transfers around it, then its loop on slots 0 (in) and 2 (out)
  sl_exec
  sl_for (inv0 (F := F) d L X 18 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_19') fI fO _ _ (off_eq_75 k) _ _ _ _ _ _ _ _ _ _ (off_eq_76 k) _ _ (off_eq_76 k) _ _ (off_eq_76 k) _ _ (off_eq_76 k) _ _ (off_eq_76 k) _ _ (off_eq_76 k) _ _ (off_eq_76 k) _ _ (off_eq_76 k) _ _ (off_eq_77 k) _ _ (off_eq_77 k) _ _ (off_eq_77 k) _ _ (off_eq_77 k) _ _ (off_eq_77 k) _ _ (off_eq_77 k) _ _ (off_eq_77 k) _ _ (off_eq_77 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 18 (by decide) _ _ _ (show _ = ![128 * wid L + 8 * (18 / 2), 2048 * (18 % 2)] from xoff21 L 8), Cert.TripSpec.done_zero _ _⟩
  iintro %acc19 HI19
  unfold inv0
  icases HI19 with ⟨%fI18, %fO18, Hs0', Hs2', %hP18⟩
  -- chunk 19: the transfers around it, then its loop on slots 1 (in) and 3 (out)
  sl_exec
  sl_for (inv1 (F := F) d L X 19 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_20') fI fO _ _ (off_eq_78 k) _ _ _ _ _ _ _ _ _ _ (off_eq_79 k) _ _ (off_eq_79 k) _ _ (off_eq_79 k) _ _ (off_eq_79 k) _ _ (off_eq_79 k) _ _ (off_eq_79 k) _ _ (off_eq_79 k) _ _ (off_eq_79 k) _ _ (off_eq_80 k) _ _ (off_eq_80 k) _ _ (off_eq_80 k) _ _ (off_eq_80 k) _ _ (off_eq_80 k) _ _ (off_eq_80 k) _ _ (off_eq_80 k) _ _ (off_eq_80 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 19 (by decide) _ _ _ (show _ = ![128 * wid L + 8 * (19 / 2), 2048 * (19 % 2)] from xoff22 L 9), Cert.TripSpec.done_zero _ _⟩
  iintro %acc20 HI20
  unfold inv1
  icases HI20 with ⟨%fI19, %fO19, Hs1', Hs3', %hP19⟩
  -- chunk 20: the transfers around it, then its loop on slots 0 (in) and 2 (out)
  sl_exec
  sl_for (inv0 (F := F) d L X 20 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_21') fI fO _ _ (off_eq_81 k) _ _ _ _ _ _ _ _ _ _ (off_eq_82 k) _ _ (off_eq_82 k) _ _ (off_eq_82 k) _ _ (off_eq_82 k) _ _ (off_eq_82 k) _ _ (off_eq_82 k) _ _ (off_eq_82 k) _ _ (off_eq_82 k) _ _ (off_eq_83 k) _ _ (off_eq_83 k) _ _ (off_eq_83 k) _ _ (off_eq_83 k) _ _ (off_eq_83 k) _ _ (off_eq_83 k) _ _ (off_eq_83 k) _ _ (off_eq_83 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 20 (by decide) _ _ _ (show _ = ![128 * wid L + 8 * (20 / 2), 2048 * (20 % 2)] from xoff21 L 9), Cert.TripSpec.done_zero _ _⟩
  iintro %acc21 HI21
  unfold inv0
  icases HI21 with ⟨%fI20, %fO20, Hs0', Hs2', %hP20⟩
  -- chunk 21: the transfers around it, then its loop on slots 1 (in) and 3 (out)
  sl_exec
  sl_for (inv1 (F := F) d L X 21 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_22') fI fO _ _ (off_eq_84 k) _ _ _ _ _ _ _ _ _ _ (off_eq_85 k) _ _ (off_eq_85 k) _ _ (off_eq_85 k) _ _ (off_eq_85 k) _ _ (off_eq_85 k) _ _ (off_eq_85 k) _ _ (off_eq_85 k) _ _ (off_eq_85 k) _ _ (off_eq_86 k) _ _ (off_eq_86 k) _ _ (off_eq_86 k) _ _ (off_eq_86 k) _ _ (off_eq_86 k) _ _ (off_eq_86 k) _ _ (off_eq_86 k) _ _ (off_eq_86 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 21 (by decide) _ _ _ (show _ = ![128 * wid L + 8 * (21 / 2), 2048 * (21 % 2)] from xoff22 L 10), Cert.TripSpec.done_zero _ _⟩
  iintro %acc22 HI22
  unfold inv1
  icases HI22 with ⟨%fI21, %fO21, Hs1', Hs3', %hP21⟩
  -- chunk 22: the transfers around it, then its loop on slots 0 (in) and 2 (out)
  sl_exec
  sl_for (inv0 (F := F) d L X 22 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_23') fI fO _ _ (off_eq_87 k) _ _ _ _ _ _ _ _ _ _ (off_eq_88 k) _ _ (off_eq_88 k) _ _ (off_eq_88 k) _ _ (off_eq_88 k) _ _ (off_eq_88 k) _ _ (off_eq_88 k) _ _ (off_eq_88 k) _ _ (off_eq_88 k) _ _ (off_eq_89 k) _ _ (off_eq_89 k) _ _ (off_eq_89 k) _ _ (off_eq_89 k) _ _ (off_eq_89 k) _ _ (off_eq_89 k) _ _ (off_eq_89 k) _ _ (off_eq_89 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 22 (by decide) _ _ _ (show _ = ![128 * wid L + 8 * (22 / 2), 2048 * (22 % 2)] from xoff21 L 10), Cert.TripSpec.done_zero _ _⟩
  iintro %acc23 HI23
  unfold inv0
  icases HI23 with ⟨%fI22, %fO22, Hs0', Hs2', %hP22⟩
  -- chunk 23: the transfers around it, then its loop on slots 1 (in) and 3 (out)
  sl_exec
  sl_for (inv1 (F := F) d L X 23 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_24') fI fO _ _ (off_eq_90 k) _ _ _ _ _ _ _ _ _ _ (off_eq_91 k) _ _ (off_eq_91 k) _ _ (off_eq_91 k) _ _ (off_eq_91 k) _ _ (off_eq_91 k) _ _ (off_eq_91 k) _ _ (off_eq_91 k) _ _ (off_eq_91 k) _ _ (off_eq_92 k) _ _ (off_eq_92 k) _ _ (off_eq_92 k) _ _ (off_eq_92 k) _ _ (off_eq_92 k) _ _ (off_eq_92 k) _ _ (off_eq_92 k) _ _ (off_eq_92 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 23 (by decide) _ _ _ (show _ = ![128 * wid L + 8 * (23 / 2), 2048 * (23 % 2)] from xoff22 L 11), Cert.TripSpec.done_zero _ _⟩
  iintro %acc24 HI24
  unfold inv1
  icases HI24 with ⟨%fI23, %fO23, Hs1', Hs3', %hP23⟩
  -- chunk 24: the transfers around it, then its loop on slots 0 (in) and 2 (out)
  sl_exec
  sl_for (inv0 (F := F) d L X 24 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_25') fI fO _ _ (off_eq_93 k) _ _ _ _ _ _ _ _ _ _ (off_eq_94 k) _ _ (off_eq_94 k) _ _ (off_eq_94 k) _ _ (off_eq_94 k) _ _ (off_eq_94 k) _ _ (off_eq_94 k) _ _ (off_eq_94 k) _ _ (off_eq_94 k) _ _ (off_eq_95 k) _ _ (off_eq_95 k) _ _ (off_eq_95 k) _ _ (off_eq_95 k) _ _ (off_eq_95 k) _ _ (off_eq_95 k) _ _ (off_eq_95 k) _ _ (off_eq_95 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 24 (by decide) _ _ _ (show _ = ![128 * wid L + 8 * (24 / 2), 2048 * (24 % 2)] from xoff21 L 11), Cert.TripSpec.done_zero _ _⟩
  iintro %acc25 HI25
  unfold inv0
  icases HI25 with ⟨%fI24, %fO24, Hs0', Hs2', %hP24⟩
  -- chunk 25: the transfers around it, then its loop on slots 1 (in) and 3 (out)
  sl_exec
  sl_for (inv1 (F := F) d L X 25 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_26') fI fO _ _ (off_eq_96 k) _ _ _ _ _ _ _ _ _ _ (off_eq_97 k) _ _ (off_eq_97 k) _ _ (off_eq_97 k) _ _ (off_eq_97 k) _ _ (off_eq_97 k) _ _ (off_eq_97 k) _ _ (off_eq_97 k) _ _ (off_eq_97 k) _ _ (off_eq_98 k) _ _ (off_eq_98 k) _ _ (off_eq_98 k) _ _ (off_eq_98 k) _ _ (off_eq_98 k) _ _ (off_eq_98 k) _ _ (off_eq_98 k) _ _ (off_eq_98 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 25 (by decide) _ _ _ (show _ = ![128 * wid L + 8 * (25 / 2), 2048 * (25 % 2)] from xoff22 L 12), Cert.TripSpec.done_zero _ _⟩
  iintro %acc26 HI26
  unfold inv1
  icases HI26 with ⟨%fI25, %fO25, Hs1', Hs3', %hP25⟩
  -- chunk 26: the transfers around it, then its loop on slots 0 (in) and 2 (out)
  sl_exec
  sl_for (inv0 (F := F) d L X 26 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_27') fI fO _ _ (off_eq_99 k) _ _ _ _ _ _ _ _ _ _ (off_eq_100 k) _ _ (off_eq_100 k) _ _ (off_eq_100 k) _ _ (off_eq_100 k) _ _ (off_eq_100 k) _ _ (off_eq_100 k) _ _ (off_eq_100 k) _ _ (off_eq_100 k) _ _ (off_eq_101 k) _ _ (off_eq_101 k) _ _ (off_eq_101 k) _ _ (off_eq_101 k) _ _ (off_eq_101 k) _ _ (off_eq_101 k) _ _ (off_eq_101 k) _ _ (off_eq_101 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 26 (by decide) _ _ _ (show _ = ![128 * wid L + 8 * (26 / 2), 2048 * (26 % 2)] from xoff21 L 12), Cert.TripSpec.done_zero _ _⟩
  iintro %acc27 HI27
  unfold inv0
  icases HI27 with ⟨%fI26, %fO26, Hs0', Hs2', %hP26⟩
  -- chunk 27: the transfers around it, then its loop on slots 1 (in) and 3 (out)
  sl_exec
  sl_for (inv1 (F := F) d L X 27 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_28') fI fO _ _ (off_eq_102 k) _ _ _ _ _ _ _ _ _ _ (off_eq_103 k) _ _ (off_eq_103 k) _ _ (off_eq_103 k) _ _ (off_eq_103 k) _ _ (off_eq_103 k) _ _ (off_eq_103 k) _ _ (off_eq_103 k) _ _ (off_eq_103 k) _ _ (off_eq_104 k) _ _ (off_eq_104 k) _ _ (off_eq_104 k) _ _ (off_eq_104 k) _ _ (off_eq_104 k) _ _ (off_eq_104 k) _ _ (off_eq_104 k) _ _ (off_eq_104 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 27 (by decide) _ _ _ (show _ = ![128 * wid L + 8 * (27 / 2), 2048 * (27 % 2)] from xoff22 L 13), Cert.TripSpec.done_zero _ _⟩
  iintro %acc28 HI28
  unfold inv1
  icases HI28 with ⟨%fI27, %fO27, Hs1', Hs3', %hP27⟩
  -- chunk 28: the transfers around it, then its loop on slots 0 (in) and 2 (out)
  sl_exec
  sl_for (inv0 (F := F) d L X 28 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_29') fI fO _ _ (off_eq_105 k) _ _ _ _ _ _ _ _ _ _ (off_eq_106 k) _ _ (off_eq_106 k) _ _ (off_eq_106 k) _ _ (off_eq_106 k) _ _ (off_eq_106 k) _ _ (off_eq_106 k) _ _ (off_eq_106 k) _ _ (off_eq_106 k) _ _ (off_eq_107 k) _ _ (off_eq_107 k) _ _ (off_eq_107 k) _ _ (off_eq_107 k) _ _ (off_eq_107 k) _ _ (off_eq_107 k) _ _ (off_eq_107 k) _ _ (off_eq_107 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 28 (by decide) _ _ _ (show _ = ![128 * wid L + 8 * (28 / 2), 2048 * (28 % 2)] from xoff21 L 13), Cert.TripSpec.done_zero _ _⟩
  iintro %acc29 HI29
  unfold inv0
  icases HI29 with ⟨%fI28, %fO28, Hs0', Hs2', %hP28⟩
  -- chunk 29: the transfers around it, then its loop on slots 1 (in) and 3 (out)
  sl_exec
  sl_for (inv1 (F := F) d L X 29 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_30') fI fO _ _ (off_eq_108 k) _ _ _ _ _ _ _ _ _ _ (off_eq_109 k) _ _ (off_eq_109 k) _ _ (off_eq_109 k) _ _ (off_eq_109 k) _ _ (off_eq_109 k) _ _ (off_eq_109 k) _ _ (off_eq_109 k) _ _ (off_eq_109 k) _ _ (off_eq_110 k) _ _ (off_eq_110 k) _ _ (off_eq_110 k) _ _ (off_eq_110 k) _ _ (off_eq_110 k) _ _ (off_eq_110 k) _ _ (off_eq_110 k) _ _ (off_eq_110 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 29 (by decide) _ _ _ (show _ = ![128 * wid L + 8 * (29 / 2), 2048 * (29 % 2)] from xoff22 L 14), Cert.TripSpec.done_zero _ _⟩
  iintro %acc30 HI30
  unfold inv1
  icases HI30 with ⟨%fI29, %fO29, Hs1', Hs3', %hP29⟩
  -- chunk 30: the transfers around it, then its loop on slots 0 (in) and 2 (out)
  sl_exec
  sl_for (inv0 (F := F) d L X 30 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_31') fI fO _ _ (off_eq_111 k) _ _ _ _ _ _ _ _ _ _ (off_eq_112 k) _ _ (off_eq_112 k) _ _ (off_eq_112 k) _ _ (off_eq_112 k) _ _ (off_eq_112 k) _ _ (off_eq_112 k) _ _ (off_eq_112 k) _ _ (off_eq_112 k) _ _ (off_eq_113 k) _ _ (off_eq_113 k) _ _ (off_eq_113 k) _ _ (off_eq_113 k) _ _ (off_eq_113 k) _ _ (off_eq_113 k) _ _ (off_eq_113 k) _ _ (off_eq_113 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 30 (by decide) _ _ _ (show _ = ![128 * wid L + 8 * (30 / 2), 2048 * (30 % 2)] from xoff21 L 14), Cert.TripSpec.done_zero _ _⟩
  iintro %acc31 HI31
  unfold inv0
  icases HI31 with ⟨%fI30, %fO30, Hs0', Hs2', %hP30⟩
  -- chunk 31: the transfers around it, then its loop on slots 1 (in) and 3 (out)
  sl_exec
  sl_for (inv1 (F := F) d L X 31 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_32') fI fO _ _ (off_eq_114 k) _ _ _ _ _ _ _ _ _ _ (off_eq_115 k) _ _ (off_eq_115 k) _ _ (off_eq_115 k) _ _ (off_eq_115 k) _ _ (off_eq_115 k) _ _ (off_eq_115 k) _ _ (off_eq_115 k) _ _ (off_eq_115 k) _ _ (off_eq_116 k) _ _ (off_eq_116 k) _ _ (off_eq_116 k) _ _ (off_eq_116 k) _ _ (off_eq_116 k) _ _ (off_eq_116 k) _ _ (off_eq_116 k) _ _ (off_eq_116 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 31 (by decide) _ _ _ (show _ = ![128 * wid L + 8 * (31 / 2), 2048 * (31 % 2)] from xoff22 L 15), Cert.TripSpec.done_zero _ _⟩
  iintro %acc32 HI32
  unfold inv1
  icases HI32 with ⟨%fI31, %fO31, Hs1', Hs3', %hP31⟩
  -- the last write-out and the last two waits, then the return
  sl_exec
  sl_step
  -- what the tile hands back: its read share of the array read, and every chunk of the result at the repeat
  isplitl [Hx' Ho0' Ho1' Ho2' Ho3' Ho4' Ho5' Ho6' Ho7' Ho8' Ho9' Ho10' Ho11' Ho12' Ho13' Ho14' Ho15' Ho16' Ho17' Ho18' Ho19' Ho20' Ho21' Ho22' Ho23' Ho24' Ho25' Ho26' Ho27' Ho28' Ho29' Ho30' Ho31']
  · isplitl [Hx']
    · iapply (Entails.of_eq (pts_x (F := F) d L q X)); iexact Hx'
    · rw [bigSep_fin32]
      isplitl [Ho0']; · iapply (Entails.of_eq (chunk_lands (F := F) d L X _ _ 0 (by decide) (show _ = chunkOff L ⟨0, by decide⟩ from ooff20 L 0) _ _ fI0 fO0 (fun _ => rfl) hP0.1 (trips_1' ▸ hP0.2))); iexact Ho0'
      isplitl [Ho1']; · iapply (Entails.of_eq (chunk_lands (F := F) d L X _ _ 1 (by decide) (show _ = chunkOff L ⟨1, by decide⟩ from ooff26 L 0) _ _ fI1 fO1 (fun _ => rfl) hP1.1 (trips_2' ▸ hP1.2))); iexact Ho1'
      isplitl [Ho2']; · iapply (Entails.of_eq (chunk_lands (F := F) d L X _ _ 2 (by decide) (show _ = chunkOff L ⟨2, by decide⟩ from ooff20 L 1) _ _ fI2 fO2 (fun _ => rfl) hP2.1 (trips_3' ▸ hP2.2))); iexact Ho2'
      isplitl [Ho3']; · iapply (Entails.of_eq (chunk_lands (F := F) d L X _ _ 3 (by decide) (show _ = chunkOff L ⟨3, by decide⟩ from ooff26 L 1) _ _ fI3 fO3 (fun _ => rfl) hP3.1 (trips_4' ▸ hP3.2))); iexact Ho3'
      isplitl [Ho4']; · iapply (Entails.of_eq (chunk_lands (F := F) d L X _ _ 4 (by decide) (show _ = chunkOff L ⟨4, by decide⟩ from ooff20 L 2) _ _ fI4 fO4 (fun _ => rfl) hP4.1 (trips_5' ▸ hP4.2))); iexact Ho4'
      isplitl [Ho5']; · iapply (Entails.of_eq (chunk_lands (F := F) d L X _ _ 5 (by decide) (show _ = chunkOff L ⟨5, by decide⟩ from ooff26 L 2) _ _ fI5 fO5 (fun _ => rfl) hP5.1 (trips_6' ▸ hP5.2))); iexact Ho5'
      isplitl [Ho6']; · iapply (Entails.of_eq (chunk_lands (F := F) d L X _ _ 6 (by decide) (show _ = chunkOff L ⟨6, by decide⟩ from ooff20 L 3) _ _ fI6 fO6 (fun _ => rfl) hP6.1 (trips_7' ▸ hP6.2))); iexact Ho6'
      isplitl [Ho7']; · iapply (Entails.of_eq (chunk_lands (F := F) d L X _ _ 7 (by decide) (show _ = chunkOff L ⟨7, by decide⟩ from ooff26 L 3) _ _ fI7 fO7 (fun _ => rfl) hP7.1 (trips_8' ▸ hP7.2))); iexact Ho7'
      isplitl [Ho8']; · iapply (Entails.of_eq (chunk_lands (F := F) d L X _ _ 8 (by decide) (show _ = chunkOff L ⟨8, by decide⟩ from ooff20 L 4) _ _ fI8 fO8 (fun _ => rfl) hP8.1 (trips_9' ▸ hP8.2))); iexact Ho8'
      isplitl [Ho9']; · iapply (Entails.of_eq (chunk_lands (F := F) d L X _ _ 9 (by decide) (show _ = chunkOff L ⟨9, by decide⟩ from ooff26 L 4) _ _ fI9 fO9 (fun _ => rfl) hP9.1 (trips_10' ▸ hP9.2))); iexact Ho9'
      isplitl [Ho10']; · iapply (Entails.of_eq (chunk_lands (F := F) d L X _ _ 10 (by decide) (show _ = chunkOff L ⟨10, by decide⟩ from ooff20 L 5) _ _ fI10 fO10 (fun _ => rfl) hP10.1 (trips_11' ▸ hP10.2))); iexact Ho10'
      isplitl [Ho11']; · iapply (Entails.of_eq (chunk_lands (F := F) d L X _ _ 11 (by decide) (show _ = chunkOff L ⟨11, by decide⟩ from ooff26 L 5) _ _ fI11 fO11 (fun _ => rfl) hP11.1 (trips_12' ▸ hP11.2))); iexact Ho11'
      isplitl [Ho12']; · iapply (Entails.of_eq (chunk_lands (F := F) d L X _ _ 12 (by decide) (show _ = chunkOff L ⟨12, by decide⟩ from ooff20 L 6) _ _ fI12 fO12 (fun _ => rfl) hP12.1 (trips_13' ▸ hP12.2))); iexact Ho12'
      isplitl [Ho13']; · iapply (Entails.of_eq (chunk_lands (F := F) d L X _ _ 13 (by decide) (show _ = chunkOff L ⟨13, by decide⟩ from ooff26 L 6) _ _ fI13 fO13 (fun _ => rfl) hP13.1 (trips_14' ▸ hP13.2))); iexact Ho13'
      isplitl [Ho14']; · iapply (Entails.of_eq (chunk_lands (F := F) d L X _ _ 14 (by decide) (show _ = chunkOff L ⟨14, by decide⟩ from ooff20 L 7) _ _ fI14 fO14 (fun _ => rfl) hP14.1 (trips_15' ▸ hP14.2))); iexact Ho14'
      isplitl [Ho15']; · iapply (Entails.of_eq (chunk_lands (F := F) d L X _ _ 15 (by decide) (show _ = chunkOff L ⟨15, by decide⟩ from ooff26 L 7) _ _ fI15 fO15 (fun _ => rfl) hP15.1 (trips_16' ▸ hP15.2))); iexact Ho15'
      isplitl [Ho16']; · iapply (Entails.of_eq (chunk_lands (F := F) d L X _ _ 16 (by decide) (show _ = chunkOff L ⟨16, by decide⟩ from ooff20 L 8) _ _ fI16 fO16 (fun _ => rfl) hP16.1 (trips_17' ▸ hP16.2))); iexact Ho16'
      isplitl [Ho17']; · iapply (Entails.of_eq (chunk_lands (F := F) d L X _ _ 17 (by decide) (show _ = chunkOff L ⟨17, by decide⟩ from ooff26 L 8) _ _ fI17 fO17 (fun _ => rfl) hP17.1 (trips_18' ▸ hP17.2))); iexact Ho17'
      isplitl [Ho18']; · iapply (Entails.of_eq (chunk_lands (F := F) d L X _ _ 18 (by decide) (show _ = chunkOff L ⟨18, by decide⟩ from ooff20 L 9) _ _ fI18 fO18 (fun _ => rfl) hP18.1 (trips_19' ▸ hP18.2))); iexact Ho18'
      isplitl [Ho19']; · iapply (Entails.of_eq (chunk_lands (F := F) d L X _ _ 19 (by decide) (show _ = chunkOff L ⟨19, by decide⟩ from ooff26 L 9) _ _ fI19 fO19 (fun _ => rfl) hP19.1 (trips_20' ▸ hP19.2))); iexact Ho19'
      isplitl [Ho20']; · iapply (Entails.of_eq (chunk_lands (F := F) d L X _ _ 20 (by decide) (show _ = chunkOff L ⟨20, by decide⟩ from ooff20 L 10) _ _ fI20 fO20 (fun _ => rfl) hP20.1 (trips_21' ▸ hP20.2))); iexact Ho20'
      isplitl [Ho21']; · iapply (Entails.of_eq (chunk_lands (F := F) d L X _ _ 21 (by decide) (show _ = chunkOff L ⟨21, by decide⟩ from ooff26 L 10) _ _ fI21 fO21 (fun _ => rfl) hP21.1 (trips_22' ▸ hP21.2))); iexact Ho21'
      isplitl [Ho22']; · iapply (Entails.of_eq (chunk_lands (F := F) d L X _ _ 22 (by decide) (show _ = chunkOff L ⟨22, by decide⟩ from ooff20 L 11) _ _ fI22 fO22 (fun _ => rfl) hP22.1 (trips_23' ▸ hP22.2))); iexact Ho22'
      isplitl [Ho23']; · iapply (Entails.of_eq (chunk_lands (F := F) d L X _ _ 23 (by decide) (show _ = chunkOff L ⟨23, by decide⟩ from ooff26 L 11) _ _ fI23 fO23 (fun _ => rfl) hP23.1 (trips_24' ▸ hP23.2))); iexact Ho23'
      isplitl [Ho24']; · iapply (Entails.of_eq (chunk_lands (F := F) d L X _ _ 24 (by decide) (show _ = chunkOff L ⟨24, by decide⟩ from ooff20 L 12) _ _ fI24 fO24 (fun _ => rfl) hP24.1 (trips_25' ▸ hP24.2))); iexact Ho24'
      isplitl [Ho25']; · iapply (Entails.of_eq (chunk_lands (F := F) d L X _ _ 25 (by decide) (show _ = chunkOff L ⟨25, by decide⟩ from ooff26 L 12) _ _ fI25 fO25 (fun _ => rfl) hP25.1 (trips_26' ▸ hP25.2))); iexact Ho25'
      isplitl [Ho26']; · iapply (Entails.of_eq (chunk_lands (F := F) d L X _ _ 26 (by decide) (show _ = chunkOff L ⟨26, by decide⟩ from ooff20 L 13) _ _ fI26 fO26 (fun _ => rfl) hP26.1 (trips_27' ▸ hP26.2))); iexact Ho26'
      isplitl [Ho27']; · iapply (Entails.of_eq (chunk_lands (F := F) d L X _ _ 27 (by decide) (show _ = chunkOff L ⟨27, by decide⟩ from ooff26 L 13) _ _ fI27 fO27 (fun _ => rfl) hP27.1 (trips_28' ▸ hP27.2))); iexact Ho27'
      isplitl [Ho28']; · iapply (Entails.of_eq (chunk_lands (F := F) d L X _ _ 28 (by decide) (show _ = chunkOff L ⟨28, by decide⟩ from ooff20 L 14) _ _ fI28 fO28 (fun _ => rfl) hP28.1 (trips_29' ▸ hP28.2))); iexact Ho28'
      isplitl [Ho29']; · iapply (Entails.of_eq (chunk_lands (F := F) d L X _ _ 29 (by decide) (show _ = chunkOff L ⟨29, by decide⟩ from ooff26 L 14) _ _ fI29 fO29 (fun _ => rfl) hP29.1 (trips_30' ▸ hP29.2))); iexact Ho29'
      isplitl [Ho30']; · iapply (Entails.of_eq (chunk_lands (F := F) d L X _ _ 30 (by decide) (show _ = chunkOff L ⟨30, by decide⟩ from ooff20 L 15) _ _ fI30 fO30 (fun _ => rfl) hP30.1 (trips_31' ▸ hP30.2))); iexact Ho30'
      iapply (Entails.of_eq (chunk_lands (F := F) d L X _ _ 31 (by decide) (show _ = chunkOff L ⟨31, by decide⟩ from ooff26 L 15) _ _ fI31 fO31 (fun _ => rfl) hP31.1 (trips_32' ▸ hP31.2))); iexact Ho31'
  isplitl [Hs0' Hs1' Hs2' Hs3' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    iexact Hbufs
  isplitl [Hsem4 Hsem5 Hsem6 Hsem7 Hsems]
  · isplitl [Hsem4]; · iexact Hsem4
    isplitl [Hsem5]; · iexact Hsem5
    isplitl [Hsem6]; · iexact Hsem6
    isplitl [Hsem7]; · iexact Hsem7
    iexact Hsems
  iexists _
  isplitr
  swap
  · iexact HO
  · ipureintro
    repeat (refine waits_ok ?_ _)
    exact fun p hp => Or.inl hp

end Tile2

end Cert.KernelIdeal.Rep

end
-- ==== Proof.KernelIdeal.Launch.lean ====
/-
  The launch: from one tile's task (each tile, holding a read share of the 4096 × 4096 array and its 32 chunks of the
  result array, leaves every chunk at the repeated array) to the run of the whole program. The TensorCore reshapes its
  argument to 4096 × 4096, splits that array's full share into a read share per SparseCore (keeping the remainder) and
  the result array into the 2 × 16 × 32 chunks (pairwise disjoint, together all of it), hands each SparseCore its share
  and its sixteen tiles' chunks; each sequencer splits its share again among its tiles (keeping the remainder until they
  are back). When everything has come back the result array is whole, at the repeated array, and the last reshape
  gives @main's result.
-/
import proofs.«217870_g8959301779661_cont_9to1_m_809_16_alg».proof.Proof.KernelIdeal.Base
import proofs.«217870_g8959301779661_cont_9to1_m_809_16_alg».proof.Proof.KernelIdeal.Body
import Idealize.ShloMosaic.Lib.Transfers

noncomputable section

namespace Cert.KernelIdeal.Rep

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)
open Idealize.ShloMosaic.Tactic

variable {F : FTy → Type}

local notation "𝕄" => MM F

/-! ## Tiles and their chunks -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Tile `i` of SparseCore `c`, as grid coordinates. -/
abbrev tL (c : Fin 2) (i : Fin 16) : grid0.Coords := coordsV (Fin.cast bound_zero.symm c) (Fin.cast bound_one.symm i)

theorem wid_tL (c : Fin 2) (i : Fin 16) : wid (tL c i) = 2 * i.val + c.val := rfl

theorem chunkSet_eq (L : grid0.Coords) (t : Fin 32) : chunkSet L t = (chunkRect L t).set := by
  show ((View.whole (main_v1_scv : Ref sig .scVector)).slice (chunkRect L t)).set = _
  rw [View.set_slice]; exact Finset.map_refl

/-- A position of the result array lies in chunk `t` of tile `(c, i)` exactly when its row, in eights, is
    `16 (2 i + c) + t / 2` and its column, in 4096s, is `t % 2`. -/
theorem mem_chunkSet (c : Fin 2) (i : Fin 16) (t : Fin 32) (j : S4096x8192.Idx) :
    j ∈ chunkSet (tL c i) t ↔ (j 0).val / 8 = 16 * (2 * i.val + c.val) + t.val / 2 ∧ (j 1).val / 4096 = t.val % 2 := by
  rw [chunkSet_eq]
  unfold chunkRect
  rw [Rect.mem_set_unit]
  have h0 : (j 0).val < 4096 := (j 0).isLt
  have h1 : (j 1).val < 8192 := (j 1).isLt
  have hc : c.val < 2 := c.isLt
  have hi : i.val < 16 := i.isLt
  have ht : t.val < 32 := t.isLt
  constructor
  · intro h
    have a0 := h 0
    have a1 := h 1
    simp only [chunkOff, wid_tL] at a0 a1
    change (128 * (2 * i.val + c.val) + 8 * (t.val / 2) ≤ (j 0).val ∧ (j 0).val < 128 * (2 * i.val + c.val) + 8 * (t.val / 2) + 8) at a0
    change (4096 * (t.val % 2) ≤ (j 1).val ∧ (j 1).val < 4096 * (t.val % 2) + 4096) at a1
    omega
  · rintro ⟨e0, e1⟩ a
    match a with
    | ⟨0, _⟩ =>
      show 128 * wid (tL c i) + 8 * (t.val / 2) ≤ (j 0).val ∧ (j 0).val < 128 * wid (tL c i) + 8 * (t.val / 2) + 8
      rw [wid_tL]; omega
    | ⟨1, _⟩ =>
      show 4096 * (t.val % 2) ≤ (j 1).val ∧ (j 1).val < 4096 * (t.val % 2) + 4096
      omega

/-- The chunk sets over all (SparseCore, tile, chunk). -/
abbrev cK (p : Fin 2 × Fin 16 × Fin 32) : Finset S4096x8192.Idx := chunkSet (tL p.1 p.2.1) p.2.2

theorem chunks_disjoint : ∀ p ∈ (Finset.univ : Finset (Fin 2 × Fin 16 × Fin 32)), ∀ p' ∈ (Finset.univ : Finset (Fin 2 × Fin 16 × Fin 32)),
    p ≠ p' → Disjoint (cK p) (cK p') := by
  rintro ⟨c, i, t⟩ - ⟨c', i', t'⟩ - hne
  refine Finset.disjoint_left.mpr fun j hj hj' => hne ?_
  obtain ⟨e0, e1⟩ := (mem_chunkSet c i t j).mp hj
  obtain ⟨e0', e1'⟩ := (mem_chunkSet c' i' t' j).mp hj'
  have hc : c.val < 2 := c.isLt
  have hi : i.val < 16 := i.isLt
  have ht : t.val < 32 := t.isLt
  have hc' : c'.val < 2 := c'.isLt
  have hi' : i'.val < 16 := i'.isLt
  have ht' : t'.val < 32 := t'.isLt
  have ec : c = c' := Fin.ext (by omega)
  have ei : i = i' := Fin.ext (by omega)
  have et : t = t' := Fin.ext (by omega)
  rw [ec, ei, et]

theorem chunks_cover : (Finset.univ : Finset (Fin 2 × Fin 16 × Fin 32)).biUnion cK = Finset.univ := by
  refine Finset.eq_univ_iff_forall.mpr fun j => Finset.mem_biUnion.mpr ?_
  have h0 : (j 0).val < 4096 := (j 0).isLt
  have h1 : (j 1).val < 8192 := (j 1).isLt
  refine ⟨(⟨(j 0).val / 128 % 2, by omega⟩, ⟨(j 0).val / 256, by omega⟩, ⟨2 * ((j 0).val % 128 / 8) + (j 1).val / 4096, by omega⟩), Finset.mem_univ _, ?_⟩
  refine (mem_chunkSet _ _ _ j).mpr ⟨?_, ?_⟩
  · show (j 0).val / 8 = 16 * (2 * ((j 0).val / 256) + (j 0).val / 128 % 2) + (2 * ((j 0).val % 128 / 8) + (j 1).val / 4096) / 2
    omega
  · show (j 1).val / 4096 = (2 * ((j 0).val % 128 / 8) + (j 1).val / 4096) % 2
    omega

/-! ## What the handshakes carry -/

variable (m : (ℓ : Loc nD τ sig) → Buf (Elt F) ℓ) (ρ : Dev nD → PrngReg)

/-- The read share of the 4096 × 4096 array that goes to SparseCore `c`, and the one that goes on to its tile `i`. -/
abbrev qC (c : Fin 2) : PosShare TreeShare := shareTok fullShare 2 c
abbrev qT (c : Fin 2) (i : Fin 16) : PosShare TreeShare := shareTok (qC c) 16 i

/-- A tile's holdings: its read share of the array, its 32 chunks of the result array at `f`. -/
def tilePay (d : Dev nD) (c : Fin 2) (i : Fin 16) (f : Buf (Elt F) (oLoc d)) : sProp 𝕄 :=
  iprop((xLoc d ↦{qT c i} X2 m d) ∗ bigSep Finset.univ fun t : Fin 32 => oLoc d ↦[chunkSet (tL c i) t]{fullShare} f)

/-- A SparseCore's holdings: its read share of the array, its sixteen tiles' chunks at `f`. -/
def corePay (d : Dev nD) (c : Fin 2) (f : Buf (Elt F) (oLoc d)) : sProp 𝕄 :=
  iprop((xLoc d ↦{qC c} X2 m d) ∗ bigSep Finset.univ fun i : Fin 16 => bigSep Finset.univ fun t : Fin 32 => oLoc d ↦[chunkSet (tL c i) t]{fullShare} f)

theorem tilePay_eq (d : Dev nD) (c : Fin 2) (i : Fin 16) (f : Buf (Elt F) (oLoc d)) :
    tilePay m d c i f = iprop((xLoc d ↦{qT c i} X2 m d) ∗ bigSep Finset.univ fun t : Fin 32 => oLoc d ↦[chunkSet (tL c i) t]{fullShare} f) := rfl
theorem corePay_eq (d : Dev nD) (c : Fin 2) (f : Buf (Elt F) (oLoc d)) :
    corePay m d c f = iprop((xLoc d ↦{qC c} X2 m d)
      ∗ bigSep Finset.univ fun i : Fin 16 => bigSep Finset.univ fun t : Fin 32 => oLoc d ↦[chunkSet (tL c i) t]{fullShare} f) := rfl

instance tilePay_storable (d : Dev nD) (c : Fin 2) (i : Fin 16) (f : Buf (Elt F) (oLoc d)) : BI.Storable (upEmb : UEmb _ 𝕄) (tilePay m d c i f) := by
  unfold tilePay; infer_instance
instance corePay_storable (d : Dev nD) (c : Fin 2) (f : Buf (Elt F) (oLoc d)) : BI.Storable (upEmb : UEmb _ 𝕄) (corePay m d c f) := by
  unfold corePay; infer_instance

/-- The one call: each SparseCore takes its read share and its tiles' chunks at the launch contents and brings them back at
    the repeated array; each tile likewise. The kernel's proof consumes nothing of the launch's. -/
def P : (K (F := F)).Pay (nD := nD) (Val := Elt F) (Name := ℕ) (U := UU) where
  st := fun q d c => match q with | 0 => corePay m d (Fin.cast nCore_zero c) (m (oLoc d))
  dn := fun q d c => match q with | 0 => corePay m d (Fin.cast nCore_zero c) (rep (X2 m d))
  go := fun q d c i => match q with | 0 => tilePay m d (Fin.cast nCore_zero c) (Fin.cast nSub_zero i) (m (oLoc d))
  td := fun q d c i => match q with | 0 => tilePay m d (Fin.cast nCore_zero c) (Fin.cast nSub_zero i) (rep (X2 m d))
  x := fun _ _ => iprop(emp)

theorem P_st (d : Dev nD) (c : Fin ((K (F := F)).nCore 0)) : (P m).st 0 d c = corePay m d (Fin.cast nCore_zero c) (m (oLoc d)) := rfl
theorem P_dn (d : Dev nD) (c : Fin ((K (F := F)).nCore 0)) : (P m).dn 0 d c = corePay m d (Fin.cast nCore_zero c) (rep (X2 m d)) := rfl
theorem P_go (d : Dev nD) (c : Fin ((K (F := F)).nCore 0)) (i : Fin ((K (F := F)).nSub 0)) :
    (P m).go 0 d c i = tilePay m d (Fin.cast nCore_zero c) (Fin.cast nSub_zero i) (m (oLoc d)) := rfl
theorem P_td (d : Dev nD) (c : Fin ((K (F := F)).nCore 0)) (i : Fin ((K (F := F)).nSub 0)) :
    (P m).td 0 d c i = tilePay m d (Fin.cast nCore_zero c) (Fin.cast nSub_zero i) (rep (X2 m d)) := rfl
theorem P_x (q : Fin 1) (thr : Thread nD τ) : (P m).x q thr = iprop(emp) := rfl

instance P_storable : (P (F := F) m).IsStorable where
  st q d c := match q with | 0 => (inferInstance : BI.Storable (upEmb : UEmb _ 𝕄) (corePay m d (Fin.cast nCore_zero c) (m (oLoc d))))
  dn q d c := match q with | 0 => (inferInstance : BI.Storable (upEmb : UEmb _ 𝕄) (corePay m d (Fin.cast nCore_zero c) (rep (X2 m d))))
  go q d c i := match q with
    | 0 => (inferInstance : BI.Storable (upEmb : UEmb _ 𝕄) (tilePay m d (Fin.cast nCore_zero c) (Fin.cast nSub_zero i) (m (oLoc d))))
  td q d c i := match q with
    | 0 => (inferInstance : BI.Storable (upEmb : UEmb _ 𝕄) (tilePay m d (Fin.cast nCore_zero c) (Fin.cast nSub_zero i) (rep (X2 m d))))

/-! ## The result array whole is its chunks -/

theorem oPts_chunks (d : Dev nD) (f : Buf (Elt F) (oLoc d)) :
    (oLoc d ↦{fullShare} f : sProp 𝕄)
      = bigSep Finset.univ fun c : Fin 2 => bigSep Finset.univ fun i : Fin 16 => bigSep Finset.univ fun t : Fin 32 => oLoc d ↦[chunkSet (tL c i) t]{fullShare} f := by
  have e : (bigSep Finset.univ fun c : Fin 2 => bigSep Finset.univ fun i : Fin 16 => bigSep Finset.univ fun t : Fin 32 =>
        (oLoc d ↦[chunkSet (tL c i) t]{fullShare} f : sProp 𝕄))
      = bigSep Finset.univ fun p : Fin 2 × Fin 16 × Fin 32 => oLoc d ↦[cK p]{fullShare} f := by
    rw [BI.bigSep_univ_prod]
    refine bigSep_congr fun c _ => ?_
    rw [BI.bigSep_univ_prod]
  rw [e, ← pointsTo_biUnion Finset.univ (ℓ := oLoc d) cK chunks_disjoint, chunks_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A sequencer deals its sixteen tiles a read share each out of its own, keeping the remainder until they are back. -/
theorem vecSplit : (K (F := F)).VecSplit' (P m) 0 := by
  intro d c
  rw [P_st, P_dn]
  simp only [P_go, P_td]
  generalize Fin.cast nCore_zero c = c'
  rw [bigSep_tasks (F := F) (fun i => tilePay m d c' i (m (oLoc d))), bigSep_tasks (F := F) (fun i => tilePay m d c' i (rep (X2 m d)))]
  simp only [tilePay_eq, corePay_eq]
  rw [bigSep_sep', bigSep_sep']
  iintro ⟨Hx, Ho⟩
  ihave Hx' := (pointsTo_toks_split (qC c') 16) $$ Hx
  icases Hx' with ⟨Hdrop, Htoks⟩
  imodintro
  isplitl [Htoks Ho]
  · isplitl [Htoks]; · iexact Htoks
    iexact Ho
  iintro ⟨Htoks, Ho⟩
  isplitl [Hdrop Htoks]
  · iapply (pointsTo_toks_join (qC c') 16)
    isplitl [Hdrop]; · iexact Hdrop
    iexact Htoks
  iexact Ho

/-! ## The task's obligation -/

variable [FloatOps F]

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) s0 (Memref.isWhole_whole _) s1 (Memref.isWhole_whole _)
          s2 (Memref.isWhole_whole _) s3 (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td, tilePay_eq, tilePay_eq]
  exact (tile_body hF d (coordsV ⟨_, hc.1⟩ ⟨_, hc.2⟩) (X2 m d) (m (oLoc d)) _ O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes of @main: the argument to 4096 × 4096, the kernel's result to @main's. -/
abbrev opIn : HloOp τ sig (Elt F) := StableHlo.reshape main_arg0 main_v0 rfl shapeCasts_S2x2048x4096_S4096x4096
abbrev opOut : HloOp τ sig (Elt F) := StableHlo.reshape main_v1 main_v2 rfl shapeCasts_S4096x8192_S2x2048x8192
abbrev SIn : Finset (DevRef τ sig) := {a', x'}
abbrev SOut : Finset (DevRef τ sig) := {o', r'}

omit [FloatOps F] in
theorem held_SIn (d : Dev nD) (W : Valuation τ sig (Elt F)) :
    (held (T d) SIn W : sProp 𝕄) = iprop((aLoc d ↦{fullShare} W a') ∗ xLoc d ↦{fullShare} W x') := by
  unfold held SIn
  rw [SparseCore.bigSep_insert' (by decide), bigSep_singleton]
omit [FloatOps F] in
theorem held_SOut (d : Dev nD) (W : Valuation τ sig (Elt F)) :
    (held (T d) SOut W : sProp 𝕄) = iprop((oLoc d ↦{fullShare} W o') ∗ rLoc d ↦{fullShare} W r') := by
  unfold held SOut
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; before the last reshape, the kernel's result at the repeated array. -/
def V0 (d : Dev nD) : Valuation τ sig (Elt F) := fun b => m (d, b)
def V1 (d : Dev nD) : Valuation τ sig (Elt F) := Function.update (V0 m d) o' (rep (X2 m d))

theorem V1_o (d : Dev nD) : V1 m d o' = rep (X2 m d) := Function.update_self _ _ _
theorem V1_r (d : Dev nD) : V1 m d r' = m (rLoc d) := Function.update_of_ne (show r' ≠ o' by decide) _ _

theorem opIn_a (d : Dev nD) : (opIn (F := F)).result (V0 m d) a' = m (aLoc d) :=
  (opIn (F := F)).result_of_not_mem (V0 m d) (b := a') (show a' ∉ ({x'} : Finset (DevRef τ sig)) by decide)
theorem opIn_x (d : Dev nD) : (opIn (F := F)).result (V0 m d) x' = X2 m d :=
  (StableHlo.reshape_result main_arg0 main_v0 rfl shapeCasts_S2x2048x4096_S4096x4096 ⟨by decide, rfl⟩ ⟨by decide, rfl⟩ (V0 m d)).trans rfl
theorem opOut_o (d : Dev nD) : (opOut (F := F)).result (V1 m d) o' = rep (X2 m d) :=
  ((opOut (F := F)).result_of_not_mem (V1 m d) (b := o') (show o' ∉ ({r'} : Finset (DevRef τ sig)) by decide)).trans (V1_o m d)
theorem opOut_r (d : Dev nD) :
    (opOut (F := F)).result (V1 m d) r' = shapeCast S2x2048x8192 (rep (X2 m d)) shapeCasts_S4096x8192_S2x2048x8192 := by
  refine (StableHlo.reshape_result main_v1 main_v2 rfl shapeCasts_S4096x8192_S2x2048x8192 ⟨by decide, rfl⟩ ⟨by decide, rfl⟩ (V1 m d)).trans ?_
  show (fun i => shapeCast S2x2048x8192 (V1 m d o') shapeCasts_S4096x8192_S2x2048x8192 i) = _
  rw [V1_o]

/-- What the call takes for the two SparseCores, and what it hands back. -/
theorem st0_eq (d : Dev nD) :
    (bigSep Finset.univ fun c : Fin ((K (F := F)).nCore 0) => (P m).st 0 d c) = bigSep Finset.univ fun c : Fin 2 => corePay m d c (m (oLoc d)) := by
  simp only [P_st]
  exact bigSep_cores (F := F) (fun c => corePay m d c (m (oLoc d)))
theorem dn0_eq (d : Dev nD) :
    (bigSep Finset.univ fun c : Fin ((K (F := F)).nCore 0) => (P m).dn 0 d c) = bigSep Finset.univ fun c : Fin 2 => corePay m d c (rep (X2 m d)) := by
  simp only [P_dn]
  exact bigSep_cores (F := F) (fun c => corePay m d c (rep (X2 m d)))

omit [FloatOps F] in
/-- The array whole and the result array whole are the remainder of the array's share and the two SparseCores' holdings. -/
theorem cores_eq (d : Dev nD) (f : Buf (Elt F) (oLoc d)) :
    iprop((xLoc d ↦{fullShare} X2 m d) ∗ oLoc d ↦{fullShare} f)
      ⊣⊢ iprop((xLoc d ↦{shareDrop fullShare 2} X2 m d) ∗ bigSep Finset.univ fun c : Fin 2 => corePay m d c f) := by
  simp only [corePay_eq]
  rw [bigSep_sep', ← oPts_chunks]
  constructor
  · iintro ⟨Hx, Ho⟩
    ihave Hx' := (pointsTo_toks_split fullShare 2) $$ Hx
    icases Hx' with ⟨Hd, Ht⟩
    isplitl [Hd]; · iexact Hd
    isplitl [Ht]; · iexact Ht
    iexact Ho
  · iintro ⟨Hd, Ht, Ho⟩
    isplitl [Hd Ht]
    · iapply (pointsTo_toks_join fullShare 2)
      isplitl [Hd]; · iexact Hd
      iexact Ht
    iexact Ho

theorem held_in_after (d : Dev nD) :
    (held (T d) SIn ((opIn (F := F)).result (V0 m d)) : sProp 𝕄) = iprop((aLoc d ↦{fullShare} m (aLoc d)) ∗ xLoc d ↦{fullShare} X2 m d) := by
  rw [held_SIn, opIn_a, opIn_x]
theorem held_out_before (d : Dev nD) :
    (held (T d) SOut (V1 m d) : sProp 𝕄) = iprop((oLoc d ↦{fullShare} rep (X2 m d)) ∗ rLoc d ↦{fullShare} m (rLoc d)) := by
  rw [held_SOut, V1_o, V1_r]
theorem held_out_after (d : Dev nD) :
    (held (T d) SOut ((opOut (F := F)).result (V1 m d)) : sProp 𝕄)
      = iprop((oLoc d ↦{fullShare} rep (X2 m d)) ∗ rLoc d ↦{fullShare} shapeCast S2x2048x8192 (rep (X2 m d)) shapeCasts_S4096x8192_S2x2048x8192) := by
  rw [held_SOut, opOut_o, opOut_r]

/-- What @main leaves the claim: the argument at its launch contents, the result at the repeated array reshaped. -/
abbrev FIN (d : Dev nD) : sProp 𝕄 :=
  iprop((aLoc d ↦{fullShare} m (aLoc d)) ∗ rLoc d ↦{fullShare} shapeCast S2x2048x8192 (rep (X2 m d)) shapeCasts_S4096x8192_S2x2048x8192)

/-- @main on device `d`'s TensorCore: the reshape of the argument, the call, the reshape of the kernel's result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho, Hr⟩, -, -⟩, -⟩
  -- the argument reshaped to 4096 × 4096
  iapply (wp_hlo_within 𝒱 (SparseCore.T d) none Set.univ (op := opIn) (S := SIn) (Finset.Subset.refl _) (V := V0 m d)) $$ [Hb Ha Hx]
  · isplitl [Hb]; · iexact Hb
    rw [held_SIn]
    isplitl [Ha]; · iexact Ha
    iexact Hx
  iintro ⟨Hb, Hheld⟩
  ihave Hh := (Entails.of_eq (held_in_after m d)) $$ Hheld
  icases Hh with ⟨Ha, Hx⟩
  rw [wp_ret]; imodintro
  -- the call: the array's share split in two and the remainder, the result array in its chunks
  ihave Hxo := (cores_eq m d (m (oLoc d))).1 $$ [Hx Ho]
  · isplitl [Hx]; · iexact Hx
    iexact Ho
  icases Hxo with ⟨Hd, Hcores⟩
  iapply ((K (F := F)).wp_run (D (F := F)) 𝒱 (EH := EH) (P := P m) κ d 0) $$ [Hst Hcores Hb Ha Hr Hd]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hxo := (cores_eq m d (rep (X2 m d))).2 $$ [Hd Hdn']
  · isplitl [Hd]; · iexact Hd
    iexact Hdn'
  icases Hxo with ⟨Hx, Ho⟩
  -- the kernel's result reshaped
  iapply (wp_hlo_within 𝒱 (SparseCore.T d) none Set.univ (op := opOut) (S := SOut) (Finset.Subset.refl _) (V := V1 m d)) $$ [Hb Ho Hr]
  · isplitl [Hb]; · iexact Hb
    rw [held_out_before]
    isplitl [Ho]; · iexact Ho
    iexact Hr
  iintro ⟨Hb, Hheld⟩
  ihave Hh := (Entails.of_eq (held_out_after m d)) $$ Hheld
  icases Hh with ⟨Ho, Hr⟩
  rw [wp_ret]; imodintro; imodintro
  isplitl [Hst]; · iexact Hst
  isplitl [Ha]; · iexact Ha
  iexact Hr

def fq (d : Dev nD) (s' : Phys nD τ sig (Elt F)) : Prop :=
  s'.mem.mem (rLoc d) = shapeCast S2x2048x8192 (rep (X2 m d)) shapeCasts_S4096x8192_S2x2048x8192 ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare)
      (f := shapeCast S2x2048x8192 (rep (X2 m d)) shapeCasts_S4096x8192_S2x2048x8192)) $$ [HSI Hr]
  · isplitl [HSI] <;> iassumption
  icases H with %h2
  ipureintro; exact ⟨funext fun i => h2 i (Finset.mem_univ i), funext fun i => h1 i (Finset.mem_univ i)⟩

/-! ## The program's run -/

/-- Every weakly fair execution of the device's threads ends, nothing faulting, with @main's result the repeated array
    (read through the two reshapes) and the argument unchanged. -/
theorem run_main [∀ e, Nonempty (Elt F e)] :
    θ_run (Cert.KernelIdeal.defs (F := F)) (Cert.KernelIdeal.threads (F := F)) ⟨m, fun _ => 0, ρ⟩
      (fun r => ∀ c : Dev nD, r.2.mem (rLoc c) = shapeCast S2x2048x8192 (rep (X2 m c)) shapeCasts_S4096x8192_S2x2048x8192
        ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = shapeCast S2x2048x8192 (rep (X2 m c)) shapeCasts_S4096x8192_S2x2048x8192
      ∧ r.2.mem (aLoc c) = m (aLoc c)) (fun _ h => h)

end Cert.KernelIdeal.Rep

end
-- ==== Proof.Kernel.Base.lean ====
/-
  What the body's proof and the launch's proof share, for the program read at any float instance `F`: the program as the
  launch theorem sees it, the resource algebra (the handshakes' rounds beside the transfers' counters: the kernel only
  makes local copies and waits for them, so it needs no schedule of its own), the four arrays of @main as locations,
  the kernel's memrefs, and the geometry of the work: tile `(c, s)` is worker `2 s + c`, owns rows
  `[128 (2 s + c), 128 (2 s + c) + 128)`, and moves them in 32 chunks of 8 rows by half the columns.
-/
import proofs.«217870_g8959301779661_cont_9to1_m_809_16_alg».proof.Kernel
import proofs.«217870_g8959301779661_cont_9to1_m_809_16_alg».proof.Proof.Gen.Kernel
import proofs.«217870_g8959301779661_cont_9to1_m_809_16_alg».proof.Proof.Gen.Kernel.Skeleton
import proofs.«217870_g8959301779661_cont_9to1_m_809_16_alg».proof.Proof.RepSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Rep

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model of the proof's assertions. -/
abbrev MM (F : FTy → Type) : Type := MT nD τ sig (HIx 1) (Elt F) ℕ UU ℕ

/-- The handshakes' rounds, the left factor; the transfers' counters are found by instance in the right. -/
abbrev EH : Emb UH (MM F) := embL

/-! ## The arrays and the kernel's memrefs -/

/-- The argument `x`, its reshape `X2` to 4096 × 4096, the kernel's result `out` (4096 × 8192), and @main's result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S4096x4096 .f32 := Memref.whole main_v0_scv
abbrev oV : Memref sig .scVector .hbm S4096x8192 .f32 := Memref.whole main_v1_scv
/-- A tile's scratch: the two input slots (8 × 2048) and the two output slots (8 × 4096). -/
abbrev s0 : Memref sig .scVector .vmem S8x2048 .f32 := Memref.whole cc0_scratch0
abbrev s1 : Memref sig .scVector .vmem S8x2048 .f32 := Memref.whole cc0_scratch1
abbrev s2 : Memref sig .scVector .vmem S8x4096 .f32 := Memref.whole cc0_scratch2
abbrev s3 : Memref sig .scVector .vmem S8x4096 .f32 := Memref.whole cc0_scratch3

/-- The 4096 × 4096 array the kernel reads: the argument's elements at that shape. -/
def X2 (m : (ℓ : Loc nD τ sig) → Buf (Elt F) ℓ) (d : Dev nD) : Buf (Elt F) (xLoc d) :=
  shapeCast S4096x4096 (m (aLoc d)) shapeCasts_S2x2048x4096_S4096x4096

/-- Every element repeated twice along its row: what the kernel leaves in `out`. -/
def rep {d : Dev nD} (X : Buf (Elt F) (xLoc d)) : Buf (Elt F) (oLoc d) := Cert.RepSpec.rep2 X

theorem rep_apply {d : Dev nD} (X : Buf (Elt F) (xLoc d)) (j : S4096x8192.Idx) : rep X j = X (Cert.RepSpec.half j) := rfl

/-! ## The geometry -/

abbrev cV (L : grid0.Coords) : Fin τ.nSC := (L 0).castLE hcore0
abbrev jV (L : grid0.Coords) : Fin τ.nSub := (L 1).castLE hsub0

/-- The worker number of tile `(core L 0, subcore L 1)`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- Where chunk `t` of worker `wid L` sits in `out`: 8 rows from `128 wid + 8 (t / 2)`, 4096 columns from `4096 (t % 2)`. -/
def chunkOff (L : grid0.Coords) (t : Fin 32) : Fin 2 → Nat := ![128 * wid L + 8 * (t.val / 2), 4096 * (t.val % 2)]

theorem chunkOff_inb (L : grid0.Coords) (t : Fin 32) : ∀ a, chunkOff L t a + S8x4096.size a ≤ S4096x8192.size a := by
  have hw := wid_lt L
  have ht : t.val < 32 := t.isLt
  intro a
  match a with
  | ⟨0, _⟩ => show 128 * wid L + 8 * (t.val / 2) + 8 ≤ 4096; omega
  | ⟨1, _⟩ => show 4096 * (t.val % 2) + 4096 ≤ 8192; omega

def chunkRect (L : grid0.Coords) (t : Fin 32) : Rect S4096x8192 := Rect.unit (s := S4096x8192) (chunkOff L t) S8x4096.size (chunkOff_inb L t)

/-- Chunk `t` of tile `L`, as a set of positions of `out`. -/
abbrev chunkSet (L : grid0.Coords) (t : Fin 32) : Finset S4096x8192.Idx :=
  ((oV : Memref sig .scVector .hbm S4096x8192 .f32).view.slice (chunkRect L t)).set

end Cert.Kernel.Rep

end
-- ==== Proof.Kernel.Offs.lean ====
/-
  The closed forms of the inner loops' slice offsets. Each of the 32 counted loops has 128 trips; trip `k` works on row
  `k % 8` and column tile `k / 8`: it reads a 1 × 128 piece of the input scratch at `(k % 8, 128 (k / 8))` and writes two
  1 × 128 pieces of the output scratch, at `(k % 8, 256 (k / 8))` and at `(k % 8, 256 (k / 8) + 128)`. The program computes
  these offsets on 32-bit words (the trip's low three bits, its arithmetic shift by three, products with 128 and 2);
  here they are evaluated at every trip and found equal to the closed forms.
-/
import proofs.«217870_g8959301779661_cont_9to1_m_809_16_alg».proof.Proof.Kernel.Base

set_option Elab.async false

namespace Cert.Kernel.Rep

open Cert.Kernel Cert.Kernel.Gen
open Idealize.ShloMosaic

/-! ### Loop 1 -/

theorem trips_1 : k0_t1_loop.trips = 128 := by decide +kernel
theorem trips_1' : Scf.trips k0_t1_loop.lb k0_t1_loop.ub k0_t1_loop.st = 128 := trips_1
theorem off_eq_3 : ∀ k : Fin k0_t1_loop.trips, k0_off3 k = ![k.val % 8, 128 * (k.val / 8)] := by
  have h : ∀ k : Fin k0_t1_loop.trips, ∀ a, k0_off3 k a = (![k.val % 8, 128 * (k.val / 8)] : Fin 2 → Nat) a := by decide +kernel
  exact fun k => funext (h k)
theorem off_eq_4 : ∀ k : Fin k0_t1_loop.trips, k0_off4 k = ![k.val % 8, 256 * (k.val / 8)] := by
  have h : ∀ k : Fin k0_t1_loop.trips, ∀ a, k0_off4 k a = (![k.val % 8, 256 * (k.val / 8)] : Fin 2 → Nat) a := by decide +kernel
  exact fun k => funext (h k)
theorem off_eq_5 : ∀ k : Fin k0_t1_loop.trips, k0_off5 k = ![k.val % 8, 256 * (k.val / 8)] := by
  have h : ∀ k : Fin k0_t1_loop.trips, ∀ a, k0_off5 k a = (![k.val % 8, 256 * (k.val / 8)] : Fin 2 → Nat) a := by decide +kernel
  exact fun k => funext (h k)
theorem off_eq_6 : ∀ k : Fin k0_t1_loop.trips, k0_off6 k = ![k.val % 8, 256 * (k.val / 8)] := by
  have h : ∀ k : Fin k0_t1_loop.trips, ∀ a, k0_off6 k a = (![k.val % 8, 256 * (k.val / 8)] : Fin 2 → Nat) a := by decide +kernel
  exact fun k => funext (h k)
theorem off_eq_7 : ∀ k : Fin k0_t1_loop.trips, k0_off7 k = ![k.val % 8, 256 * (k.val / 8)] := by
  have h : ∀ k : Fin k0_t1_loop.trips, ∀ a, k0_off7 k a = (![k.val % 8, 256 * (k.val / 8)] : Fin 2 → Nat) a := by decide +kernel
  exact fun k => funext (h k)
theorem off_eq_8 : ∀ k : Fin k0_t1_loop.trips, k0_off8 k = ![k.val % 8, 256 * (k.val / 8)] := by
  have h : ∀ k : Fin k0_t1_loop.trips, ∀ a, k0_off8 k a = (![k.val % 8, 256 * (k.val / 8)] : Fin 2 → Nat) a := by decide +kernel
  exact fun k => funext (h k)
theorem off_eq_9 : ∀ k : Fin k0_t1_loop.trips, k0_off9 k = ![k.val % 8, 256 * (k.val / 8)] := by
  have h : ∀ k : Fin k0_t1_loop.trips, ∀ a, k0_off9 k a = (![k.val % 8, 256 * (k.val / 8)] : Fin 2 → Nat) a := by decide +kernel
  exact fun k => funext (h k)
theorem off_eq_10 : ∀ k : Fin k0_t1_loop.trips, k0_off10 k = ![k.val % 8, 256 * (k.val / 8)] := by
  have h : ∀ k : Fin k0_t1_loop.trips, ∀ a, k0_off10 k a = (![k.val % 8, 256 * (k.val / 8)] : Fin 2 → Nat) a := by decide +kernel
  exact fun k => funext (h k)
theorem off_eq_11 : ∀ k : Fin k0_t1_loop.trips, k0_off11 k = ![k.val % 8, 256 * (k.val / 8)] := by
  have h : ∀ k : Fin k0_t1_loop.trips, ∀ a, k0_off11 k a = (![k.val % 8, 256 * (k.val / 8)] : Fin 2 → Nat) a := by decide +kernel
  exact fun k => funext (h k)
theorem off_eq_12 : ∀ k : Fin k0_t1_loop.trips, k0_off12 k = ![k.val % 8, 256 * (k.val / 8) + 128] := by
  have h : ∀ k : Fin k0_t1_loop.trips, ∀ a, k0_off12 k a = (![k.val % 8, 256 * (k.val / 8) + 128] : Fin 2 → Nat) a := by decide +kernel
  exact fun k => funext (h k)
theorem off_eq_13 : ∀ k : Fin k0_t1_loop.trips, k0_off13 k = ![k.val % 8, 256 * (k.val / 8) + 128] := by
  have h : ∀ k : Fin k0_t1_loop.trips, ∀ a, k0_off13 k a = (![k.val % 8, 256 * (k.val / 8) + 128] : Fin 2 → Nat) a := by decide +kernel
  exact fun k => funext (h k)
theorem off_eq_14 : ∀ k : Fin k0_t1_loop.trips, k0_off14 k = ![k.val % 8, 256 * (k.val / 8) + 128] := by
  have h : ∀ k : Fin k0_t1_loop.trips, ∀ a, k0_off14 k a = (![k.val % 8, 256 * (k.val / 8) + 128] : Fin 2 → Nat) a := by decide +kernel
  exact fun k => funext (h k)
theorem off_eq_15 : ∀ k : Fin k0_t1_loop.trips, k0_off15 k = ![k.val % 8, 256 * (k.val / 8) + 128] := by
  have h : ∀ k : Fin k0_t1_loop.trips, ∀ a, k0_off15 k a = (![k.val % 8, 256 * (k.val / 8) + 128] : Fin 2 → Nat) a := by decide +kernel
  exact fun k => funext (h k)
theorem off_eq_16 : ∀ k : Fin k0_t1_loop.trips, k0_off16 k = ![k.val % 8, 256 * (k.val / 8) + 128] := by
  have h : ∀ k : Fin k0_t1_loop.trips, ∀ a, k0_off16 k a = (![k.val % 8, 256 * (k.val / 8) + 128] : Fin 2 → Nat) a := by decide +kernel
  exact fun k => funext (h k)
theorem off_eq_17 : ∀ k : Fin k0_t1_loop.trips, k0_off17 k = ![k.val % 8, 256 * (k.val / 8) + 128] := by
  have h : ∀ k : Fin k0_t1_loop.trips, ∀ a, k0_off17 k a = (![k.val % 8, 256 * (k.val / 8) + 128] : Fin 2 → Nat) a := by decide +kernel
  exact fun k => funext (h k)
theorem off_eq_18 : ∀ k : Fin k0_t1_loop.trips, k0_off18 k = ![k.val % 8, 256 * (k.val / 8) + 128] := by
  have h : ∀ k : Fin k0_t1_loop.trips, ∀ a, k0_off18 k a = (![k.val % 8, 256 * (k.val / 8) + 128] : Fin 2 → Nat) a := by decide +kernel
  exact fun k => funext (h k)
theorem off_eq_19 : ∀ k : Fin k0_t1_loop.trips, k0_off19 k = ![k.val % 8, 256 * (k.val / 8) + 128] := by
  have h : ∀ k : Fin k0_t1_loop.trips, ∀ a, k0_off19 k a = (![k.val % 8, 256 * (k.val / 8) + 128] : Fin 2 → Nat) a := by decide +kernel
  exact fun k => funext (h k)

/-! ### Loop 2 -/

theorem trips_2 : k0_t2_loop.trips = 128 := by decide +kernel
theorem trips_2' : Scf.trips k0_t2_loop.lb k0_t2_loop.ub k0_t2_loop.st = 128 := trips_2
theorem off_eq_23 : ∀ k : Fin k0_t2_loop.trips, k0_off23 k = ![k.val % 8, 128 * (k.val / 8)] := by
  have h : ∀ k : Fin k0_t2_loop.trips, ∀ a, k0_off23 k a = (![k.val % 8, 128 * (k.val / 8)] : Fin 2 → Nat) a := by decide +kernel
  exact fun k => funext (h k)
theorem off_eq_24 : ∀ k : Fin k0_t2_loop.trips, k0_off24 k = ![k.val % 8, 256 * (k.val / 8)] := by
  have h : ∀ k : Fin k0_t2_loop.trips, ∀ a, k0_off24 k a = (![k.val % 8, 256 * (k.val / 8)] : Fin 2 → Nat) a := by decide +kernel
  exact fun k => funext (h k)
theorem off_eq_25 : ∀ k : Fin k0_t2_loop.trips, k0_off25 k = ![k.val % 8, 256 * (k.val / 8) + 128] := by
  have h : ∀ k : Fin k0_t2_loop.trips, ∀ a, k0_off25 k a = (![k.val % 8, 256 * (k.val / 8) + 128] : Fin 2 → Nat) a := by decide +kernel
  exact fun k => funext (h k)

/-! ### Loop 3 -/

theorem trips_3 : k0_t3_loop.trips = 128 := by decide +kernel
theorem trips_3' : Scf.trips k0_t3_loop.lb k0_t3_loop.ub k0_t3_loop.st = 128 := trips_3
theorem off_eq_27 : ∀ k : Fin k0_t3_loop.trips, k0_off27 k = ![k.val % 8, 128 * (k.val / 8)] := by
  have h : ∀ k : Fin k0_t3_loop.trips, ∀ a, k0_off27 k a = (![k.val % 8, 128 * (k.val / 8)] : Fin 2 → Nat) a := by decide +kernel
  exact fun k => funext (h k)
theorem off_eq_28 : ∀ k : Fin k0_t3_loop.trips, k0_off28 k = ![k.val % 8, 256 * (k.val / 8)] := by
  have h : ∀ k : Fin k0_t3_loop.trips, ∀ a, k0_off28 k a = (![k.val % 8, 256 * (k.val / 8)] : Fin 2 → Nat) a := by decide +kernel
  exact fun k => funext (h k)
theorem off_eq_29 : ∀ k : Fin k0_t3_loop.trips, k0_off29 k = ![k.val % 8, 256 * (k.val / 8) + 128] := by
  have h : ∀ k : Fin k0_t3_loop.trips, ∀ a, k0_off29 k a = (![k.val % 8, 256 * (k.val / 8) + 128] : Fin 2 → Nat) a := by decide +kernel
  exact fun k => funext (h k)

/-! ### Loop 4 -/

theorem trips_4 : k0_t4_loop.trips = 128 := by decide +kernel
theorem trips_4' : Scf.trips k0_t4_loop.lb k0_t4_loop.ub k0_t4_loop.st = 128 := trips_4
theorem off_eq_30 : ∀ k : Fin k0_t4_loop.trips, k0_off30 k = ![k.val % 8, 128 * (k.val / 8)] := by
  have h : ∀ k : Fin k0_t4_loop.trips, ∀ a, k0_off30 k a = (![k.val % 8, 128 * (k.val / 8)] : Fin 2 → Nat) a := by decide +kernel
  exact fun k => funext (h k)
theorem off_eq_31 : ∀ k : Fin k0_t4_loop.trips, k0_off31 k = ![k.val % 8, 256 * (k.val / 8)] := by
  have h : ∀ k : Fin k0_t4_loop.trips, ∀ a, k0_off31 k a = (![k.val % 8, 256 * (k.val / 8)] : Fin 2 → Nat) a := by decide +kernel
  exact fun k => funext (h k)
theorem off_eq_32 : ∀ k : Fin k0_t4_loop.trips, k0_off32 k = ![k.val % 8, 256 * (k.val / 8) + 128] := by
  have h : ∀ k : Fin k0_t4_loop.trips, ∀ a, k0_off32 k a = (![k.val % 8, 256 * (k.val / 8) + 128] : Fin 2 → Nat) a := by decide +kernel
  exact fun k => funext (h k)

/-! ### Loop 5 -/

theorem trips_5 : k0_t5_loop.trips = 128 := by decide +kernel
theorem trips_5' : Scf.trips k0_t5_loop.lb k0_t5_loop.ub k0_t5_loop.st = 128 := trips_5
theorem off_eq_33 : ∀ k : Fin k0_t5_loop.trips, k0_off33 k = ![k.val % 8, 128 * (k.val / 8)] := by
  have h : ∀ k : Fin k0_t5_loop.trips, ∀ a, k0_off33 k a = (![k.val % 8, 128 * (k.val / 8)] : Fin 2 → Nat) a := by decide +kernel
  exact fun k => funext (h k)
theorem off_eq_34 : ∀ k : Fin k0_t5_loop.trips, k0_off34 k = ![k.val % 8, 256 * (k.val / 8)] := by
  have h : ∀ k : Fin k0_t5_loop.trips, ∀ a, k0_off34 k a = (![k.val % 8, 256 * (k.val / 8)] : Fin 2 → Nat) a := by decide +kernel
  exact fun k => funext (h k)
theorem off_eq_35 : ∀ k : Fin k0_t5_loop.trips, k0_off35 k = ![k.val % 8, 256 * (k.val / 8) + 128] := by
  have h : ∀ k : Fin k0_t5_loop.trips, ∀ a, k0_off35 k a = (![k.val % 8, 256 * (k.val / 8) + 128] : Fin 2 → Nat) a := by decide +kernel
  exact fun k => funext (h k)

/-! ### Loop 6 -/

theorem trips_6 : k0_t6_loop.trips = 128 := by decide +kernel
theorem trips_6' : Scf.trips k0_t6_loop.lb k0_t6_loop.ub k0_t6_loop.st = 128 := trips_6
theorem off_eq_36 : ∀ k : Fin k0_t6_loop.trips, k0_off36 k = ![k.val % 8, 128 * (k.val / 8)] := by
  have h : ∀ k : Fin k0_t6_loop.trips, ∀ a, k0_off36 k a = (![k.val % 8, 128 * (k.val / 8)] : Fin 2 → Nat) a := by decide +kernel
  exact fun k => funext (h k)
theorem off_eq_37 : ∀ k : Fin k0_t6_loop.trips, k0_off37 k = ![k.val % 8, 256 * (k.val / 8)] := by
  have h : ∀ k : Fin k0_t6_loop.trips, ∀ a, k0_off37 k a = (![k.val % 8, 256 * (k.val / 8)] : Fin 2 → Nat) a := by decide +kernel
  exact fun k => funext (h k)
theorem off_eq_38 : ∀ k : Fin k0_t6_loop.trips, k0_off38 k = ![k.val % 8, 256 * (k.val / 8) + 128] := by
  have h : ∀ k : Fin k0_t6_loop.trips, ∀ a, k0_off38 k a = (![k.val % 8, 256 * (k.val / 8) + 128] : Fin 2 → Nat) a := by decide +kernel
  exact fun k => funext (h k)

/-! ### Loop 7 -/

theorem trips_7 : k0_t7_loop.trips = 128 := by decide +kernel
theorem trips_7' : Scf.trips k0_t7_loop.lb k0_t7_loop.ub k0_t7_loop.st = 128 := trips_7
theorem off_eq_39 : ∀ k : Fin k0_t7_loop.trips, k0_off39 k = ![k.val % 8, 128 * (k.val / 8)] := by
  have h : ∀ k : Fin k0_t7_loop.trips, ∀ a, k0_off39 k a = (![k.val % 8, 128 * (k.val / 8)] : Fin 2 → Nat) a := by decide +kernel
  exact fun k => funext (h k)
theorem off_eq_40 : ∀ k : Fin k0_t7_loop.trips, k0_off40 k = ![k.val % 8, 256 * (k.val / 8)] := by
  have h : ∀ k : Fin k0_t7_loop.trips, ∀ a, k0_off40 k a = (![k.val % 8, 256 * (k.val / 8)] : Fin 2 → Nat) a := by decide +kernel
  exact fun k => funext (h k)
theorem off_eq_41 : ∀ k : Fin k0_t7_loop.trips, k0_off41 k = ![k.val % 8, 256 * (k.val / 8) + 128] := by
  have h : ∀ k : Fin k0_t7_loop.trips, ∀ a, k0_off41 k a = (![k.val % 8, 256 * (k.val / 8) + 128] : Fin 2 → Nat) a := by decide +kernel
  exact fun k => funext (h k)

/-! ### Loop 8 -/

theorem trips_8 : k0_t8_loop.trips = 128 := by decide +kernel
theorem trips_8' : Scf.trips k0_t8_loop.lb k0_t8_loop.ub k0_t8_loop.st = 128 := trips_8
theorem off_eq_42 : ∀ k : Fin k0_t8_loop.trips, k0_off42 k = ![k.val % 8, 128 * (k.val / 8)] := by
  have h : ∀ k : Fin k0_t8_loop.trips, ∀ a, k0_off42 k a = (![k.val % 8, 128 * (k.val / 8)] : Fin 2 → Nat) a := by decide +kernel
  exact fun k => funext (h k)
theorem off_eq_43 : ∀ k : Fin k0_t8_loop.trips, k0_off43 k = ![k.val % 8, 256 * (k.val / 8)] := by
  have h : ∀ k : Fin k0_t8_loop.trips, ∀ a, k0_off43 k a = (![k.val % 8, 256 * (k.val / 8)] : Fin 2 → Nat) a := by decide +kernel
  exact fun k => funext (h k)
theorem off_eq_44 : ∀ k : Fin k0_t8_loop.trips, k0_off44 k = ![k.val % 8, 256 * (k.val / 8) + 128] := by
  have h : ∀ k : Fin k0_t8_loop.trips, ∀ a, k0_off44 k a = (![k.val % 8, 256 * (k.val / 8) + 128] : Fin 2 → Nat) a := by decide +kernel
  exact fun k => funext (h k)

/-! ### Loop 9 -/

theorem trips_9 : k0_t9_loop.trips = 128 := by decide +kernel
theorem trips_9' : Scf.trips k0_t9_loop.lb k0_t9_loop.ub k0_t9_loop.st = 128 := trips_9
theorem off_eq_45 : ∀ k : Fin k0_t9_loop.trips, k0_off45 k = ![k.val % 8, 128 * (k.val / 8)] := by
  have h : ∀ k : Fin k0_t9_loop.trips, ∀ a, k0_off45 k a = (![k.val % 8, 128 * (k.val / 8)] : Fin 2 → Nat) a := by decide +kernel
  exact fun k => funext (h k)
theorem off_eq_46 : ∀ k : Fin k0_t9_loop.trips, k0_off46 k = ![k.val % 8, 256 * (k.val / 8)] := by
  have h : ∀ k : Fin k0_t9_loop.trips, ∀ a, k0_off46 k a = (![k.val % 8, 256 * (k.val / 8)] : Fin 2 → Nat) a := by decide +kernel
  exact fun k => funext (h k)
theorem off_eq_47 : ∀ k : Fin k0_t9_loop.trips, k0_off47 k = ![k.val % 8, 256 * (k.val / 8) + 128] := by
  have h : ∀ k : Fin k0_t9_loop.trips, ∀ a, k0_off47 k a = (![k.val % 8, 256 * (k.val / 8) + 128] : Fin 2 → Nat) a := by decide +kernel
  exact fun k => funext (h k)

/-! ### Loop 10 -/

theorem trips_10 : k0_t10_loop.trips = 128 := by decide +kernel
theorem trips_10' : Scf.trips k0_t10_loop.lb k0_t10_loop.ub k0_t10_loop.st = 128 := trips_10
theorem off_eq_48 : ∀ k : Fin k0_t10_loop.trips, k0_off48 k = ![k.val % 8, 128 * (k.val / 8)] := by
  have h : ∀ k : Fin k0_t10_loop.trips, ∀ a, k0_off48 k a = (![k.val % 8, 128 * (k.val / 8)] : Fin 2 → Nat) a := by decide +kernel
  exact fun k => funext (h k)
theorem off_eq_49 : ∀ k : Fin k0_t10_loop.trips, k0_off49 k = ![k.val % 8, 256 * (k.val / 8)] := by
  have h : ∀ k : Fin k0_t10_loop.trips, ∀ a, k0_off49 k a = (![k.val % 8, 256 * (k.val / 8)] : Fin 2 → Nat) a := by decide +kernel
  exact fun k => funext (h k)
theorem off_eq_50 : ∀ k : Fin k0_t10_loop.trips, k0_off50 k = ![k.val % 8, 256 * (k.val / 8) + 128] := by
  have h : ∀ k : Fin k0_t10_loop.trips, ∀ a, k0_off50 k a = (![k.val % 8, 256 * (k.val / 8) + 128] : Fin 2 → Nat) a := by decide +kernel
  exact fun k => funext (h k)

/-! ### Loop 11 -/

theorem trips_11 : k0_t11_loop.trips = 128 := by decide +kernel
theorem trips_11' : Scf.trips k0_t11_loop.lb k0_t11_loop.ub k0_t11_loop.st = 128 := trips_11
theorem off_eq_51 : ∀ k : Fin k0_t11_loop.trips, k0_off51 k = ![k.val % 8, 128 * (k.val / 8)] := by
  have h : ∀ k : Fin k0_t11_loop.trips, ∀ a, k0_off51 k a = (![k.val % 8, 128 * (k.val / 8)] : Fin 2 → Nat) a := by decide +kernel
  exact fun k => funext (h k)
theorem off_eq_52 : ∀ k : Fin k0_t11_loop.trips, k0_off52 k = ![k.val % 8, 256 * (k.val / 8)] := by
  have h : ∀ k : Fin k0_t11_loop.trips, ∀ a, k0_off52 k a = (![k.val % 8, 256 * (k.val / 8)] : Fin 2 → Nat) a := by decide +kernel
  exact fun k => funext (h k)
theorem off_eq_53 : ∀ k : Fin k0_t11_loop.trips, k0_off53 k = ![k.val % 8, 256 * (k.val / 8) + 128] := by
  have h : ∀ k : Fin k0_t11_loop.trips, ∀ a, k0_off53 k a = (![k.val % 8, 256 * (k.val / 8) + 128] : Fin 2 → Nat) a := by decide +kernel
  exact fun k => funext (h k)

/-! ### Loop 12 -/

theorem trips_12 : k0_t12_loop.trips = 128 := by decide +kernel
theorem trips_12' : Scf.trips k0_t12_loop.lb k0_t12_loop.ub k0_t12_loop.st = 128 := trips_12
theorem off_eq_54 : ∀ k : Fin k0_t12_loop.trips, k0_off54 k = ![k.val % 8, 128 * (k.val / 8)] := by
  have h : ∀ k : Fin k0_t12_loop.trips, ∀ a, k0_off54 k a = (![k.val % 8, 128 * (k.val / 8)] : Fin 2 → Nat) a := by decide +kernel
  exact fun k => funext (h k)
theorem off_eq_55 : ∀ k : Fin k0_t12_loop.trips, k0_off55 k = ![k.val % 8, 256 * (k.val / 8)] := by
  have h : ∀ k : Fin k0_t12_loop.trips, ∀ a, k0_off55 k a = (![k.val % 8, 256 * (k.val / 8)] : Fin 2 → Nat) a := by decide +kernel
  exact fun k => funext (h k)
theorem off_eq_56 : ∀ k : Fin k0_t12_loop.trips, k0_off56 k = ![k.val % 8, 256 * (k.val / 8) + 128] := by
  have h : ∀ k : Fin k0_t12_loop.trips, ∀ a, k0_off56 k a = (![k.val % 8, 256 * (k.val / 8) + 128] : Fin 2 → Nat) a := by decide +kernel
  exact fun k => funext (h k)

/-! ### Loop 13 -/

theorem trips_13 : k0_t13_loop.trips = 128 := by decide +kernel
theorem trips_13' : Scf.trips k0_t13_loop.lb k0_t13_loop.ub k0_t13_loop.st = 128 := trips_13
theorem off_eq_57 : ∀ k : Fin k0_t13_loop.trips, k0_off57 k = ![k.val % 8, 128 * (k.val / 8)] := by
  have h : ∀ k : Fin k0_t13_loop.trips, ∀ a, k0_off57 k a = (![k.val % 8, 128 * (k.val / 8)] : Fin 2 → Nat) a := by decide +kernel
  exact fun k => funext (h k)
theorem off_eq_58 : ∀ k : Fin k0_t13_loop.trips, k0_off58 k = ![k.val % 8, 256 * (k.val / 8)] := by
  have h : ∀ k : Fin k0_t13_loop.trips, ∀ a, k0_off58 k a = (![k.val % 8, 256 * (k.val / 8)] : Fin 2 → Nat) a := by decide +kernel
  exact fun k => funext (h k)
theorem off_eq_59 : ∀ k : Fin k0_t13_loop.trips, k0_off59 k = ![k.val % 8, 256 * (k.val / 8) + 128] := by
  have h : ∀ k : Fin k0_t13_loop.trips, ∀ a, k0_off59 k a = (![k.val % 8, 256 * (k.val / 8) + 128] : Fin 2 → Nat) a := by decide +kernel
  exact fun k => funext (h k)

/-! ### Loop 14 -/

theorem trips_14 : k0_t14_loop.trips = 128 := by decide +kernel
theorem trips_14' : Scf.trips k0_t14_loop.lb k0_t14_loop.ub k0_t14_loop.st = 128 := trips_14
theorem off_eq_60 : ∀ k : Fin k0_t14_loop.trips, k0_off60 k = ![k.val % 8, 128 * (k.val / 8)] := by
  have h : ∀ k : Fin k0_t14_loop.trips, ∀ a, k0_off60 k a = (![k.val % 8, 128 * (k.val / 8)] : Fin 2 → Nat) a := by decide +kernel
  exact fun k => funext (h k)
theorem off_eq_61 : ∀ k : Fin k0_t14_loop.trips, k0_off61 k = ![k.val % 8, 256 * (k.val / 8)] := by
  have h : ∀ k : Fin k0_t14_loop.trips, ∀ a, k0_off61 k a = (![k.val % 8, 256 * (k.val / 8)] : Fin 2 → Nat) a := by decide +kernel
  exact fun k => funext (h k)
theorem off_eq_62 : ∀ k : Fin k0_t14_loop.trips, k0_off62 k = ![k.val % 8, 256 * (k.val / 8) + 128] := by
  have h : ∀ k : Fin k0_t14_loop.trips, ∀ a, k0_off62 k a = (![k.val % 8, 256 * (k.val / 8) + 128] : Fin 2 → Nat) a := by decide +kernel
  exact fun k => funext (h k)

/-! ### Loop 15 -/

theorem trips_15 : k0_t15_loop.trips = 128 := by decide +kernel
theorem trips_15' : Scf.trips k0_t15_loop.lb k0_t15_loop.ub k0_t15_loop.st = 128 := trips_15
theorem off_eq_63 : ∀ k : Fin k0_t15_loop.trips, k0_off63 k = ![k.val % 8, 128 * (k.val / 8)] := by
  have h : ∀ k : Fin k0_t15_loop.trips, ∀ a, k0_off63 k a = (![k.val % 8, 128 * (k.val / 8)] : Fin 2 → Nat) a := by decide +kernel
  exact fun k => funext (h k)
theorem off_eq_64 : ∀ k : Fin k0_t15_loop.trips, k0_off64 k = ![k.val % 8, 256 * (k.val / 8)] := by
  have h : ∀ k : Fin k0_t15_loop.trips, ∀ a, k0_off64 k a = (![k.val % 8, 256 * (k.val / 8)] : Fin 2 → Nat) a := by decide +kernel
  exact fun k => funext (h k)
theorem off_eq_65 : ∀ k : Fin k0_t15_loop.trips, k0_off65 k = ![k.val % 8, 256 * (k.val / 8) + 128] := by
  have h : ∀ k : Fin k0_t15_loop.trips, ∀ a, k0_off65 k a = (![k.val % 8, 256 * (k.val / 8) + 128] : Fin 2 → Nat) a := by decide +kernel
  exact fun k => funext (h k)

/-! ### Loop 16 -/

theorem trips_16 : k0_t16_loop.trips = 128 := by decide +kernel
theorem trips_16' : Scf.trips k0_t16_loop.lb k0_t16_loop.ub k0_t16_loop.st = 128 := trips_16
theorem off_eq_66 : ∀ k : Fin k0_t16_loop.trips, k0_off66 k = ![k.val % 8, 128 * (k.val / 8)] := by
  have h : ∀ k : Fin k0_t16_loop.trips, ∀ a, k0_off66 k a = (![k.val % 8, 128 * (k.val / 8)] : Fin 2 → Nat) a := by decide +kernel
  exact fun k => funext (h k)
theorem off_eq_67 : ∀ k : Fin k0_t16_loop.trips, k0_off67 k = ![k.val % 8, 256 * (k.val / 8)] := by
  have h : ∀ k : Fin k0_t16_loop.trips, ∀ a, k0_off67 k a = (![k.val % 8, 256 * (k.val / 8)] : Fin 2 → Nat) a := by decide +kernel
  exact fun k => funext (h k)
theorem off_eq_68 : ∀ k : Fin k0_t16_loop.trips, k0_off68 k = ![k.val % 8, 256 * (k.val / 8) + 128] := by
  have h : ∀ k : Fin k0_t16_loop.trips, ∀ a, k0_off68 k a = (![k.val % 8, 256 * (k.val / 8) + 128] : Fin 2 → Nat) a := by decide +kernel
  exact fun k => funext (h k)

/-! ### Loop 17 -/

theorem trips_17 : k0_t17_loop.trips = 128 := by decide +kernel
theorem trips_17' : Scf.trips k0_t17_loop.lb k0_t17_loop.ub k0_t17_loop.st = 128 := trips_17
theorem off_eq_69 : ∀ k : Fin k0_t17_loop.trips, k0_off69 k = ![k.val % 8, 128 * (k.val / 8)] := by
  have h : ∀ k : Fin k0_t17_loop.trips, ∀ a, k0_off69 k a = (![k.val % 8, 128 * (k.val / 8)] : Fin 2 → Nat) a := by decide +kernel
  exact fun k => funext (h k)
theorem off_eq_70 : ∀ k : Fin k0_t17_loop.trips, k0_off70 k = ![k.val % 8, 256 * (k.val / 8)] := by
  have h : ∀ k : Fin k0_t17_loop.trips, ∀ a, k0_off70 k a = (![k.val % 8, 256 * (k.val / 8)] : Fin 2 → Nat) a := by decide +kernel
  exact fun k => funext (h k)
theorem off_eq_71 : ∀ k : Fin k0_t17_loop.trips, k0_off71 k = ![k.val % 8, 256 * (k.val / 8) + 128] := by
  have h : ∀ k : Fin k0_t17_loop.trips, ∀ a, k0_off71 k a = (![k.val % 8, 256 * (k.val / 8) + 128] : Fin 2 → Nat) a := by decide +kernel
  exact fun k => funext (h k)

/-! ### Loop 18 -/

theorem trips_18 : k0_t18_loop.trips = 128 := by decide +kernel
theorem trips_18' : Scf.trips k0_t18_loop.lb k0_t18_loop.ub k0_t18_loop.st = 128 := trips_18
theorem off_eq_72 : ∀ k : Fin k0_t18_loop.trips, k0_off72 k = ![k.val % 8, 128 * (k.val / 8)] := by
  have h : ∀ k : Fin k0_t18_loop.trips, ∀ a, k0_off72 k a = (![k.val % 8, 128 * (k.val / 8)] : Fin 2 → Nat) a := by decide +kernel
  exact fun k => funext (h k)
theorem off_eq_73 : ∀ k : Fin k0_t18_loop.trips, k0_off73 k = ![k.val % 8, 256 * (k.val / 8)] := by
  have h : ∀ k : Fin k0_t18_loop.trips, ∀ a, k0_off73 k a = (![k.val % 8, 256 * (k.val / 8)] : Fin 2 → Nat) a := by decide +kernel
  exact fun k => funext (h k)
theorem off_eq_74 : ∀ k : Fin k0_t18_loop.trips, k0_off74 k = ![k.val % 8, 256 * (k.val / 8) + 128] := by
  have h : ∀ k : Fin k0_t18_loop.trips, ∀ a, k0_off74 k a = (![k.val % 8, 256 * (k.val / 8) + 128] : Fin 2 → Nat) a := by decide +kernel
  exact fun k => funext (h k)

/-! ### Loop 19 -/

theorem trips_19 : k0_t19_loop.trips = 128 := by decide +kernel
theorem trips_19' : Scf.trips k0_t19_loop.lb k0_t19_loop.ub k0_t19_loop.st = 128 := trips_19
theorem off_eq_75 : ∀ k : Fin k0_t19_loop.trips, k0_off75 k = ![k.val % 8, 128 * (k.val / 8)] := by
  have h : ∀ k : Fin k0_t19_loop.trips, ∀ a, k0_off75 k a = (![k.val % 8, 128 * (k.val / 8)] : Fin 2 → Nat) a := by decide +kernel
  exact fun k => funext (h k)
theorem off_eq_76 : ∀ k : Fin k0_t19_loop.trips, k0_off76 k = ![k.val % 8, 256 * (k.val / 8)] := by
  have h : ∀ k : Fin k0_t19_loop.trips, ∀ a, k0_off76 k a = (![k.val % 8, 256 * (k.val / 8)] : Fin 2 → Nat) a := by decide +kernel
  exact fun k => funext (h k)
theorem off_eq_77 : ∀ k : Fin k0_t19_loop.trips, k0_off77 k = ![k.val % 8, 256 * (k.val / 8) + 128] := by
  have h : ∀ k : Fin k0_t19_loop.trips, ∀ a, k0_off77 k a = (![k.val % 8, 256 * (k.val / 8) + 128] : Fin 2 → Nat) a := by decide +kernel
  exact fun k => funext (h k)

/-! ### Loop 20 -/

theorem trips_20 : k0_t20_loop.trips = 128 := by decide +kernel
theorem trips_20' : Scf.trips k0_t20_loop.lb k0_t20_loop.ub k0_t20_loop.st = 128 := trips_20
theorem off_eq_78 : ∀ k : Fin k0_t20_loop.trips, k0_off78 k = ![k.val % 8, 128 * (k.val / 8)] := by
  have h : ∀ k : Fin k0_t20_loop.trips, ∀ a, k0_off78 k a = (![k.val % 8, 128 * (k.val / 8)] : Fin 2 → Nat) a := by decide +kernel
  exact fun k => funext (h k)
theorem off_eq_79 : ∀ k : Fin k0_t20_loop.trips, k0_off79 k = ![k.val % 8, 256 * (k.val / 8)] := by
  have h : ∀ k : Fin k0_t20_loop.trips, ∀ a, k0_off79 k a = (![k.val % 8, 256 * (k.val / 8)] : Fin 2 → Nat) a := by decide +kernel
  exact fun k => funext (h k)
theorem off_eq_80 : ∀ k : Fin k0_t20_loop.trips, k0_off80 k = ![k.val % 8, 256 * (k.val / 8) + 128] := by
  have h : ∀ k : Fin k0_t20_loop.trips, ∀ a, k0_off80 k a = (![k.val % 8, 256 * (k.val / 8) + 128] : Fin 2 → Nat) a := by decide +kernel
  exact fun k => funext (h k)

/-! ### Loop 21 -/

theorem trips_21 : k0_t21_loop.trips = 128 := by decide +kernel
theorem trips_21' : Scf.trips k0_t21_loop.lb k0_t21_loop.ub k0_t21_loop.st = 128 := trips_21
theorem off_eq_81 : ∀ k : Fin k0_t21_loop.trips, k0_off81 k = ![k.val % 8, 128 * (k.val / 8)] := by
  have h : ∀ k : Fin k0_t21_loop.trips, ∀ a, k0_off81 k a = (![k.val % 8, 128 * (k.val / 8)] : Fin 2 → Nat) a := by decide +kernel
  exact fun k => funext (h k)
theorem off_eq_82 : ∀ k : Fin k0_t21_loop.trips, k0_off82 k = ![k.val % 8, 256 * (k.val / 8)] := by
  have h : ∀ k : Fin k0_t21_loop.trips, ∀ a, k0_off82 k a = (![k.val % 8, 256 * (k.val / 8)] : Fin 2 → Nat) a := by decide +kernel
  exact fun k => funext (h k)
theorem off_eq_83 : ∀ k : Fin k0_t21_loop.trips, k0_off83 k = ![k.val % 8, 256 * (k.val / 8) + 128] := by
  have h : ∀ k : Fin k0_t21_loop.trips, ∀ a, k0_off83 k a = (![k.val % 8, 256 * (k.val / 8) + 128] : Fin 2 → Nat) a := by decide +kernel
  exact fun k => funext (h k)

/-! ### Loop 22 -/

theorem trips_22 : k0_t22_loop.trips = 128 := by decide +kernel
theorem trips_22' : Scf.trips k0_t22_loop.lb k0_t22_loop.ub k0_t22_loop.st = 128 := trips_22
theorem off_eq_84 : ∀ k : Fin k0_t22_loop.trips, k0_off84 k = ![k.val % 8, 128 * (k.val / 8)] := by
  have h : ∀ k : Fin k0_t22_loop.trips, ∀ a, k0_off84 k a = (![k.val % 8, 128 * (k.val / 8)] : Fin 2 → Nat) a := by decide +kernel
  exact fun k => funext (h k)
theorem off_eq_85 : ∀ k : Fin k0_t22_loop.trips, k0_off85 k = ![k.val % 8, 256 * (k.val / 8)] := by
  have h : ∀ k : Fin k0_t22_loop.trips, ∀ a, k0_off85 k a = (![k.val % 8, 256 * (k.val / 8)] : Fin 2 → Nat) a := by decide +kernel
  exact fun k => funext (h k)
theorem off_eq_86 : ∀ k : Fin k0_t22_loop.trips, k0_off86 k = ![k.val % 8, 256 * (k.val / 8) + 128] := by
  have h : ∀ k : Fin k0_t22_loop.trips, ∀ a, k0_off86 k a = (![k.val % 8, 256 * (k.val / 8) + 128] : Fin 2 → Nat) a := by decide +kernel
  exact fun k => funext (h k)

/-! ### Loop 23 -/

theorem trips_23 : k0_t23_loop.trips = 128 := by decide +kernel
theorem trips_23' : Scf.trips k0_t23_loop.lb k0_t23_loop.ub k0_t23_loop.st = 128 := trips_23
theorem off_eq_87 : ∀ k : Fin k0_t23_loop.trips, k0_off87 k = ![k.val % 8, 128 * (k.val / 8)] := by
  have h : ∀ k : Fin k0_t23_loop.trips, ∀ a, k0_off87 k a = (![k.val % 8, 128 * (k.val / 8)] : Fin 2 → Nat) a := by decide +kernel
  exact fun k => funext (h k)
theorem off_eq_88 : ∀ k : Fin k0_t23_loop.trips, k0_off88 k = ![k.val % 8, 256 * (k.val / 8)] := by
  have h : ∀ k : Fin k0_t23_loop.trips, ∀ a, k0_off88 k a = (![k.val % 8, 256 * (k.val / 8)] : Fin 2 → Nat) a := by decide +kernel
  exact fun k => funext (h k)
theorem off_eq_89 : ∀ k : Fin k0_t23_loop.trips, k0_off89 k = ![k.val % 8, 256 * (k.val / 8) + 128] := by
  have h : ∀ k : Fin k0_t23_loop.trips, ∀ a, k0_off89 k a = (![k.val % 8, 256 * (k.val / 8) + 128] : Fin 2 → Nat) a := by decide +kernel
  exact fun k => funext (h k)

/-! ### Loop 24 -/

theorem trips_24 : k0_t24_loop.trips = 128 := by decide +kernel
theorem trips_24' : Scf.trips k0_t24_loop.lb k0_t24_loop.ub k0_t24_loop.st = 128 := trips_24
theorem off_eq_90 : ∀ k : Fin k0_t24_loop.trips, k0_off90 k = ![k.val % 8, 128 * (k.val / 8)] := by
  have h : ∀ k : Fin k0_t24_loop.trips, ∀ a, k0_off90 k a = (![k.val % 8, 128 * (k.val / 8)] : Fin 2 → Nat) a := by decide +kernel
  exact fun k => funext (h k)
theorem off_eq_91 : ∀ k : Fin k0_t24_loop.trips, k0_off91 k = ![k.val % 8, 256 * (k.val / 8)] := by
  have h : ∀ k : Fin k0_t24_loop.trips, ∀ a, k0_off91 k a = (![k.val % 8, 256 * (k.val / 8)] : Fin 2 → Nat) a := by decide +kernel
  exact fun k => funext (h k)
theorem off_eq_92 : ∀ k : Fin k0_t24_loop.trips, k0_off92 k = ![k.val % 8, 256 * (k.val / 8) + 128] := by
  have h : ∀ k : Fin k0_t24_loop.trips, ∀ a, k0_off92 k a = (![k.val % 8, 256 * (k.val / 8) + 128] : Fin 2 → Nat) a := by decide +kernel
  exact fun k => funext (h k)

/-! ### Loop 25 -/

theorem trips_25 : k0_t25_loop.trips = 128 := by decide +kernel
theorem trips_25' : Scf.trips k0_t25_loop.lb k0_t25_loop.ub k0_t25_loop.st = 128 := trips_25
theorem off_eq_93 : ∀ k : Fin k0_t25_loop.trips, k0_off93 k = ![k.val % 8, 128 * (k.val / 8)] := by
  have h : ∀ k : Fin k0_t25_loop.trips, ∀ a, k0_off93 k a = (![k.val % 8, 128 * (k.val / 8)] : Fin 2 → Nat) a := by decide +kernel
  exact fun k => funext (h k)
theorem off_eq_94 : ∀ k : Fin k0_t25_loop.trips, k0_off94 k = ![k.val % 8, 256 * (k.val / 8)] := by
  have h : ∀ k : Fin k0_t25_loop.trips, ∀ a, k0_off94 k a = (![k.val % 8, 256 * (k.val / 8)] : Fin 2 → Nat) a := by decide +kernel
  exact fun k => funext (h k)
theorem off_eq_95 : ∀ k : Fin k0_t25_loop.trips, k0_off95 k = ![k.val % 8, 256 * (k.val / 8) + 128] := by
  have h : ∀ k : Fin k0_t25_loop.trips, ∀ a, k0_off95 k a = (![k.val % 8, 256 * (k.val / 8) + 128] : Fin 2 → Nat) a := by decide +kernel
  exact fun k => funext (h k)

/-! ### Loop 26 -/

theorem trips_26 : k0_t26_loop.trips = 128 := by decide +kernel
theorem trips_26' : Scf.trips k0_t26_loop.lb k0_t26_loop.ub k0_t26_loop.st = 128 := trips_26
theorem off_eq_96 : ∀ k : Fin k0_t26_loop.trips, k0_off96 k = ![k.val % 8, 128 * (k.val / 8)] := by
  have h : ∀ k : Fin k0_t26_loop.trips, ∀ a, k0_off96 k a = (![k.val % 8, 128 * (k.val / 8)] : Fin 2 → Nat) a := by decide +kernel
  exact fun k => funext (h k)
theorem off_eq_97 : ∀ k : Fin k0_t26_loop.trips, k0_off97 k = ![k.val % 8, 256 * (k.val / 8)] := by
  have h : ∀ k : Fin k0_t26_loop.trips, ∀ a, k0_off97 k a = (![k.val % 8, 256 * (k.val / 8)] : Fin 2 → Nat) a := by decide +kernel
  exact fun k => funext (h k)
theorem off_eq_98 : ∀ k : Fin k0_t26_loop.trips, k0_off98 k = ![k.val % 8, 256 * (k.val / 8) + 128] := by
  have h : ∀ k : Fin k0_t26_loop.trips, ∀ a, k0_off98 k a = (![k.val % 8, 256 * (k.val / 8) + 128] : Fin 2 → Nat) a := by decide +kernel
  exact fun k => funext (h k)

/-! ### Loop 27 -/

theorem trips_27 : k0_t27_loop.trips = 128 := by decide +kernel
theorem trips_27' : Scf.trips k0_t27_loop.lb k0_t27_loop.ub k0_t27_loop.st = 128 := trips_27
theorem off_eq_99 : ∀ k : Fin k0_t27_loop.trips, k0_off99 k = ![k.val % 8, 128 * (k.val / 8)] := by
  have h : ∀ k : Fin k0_t27_loop.trips, ∀ a, k0_off99 k a = (![k.val % 8, 128 * (k.val / 8)] : Fin 2 → Nat) a := by decide +kernel
  exact fun k => funext (h k)
theorem off_eq_100 : ∀ k : Fin k0_t27_loop.trips, k0_off100 k = ![k.val % 8, 256 * (k.val / 8)] := by
  have h : ∀ k : Fin k0_t27_loop.trips, ∀ a, k0_off100 k a = (![k.val % 8, 256 * (k.val / 8)] : Fin 2 → Nat) a := by decide +kernel
  exact fun k => funext (h k)
theorem off_eq_101 : ∀ k : Fin k0_t27_loop.trips, k0_off101 k = ![k.val % 8, 256 * (k.val / 8) + 128] := by
  have h : ∀ k : Fin k0_t27_loop.trips, ∀ a, k0_off101 k a = (![k.val % 8, 256 * (k.val / 8) + 128] : Fin 2 → Nat) a := by decide +kernel
  exact fun k => funext (h k)

/-! ### Loop 28 -/

theorem trips_28 : k0_t28_loop.trips = 128 := by decide +kernel
theorem trips_28' : Scf.trips k0_t28_loop.lb k0_t28_loop.ub k0_t28_loop.st = 128 := trips_28
theorem off_eq_102 : ∀ k : Fin k0_t28_loop.trips, k0_off102 k = ![k.val % 8, 128 * (k.val / 8)] := by
  have h : ∀ k : Fin k0_t28_loop.trips, ∀ a, k0_off102 k a = (![k.val % 8, 128 * (k.val / 8)] : Fin 2 → Nat) a := by decide +kernel
  exact fun k => funext (h k)
theorem off_eq_103 : ∀ k : Fin k0_t28_loop.trips, k0_off103 k = ![k.val % 8, 256 * (k.val / 8)] := by
  have h : ∀ k : Fin k0_t28_loop.trips, ∀ a, k0_off103 k a = (![k.val % 8, 256 * (k.val / 8)] : Fin 2 → Nat) a := by decide +kernel
  exact fun k => funext (h k)
theorem off_eq_104 : ∀ k : Fin k0_t28_loop.trips, k0_off104 k = ![k.val % 8, 256 * (k.val / 8) + 128] := by
  have h : ∀ k : Fin k0_t28_loop.trips, ∀ a, k0_off104 k a = (![k.val % 8, 256 * (k.val / 8) + 128] : Fin 2 → Nat) a := by decide +kernel
  exact fun k => funext (h k)

/-! ### Loop 29 -/

theorem trips_29 : k0_t29_loop.trips = 128 := by decide +kernel
theorem trips_29' : Scf.trips k0_t29_loop.lb k0_t29_loop.ub k0_t29_loop.st = 128 := trips_29
theorem off_eq_105 : ∀ k : Fin k0_t29_loop.trips, k0_off105 k = ![k.val % 8, 128 * (k.val / 8)] := by
  have h : ∀ k : Fin k0_t29_loop.trips, ∀ a, k0_off105 k a = (![k.val % 8, 128 * (k.val / 8)] : Fin 2 → Nat) a := by decide +kernel
  exact fun k => funext (h k)
theorem off_eq_106 : ∀ k : Fin k0_t29_loop.trips, k0_off106 k = ![k.val % 8, 256 * (k.val / 8)] := by
  have h : ∀ k : Fin k0_t29_loop.trips, ∀ a, k0_off106 k a = (![k.val % 8, 256 * (k.val / 8)] : Fin 2 → Nat) a := by decide +kernel
  exact fun k => funext (h k)
theorem off_eq_107 : ∀ k : Fin k0_t29_loop.trips, k0_off107 k = ![k.val % 8, 256 * (k.val / 8) + 128] := by
  have h : ∀ k : Fin k0_t29_loop.trips, ∀ a, k0_off107 k a = (![k.val % 8, 256 * (k.val / 8) + 128] : Fin 2 → Nat) a := by decide +kernel
  exact fun k => funext (h k)

/-! ### Loop 30 -/

theorem trips_30 : k0_t30_loop.trips = 128 := by decide +kernel
theorem trips_30' : Scf.trips k0_t30_loop.lb k0_t30_loop.ub k0_t30_loop.st = 128 := trips_30
theorem off_eq_108 : ∀ k : Fin k0_t30_loop.trips, k0_off108 k = ![k.val % 8, 128 * (k.val / 8)] := by
  have h : ∀ k : Fin k0_t30_loop.trips, ∀ a, k0_off108 k a = (![k.val % 8, 128 * (k.val / 8)] : Fin 2 → Nat) a := by decide +kernel
  exact fun k => funext (h k)
theorem off_eq_109 : ∀ k : Fin k0_t30_loop.trips, k0_off109 k = ![k.val % 8, 256 * (k.val / 8)] := by
  have h : ∀ k : Fin k0_t30_loop.trips, ∀ a, k0_off109 k a = (![k.val % 8, 256 * (k.val / 8)] : Fin 2 → Nat) a := by decide +kernel
  exact fun k => funext (h k)
theorem off_eq_110 : ∀ k : Fin k0_t30_loop.trips, k0_off110 k = ![k.val % 8, 256 * (k.val / 8) + 128] := by
  have h : ∀ k : Fin k0_t30_loop.trips, ∀ a, k0_off110 k a = (![k.val % 8, 256 * (k.val / 8) + 128] : Fin 2 → Nat) a := by decide +kernel
  exact fun k => funext (h k)

/-! ### Loop 31 -/

theorem trips_31 : k0_t31_loop.trips = 128 := by decide +kernel
theorem trips_31' : Scf.trips k0_t31_loop.lb k0_t31_loop.ub k0_t31_loop.st = 128 := trips_31
theorem off_eq_111 : ∀ k : Fin k0_t31_loop.trips, k0_off111 k = ![k.val % 8, 128 * (k.val / 8)] := by
  have h : ∀ k : Fin k0_t31_loop.trips, ∀ a, k0_off111 k a = (![k.val % 8, 128 * (k.val / 8)] : Fin 2 → Nat) a := by decide +kernel
  exact fun k => funext (h k)
theorem off_eq_112 : ∀ k : Fin k0_t31_loop.trips, k0_off112 k = ![k.val % 8, 256 * (k.val / 8)] := by
  have h : ∀ k : Fin k0_t31_loop.trips, ∀ a, k0_off112 k a = (![k.val % 8, 256 * (k.val / 8)] : Fin 2 → Nat) a := by decide +kernel
  exact fun k => funext (h k)
theorem off_eq_113 : ∀ k : Fin k0_t31_loop.trips, k0_off113 k = ![k.val % 8, 256 * (k.val / 8) + 128] := by
  have h : ∀ k : Fin k0_t31_loop.trips, ∀ a, k0_off113 k a = (![k.val % 8, 256 * (k.val / 8) + 128] : Fin 2 → Nat) a := by decide +kernel
  exact fun k => funext (h k)

/-! ### Loop 32 -/

theorem trips_32 : k0_t32_loop.trips = 128 := by decide +kernel
theorem trips_32' : Scf.trips k0_t32_loop.lb k0_t32_loop.ub k0_t32_loop.st = 128 := trips_32
theorem off_eq_114 : ∀ k : Fin k0_t32_loop.trips, k0_off114 k = ![k.val % 8, 128 * (k.val / 8)] := by
  have h : ∀ k : Fin k0_t32_loop.trips, ∀ a, k0_off114 k a = (![k.val % 8, 128 * (k.val / 8)] : Fin 2 → Nat) a := by decide +kernel
  exact fun k => funext (h k)
theorem off_eq_115 : ∀ k : Fin k0_t32_loop.trips, k0_off115 k = ![k.val % 8, 256 * (k.val / 8)] := by
  have h : ∀ k : Fin k0_t32_loop.trips, ∀ a, k0_off115 k a = (![k.val % 8, 256 * (k.val / 8)] : Fin 2 → Nat) a := by decide +kernel
  exact fun k => funext (h k)
theorem off_eq_116 : ∀ k : Fin k0_t32_loop.trips, k0_off116 k = ![k.val % 8, 256 * (k.val / 8) + 128] := by
  have h : ∀ k : Fin k0_t32_loop.trips, ∀ a, k0_off116 k a = (![k.val % 8, 256 * (k.val / 8) + 128] : Fin 2 → Nat) a := by decide +kernel
  exact fun k => funext (h k)

end Cert.Kernel.Rep
-- ==== Proof.Kernel.Glue.lean ====
/-
  Where the elements a tile's loads, indexed stores and copies touch sit in the arrays, as plain arithmetic on rows and
  columns. A row segment of 128 of a scratch array, addressed as a vector of 128, puts its position `p` at the segment's
  row and at the segment's first column plus `p`; an indexed store through it is a set of point writes at the columns
  the index vector names; a 16-lane load through it reads 16 consecutive columns; the copy into an input slot lands a
  window of the 4096 × 4096 array, and the copy out of an output slot that holds its input slot repeated lands the
  repeated array's values on the chunk.
-/
import proofs.«217870_g8959301779661_cont_9to1_m_809_16_alg».proof.Proof.Kernel.Base
import proofs.«217870_g8959301779661_cont_9to1_m_809_16_alg».proof.Proof.Scatter
import proofs.«217870_g8959301779661_cont_9to1_m_809_16_alg».proof.Proof.TripSpec

noncomputable section

namespace Cert.Kernel.Rep

open Cert.Kernel Cert.Kernel.Gen

open Idealize.ShloMosaic
open Idealize.ShloMosaic.SparseCore (S V T)

variable {F : FTy → Type}

/-! ## Row segments of the scratch arrays -/

section Segments

variable {κ : Kind} {sp : Space} {e : EltTy}

/-- A row segment of 128 of an 8 × 4096 array (an output slot), and of an 8 × 2048 array (an input slot), as vectors of 128. -/
abbrev segO (M : Memref sig κ sp S8x4096 e) (off : Fin 2 → Nat) (hinb : ∀ a, off a + S1x128.size a ≤ S8x4096.size a) :
    Memref sig κ sp S128 e :=
  (M.slice (Rect.unit (s := S8x4096) off S1x128.size hinb) (fun _ => rfl)).squeeze S128 squeezes_S1x128_S128
abbrev segI (M : Memref sig κ sp S8x2048 e) (off : Fin 2 → Nat) (hinb : ∀ a, off a + S1x128.size a ≤ S8x2048.size a) :
    Memref sig κ sp S128 e :=
  (M.slice (Rect.unit (s := S8x2048) off S1x128.size hinb) (fun _ => rfl)).squeeze S128 squeezes_S1x128_S128

theorem segO_row_lt {off : Fin 2 → Nat} (hinb : ∀ a, off a + S1x128.size a ≤ S8x4096.size a) : off 0 < 8 := by
  have h := hinb 0; change off 0 + 1 ≤ 8 at h; omega
theorem segO_col_lt {off : Fin 2 → Nat} (hinb : ∀ a, off a + S1x128.size a ≤ S8x4096.size a) {p : Nat} (hp : p < 128) : off 1 + p < 4096 := by
  have h := hinb 1; change off 1 + 128 ≤ 4096 at h; omega
theorem segI_row_lt {off : Fin 2 → Nat} (hinb : ∀ a, off a + S1x128.size a ≤ S8x2048.size a) : off 0 < 8 := by
  have h := hinb 0; change off 0 + 1 ≤ 8 at h; omega
theorem segI_col_lt {off : Fin 2 → Nat} (hinb : ∀ a, off a + S1x128.size a ≤ S8x2048.size a) {p : Nat} (hp : p < 128) : off 1 + p < 2048 := by
  have h := hinb 1; change off 1 + 128 ≤ 2048 at h; omega

/-- Position `p` of a vector of 128 is position `(0, p)` of the 1 × 128 array with the same elements in the same order. -/
theorem unsqueeze_128 (p : S128.Idx) :
    Shape.reshapeEquiv squeezes_S1x128_S128.numel_eq p = (ValueIdx.ix2 (n0 := 1) (n1 := 128) ⟨0, by decide⟩ (p 0) : S1x128.Idx) := by
  refine Shape.reshapeEquiv_eq_of_rowMajor _ ?_
  rw [Shape.rowMajor_val_two, Shape.rowMajor_val_one]
  show 0 * 128 + (p 0).val = (p 0).val
  omega

/-- Where position `p` of an output slot's row segment sits in the slot: the segment's row, its first column plus `p`. -/
theorem segO_emb (M : Memref sig κ sp S8x4096 e) (off : Fin 2 → Nat) (hinb : ∀ a, off a + S1x128.size a ≤ S8x4096.size a) (p : S128.Idx) :
    (segO M off hinb).view.emb p
      = M.view.emb (ValueIdx.ix2 (n0 := 8) (n1 := 4096) ⟨off 0, segO_row_lt hinb⟩ ⟨off 1 + (p 0).val, segO_col_lt hinb (p 0).isLt⟩) := by
  show M.view.emb ((Rect.unit (s := S8x4096) off S1x128.size hinb).emb (Shape.reshapeEquiv squeezes_S1x128_S128.numel_eq p)) = _
  refine congrArg M.view.emb ?_
  rw [unsqueeze_128]
  funext a
  match a with
  | ⟨0, _⟩ => exact Fin.ext (by show off 0 + 1 * 0 = off 0; omega)
  | ⟨1, _⟩ => exact Fin.ext (by show off 1 + 1 * (p 0).val = off 1 + (p 0).val; omega)

theorem segI_emb (M : Memref sig κ sp S8x2048 e) (off : Fin 2 → Nat) (hinb : ∀ a, off a + S1x128.size a ≤ S8x2048.size a) (p : S128.Idx) :
    (segI M off hinb).view.emb p
      = M.view.emb (ValueIdx.ix2 (n0 := 8) (n1 := 2048) ⟨off 0, segI_row_lt hinb⟩ ⟨off 1 + (p 0).val, segI_col_lt hinb (p 0).isLt⟩) := by
  show M.view.emb ((Rect.unit (s := S8x2048) off S1x128.size hinb).emb (Shape.reshapeEquiv squeezes_S1x128_S128.numel_eq p)) = _
  refine congrArg M.view.emb ?_
  rw [unsqueeze_128]
  funext a
  match a with
  | ⟨0, _⟩ => exact Fin.ext (by show off 0 + 1 * 0 = off 0; omega)
  | ⟨1, _⟩ => exact Fin.ext (by show off 1 + 1 * (p 0).val = off 1 + (p 0).val; omega)

end Segments

/-! ## An indexed store through a row segment of an output slot -/

section Store

variable [FloatOps F] {κ : Kind} {sp : Space} {e : EltTy}

/-- The view an indexed store through a row segment goes through: all 128 positions of the segment. -/
abbrev segOAcc (M : Memref sig κ sp S8x4096 e) (off : Fin 2 → Nat) (hinb : ∀ a, off a + S1x128.size a ≤ S8x4096.size a) :
    View sig κ sp (Rect.whole S128).shape e := (segO M off hinb).access (Rect.whole S128)

theorem idx_col_lt {off : Fin 2 → Nat} (hinb : ∀ a, off a + S1x128.size a ≤ S8x4096.size a) {idx : IVec S16 32}
    (h : ∀ a x, ((![idx] : Fin 1 → IVec S16 32) a x).toNat < S128.size a) (l : Fin 16) :
    off 1 + (idx (Shape.ofLane (d := ![16]) l)).toNat < 4096 :=
  segO_col_lt hinb (h 0 (Shape.ofLane (d := ![16]) l))

/-- Position `p` of that view sits where position `p` of the segment does. -/
theorem segOAcc_emb (M : Memref sig κ sp S8x4096 e) (off : Fin 2 → Nat) (hinb : ∀ a, off a + S1x128.size a ≤ S8x4096.size a)
    (p : (Rect.whole S128).shape.Idx) :
    (segOAcc M off hinb).emb p
      = M.view.emb (ValueIdx.ix2 (n0 := 8) (n1 := 4096) ⟨off 0, segO_row_lt hinb⟩ ⟨off 1 + (p 0).val, segO_col_lt hinb (p 0).isLt⟩) := by
  show (segO M off hinb).view.emb ((Rect.whole S128).emb p) = _
  rw [Rect.emb_whole_apply, segO_emb]

/-- An unmasked indexed store of 16 lanes through a row segment, the lanes' columns pairwise distinct: lane `l` is
    written at the segment's row, at the segment's first column plus the lane's index; nothing else changes. -/
theorem segO_store_writes (M : Memref sig κ sp S8x4096 e) (off : Fin 2 → Nat) (hinb : ∀ a, off a + S1x128.size a ≤ S8x4096.size a)
    (idx : IVec S16 32) (v : Vec F S16 e) (h : ∀ a x, ((![idx] : Fin 1 → IVec S16 32) a x).toNat < S128.size a)
    (g g' : (segOAcc M off hinb).ty.Contents (Elt F))
    (hg : g' = Cert.Scatter.scat (segOAcc M off hinb) g ![idx] v h)
    (hinj : ∀ l l' : Fin 16, (idx (Shape.ofLane (d := ![16]) l)).toNat = (idx (Shape.ofLane (d := ![16]) l')).toNat → l = l') :
    Cert.Scatter.Writes g g'
      (fun l : Fin 16 => M.view.emb (ValueIdx.ix2 (n0 := 8) (n1 := 4096) ⟨off 0, segO_row_lt hinb⟩
        ⟨off 1 + (idx (Shape.ofLane (d := ![16]) l)).toNat, idx_col_lt hinb h l⟩))
      (fun l : Fin 16 => _root_.cast (congrArg (Elt F) M.view.elt_eq.symm) (v (Shape.ofLane (d := ![16]) l))) := by
  have key := Cert.Scatter.scat_writes (segOAcc M off hinb) g ![idx] v h (fun k k' hk => hinj k k' (by
    have := congrArg (fun j : (Rect.whole S128).shape.Idx => (j 0).val) hk
    exact this))
  have pos_eq : ∀ l : Fin 16, (segOAcc M off hinb).emb (idxAt ![idx] h (Shape.ofLane (d := ![16]) l))
      = M.view.emb (ValueIdx.ix2 (n0 := 8) (n1 := 4096) ⟨off 0, segO_row_lt hinb⟩
        ⟨off 1 + (idx (Shape.ofLane (d := ![16]) l)).toNat, idx_col_lt hinb h l⟩) := fun l => by
    rw [segOAcc_emb]; rfl
  rw [← hg] at key
  refine ⟨fun l => ?_, fun i hi => ?_⟩
  · exact (congrArg g' (pos_eq l).symm).trans (key.hit l)
  · exact key.miss i (fun l e => hi l ((pos_eq l).symm.trans e))

end Store

/-! ## A 16-lane load through a row segment of an input slot -/

section Load

variable {κ : Kind} {sp : Space} {e : EltTy}

theorem lane_col_lt {offI : Fin 2 → Nat} (hbI : ∀ a, offI a + S1x128.size a ≤ S8x2048.size a) {o : ℕ}
    (hu : ∀ a, (![o] : Fin 1 → Nat) a + S16.size a ≤ S128.size a) (l : Fin 16) : offI 1 + (o + l.val) < 2048 := by
  have h := hu 0; change o + 16 ≤ 128 at h
  have hl := l.isLt
  exact segI_col_lt hbI (by omega)

/-- Lane `l` of the 16 lanes loaded from position `o` of a row segment is the slot's element at the segment's row, at the
    segment's first column plus `o + l`. -/
theorem segI_load (M : Memref sig κ sp S8x2048 e) (offI : Fin 2 → Nat) (hbI : ∀ a, offI a + S1x128.size a ≤ S8x2048.size a) (o : ℕ)
    (hu : ∀ a, (![o] : Fin 1 → Nat) a + S16.size a ≤ S128.size a) (f : (segI M offI hbI).view.ty.Contents (Elt F)) (l : Fin 16) :
    View.readAt (Elt F) (segI M offI hbI).view (Rect.unit (s := S128) ![o] S16.size hu).toLoadRect f (Shape.ofLane (d := ![16]) l)
      = _root_.cast (congrArg (Elt F) M.view.elt_eq)
          (f (M.view.emb (ValueIdx.ix2 (n0 := 8) (n1 := 2048) ⟨offI 0, segI_row_lt hbI⟩ ⟨offI 1 + (o + l.val), lane_col_lt hbI hu l⟩))) := by
  rw [View.readAt_apply, View.read_apply, segI_emb]
  refine congrArg (fun y : S8x2048.Idx => _root_.cast (congrArg (Elt F) M.view.elt_eq) (f (M.view.emb y))) ?_
  funext a
  match a with
  | ⟨0, _⟩ => rfl
  | ⟨1, _⟩ => exact Fin.ext (by show offI 1 + (o + 1 * l.val) = offI 1 + (o + l.val); omega)

end Load

/-! ## The two slot pairs -/

section Slots

variable [FloatOps F]

/-- Where a store's lane `l` lands in the output slot, and what a load's lane `l` is in the input slot. -/
abbrev lanePos (off : Fin 2 → Nat) (hb : ∀ a, off a + S1x128.size a ≤ S8x4096.size a) (idx : IVec S16 32)
    (hi : ∀ a x, ((![idx] : Fin 1 → IVec S16 32) a x).toNat < S128.size a) : Fin 16 → S8x4096.Idx :=
  fun l => ValueIdx.ix2 (n0 := 8) (n1 := 4096) ⟨off 0, segO_row_lt hb⟩ ⟨off 1 + (idx (Shape.ofLane (d := ![16]) l)).toNat, idx_col_lt hb hi l⟩
abbrev laneVal {α : Type} (fI : S8x2048.Idx → α) (offI : Fin 2 → Nat) (hbI : ∀ a, offI a + S1x128.size a ≤ S8x2048.size a) (o : ℕ)
    (hu : ∀ a, (![o] : Fin 1 → Nat) a + S16.size a ≤ S128.size a) : Fin 16 → α :=
  fun l => fI (ValueIdx.ix2 (n0 := 8) (n1 := 2048) ⟨offI 0, segI_row_lt hbI⟩ ⟨offI 1 + (o + l.val), lane_col_lt hbI hu l⟩)

theorem lanes_inj {idx : IVec S16 32} {b : ℕ} (hl : ∀ l : Fin 16, (idx (Shape.ofLane (d := ![16]) l)).toNat = b + 2 * l.val) :
    ∀ l l' : Fin 16, (idx (Shape.ofLane (d := ![16]) l)).toNat = (idx (Shape.ofLane (d := ![16]) l')).toNat → l = l' := by
  intro l l' h
  rw [hl l, hl l'] at h
  exact Fin.ext (by omega)

/-- A store of a loaded vector, slots (0, 2): lane `l` of the load lands where lane `l` of the index vector names. -/
theorem store_step02 (offI : Fin 2 → Nat) (hbI : ∀ a, offI a + S1x128.size a ≤ S8x2048.size a) (o : ℕ)
    (hu : ∀ a, (![o] : Fin 1 → Nat) a + S16.size a ≤ S128.size a)
    (off : Fin 2 → Nat) (hb : ∀ a, off a + S1x128.size a ≤ S8x4096.size a) (idx : IVec S16 32)
    (hi : ∀ a x, ((![idx] : Fin 1 → IVec S16 32) a x).toNat < S128.size a)
    (hinj : ∀ l l' : Fin 16, (idx (Shape.ofLane (d := ![16]) l)).toNat = (idx (Shape.ofLane (d := ![16]) l')).toNat → l = l')
    (fI : S8x2048.Idx → Elt F .f32) (g g' : S8x4096.Idx → Elt F .f32)
    (e : g' = Cert.Scatter.scat (segOAcc (s2 : Memref sig .scVector .vmem S8x4096 .f32) off hb) g ![idx]
      (View.readAt (Elt F) (segI (s0 : Memref sig .scVector .vmem S8x2048 .f32) offI hbI).view (Rect.unit (s := S128) ![o] S16.size hu).toLoadRect fI) hi) :
    Cert.Scatter.Writes g g' (lanePos off hb idx hi) (laneVal fI offI hbI o hu) := by
  have key := segO_store_writes (F := F) (s2 : Memref sig .scVector .vmem S8x4096 .f32) off hb idx
    (View.readAt (Elt F) (segI (s0 : Memref sig .scVector .vmem S8x2048 .f32) offI hbI).view (Rect.unit (s := S128) ![o] S16.size hu).toLoadRect fI)
    hi g g' e hinj
  refine ⟨fun l => ?_, fun i hi' => key.miss i hi'⟩
  refine (key.hit l).trans ((cast_eq _ _).trans ?_)
  exact (segI_load (F := F) (s0 : Memref sig .scVector .vmem S8x2048 .f32) offI hbI o hu fI l).trans (cast_eq _ _)

/-- The same, slots (1, 3). -/
theorem store_step13 (offI : Fin 2 → Nat) (hbI : ∀ a, offI a + S1x128.size a ≤ S8x2048.size a) (o : ℕ)
    (hu : ∀ a, (![o] : Fin 1 → Nat) a + S16.size a ≤ S128.size a)
    (off : Fin 2 → Nat) (hb : ∀ a, off a + S1x128.size a ≤ S8x4096.size a) (idx : IVec S16 32)
    (hi : ∀ a x, ((![idx] : Fin 1 → IVec S16 32) a x).toNat < S128.size a)
    (hinj : ∀ l l' : Fin 16, (idx (Shape.ofLane (d := ![16]) l)).toNat = (idx (Shape.ofLane (d := ![16]) l')).toNat → l = l')
    (fI : S8x2048.Idx → Elt F .f32) (g g' : S8x4096.Idx → Elt F .f32)
    (e : g' = Cert.Scatter.scat (segOAcc (s3 : Memref sig .scVector .vmem S8x4096 .f32) off hb) g ![idx]
      (View.readAt (Elt F) (segI (s1 : Memref sig .scVector .vmem S8x2048 .f32) offI hbI).view (Rect.unit (s := S128) ![o] S16.size hu).toLoadRect fI) hi) :
    Cert.Scatter.Writes g g' (lanePos off hb idx hi) (laneVal fI offI hbI o hu) := by
  have key := segO_store_writes (F := F) (s3 : Memref sig .scVector .vmem S8x4096 .f32) off hb idx
    (View.readAt (Elt F) (segI (s1 : Memref sig .scVector .vmem S8x2048 .f32) offI hbI).view (Rect.unit (s := S128) ![o] S16.size hu).toLoadRect fI)
    hi g g' e hinj
  refine ⟨fun l => ?_, fun i hi' => key.miss i hi'⟩
  refine (key.hit l).trans ((cast_eq _ _).trans ?_)
  exact (segI_load (F := F) (s1 : Memref sig .scVector .vmem S8x2048 .f32) offI hbI o hu fI l).trans (cast_eq _ _)

end Slots

/-! ## One trip of the inner loop: 16 stores of 8 loaded vectors -/

section Trip

theorem wcol_lt {offI : Fin 2 → Nat} (hbI : ∀ a, offI a + S1x128.size a ≤ S8x2048.size a) (u : ℕ) (l : Fin 16) :
    offI 1 + (16 * (u % 8) + l.val) < 2048 := by
  have hl := l.isLt
  exact segI_col_lt hbI (by omega)

/-- Trip `k`: the 16 stores, each a set of point writes of a loaded vector's lanes (`W0` … `W15`), the segments'
    offsets and the index vectors' lanes as the trip has them, take `k` trips done to `k + 1`. -/
theorem region_assemble {α : Type} (k : ℕ) (hk : k < 128)
    (fI : S8x2048.Idx → α) (fO : S8x4096.Idx → α)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → α)
    (g2 : S8x4096.Idx → α)
    (g3 : S8x4096.Idx → α)
    (g4 : S8x4096.Idx → α)
    (g5 : S8x4096.Idx → α)
    (g6 : S8x4096.Idx → α)
    (g7 : S8x4096.Idx → α)
    (g8 : S8x4096.Idx → α)
    (g9 : S8x4096.Idx → α)
    (g10 : S8x4096.Idx → α)
    (g11 : S8x4096.Idx → α)
    (g12 : S8x4096.Idx → α)
    (g13 : S8x4096.Idx → α)
    (g14 : S8x4096.Idx → α)
    (g15 : S8x4096.Idx → α)
    (g16 : S8x4096.Idx → α)
    (hD : Cert.TripSpec.Done fI k fO)
    (W0 : Cert.Scatter.Writes fO g1 (lanePos off0 hb0 idx0 hi0) (laneVal fI offI hbI 0 hu0))
    (W1 : Cert.Scatter.Writes g1 g2 (lanePos off1 hb1 idx1 hi1) (laneVal fI offI hbI 0 hu0))
    (W2 : Cert.Scatter.Writes g2 g3 (lanePos off2 hb2 idx2 hi2) (laneVal fI offI hbI 16 hu1))
    (W3 : Cert.Scatter.Writes g3 g4 (lanePos off3 hb3 idx3 hi3) (laneVal fI offI hbI 16 hu1))
    (W4 : Cert.Scatter.Writes g4 g5 (lanePos off4 hb4 idx4 hi4) (laneVal fI offI hbI 32 hu2))
    (W5 : Cert.Scatter.Writes g5 g6 (lanePos off5 hb5 idx5 hi5) (laneVal fI offI hbI 32 hu2))
    (W6 : Cert.Scatter.Writes g6 g7 (lanePos off6 hb6 idx6 hi6) (laneVal fI offI hbI 48 hu3))
    (W7 : Cert.Scatter.Writes g7 g8 (lanePos off7 hb7 idx7 hi7) (laneVal fI offI hbI 48 hu3))
    (W8 : Cert.Scatter.Writes g8 g9 (lanePos off8 hb8 idx8 hi8) (laneVal fI offI hbI 64 hu4))
    (W9 : Cert.Scatter.Writes g9 g10 (lanePos off9 hb9 idx9 hi9) (laneVal fI offI hbI 64 hu4))
    (W10 : Cert.Scatter.Writes g10 g11 (lanePos off10 hb10 idx10 hi10) (laneVal fI offI hbI 80 hu5))
    (W11 : Cert.Scatter.Writes g11 g12 (lanePos off11 hb11 idx11 hi11) (laneVal fI offI hbI 80 hu5))
    (W12 : Cert.Scatter.Writes g12 g13 (lanePos off12 hb12 idx12 hi12) (laneVal fI offI hbI 96 hu6))
    (W13 : Cert.Scatter.Writes g13 g14 (lanePos off13 hb13 idx13 hi13) (laneVal fI offI hbI 96 hu6))
    (W14 : Cert.Scatter.Writes g14 g15 (lanePos off14 hb14 idx14 hi14) (laneVal fI offI hbI 112 hu7))
    (W15 : Cert.Scatter.Writes g15 g16 (lanePos off15 hb15 idx15 hi15) (laneVal fI offI hbI 112 hu7))
    : Cert.TripSpec.Done fI (k + 1) g16 := by
  refine Cert.TripSpec.done_step_gen fI k hk
    (fun n => match n with | 0 => fO | 1 => g1 | 2 => g2 | 3 => g3 | 4 => g4 | 5 => g5 | 6 => g6 | 7 => g7 | 8 => g8 | 9 => g9 | 10 => g10 | 11 => g11 | 12 => g12 | 13 => g13 | 14 => g14 | 15 => g15 | _ => g16)
    (fun u l => fI (ValueIdx.ix2 (n0 := 8) (n1 := 2048) ⟨offI 0, segI_row_lt hbI⟩ ⟨offI 1 + (16 * (u % 8) + l.val), wcol_lt hbI u l⟩))
    (fun n => match n with | 0 => lanePos off0 hb0 idx0 hi0 | 1 => lanePos off1 hb1 idx1 hi1 | 2 => lanePos off2 hb2 idx2 hi2 | 3 => lanePos off3 hb3 idx3 hi3 | 4 => lanePos off4 hb4 idx4 hi4 | 5 => lanePos off5 hb5 idx5 hi5 | 6 => lanePos off6 hb6 idx6 hi6 | 7 => lanePos off7 hb7 idx7 hi7 | 8 => lanePos off8 hb8 idx8 hi8 | 9 => lanePos off9 hb9 idx9 hi9 | 10 => lanePos off10 hb10 idx10 hi10 | 11 => lanePos off11 hb11 idx11 hi11 | 12 => lanePos off12 hb12 idx12 hi12 | 13 => lanePos off13 hb13 idx13 hi13 | 14 => lanePos off14 hb14 idx14 hi14 | _ => lanePos off15 hb15 idx15 hi15)
    (fun n l => fI (ValueIdx.ix2 (n0 := 8) (n1 := 2048) ⟨offI 0, segI_row_lt hbI⟩ ⟨offI 1 + (16 * (n / 2 % 8) + l.val), wcol_lt hbI (n / 2) l⟩))
    ?hrow ?hcol ?hval ?hstep ?hw hD
  case hrow =>
    intro n hn l
    exact match n, hn with
    | 0, _ => show off0 0 = k % 8 from by rw [ho0]; rfl
    | 1, _ => show off1 0 = k % 8 from by rw [ho1]; rfl
    | 2, _ => show off2 0 = k % 8 from by rw [ho2]; rfl
    | 3, _ => show off3 0 = k % 8 from by rw [ho3]; rfl
    | 4, _ => show off4 0 = k % 8 from by rw [ho4]; rfl
    | 5, _ => show off5 0 = k % 8 from by rw [ho5]; rfl
    | 6, _ => show off6 0 = k % 8 from by rw [ho6]; rfl
    | 7, _ => show off7 0 = k % 8 from by rw [ho7]; rfl
    | 8, _ => show off8 0 = k % 8 from by rw [ho8]; rfl
    | 9, _ => show off9 0 = k % 8 from by rw [ho9]; rfl
    | 10, _ => show off10 0 = k % 8 from by rw [ho10]; rfl
    | 11, _ => show off11 0 = k % 8 from by rw [ho11]; rfl
    | 12, _ => show off12 0 = k % 8 from by rw [ho12]; rfl
    | 13, _ => show off13 0 = k % 8 from by rw [ho13]; rfl
    | 14, _ => show off14 0 = k % 8 from by rw [ho14]; rfl
    | 15, _ => show off15 0 = k % 8 from by rw [ho15]; rfl
    | n + 16, h => absurd h (by omega)
  case hcol =>
    intro n hn l
    exact match n, hn with
    | 0, _ => by
      show off0 1 + (idx0 (Shape.ofLane l)).toNat = 256 * (k / 8) + 32 * (0 / 2) + 2 * l.val + 0 % 2
      rw [hl0 l, ho0]
      show 256 * (k / 8) + (0 + 2 * l.val) = 256 * (k / 8) + 32 * (0 / 2) + 2 * l.val + 0 % 2
      omega
    | 1, _ => by
      show off1 1 + (idx1 (Shape.ofLane l)).toNat = 256 * (k / 8) + 32 * (1 / 2) + 2 * l.val + 1 % 2
      rw [hl1 l, ho1]
      show 256 * (k / 8) + (1 + 2 * l.val) = 256 * (k / 8) + 32 * (1 / 2) + 2 * l.val + 1 % 2
      omega
    | 2, _ => by
      show off2 1 + (idx2 (Shape.ofLane l)).toNat = 256 * (k / 8) + 32 * (2 / 2) + 2 * l.val + 2 % 2
      rw [hl2 l, ho2]
      show 256 * (k / 8) + (32 + 2 * l.val) = 256 * (k / 8) + 32 * (2 / 2) + 2 * l.val + 2 % 2
      omega
    | 3, _ => by
      show off3 1 + (idx3 (Shape.ofLane l)).toNat = 256 * (k / 8) + 32 * (3 / 2) + 2 * l.val + 3 % 2
      rw [hl3 l, ho3]
      show 256 * (k / 8) + (33 + 2 * l.val) = 256 * (k / 8) + 32 * (3 / 2) + 2 * l.val + 3 % 2
      omega
    | 4, _ => by
      show off4 1 + (idx4 (Shape.ofLane l)).toNat = 256 * (k / 8) + 32 * (4 / 2) + 2 * l.val + 4 % 2
      rw [hl4 l, ho4]
      show 256 * (k / 8) + (64 + 2 * l.val) = 256 * (k / 8) + 32 * (4 / 2) + 2 * l.val + 4 % 2
      omega
    | 5, _ => by
      show off5 1 + (idx5 (Shape.ofLane l)).toNat = 256 * (k / 8) + 32 * (5 / 2) + 2 * l.val + 5 % 2
      rw [hl5 l, ho5]
      show 256 * (k / 8) + (65 + 2 * l.val) = 256 * (k / 8) + 32 * (5 / 2) + 2 * l.val + 5 % 2
      omega
    | 6, _ => by
      show off6 1 + (idx6 (Shape.ofLane l)).toNat = 256 * (k / 8) + 32 * (6 / 2) + 2 * l.val + 6 % 2
      rw [hl6 l, ho6]
      show 256 * (k / 8) + (96 + 2 * l.val) = 256 * (k / 8) + 32 * (6 / 2) + 2 * l.val + 6 % 2
      omega
    | 7, _ => by
      show off7 1 + (idx7 (Shape.ofLane l)).toNat = 256 * (k / 8) + 32 * (7 / 2) + 2 * l.val + 7 % 2
      rw [hl7 l, ho7]
      show 256 * (k / 8) + (97 + 2 * l.val) = 256 * (k / 8) + 32 * (7 / 2) + 2 * l.val + 7 % 2
      omega
    | 8, _ => by
      show off8 1 + (idx8 (Shape.ofLane l)).toNat = 256 * (k / 8) + 32 * (8 / 2) + 2 * l.val + 8 % 2
      rw [hl8 l, ho8]
      show 256 * (k / 8) + 128 + (0 + 2 * l.val) = 256 * (k / 8) + 32 * (8 / 2) + 2 * l.val + 8 % 2
      omega
    | 9, _ => by
      show off9 1 + (idx9 (Shape.ofLane l)).toNat = 256 * (k / 8) + 32 * (9 / 2) + 2 * l.val + 9 % 2
      rw [hl9 l, ho9]
      show 256 * (k / 8) + 128 + (1 + 2 * l.val) = 256 * (k / 8) + 32 * (9 / 2) + 2 * l.val + 9 % 2
      omega
    | 10, _ => by
      show off10 1 + (idx10 (Shape.ofLane l)).toNat = 256 * (k / 8) + 32 * (10 / 2) + 2 * l.val + 10 % 2
      rw [hl10 l, ho10]
      show 256 * (k / 8) + 128 + (32 + 2 * l.val) = 256 * (k / 8) + 32 * (10 / 2) + 2 * l.val + 10 % 2
      omega
    | 11, _ => by
      show off11 1 + (idx11 (Shape.ofLane l)).toNat = 256 * (k / 8) + 32 * (11 / 2) + 2 * l.val + 11 % 2
      rw [hl11 l, ho11]
      show 256 * (k / 8) + 128 + (33 + 2 * l.val) = 256 * (k / 8) + 32 * (11 / 2) + 2 * l.val + 11 % 2
      omega
    | 12, _ => by
      show off12 1 + (idx12 (Shape.ofLane l)).toNat = 256 * (k / 8) + 32 * (12 / 2) + 2 * l.val + 12 % 2
      rw [hl12 l, ho12]
      show 256 * (k / 8) + 128 + (64 + 2 * l.val) = 256 * (k / 8) + 32 * (12 / 2) + 2 * l.val + 12 % 2
      omega
    | 13, _ => by
      show off13 1 + (idx13 (Shape.ofLane l)).toNat = 256 * (k / 8) + 32 * (13 / 2) + 2 * l.val + 13 % 2
      rw [hl13 l, ho13]
      show 256 * (k / 8) + 128 + (65 + 2 * l.val) = 256 * (k / 8) + 32 * (13 / 2) + 2 * l.val + 13 % 2
      omega
    | 14, _ => by
      show off14 1 + (idx14 (Shape.ofLane l)).toNat = 256 * (k / 8) + 32 * (14 / 2) + 2 * l.val + 14 % 2
      rw [hl14 l, ho14]
      show 256 * (k / 8) + 128 + (96 + 2 * l.val) = 256 * (k / 8) + 32 * (14 / 2) + 2 * l.val + 14 % 2
      omega
    | 15, _ => by
      show off15 1 + (idx15 (Shape.ofLane l)).toNat = 256 * (k / 8) + 32 * (15 / 2) + 2 * l.val + 15 % 2
      rw [hl15 l, ho15]
      show 256 * (k / 8) + 128 + (97 + 2 * l.val) = 256 * (k / 8) + 32 * (15 / 2) + 2 * l.val + 15 % 2
      omega
    | n + 16, h => absurd h (by omega)
  case hval => intro n hn l; rfl
  case hstep =>
    intro n hn
    exact match n, hn with
    | 0, _ => W0
    | 1, _ => W1
    | 2, _ => W2
    | 3, _ => W3
    | 4, _ => W4
    | 5, _ => W5
    | 6, _ => W6
    | 7, _ => W7
    | 8, _ => W8
    | 9, _ => W9
    | 10, _ => W10
    | 11, _ => W11
    | 12, _ => W12
    | 13, _ => W13
    | 14, _ => W14
    | 15, _ => W15
    | n + 16, h => absurd h (by omega)
  case hw =>
    intro u hu l
    refine congrArg fI ?_
    funext a
    match a with
    | ⟨0, _⟩ => exact Fin.ext (show offI 0 = k % 8 by rw [hoI]; rfl)
    | ⟨1, _⟩ =>
      exact Fin.ext (by
        show offI 1 + (16 * (u % 8) + l.val) = 128 * (k / 8) + 16 * u + l.val
        rw [hoI]
        show 128 * (k / 8) + (16 * (u % 8) + l.val) = 128 * (k / 8) + 16 * u + l.val
        omega)

end Trip

/-! ## One trip, as the loop's step sees it -/

section Region

variable [FloatOps F]

/-- Trip `k` on slots (0, 2): the 16 stores of the 8 loaded vectors, as they stand after the loads and stores have been
    run, take `k` trips done to `k + 1`. -/
theorem region_done02 (k : ℕ) (hk : k < 128)
    (fI : S8x2048.Idx → Elt F .f32) (fO : S8x4096.Idx → Elt F .f32)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → Elt F .f32)
    (g2 : S8x4096.Idx → Elt F .f32)
    (g3 : S8x4096.Idx → Elt F .f32)
    (g4 : S8x4096.Idx → Elt F .f32)
    (g5 : S8x4096.Idx → Elt F .f32)
    (g6 : S8x4096.Idx → Elt F .f32)
    (g7 : S8x4096.Idx → Elt F .f32)
    (g8 : S8x4096.Idx → Elt F .f32)
    (g9 : S8x4096.Idx → Elt F .f32)
    (g10 : S8x4096.Idx → Elt F .f32)
    (g11 : S8x4096.Idx → Elt F .f32)
    (g12 : S8x4096.Idx → Elt F .f32)
    (g13 : S8x4096.Idx → Elt F .f32)
    (g14 : S8x4096.Idx → Elt F .f32)
    (g15 : S8x4096.Idx → Elt F .f32)
    (g16 : S8x4096.Idx → Elt F .f32)
    (hD : Cert.TripSpec.Done fI k fO)
    (e1 : g1 = Cert.Scatter.scat ((((s2 : Memref sig .scVector .vmem S8x4096 .f32).slice (Rect.unit (s := S8x4096) off0 S1x128.size hb0) (fun _ => rfl)).squeeze S128 squeezes_S1x128_S128).access (Rect.whole S128)) fO ![idx0] (View.readAt (Elt F) (((s0 : Memref sig .scVector .vmem S8x2048 .f32).slice (Rect.unit (s := S8x2048) offI S1x128.size hbI) (fun _ => rfl)).squeeze S128 squeezes_S1x128_S128).view (Rect.unit (s := S128) ![0] S16.size hu0).toLoadRect fI) hi0)
    (e2 : g2 = Cert.Scatter.scat ((((s2 : Memref sig .scVector .vmem S8x4096 .f32).slice (Rect.unit (s := S8x4096) off1 S1x128.size hb1) (fun _ => rfl)).squeeze S128 squeezes_S1x128_S128).access (Rect.whole S128)) g1 ![idx1] (View.readAt (Elt F) (((s0 : Memref sig .scVector .vmem S8x2048 .f32).slice (Rect.unit (s := S8x2048) offI S1x128.size hbI) (fun _ => rfl)).squeeze S128 squeezes_S1x128_S128).view (Rect.unit (s := S128) ![0] S16.size hu0).toLoadRect fI) hi1)
    (e3 : g3 = Cert.Scatter.scat ((((s2 : Memref sig .scVector .vmem S8x4096 .f32).slice (Rect.unit (s := S8x4096) off2 S1x128.size hb2) (fun _ => rfl)).squeeze S128 squeezes_S1x128_S128).access (Rect.whole S128)) g2 ![idx2] (View.readAt (Elt F) (((s0 : Memref sig .scVector .vmem S8x2048 .f32).slice (Rect.unit (s := S8x2048) offI S1x128.size hbI) (fun _ => rfl)).squeeze S128 squeezes_S1x128_S128).view (Rect.unit (s := S128) ![16] S16.size hu1).toLoadRect fI) hi2)
    (e4 : g4 = Cert.Scatter.scat ((((s2 : Memref sig .scVector .vmem S8x4096 .f32).slice (Rect.unit (s := S8x4096) off3 S1x128.size hb3) (fun _ => rfl)).squeeze S128 squeezes_S1x128_S128).access (Rect.whole S128)) g3 ![idx3] (View.readAt (Elt F) (((s0 : Memref sig .scVector .vmem S8x2048 .f32).slice (Rect.unit (s := S8x2048) offI S1x128.size hbI) (fun _ => rfl)).squeeze S128 squeezes_S1x128_S128).view (Rect.unit (s := S128) ![16] S16.size hu1).toLoadRect fI) hi3)
    (e5 : g5 = Cert.Scatter.scat ((((s2 : Memref sig .scVector .vmem S8x4096 .f32).slice (Rect.unit (s := S8x4096) off4 S1x128.size hb4) (fun _ => rfl)).squeeze S128 squeezes_S1x128_S128).access (Rect.whole S128)) g4 ![idx4] (View.readAt (Elt F) (((s0 : Memref sig .scVector .vmem S8x2048 .f32).slice (Rect.unit (s := S8x2048) offI S1x128.size hbI) (fun _ => rfl)).squeeze S128 squeezes_S1x128_S128).view (Rect.unit (s := S128) ![32] S16.size hu2).toLoadRect fI) hi4)
    (e6 : g6 = Cert.Scatter.scat ((((s2 : Memref sig .scVector .vmem S8x4096 .f32).slice (Rect.unit (s := S8x4096) off5 S1x128.size hb5) (fun _ => rfl)).squeeze S128 squeezes_S1x128_S128).access (Rect.whole S128)) g5 ![idx5] (View.readAt (Elt F) (((s0 : Memref sig .scVector .vmem S8x2048 .f32).slice (Rect.unit (s := S8x2048) offI S1x128.size hbI) (fun _ => rfl)).squeeze S128 squeezes_S1x128_S128).view (Rect.unit (s := S128) ![32] S16.size hu2).toLoadRect fI) hi5)
    (e7 : g7 = Cert.Scatter.scat ((((s2 : Memref sig .scVector .vmem S8x4096 .f32).slice (Rect.unit (s := S8x4096) off6 S1x128.size hb6) (fun _ => rfl)).squeeze S128 squeezes_S1x128_S128).access (Rect.whole S128)) g6 ![idx6] (View.readAt (Elt F) (((s0 : Memref sig .scVector .vmem S8x2048 .f32).slice (Rect.unit (s := S8x2048) offI S1x128.size hbI) (fun _ => rfl)).squeeze S128 squeezes_S1x128_S128).view (Rect.unit (s := S128) ![48] S16.size hu3).toLoadRect fI) hi6)
    (e8 : g8 = Cert.Scatter.scat ((((s2 : Memref sig .scVector .vmem S8x4096 .f32).slice (Rect.unit (s := S8x4096) off7 S1x128.size hb7) (fun _ => rfl)).squeeze S128 squeezes_S1x128_S128).access (Rect.whole S128)) g7 ![idx7] (View.readAt (Elt F) (((s0 : Memref sig .scVector .vmem S8x2048 .f32).slice (Rect.unit (s := S8x2048) offI S1x128.size hbI) (fun _ => rfl)).squeeze S128 squeezes_S1x128_S128).view (Rect.unit (s := S128) ![48] S16.size hu3).toLoadRect fI) hi7)
    (e9 : g9 = Cert.Scatter.scat ((((s2 : Memref sig .scVector .vmem S8x4096 .f32).slice (Rect.unit (s := S8x4096) off8 S1x128.size hb8) (fun _ => rfl)).squeeze S128 squeezes_S1x128_S128).access (Rect.whole S128)) g8 ![idx8] (View.readAt (Elt F) (((s0 : Memref sig .scVector .vmem S8x2048 .f32).slice (Rect.unit (s := S8x2048) offI S1x128.size hbI) (fun _ => rfl)).squeeze S128 squeezes_S1x128_S128).view (Rect.unit (s := S128) ![64] S16.size hu4).toLoadRect fI) hi8)
    (e10 : g10 = Cert.Scatter.scat ((((s2 : Memref sig .scVector .vmem S8x4096 .f32).slice (Rect.unit (s := S8x4096) off9 S1x128.size hb9) (fun _ => rfl)).squeeze S128 squeezes_S1x128_S128).access (Rect.whole S128)) g9 ![idx9] (View.readAt (Elt F) (((s0 : Memref sig .scVector .vmem S8x2048 .f32).slice (Rect.unit (s := S8x2048) offI S1x128.size hbI) (fun _ => rfl)).squeeze S128 squeezes_S1x128_S128).view (Rect.unit (s := S128) ![64] S16.size hu4).toLoadRect fI) hi9)
    (e11 : g11 = Cert.Scatter.scat ((((s2 : Memref sig .scVector .vmem S8x4096 .f32).slice (Rect.unit (s := S8x4096) off10 S1x128.size hb10) (fun _ => rfl)).squeeze S128 squeezes_S1x128_S128).access (Rect.whole S128)) g10 ![idx10] (View.readAt (Elt F) (((s0 : Memref sig .scVector .vmem S8x2048 .f32).slice (Rect.unit (s := S8x2048) offI S1x128.size hbI) (fun _ => rfl)).squeeze S128 squeezes_S1x128_S128).view (Rect.unit (s := S128) ![80] S16.size hu5).toLoadRect fI) hi10)
    (e12 : g12 = Cert.Scatter.scat ((((s2 : Memref sig .scVector .vmem S8x4096 .f32).slice (Rect.unit (s := S8x4096) off11 S1x128.size hb11) (fun _ => rfl)).squeeze S128 squeezes_S1x128_S128).access (Rect.whole S128)) g11 ![idx11] (View.readAt (Elt F) (((s0 : Memref sig .scVector .vmem S8x2048 .f32).slice (Rect.unit (s := S8x2048) offI S1x128.size hbI) (fun _ => rfl)).squeeze S128 squeezes_S1x128_S128).view (Rect.unit (s := S128) ![80] S16.size hu5).toLoadRect fI) hi11)
    (e13 : g13 = Cert.Scatter.scat ((((s2 : Memref sig .scVector .vmem S8x4096 .f32).slice (Rect.unit (s := S8x4096) off12 S1x128.size hb12) (fun _ => rfl)).squeeze S128 squeezes_S1x128_S128).access (Rect.whole S128)) g12 ![idx12] (View.readAt (Elt F) (((s0 : Memref sig .scVector .vmem S8x2048 .f32).slice (Rect.unit (s := S8x2048) offI S1x128.size hbI) (fun _ => rfl)).squeeze S128 squeezes_S1x128_S128).view (Rect.unit (s := S128) ![96] S16.size hu6).toLoadRect fI) hi12)
    (e14 : g14 = Cert.Scatter.scat ((((s2 : Memref sig .scVector .vmem S8x4096 .f32).slice (Rect.unit (s := S8x4096) off13 S1x128.size hb13) (fun _ => rfl)).squeeze S128 squeezes_S1x128_S128).access (Rect.whole S128)) g13 ![idx13] (View.readAt (Elt F) (((s0 : Memref sig .scVector .vmem S8x2048 .f32).slice (Rect.unit (s := S8x2048) offI S1x128.size hbI) (fun _ => rfl)).squeeze S128 squeezes_S1x128_S128).view (Rect.unit (s := S128) ![96] S16.size hu6).toLoadRect fI) hi13)
    (e15 : g15 = Cert.Scatter.scat ((((s2 : Memref sig .scVector .vmem S8x4096 .f32).slice (Rect.unit (s := S8x4096) off14 S1x128.size hb14) (fun _ => rfl)).squeeze S128 squeezes_S1x128_S128).access (Rect.whole S128)) g14 ![idx14] (View.readAt (Elt F) (((s0 : Memref sig .scVector .vmem S8x2048 .f32).slice (Rect.unit (s := S8x2048) offI S1x128.size hbI) (fun _ => rfl)).squeeze S128 squeezes_S1x128_S128).view (Rect.unit (s := S128) ![112] S16.size hu7).toLoadRect fI) hi14)
    (e16 : g16 = Cert.Scatter.scat ((((s2 : Memref sig .scVector .vmem S8x4096 .f32).slice (Rect.unit (s := S8x4096) off15 S1x128.size hb15) (fun _ => rfl)).squeeze S128 squeezes_S1x128_S128).access (Rect.whole S128)) g15 ![idx15] (View.readAt (Elt F) (((s0 : Memref sig .scVector .vmem S8x2048 .f32).slice (Rect.unit (s := S8x2048) offI S1x128.size hbI) (fun _ => rfl)).squeeze S128 squeezes_S1x128_S128).view (Rect.unit (s := S128) ![112] S16.size hu7).toLoadRect fI) hi15)
    : Cert.TripSpec.Done fI (k + 1) g16 := by
  exact region_assemble k hk fI fO offI hbI hoI hu0 hu1 hu2 hu3 hu4 hu5 hu6 hu7
    off0 hb0 ho0 off1 hb1 ho1 off2 hb2 ho2 off3 hb3 ho3 off4 hb4 ho4 off5 hb5 ho5 off6 hb6 ho6 off7 hb7 ho7 off8 hb8 ho8 off9 hb9 ho9 off10 hb10 ho10 off11 hb11 ho11 off12 hb12 ho12 off13 hb13 ho13 off14 hb14 ho14 off15 hb15 ho15
    idx0 hi0 hl0 idx1 hi1 hl1 idx2 hi2 hl2 idx3 hi3 hl3 idx4 hi4 hl4 idx5 hi5 hl5 idx6 hi6 hl6 idx7 hi7 hl7 idx8 hi8 hl8 idx9 hi9 hl9 idx10 hi10 hl10 idx11 hi11 hl11 idx12 hi12 hl12 idx13 hi13 hl13 idx14 hi14 hl14 idx15 hi15 hl15
    g1 g2 g3 g4 g5 g6 g7 g8 g9 g10 g11 g12 g13 g14 g15 g16 hD
    (store_step02 offI hbI 0 hu0 off0 hb0 idx0 hi0 (lanes_inj hl0) fI fO g1 e1)
    (store_step02 offI hbI 0 hu0 off1 hb1 idx1 hi1 (lanes_inj hl1) fI g1 g2 e2)
    (store_step02 offI hbI 16 hu1 off2 hb2 idx2 hi2 (lanes_inj hl2) fI g2 g3 e3)
    (store_step02 offI hbI 16 hu1 off3 hb3 idx3 hi3 (lanes_inj hl3) fI g3 g4 e4)
    (store_step02 offI hbI 32 hu2 off4 hb4 idx4 hi4 (lanes_inj hl4) fI g4 g5 e5)
    (store_step02 offI hbI 32 hu2 off5 hb5 idx5 hi5 (lanes_inj hl5) fI g5 g6 e6)
    (store_step02 offI hbI 48 hu3 off6 hb6 idx6 hi6 (lanes_inj hl6) fI g6 g7 e7)
    (store_step02 offI hbI 48 hu3 off7 hb7 idx7 hi7 (lanes_inj hl7) fI g7 g8 e8)
    (store_step02 offI hbI 64 hu4 off8 hb8 idx8 hi8 (lanes_inj hl8) fI g8 g9 e9)
    (store_step02 offI hbI 64 hu4 off9 hb9 idx9 hi9 (lanes_inj hl9) fI g9 g10 e10)
    (store_step02 offI hbI 80 hu5 off10 hb10 idx10 hi10 (lanes_inj hl10) fI g10 g11 e11)
    (store_step02 offI hbI 80 hu5 off11 hb11 idx11 hi11 (lanes_inj hl11) fI g11 g12 e12)
    (store_step02 offI hbI 96 hu6 off12 hb12 idx12 hi12 (lanes_inj hl12) fI g12 g13 e13)
    (store_step02 offI hbI 96 hu6 off13 hb13 idx13 hi13 (lanes_inj hl13) fI g13 g14 e14)
    (store_step02 offI hbI 112 hu7 off14 hb14 idx14 hi14 (lanes_inj hl14) fI g14 g15 e15)
    (store_step02 offI hbI 112 hu7 off15 hb15 idx15 hi15 (lanes_inj hl15) fI g15 g16 e16)

/-- The same on slots (1, 3). -/
theorem region_done13 (k : ℕ) (hk : k < 128)
    (fI : S8x2048.Idx → Elt F .f32) (fO : S8x4096.Idx → Elt F .f32)
    (offI : Fin 2 → Nat) (hbI : ∀ a, offI a + S1x128.size a ≤ S8x2048.size a) (hoI : offI = ![k % 8, 128 * (k / 8)])
    (hu0 : ∀ a, (![0] : Fin 1 → Nat) a + S16.size a ≤ S128.size a)
    (hu1 : ∀ a, (![16] : Fin 1 → Nat) a + S16.size a ≤ S128.size a)
    (hu2 : ∀ a, (![32] : Fin 1 → Nat) a + S16.size a ≤ S128.size a)
    (hu3 : ∀ a, (![48] : Fin 1 → Nat) a + S16.size a ≤ S128.size a)
    (hu4 : ∀ a, (![64] : Fin 1 → Nat) a + S16.size a ≤ S128.size a)
    (hu5 : ∀ a, (![80] : Fin 1 → Nat) a + S16.size a ≤ S128.size a)
    (hu6 : ∀ a, (![96] : Fin 1 → Nat) a + S16.size a ≤ S128.size a)
    (hu7 : ∀ a, (![112] : Fin 1 → Nat) a + S16.size a ≤ S128.size a)
    (off0 : Fin 2 → Nat) (hb0 : ∀ a, off0 a + S1x128.size a ≤ S8x4096.size a) (ho0 : off0 = ![k % 8, 256 * (k / 8)])
    (off1 : Fin 2 → Nat) (hb1 : ∀ a, off1 a + S1x128.size a ≤ S8x4096.size a) (ho1 : off1 = ![k % 8, 256 * (k / 8)])
    (off2 : Fin 2 → Nat) (hb2 : ∀ a, off2 a + S1x128.size a ≤ S8x4096.size a) (ho2 : off2 = ![k % 8, 256 * (k / 8)])
    (off3 : Fin 2 → Nat) (hb3 : ∀ a, off3 a + S1x128.size a ≤ S8x4096.size a) (ho3 : off3 = ![k % 8, 256 * (k / 8)])
    (off4 : Fin 2 → Nat) (hb4 : ∀ a, off4 a + S1x128.size a ≤ S8x4096.size a) (ho4 : off4 = ![k % 8, 256 * (k / 8)])
    (off5 : Fin 2 → Nat) (hb5 : ∀ a, off5 a + S1x128.size a ≤ S8x4096.size a) (ho5 : off5 = ![k % 8, 256 * (k / 8)])
    (off6 : Fin 2 → Nat) (hb6 : ∀ a, off6 a + S1x128.size a ≤ S8x4096.size a) (ho6 : off6 = ![k % 8, 256 * (k / 8)])
    (off7 : Fin 2 → Nat) (hb7 : ∀ a, off7 a + S1x128.size a ≤ S8x4096.size a) (ho7 : off7 = ![k % 8, 256 * (k / 8)])
    (off8 : Fin 2 → Nat) (hb8 : ∀ a, off8 a + S1x128.size a ≤ S8x4096.size a) (ho8 : off8 = ![k % 8, 256 * (k / 8) + 128])
    (off9 : Fin 2 → Nat) (hb9 : ∀ a, off9 a + S1x128.size a ≤ S8x4096.size a) (ho9 : off9 = ![k % 8, 256 * (k / 8) + 128])
    (off10 : Fin 2 → Nat) (hb10 : ∀ a, off10 a + S1x128.size a ≤ S8x4096.size a) (ho10 : off10 = ![k % 8, 256 * (k / 8) + 128])
    (off11 : Fin 2 → Nat) (hb11 : ∀ a, off11 a + S1x128.size a ≤ S8x4096.size a) (ho11 : off11 = ![k % 8, 256 * (k / 8) + 128])
    (off12 : Fin 2 → Nat) (hb12 : ∀ a, off12 a + S1x128.size a ≤ S8x4096.size a) (ho12 : off12 = ![k % 8, 256 * (k / 8) + 128])
    (off13 : Fin 2 → Nat) (hb13 : ∀ a, off13 a + S1x128.size a ≤ S8x4096.size a) (ho13 : off13 = ![k % 8, 256 * (k / 8) + 128])
    (off14 : Fin 2 → Nat) (hb14 : ∀ a, off14 a + S1x128.size a ≤ S8x4096.size a) (ho14 : off14 = ![k % 8, 256 * (k / 8) + 128])
    (off15 : Fin 2 → Nat) (hb15 : ∀ a, off15 a + S1x128.size a ≤ S8x4096.size a) (ho15 : off15 = ![k % 8, 256 * (k / 8) + 128])
    (idx0 : IVec S16 32) (hi0 : ∀ a x, ((![idx0] : Fin 1 → IVec S16 32) a x).toNat < S128.size a) (hl0 : ∀ l : Fin 16, (idx0 (Shape.ofLane l)).toNat = 0 + 2 * l.val)
    (idx1 : IVec S16 32) (hi1 : ∀ a x, ((![idx1] : Fin 1 → IVec S16 32) a x).toNat < S128.size a) (hl1 : ∀ l : Fin 16, (idx1 (Shape.ofLane l)).toNat = 1 + 2 * l.val)
    (idx2 : IVec S16 32) (hi2 : ∀ a x, ((![idx2] : Fin 1 → IVec S16 32) a x).toNat < S128.size a) (hl2 : ∀ l : Fin 16, (idx2 (Shape.ofLane l)).toNat = 32 + 2 * l.val)
    (idx3 : IVec S16 32) (hi3 : ∀ a x, ((![idx3] : Fin 1 → IVec S16 32) a x).toNat < S128.size a) (hl3 : ∀ l : Fin 16, (idx3 (Shape.ofLane l)).toNat = 33 + 2 * l.val)
    (idx4 : IVec S16 32) (hi4 : ∀ a x, ((![idx4] : Fin 1 → IVec S16 32) a x).toNat < S128.size a) (hl4 : ∀ l : Fin 16, (idx4 (Shape.ofLane l)).toNat = 64 + 2 * l.val)
    (idx5 : IVec S16 32) (hi5 : ∀ a x, ((![idx5] : Fin 1 → IVec S16 32) a x).toNat < S128.size a) (hl5 : ∀ l : Fin 16, (idx5 (Shape.ofLane l)).toNat = 65 + 2 * l.val)
    (idx6 : IVec S16 32) (hi6 : ∀ a x, ((![idx6] : Fin 1 → IVec S16 32) a x).toNat < S128.size a) (hl6 : ∀ l : Fin 16, (idx6 (Shape.ofLane l)).toNat = 96 + 2 * l.val)
    (idx7 : IVec S16 32) (hi7 : ∀ a x, ((![idx7] : Fin 1 → IVec S16 32) a x).toNat < S128.size a) (hl7 : ∀ l : Fin 16, (idx7 (Shape.ofLane l)).toNat = 97 + 2 * l.val)
    (idx8 : IVec S16 32) (hi8 : ∀ a x, ((![idx8] : Fin 1 → IVec S16 32) a x).toNat < S128.size a) (hl8 : ∀ l : Fin 16, (idx8 (Shape.ofLane l)).toNat = 0 + 2 * l.val)
    (idx9 : IVec S16 32) (hi9 : ∀ a x, ((![idx9] : Fin 1 → IVec S16 32) a x).toNat < S128.size a) (hl9 : ∀ l : Fin 16, (idx9 (Shape.ofLane l)).toNat = 1 + 2 * l.val)
    (idx10 : IVec S16 32) (hi10 : ∀ a x, ((![idx10] : Fin 1 → IVec S16 32) a x).toNat < S128.size a) (hl10 : ∀ l : Fin 16, (idx10 (Shape.ofLane l)).toNat = 32 + 2 * l.val)
    (idx11 : IVec S16 32) (hi11 : ∀ a x, ((![idx11] : Fin 1 → IVec S16 32) a x).toNat < S128.size a) (hl11 : ∀ l : Fin 16, (idx11 (Shape.ofLane l)).toNat = 33 + 2 * l.val)
    (idx12 : IVec S16 32) (hi12 : ∀ a x, ((![idx12] : Fin 1 → IVec S16 32) a x).toNat < S128.size a) (hl12 : ∀ l : Fin 16, (idx12 (Shape.ofLane l)).toNat = 64 + 2 * l.val)
    (idx13 : IVec S16 32) (hi13 : ∀ a x, ((![idx13] : Fin 1 → IVec S16 32) a x).toNat < S128.size a) (hl13 : ∀ l : Fin 16, (idx13 (Shape.ofLane l)).toNat = 65 + 2 * l.val)
    (idx14 : IVec S16 32) (hi14 : ∀ a x, ((![idx14] : Fin 1 → IVec S16 32) a x).toNat < S128.size a) (hl14 : ∀ l : Fin 16, (idx14 (Shape.ofLane l)).toNat = 96 + 2 * l.val)
    (idx15 : IVec S16 32) (hi15 : ∀ a x, ((![idx15] : Fin 1 → IVec S16 32) a x).toNat < S128.size a) (hl15 : ∀ l : Fin 16, (idx15 (Shape.ofLane l)).toNat = 97 + 2 * l.val)
    (g1 : S8x4096.Idx → Elt F .f32)
    (g2 : S8x4096.Idx → Elt F .f32)
    (g3 : S8x4096.Idx → Elt F .f32)
    (g4 : S8x4096.Idx → Elt F .f32)
    (g5 : S8x4096.Idx → Elt F .f32)
    (g6 : S8x4096.Idx → Elt F .f32)
    (g7 : S8x4096.Idx → Elt F .f32)
    (g8 : S8x4096.Idx → Elt F .f32)
    (g9 : S8x4096.Idx → Elt F .f32)
    (g10 : S8x4096.Idx → Elt F .f32)
    (g11 : S8x4096.Idx → Elt F .f32)
    (g12 : S8x4096.Idx → Elt F .f32)
    (g13 : S8x4096.Idx → Elt F .f32)
    (g14 : S8x4096.Idx → Elt F .f32)
    (g15 : S8x4096.Idx → Elt F .f32)
    (g16 : S8x4096.Idx → Elt F .f32)
    (hD : Cert.TripSpec.Done fI k fO)
    (e1 : g1 = Cert.Scatter.scat ((((s3 : Memref sig .scVector .vmem S8x4096 .f32).slice (Rect.unit (s := S8x4096) off0 S1x128.size hb0) (fun _ => rfl)).squeeze S128 squeezes_S1x128_S128).access (Rect.whole S128)) fO ![idx0] (View.readAt (Elt F) (((s1 : Memref sig .scVector .vmem S8x2048 .f32).slice (Rect.unit (s := S8x2048) offI S1x128.size hbI) (fun _ => rfl)).squeeze S128 squeezes_S1x128_S128).view (Rect.unit (s := S128) ![0] S16.size hu0).toLoadRect fI) hi0)
    (e2 : g2 = Cert.Scatter.scat ((((s3 : Memref sig .scVector .vmem S8x4096 .f32).slice (Rect.unit (s := S8x4096) off1 S1x128.size hb1) (fun _ => rfl)).squeeze S128 squeezes_S1x128_S128).access (Rect.whole S128)) g1 ![idx1] (View.readAt (Elt F) (((s1 : Memref sig .scVector .vmem S8x2048 .f32).slice (Rect.unit (s := S8x2048) offI S1x128.size hbI) (fun _ => rfl)).squeeze S128 squeezes_S1x128_S128).view (Rect.unit (s := S128) ![0] S16.size hu0).toLoadRect fI) hi1)
    (e3 : g3 = Cert.Scatter.scat ((((s3 : Memref sig .scVector .vmem S8x4096 .f32).slice (Rect.unit (s := S8x4096) off2 S1x128.size hb2) (fun _ => rfl)).squeeze S128 squeezes_S1x128_S128).access (Rect.whole S128)) g2 ![idx2] (View.readAt (Elt F) (((s1 : Memref sig .scVector .vmem S8x2048 .f32).slice (Rect.unit (s := S8x2048) offI S1x128.size hbI) (fun _ => rfl)).squeeze S128 squeezes_S1x128_S128).view (Rect.unit (s := S128) ![16] S16.size hu1).toLoadRect fI) hi2)
    (e4 : g4 = Cert.Scatter.scat ((((s3 : Memref sig .scVector .vmem S8x4096 .f32).slice (Rect.unit (s := S8x4096) off3 S1x128.size hb3) (fun _ => rfl)).squeeze S128 squeezes_S1x128_S128).access (Rect.whole S128)) g3 ![idx3] (View.readAt (Elt F) (((s1 : Memref sig .scVector .vmem S8x2048 .f32).slice (Rect.unit (s := S8x2048) offI S1x128.size hbI) (fun _ => rfl)).squeeze S128 squeezes_S1x128_S128).view (Rect.unit (s := S128) ![16] S16.size hu1).toLoadRect fI) hi3)
    (e5 : g5 = Cert.Scatter.scat ((((s3 : Memref sig .scVector .vmem S8x4096 .f32).slice (Rect.unit (s := S8x4096) off4 S1x128.size hb4) (fun _ => rfl)).squeeze S128 squeezes_S1x128_S128).access (Rect.whole S128)) g4 ![idx4] (View.readAt (Elt F) (((s1 : Memref sig .scVector .vmem S8x2048 .f32).slice (Rect.unit (s := S8x2048) offI S1x128.size hbI) (fun _ => rfl)).squeeze S128 squeezes_S1x128_S128).view (Rect.unit (s := S128) ![32] S16.size hu2).toLoadRect fI) hi4)
    (e6 : g6 = Cert.Scatter.scat ((((s3 : Memref sig .scVector .vmem S8x4096 .f32).slice (Rect.unit (s := S8x4096) off5 S1x128.size hb5) (fun _ => rfl)).squeeze S128 squeezes_S1x128_S128).access (Rect.whole S128)) g5 ![idx5] (View.readAt (Elt F) (((s1 : Memref sig .scVector .vmem S8x2048 .f32).slice (Rect.unit (s := S8x2048) offI S1x128.size hbI) (fun _ => rfl)).squeeze S128 squeezes_S1x128_S128).view (Rect.unit (s := S128) ![32] S16.size hu2).toLoadRect fI) hi5)
    (e7 : g7 = Cert.Scatter.scat ((((s3 : Memref sig .scVector .vmem S8x4096 .f32).slice (Rect.unit (s := S8x4096) off6 S1x128.size hb6) (fun _ => rfl)).squeeze S128 squeezes_S1x128_S128).access (Rect.whole S128)) g6 ![idx6] (View.readAt (Elt F) (((s1 : Memref sig .scVector .vmem S8x2048 .f32).slice (Rect.unit (s := S8x2048) offI S1x128.size hbI) (fun _ => rfl)).squeeze S128 squeezes_S1x128_S128).view (Rect.unit (s := S128) ![48] S16.size hu3).toLoadRect fI) hi6)
    (e8 : g8 = Cert.Scatter.scat ((((s3 : Memref sig .scVector .vmem S8x4096 .f32).slice (Rect.unit (s := S8x4096) off7 S1x128.size hb7) (fun _ => rfl)).squeeze S128 squeezes_S1x128_S128).access (Rect.whole S128)) g7 ![idx7] (View.readAt (Elt F) (((s1 : Memref sig .scVector .vmem S8x2048 .f32).slice (Rect.unit (s := S8x2048) offI S1x128.size hbI) (fun _ => rfl)).squeeze S128 squeezes_S1x128_S128).view (Rect.unit (s := S128) ![48] S16.size hu3).toLoadRect fI) hi7)
    (e9 : g9 = Cert.Scatter.scat ((((s3 : Memref sig .scVector .vmem S8x4096 .f32).slice (Rect.unit (s := S8x4096) off8 S1x128.size hb8) (fun _ => rfl)).squeeze S128 squeezes_S1x128_S128).access (Rect.whole S128)) g8 ![idx8] (View.readAt (Elt F) (((s1 : Memref sig .scVector .vmem S8x2048 .f32).slice (Rect.unit (s := S8x2048) offI S1x128.size hbI) (fun _ => rfl)).squeeze S128 squeezes_S1x128_S128).view (Rect.unit (s := S128) ![64] S16.size hu4).toLoadRect fI) hi8)
    (e10 : g10 = Cert.Scatter.scat ((((s3 : Memref sig .scVector .vmem S8x4096 .f32).slice (Rect.unit (s := S8x4096) off9 S1x128.size hb9) (fun _ => rfl)).squeeze S128 squeezes_S1x128_S128).access (Rect.whole S128)) g9 ![idx9] (View.readAt (Elt F) (((s1 : Memref sig .scVector .vmem S8x2048 .f32).slice (Rect.unit (s := S8x2048) offI S1x128.size hbI) (fun _ => rfl)).squeeze S128 squeezes_S1x128_S128).view (Rect.unit (s := S128) ![64] S16.size hu4).toLoadRect fI) hi9)
    (e11 : g11 = Cert.Scatter.scat ((((s3 : Memref sig .scVector .vmem S8x4096 .f32).slice (Rect.unit (s := S8x4096) off10 S1x128.size hb10) (fun _ => rfl)).squeeze S128 squeezes_S1x128_S128).access (Rect.whole S128)) g10 ![idx10] (View.readAt (Elt F) (((s1 : Memref sig .scVector .vmem S8x2048 .f32).slice (Rect.unit (s := S8x2048) offI S1x128.size hbI) (fun _ => rfl)).squeeze S128 squeezes_S1x128_S128).view (Rect.unit (s := S128) ![80] S16.size hu5).toLoadRect fI) hi10)
    (e12 : g12 = Cert.Scatter.scat ((((s3 : Memref sig .scVector .vmem S8x4096 .f32).slice (Rect.unit (s := S8x4096) off11 S1x128.size hb11) (fun _ => rfl)).squeeze S128 squeezes_S1x128_S128).access (Rect.whole S128)) g11 ![idx11] (View.readAt (Elt F) (((s1 : Memref sig .scVector .vmem S8x2048 .f32).slice (Rect.unit (s := S8x2048) offI S1x128.size hbI) (fun _ => rfl)).squeeze S128 squeezes_S1x128_S128).view (Rect.unit (s := S128) ![80] S16.size hu5).toLoadRect fI) hi11)
    (e13 : g13 = Cert.Scatter.scat ((((s3 : Memref sig .scVector .vmem S8x4096 .f32).slice (Rect.unit (s := S8x4096) off12 S1x128.size hb12) (fun _ => rfl)).squeeze S128 squeezes_S1x128_S128).access (Rect.whole S128)) g12 ![idx12] (View.readAt (Elt F) (((s1 : Memref sig .scVector .vmem S8x2048 .f32).slice (Rect.unit (s := S8x2048) offI S1x128.size hbI) (fun _ => rfl)).squeeze S128 squeezes_S1x128_S128).view (Rect.unit (s := S128) ![96] S16.size hu6).toLoadRect fI) hi12)
    (e14 : g14 = Cert.Scatter.scat ((((s3 : Memref sig .scVector .vmem S8x4096 .f32).slice (Rect.unit (s := S8x4096) off13 S1x128.size hb13) (fun _ => rfl)).squeeze S128 squeezes_S1x128_S128).access (Rect.whole S128)) g13 ![idx13] (View.readAt (Elt F) (((s1 : Memref sig .scVector .vmem S8x2048 .f32).slice (Rect.unit (s := S8x2048) offI S1x128.size hbI) (fun _ => rfl)).squeeze S128 squeezes_S1x128_S128).view (Rect.unit (s := S128) ![96] S16.size hu6).toLoadRect fI) hi13)
    (e15 : g15 = Cert.Scatter.scat ((((s3 : Memref sig .scVector .vmem S8x4096 .f32).slice (Rect.unit (s := S8x4096) off14 S1x128.size hb14) (fun _ => rfl)).squeeze S128 squeezes_S1x128_S128).access (Rect.whole S128)) g14 ![idx14] (View.readAt (Elt F) (((s1 : Memref sig .scVector .vmem S8x2048 .f32).slice (Rect.unit (s := S8x2048) offI S1x128.size hbI) (fun _ => rfl)).squeeze S128 squeezes_S1x128_S128).view (Rect.unit (s := S128) ![112] S16.size hu7).toLoadRect fI) hi14)
    (e16 : g16 = Cert.Scatter.scat ((((s3 : Memref sig .scVector .vmem S8x4096 .f32).slice (Rect.unit (s := S8x4096) off15 S1x128.size hb15) (fun _ => rfl)).squeeze S128 squeezes_S1x128_S128).access (Rect.whole S128)) g15 ![idx15] (View.readAt (Elt F) (((s1 : Memref sig .scVector .vmem S8x2048 .f32).slice (Rect.unit (s := S8x2048) offI S1x128.size hbI) (fun _ => rfl)).squeeze S128 squeezes_S1x128_S128).view (Rect.unit (s := S128) ![112] S16.size hu7).toLoadRect fI) hi15)
    : Cert.TripSpec.Done fI (k + 1) g16 := by
  exact region_assemble k hk fI fO offI hbI hoI hu0 hu1 hu2 hu3 hu4 hu5 hu6 hu7
    off0 hb0 ho0 off1 hb1 ho1 off2 hb2 ho2 off3 hb3 ho3 off4 hb4 ho4 off5 hb5 ho5 off6 hb6 ho6 off7 hb7 ho7 off8 hb8 ho8 off9 hb9 ho9 off10 hb10 ho10 off11 hb11 ho11 off12 hb12 ho12 off13 hb13 ho13 off14 hb14 ho14 off15 hb15 ho15
    idx0 hi0 hl0 idx1 hi1 hl1 idx2 hi2 hl2 idx3 hi3 hl3 idx4 hi4 hl4 idx5 hi5 hl5 idx6 hi6 hl6 idx7 hi7 hl7 idx8 hi8 hl8 idx9 hi9 hl9 idx10 hi10 hl10 idx11 hi11 hl11 idx12 hi12 hl12 idx13 hi13 hl13 idx14 hi14 hl14 idx15 hi15 hl15
    g1 g2 g3 g4 g5 g6 g7 g8 g9 g10 g11 g12 g13 g14 g15 g16 hD
    (store_step13 offI hbI 0 hu0 off0 hb0 idx0 hi0 (lanes_inj hl0) fI fO g1 e1)
    (store_step13 offI hbI 0 hu0 off1 hb1 idx1 hi1 (lanes_inj hl1) fI g1 g2 e2)
    (store_step13 offI hbI 16 hu1 off2 hb2 idx2 hi2 (lanes_inj hl2) fI g2 g3 e3)
    (store_step13 offI hbI 16 hu1 off3 hb3 idx3 hi3 (lanes_inj hl3) fI g3 g4 e4)
    (store_step13 offI hbI 32 hu2 off4 hb4 idx4 hi4 (lanes_inj hl4) fI g4 g5 e5)
    (store_step13 offI hbI 32 hu2 off5 hb5 idx5 hi5 (lanes_inj hl5) fI g5 g6 e6)
    (store_step13 offI hbI 48 hu3 off6 hb6 idx6 hi6 (lanes_inj hl6) fI g6 g7 e7)
    (store_step13 offI hbI 48 hu3 off7 hb7 idx7 hi7 (lanes_inj hl7) fI g7 g8 e8)
    (store_step13 offI hbI 64 hu4 off8 hb8 idx8 hi8 (lanes_inj hl8) fI g8 g9 e9)
    (store_step13 offI hbI 64 hu4 off9 hb9 idx9 hi9 (lanes_inj hl9) fI g9 g10 e10)
    (store_step13 offI hbI 80 hu5 off10 hb10 idx10 hi10 (lanes_inj hl10) fI g10 g11 e11)
    (store_step13 offI hbI 80 hu5 off11 hb11 idx11 hi11 (lanes_inj hl11) fI g11 g12 e12)
    (store_step13 offI hbI 96 hu6 off12 hb12 idx12 hi12 (lanes_inj hl12) fI g12 g13 e13)
    (store_step13 offI hbI 96 hu6 off13 hb13 idx13 hi13 (lanes_inj hl13) fI g13 g14 e14)
    (store_step13 offI hbI 112 hu7 off14 hb14 idx14 hi14 (lanes_inj hl14) fI g14 g15 e15)
    (store_step13 offI hbI 112 hu7 off15 hb15 idx15 hi15 (lanes_inj hl15) fI g15 g16 e16)

end Region

end Cert.Kernel.Rep

end
-- ==== Proof.Kernel.Glue4.lean ====
/-
  What a tile's copies carry and land, as plain arithmetic on rows and columns: the copy into an input slot lands a window
  of the 4096 × 4096 array; the copy out of an output slot that holds, at `(r, c)`, the array's element at the chunk's row
  `r` and at half the column lands the repeated array's values on the chunk.
-/
import proofs.«217870_g8959301779661_cont_9to1_m_809_16_alg».proof.Proof.Kernel.Glue
import Idealize.ShloMosaic.Lib.Writes

noncomputable section

namespace Cert.Kernel.Rep

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The copies -/

section Copies

theorem win_row_lt {offx : Fin 2 → Nat} (hinbx : ∀ a, offx a + S8x2048.size a ≤ S4096x4096.size a) {r : ℕ} (hr : r < 8) : offx 0 + r < 4096 := by
  have h := hinbx 0; change offx 0 + 8 ≤ 4096 at h; omega
theorem win_col_lt {offx : Fin 2 → Nat} (hinbx : ∀ a, offx a + S8x2048.size a ≤ S4096x4096.size a) {c : ℕ} (hc : c < 2048) : offx 1 + c < 4096 := by
  have h := hinbx 1; change offx 1 + 2048 ≤ 4096 at h; omega

/-- What the copy into an input slot carries: the 8 × 2048 window of the 4096 × 4096 array at the offsets. -/
theorem window_read (offx : Fin 2 → Nat) (hinbx : ∀ a, offx a + S8x2048.size a ≤ S4096x4096.size a) (X : S4096x4096.Idx → Elt F .f32) :
    View.read (Elt F) ((xV : Memref sig .scVector .hbm S4096x4096 .f32).slice (Rect.unit (s := S4096x4096) offx S8x2048.size hinbx) (fun _ => rfl)).view X
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) := by
  funext y
  rw [View.read_apply]
  refine (cast_eq _ _).trans (congrArg X ?_)
  funext a
  match a with
  | ⟨0, _⟩ => exact Fin.ext (by show offx 0 + 1 * (y 0).val = offx 0 + (y 0).val; omega)
  | ⟨1, _⟩ => exact Fin.ext (by show offx 1 + 1 * (y 1).val = offx 1 + (y 1).val; omega)

/-- The copy into input slot 0, landed whole: the slot holds the window. -/
theorem in_lands_s0 (offx : Fin 2 → Nat) (hinbx : ∀ a, offx a + S8x2048.size a ≤ S4096x4096.size a) (f : S8x2048.Idx → Elt F .f32)
    (X : S4096x4096.Idx → Elt F .f32) :
    View.write (Elt F) (s0 : Memref sig .scVector .vmem S8x2048 .f32).view f
        (ReadAs.same.apply (View.read (Elt F) ((xV : Memref sig .scVector .hbm S4096x4096 .f32).slice (Rect.unit (s := S4096x4096) offx S8x2048.size hinbx) (fun _ => rfl)).view X))
        Finset.univ
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) :=
  (View.write_whole_univ _ _ _).trans (window_read offx hinbx X)
/-- The same for input slot 1. -/
theorem in_lands_s1 (offx : Fin 2 → Nat) (hinbx : ∀ a, offx a + S8x2048.size a ≤ S4096x4096.size a) (f : S8x2048.Idx → Elt F .f32)
    (X : S4096x4096.Idx → Elt F .f32) :
    View.write (Elt F) (s1 : Memref sig .scVector .vmem S8x2048 .f32).view f
        (ReadAs.same.apply (View.read (Elt F) ((xV : Memref sig .scVector .hbm S4096x4096 .f32).slice (Rect.unit (s := S4096x4096) offx S8x2048.size hinbx) (fun _ => rfl)).view X))
        Finset.univ
      = fun y : S8x2048.Idx => X (ValueIdx.ix2 (n0 := 4096) (n1 := 4096) ⟨offx 0 + (y 0).val, win_row_lt hinbx (y 0).isLt⟩
          ⟨offx 1 + (y 1).val, win_col_lt hinbx (y 1).isLt⟩) :=
  (View.write_whole_univ _ _ _).trans (window_read offx hinbx X)

theorem chunkSet_rect (L : grid0.Coords) (t : Fin 32) : chunkSet L t = (chunkRect L t).set := by
  show ((View.whole (main_v1_scv : Ref sig .scVector)).slice (chunkRect L t)).set = _
  rw [View.set_slice]; exact Finset.map_refl

/-- The part of the result array a copy out of an output slot writes, when its offsets are chunk `t`'s, is chunk `t`. -/
theorem out_set_eq (off : Fin 2 → Nat) (hinb : ∀ a, off a + S8x4096.size a ≤ S4096x8192.size a) (L : grid0.Coords) (t : Fin 32)
    (hoff : off = chunkOff L t) :
    ((oV : Memref sig .scVector .hbm S4096x8192 .f32).slice (Rect.unit (s := S4096x8192) off S8x4096.size hinb) (fun _ => rfl)).view.set = chunkSet L t := by
  subst hoff; rfl

theorem src_row_lt (L : grid0.Coords) (t : Fin 32) {r : ℕ} (hr : r < 8) : chunkOff L t 0 + r < 4096 := by
  have h := chunkOff_inb L t 0; change chunkOff L t 0 + 8 ≤ 4096 at h; omega
theorem src_col_lt (t : Fin 32) {c : ℕ} (hc : c < 4096) : 2048 * (t.val % 2) + c / 2 < 4096 := by omega

/-- The copy out of an output slot into chunk `t`, landed: if the slot holds, at `(r, c)`, the 4096 × 4096 array's element at
    the chunk's row `r` and at column `2048 (t % 2) + c / 2`, every position of the chunk holds the repeated array's value. -/
theorem out_lands {d : Dev nD} (X : Buf (Elt F) (xLoc d)) (off : Fin 2 → Nat) (hinb : ∀ a, off a + S8x4096.size a ≤ S4096x8192.size a)
    (L : grid0.Coords) (t : Fin 32) (hoff : off = chunkOff L t) (fo : S4096x8192.Idx → Elt F .f32)
    (w : (Rect.whole (Rect.unit (s := S4096x8192) off S8x4096.size hinb).shape).shape.Idx → Elt F .f32)
    (fO : S8x4096.Idx → Elt F .f32) (hw : ∀ y, w y = fO y)
    (hfO : ∀ y : S8x4096.Idx, fO y = X (ValueIdx.ix2 (n0 := 4096) (n1 := 4096) ⟨chunkOff L t 0 + (y 0).val, src_row_lt L t (y 0).isLt⟩
      ⟨2048 * (t.val % 2) + (y 1).val / 2, src_col_lt t (y 1).isLt⟩))
    (j : S4096x8192.Idx) (hj : j ∈ chunkSet L t) :
    ((oV : Memref sig .scVector .hbm S4096x8192 .f32).slice (Rect.unit (s := S4096x8192) off S8x4096.size hinb) (fun _ => rfl)).view.writes (Elt F) fo
        [⟨Rect.whole (Rect.unit (s := S4096x8192) off S8x4096.size hinb).shape, w⟩] j
      = rep X j := by
  subst hoff
  rw [chunkSet_rect, ← Rect.map_emb_univ] at hj
  obtain ⟨y, -, rfl⟩ := Finset.mem_map.mp hj
  rw [View.writes_singleton]
  have he : ((((oV : Memref sig .scVector .hbm S4096x8192 .f32).slice (chunkRect L t) (fun _ => rfl)).view).slice
      (Rect.whole (chunkRect L t).shape)).emb y = (chunkRect L t).emb y := by
    show (chunkRect L t).emb ((Rect.whole (chunkRect L t).shape).emb y) = _
    rw [Rect.emb_whole_apply]
  refine (congrArg _ he.symm).trans ((View.write_emb_of_mem _ _ (Finset.mem_univ y)).trans ((cast_eq _ _).trans ?_))
  refine ((hw y).trans (hfO y)).trans ((congrArg X ?_).trans (rep_apply X _).symm)
  have hy0 : (y 0).val < 8 := (y 0).isLt
  have hy1 : (y 1).val < 4096 := (y 1).isLt
  have ht : t.val < 32 := t.isLt
  funext a
  match a with
  | ⟨0, _⟩ =>
    exact Fin.ext (by
      show chunkOff L t 0 + (y 0).val = (Cert.RepSpec.half ((chunkRect L t).emb y) 0).val
      rw [Cert.RepSpec.half_zero]
      show chunkOff L t 0 + (y 0).val = chunkOff L t 0 + 1 * (y 0).val
      omega)
  | ⟨1, _⟩ =>
    exact Fin.ext (by
      show 2048 * (t.val % 2) + (y 1).val / 2 = (Cert.RepSpec.half ((chunkRect L t).emb y) 1).val
      rw [Cert.RepSpec.half_one]
      show 2048 * (t.val % 2) + (y 1).val / 2 = (4096 * (t.val % 2) + 1 * (y 1).val) / 2
      omega)

end Copies

/-! ## Chunk `t` of a tile: what its input slot holds, what lands on the result array -/

section Chunks

theorem xIdx_row_lt (L : grid0.Coords) {t : ℕ} (ht : t < 32) {r : ℕ} (hr : r < 8) : 128 * wid L + 8 * (t / 2) + r < 4096 := by
  have hw := wid_lt L; omega
theorem xIdx_col_lt (t : ℕ) {c : ℕ} (hc : c < 2048) : 2048 * (t % 2) + c < 4096 := by omega

/-- Position `y` of chunk `t` of tile `L` in the 4096 × 4096 array. -/
def xIdx (L : grid0.Coords) (t : ℕ) (ht : t < 32) (y : S8x2048.Idx) : S4096x4096.Idx :=
  ValueIdx.ix2 (n0 := 4096) (n1 := 4096) ⟨128 * wid L + 8 * (t / 2) + (y 0).val, xIdx_row_lt L ht (y 0).isLt⟩
    ⟨2048 * (t % 2) + (y 1).val, xIdx_col_lt t (y 1).isLt⟩

/-- The input slot holds chunk `t`. -/
def InIs (d : Dev nD) (L : grid0.Coords) (X : Buf (Elt F) (xLoc d)) (t : ℕ) (ht : t < 32) (fI : S8x2048.Idx → Elt F .f32) : Prop :=
  ∀ y, fI y = X (xIdx L t ht y)

theorem pair_eq {a b a' b' : ℕ} (ha : a = a') (hb : b = b') : (![a, b] : Fin 2 → ℕ) = ![a', b'] := by rw [ha, hb]

/-- The copy into input slot 0 at chunk `t`'s offsets, landed: the slot holds chunk `t`. -/
theorem inIs_of_dma0 (d : Dev nD) (L : grid0.Coords) (X : Buf (Elt F) (xLoc d)) (t : ℕ) (ht : t < 32) (f : S8x2048.Idx → Elt F .f32)
    (offx : Fin 2 → Nat) (hinbx : ∀ a, offx a + S8x2048.size a ≤ S4096x4096.size a)
    (hoffx : offx = ![128 * wid L + 8 * (t / 2), 2048 * (t % 2)]) :
    InIs d L X t ht (View.write (Elt F) (s0 : Memref sig .scVector .vmem S8x2048 .f32).view f
      (ReadAs.same.apply (View.read (Elt F) ((xV : Memref sig .scVector .hbm S4096x4096 .f32).slice (Rect.unit (s := S4096x4096) offx S8x2048.size hinbx) (fun _ => rfl)).view X))
      Finset.univ) := by
  subst hoffx
  intro y
  rw [in_lands_s0]
  rfl
/-- The same for input slot 1. -/
theorem inIs_of_dma1 (d : Dev nD) (L : grid0.Coords) (X : Buf (Elt F) (xLoc d)) (t : ℕ) (ht : t < 32) (f : S8x2048.Idx → Elt F .f32)
    (offx : Fin 2 → Nat) (hinbx : ∀ a, offx a + S8x2048.size a ≤ S4096x4096.size a)
    (hoffx : offx = ![128 * wid L + 8 * (t / 2), 2048 * (t % 2)]) :
    InIs d L X t ht (View.write (Elt F) (s1 : Memref sig .scVector .vmem S8x2048 .f32).view f
      (ReadAs.same.apply (View.read (Elt F) ((xV : Memref sig .scVector .hbm S4096x4096 .f32).slice (Rect.unit (s := S4096x4096) offx S8x2048.size hinbx) (fun _ => rfl)).view X))
      Finset.univ) := by
  subst hoffx
  intro y
  rw [in_lands_s1]
  rfl

/-- The copy out of an output slot at chunk `t`'s offsets, landed, the slot holding its input slot's chunk `t` repeated: the
    chunk of the result array holds the repeated array. -/
theorem chunk_lands (d : Dev nD) (L : grid0.Coords) (X : Buf (Elt F) (xLoc d)) (off : Fin 2 → Nat)
    (hinb : ∀ a, off a + S8x4096.size a ≤ S4096x8192.size a) (t : ℕ) (ht : t < 32) (hoff : off = chunkOff L ⟨t, ht⟩)
    (base : S4096x8192.Idx → Elt F .f32)
    (w : (Rect.whole (Rect.unit (s := S4096x8192) off S8x4096.size hinb).shape).shape.Idx → Elt F .f32)
    (fI : S8x2048.Idx → Elt F .f32) (fO : S8x4096.Idx → Elt F .f32) (hw : ∀ y, w y = fO y) (hIn : InIs d L X t ht fI)
    (hD : Cert.TripSpec.Done fI 128 fO) :
    ((((oV : Memref sig .scVector .hbm S4096x8192 .f32).slice (Rect.unit (s := S4096x8192) off S8x4096.size hinb) (fun _ => rfl)).view.loc (V d (cV L) (jV L))
        ↦[((oV : Memref sig .scVector .hbm S4096x8192 .f32).slice (Rect.unit (s := S4096x8192) off S8x4096.size hinb) (fun _ => rfl)).view.set]{fullShare}
        ((oV : Memref sig .scVector .hbm S4096x8192 .f32).slice (Rect.unit (s := S4096x8192) off S8x4096.size hinb) (fun _ => rfl)).view.writes (Elt F) base
          [⟨Rect.whole (Rect.unit (s := S4096x8192) off S8x4096.size hinb).shape, w⟩]) : sProp (MM F))
      = (oLoc d ↦[chunkSet L ⟨t, ht⟩]{fullShare} rep X) := by
  subst hoff
  have hfO := Cert.TripSpec.done_all fI fO hD
  have key : ∀ j ∈ chunkSet L ⟨t, ht⟩,
      ((oV : Memref sig .scVector .hbm S4096x8192 .f32).slice (Rect.unit (s := S4096x8192) (chunkOff L ⟨t, ht⟩) S8x4096.size hinb) (fun _ => rfl)).view.writes (Elt F) base
        [⟨Rect.whole (Rect.unit (s := S4096x8192) (chunkOff L ⟨t, ht⟩) S8x4096.size hinb).shape, w⟩] j = rep X j :=
    fun j hj => out_lands X _ hinb L ⟨t, ht⟩ rfl base w fO hw (fun y => by
      rw [hfO]
      show fI (Cert.TripSpec.mkIn (y 0) ⟨(y 1).val / 2, Cert.TripSpec.half_lt (y 1)⟩) = _
      exact hIn _) j hj
  rw [out_set_eq _ hinb L ⟨t, ht⟩ rfl]
  exact pointsTo_congr key

/-! ## The program's chunk offsets, in the chunks' terms -/

theorem xoff1 (L : grid0.Coords) : k0_off1 L = ![128 * wid L + 8 * (0 / 2), 2048 * (0 % 2)] :=
  (k0_off1_eq L).trans (pair_eq (by unfold wid; omega) (by omega))
theorem xoff2 (L : grid0.Coords) : k0_off2 L = ![128 * wid L + 8 * (1 / 2), 2048 * (1 % 2)] :=
  (k0_off2_eq L).trans (pair_eq (by unfold wid; omega) (by omega))
theorem xoff21 (L : grid0.Coords) (r : Fin 15) :
    k0_off21 L (BitVec.ofNat 32 (8 + 8 * r.val)) = ![128 * wid L + 8 * ((2 * r.val + 2) / 2), 2048 * ((2 * r.val + 2) % 2)] :=
  (k0_off21_eq L r).trans (pair_eq (by unfold wid; omega) (by omega))
theorem xoff22 (L : grid0.Coords) (r : Fin 16) :
    k0_off22 L (BitVec.ofNat 32 (8 * r.val)) = ![128 * wid L + 8 * ((2 * r.val + 1) / 2), 2048 * ((2 * r.val + 1) % 2)] :=
  (k0_off22_eq L r).trans (pair_eq (by unfold wid; omega) (by omega))
theorem chunk_even_lt (r : Fin 16) : 2 * r.val < 32 := by have := r.isLt; omega
theorem chunk_odd_lt (r : Fin 16) : 2 * r.val + 1 < 32 := by have := r.isLt; omega
theorem ooff20 (L : grid0.Coords) (r : Fin 16) : k0_off20 L (BitVec.ofNat 32 (8 * r.val)) = chunkOff L ⟨2 * r.val, chunk_even_lt r⟩ := by
  refine (k0_off20_eq L r).trans ?_
  show _ = (![128 * wid L + 8 * (2 * r.val / 2), 4096 * (2 * r.val % 2)] : Fin 2 → ℕ)
  exact pair_eq (by unfold wid; omega) (by omega)
theorem ooff26 (L : grid0.Coords) (r : Fin 16) : k0_off26 L (BitVec.ofNat 32 (8 * r.val)) = chunkOff L ⟨2 * r.val + 1, chunk_odd_lt r⟩ := by
  refine (k0_off26_eq L r).trans ?_
  show _ = (![128 * wid L + 8 * ((2 * r.val + 1) / 2), 4096 * ((2 * r.val + 1) % 2)] : Fin 2 → ℕ)
  exact pair_eq (by unfold wid; omega) (by omega)

end Chunks

end Cert.Kernel.Rep

end
-- ==== Proof.Kernel.Body.lean ====
/-
  One tile's task. Tile `(c, s)` is worker `2 s + c` and owns rows `[128 (2 s + c), 128 (2 s + c) + 128)` of the
  4096 × 4096 array `X` it reads and of the 4096 × 8192 array it writes. It works through 32 chunks (8 rows by 2048
  columns of `X`, giving 8 rows by 4096 columns of the result), double-buffered: chunk `t` is copied into input slot
  `t % 2` while chunk `t - 1` is being worked on, and written out of output slot `t % 2` while chunk `t + 1` is being
  worked on; every copy has a semaphore of its own slot, is waited for before its destination is read and before its
  source is overwritten, so no element is touched while a copy of it is pending.
  A chunk's loop has 128 trips; trip `k` takes row `k % 8`, input columns `[128 (k / 8), 128 (k / 8) + 128)` as
  eight vectors of 16 lanes, and scatters vector `u` twice, at the even and at the odd positions of the 32 output
  columns from `256 (k / 8) + 32 u`: the sixteen stores write pairwise distinct positions, so after the trip those 256
  output columns of the row hold each input element twice, and after 128 trips the out-slot is the in-slot with every
  element repeated along its row (`Cert.TripSpec.Done`, `done_step_gen`, `done_all`). The invariant of a chunk's loop
  carries exactly this, beside the fact that the in-slot holds chunk `t` of `X` (`InIs`); a landed write-out then holds
  `X (r, c / 2)` at every position `(r, c)` of its chunk (`chunk_lands`), and the 32 chunks are given back at that one
  whole-array function.
-/
import proofs.«217870_g8959301779661_cont_9to1_m_809_16_alg».proof.Proof.Kernel.Base
import proofs.«217870_g8959301779661_cont_9to1_m_809_16_alg».proof.Proof.Scatter
import proofs.«217870_g8959301779661_cont_9to1_m_809_16_alg».proof.Proof.TripSpec
import proofs.«217870_g8959301779661_cont_9to1_m_809_16_alg».proof.Proof.Kernel.Offs
import proofs.«217870_g8959301779661_cont_9to1_m_809_16_alg».proof.Proof.Kernel.Glue
import proofs.«217870_g8959301779661_cont_9to1_m_809_16_alg».proof.Proof.Kernel.Glue4

noncomputable section

namespace Cert.Kernel.Rep

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The tile's own semaphores and scratch -/

abbrev cell4 (d : Dev nD) (c : Fin τ.nSC) (i : Fin τ.nSub) : GSem nD τ sig := (V d c i, .dma cc0_scratch4.sem)
abbrev cell5 (d : Dev nD) (c : Fin τ.nSC) (i : Fin τ.nSub) : GSem nD τ sig := (V d c i, .dma cc0_scratch5.sem)
abbrev cell6 (d : Dev nD) (c : Fin τ.nSC) (i : Fin τ.nSub) : GSem nD τ sig := (V d c i, .dma cc0_scratch6.sem)
abbrev cell7 (d : Dev nD) (c : Fin τ.nSC) (i : Fin τ.nSub) : GSem nD τ sig := (V d c i, .dma cc0_scratch7.sem)

section Tile
variable (d : Dev nD) (L : grid0.Coords)

omit [FloatOps F] in
theorem ownSems0_V :
    (ownSems0 (V d (cV L) (jV L)) : sProp (MM F))
      = iprop(semVal (cell4 d (cV L) (jV L)) 0 ∗ semVal (cell5 d (cV L) (jV L)) 0 ∗ semVal (cell6 d (cV L) (jV L)) 0 ∗ semVal (cell7 d (cV L) (jV L)) 0
          ∗ bigSep (((((ownCells (V d (cV L) (jV L))).erase (cell4 d (cV L) (jV L))).erase (cell5 d (cV L) (jV L))).erase (cell6 d (cV L) (jV L))).erase (cell7 d (cV L) (jV L)))
              fun g => semVal g 0) := by
  unfold SparseCore.Cfg.ownSems0
  rw [SparseCore.bigSep_erase' ((mem_ownCells (g := cell4 d (cV L) (jV L))).mpr ⟨rfl, by
      show (SemLoc.dma cc0_scratch4.sem : SemLoc sig).isScoped .scVector = true; decide⟩),
    SparseCore.bigSep_erase' (Finset.mem_erase.mpr ⟨by simp [cell4, cell5]; decide, (mem_ownCells (g := cell5 d (cV L) (jV L))).mpr ⟨rfl, by
      show (SemLoc.dma cc0_scratch5.sem : SemLoc sig).isScoped .scVector = true; decide⟩⟩),
    SparseCore.bigSep_erase' (Finset.mem_erase.mpr ⟨by simp [cell5, cell6]; decide, Finset.mem_erase.mpr ⟨by simp [cell4, cell6]; decide,
      (mem_ownCells (g := cell6 d (cV L) (jV L))).mpr ⟨rfl, by show (SemLoc.dma cc0_scratch6.sem : SemLoc sig).isScoped .scVector = true; decide⟩⟩⟩),
    SparseCore.bigSep_erase' (Finset.mem_erase.mpr ⟨by simp [cell6, cell7]; decide, Finset.mem_erase.mpr ⟨by simp [cell5, cell7]; decide, Finset.mem_erase.mpr ⟨by simp [cell4, cell7]; decide,
      (mem_ownCells (g := cell7 d (cV L) (jV L))).mpr ⟨rfl, by show (SemLoc.dma cc0_scratch7.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_x (q : PosShare TreeShare) (f : Buf (Elt F) (xLoc d)) :
    ((xV : Memref sig .scVector .hbm S4096x4096 .f32).view.loc (V d (cV L) (jV L)) ↦{q} f : sProp (MM F)) = xLoc d ↦{q} f := by
  simp only [Memref.view_whole, View.set_whole]

end Tile

/-- The tile's thread. -/
abbrev thr (d : Dev nD) (L : grid0.Coords) : Thread nD τ := V d (cV L) (jV L)

section TileS
variable (d : Dev nD) (L : grid0.Coords)
omit [FloatOps F] in
theorem pts_s0 (f : Buf (Elt F) ((V d (cV L) (jV L)).loc cc0_scratch0)) :
    ((s0 : Memref sig .scVector .vmem S8x2048 .f32).view.loc (V d (cV L) (jV L)) ↦{fullShare} f : sProp (MM F)) = (V d (cV L) (jV L)).loc cc0_scratch0 ↦{fullShare} f := rfl
omit [FloatOps F] in
theorem pts_s1 (f : Buf (Elt F) ((V d (cV L) (jV L)).loc cc0_scratch1)) :
    ((s1 : Memref sig .scVector .vmem S8x2048 .f32).view.loc (V d (cV L) (jV L)) ↦{fullShare} f : sProp (MM F)) = (V d (cV L) (jV L)).loc cc0_scratch1 ↦{fullShare} f := rfl
omit [FloatOps F] in
theorem pts_s2 (f : Buf (Elt F) ((V d (cV L) (jV L)).loc cc0_scratch2)) :
    ((s2 : Memref sig .scVector .vmem S8x4096 .f32).view.loc (V d (cV L) (jV L)) ↦{fullShare} f : sProp (MM F)) = (V d (cV L) (jV L)).loc cc0_scratch2 ↦{fullShare} f := rfl
omit [FloatOps F] in
theorem pts_s3 (f : Buf (Elt F) ((V d (cV L) (jV L)).loc cc0_scratch3)) :
    ((s3 : Memref sig .scVector .vmem S8x4096 .f32).view.loc (V d (cV L) (jV L)) ↦{fullShare} f : sProp (MM F)) = (V d (cV L) (jV L)).loc cc0_scratch3 ↦{fullShare} f := rfl
end TileS

/-! ## A scatter store through a row of a buffer held whole -/

section Rule
open Idealize.ShloMosaic.SparseCore
variable {Λ : Labels} {defs : Defs nD τ sig (Elt F) Λ} (𝒱 : Variants) (c : Thread nD τ) (bd : Option 𝒱.V) (E : Set ℕ)
variable {s : Shape} {e : EltTy} {α : Type} {Q : α → sProp (MM F)}

/-- An unmasked, non-accumulating `vectorStoreIdx` at the head of a program, holding outright a set `S` of the buffer's
    elements that includes the row's: the program continues holding `S` at contents `f'`, the scatter of the stored
    vector into the row of the old contents (`Cert.Scatter.scat`). -/
theorem wp_scatterStore {dd : Fin 1 → Nat} {base : Memref sig c.2.kind .vmem s e} {idxs : Fin s.rank → IVec ⟨1, dd⟩ 32} {v : Vec F ⟨1, dd⟩ e}
    {h : ∀ a x, (idxs a x).toNat < s.size a} {hs : (base.access (.whole s)).Stores Finset.univ}
    {k : PUnit → Prog (TpuEff nD τ sig (Elt F) Λ c.2) α} {S : Finset (Idx ((base.access (.whole s)).loc c))} {f : Buf (Elt F) ((base.access (.whole s)).loc c)}
    (hS : (base.access (.whole s)).set ⊆ S) :
    ((base.access (.whole s)).loc c ↦[S]{fullShare} f : sProp (MM F))
      ⊢ iprop((∀ (f' : Buf (Elt F) ((base.access (.whole s)).loc c)) (_ : f' = Cert.Scatter.scat (base.access (.whole s)) f idxs v h),
            ((base.access (.whole s)).loc c ↦[S]{fullShare} f') -∗ wp frame (wpE defs 𝒱 c bd) E (k ⟨⟩) Q)
        -∗ wp frame (wpE defs 𝒱 c bd) E (vectorStoreIdx base idxs v (fun _ => 1#1) false h hs >>= k) Q) := by
  rw [vectorStoreIdx_bind]
  unfold Cert.Scatter.scat
  iintro H Hk
  iapply (wp_load_rect (defs := defs) 𝒱 c bd E (Q := Q) (r := Rect.whole s) (hl := View.loadsAt_rect hs.loads)
    (k := fun f' => .op (.store base (.whole s) (storeIdx f' idxs v (fun _ => 1#1) false h) Finset.univ hs (.inl rfl)) k)
    (q := fullShare) (f := f) hS) $$ H
  iintro H
  iapply (wp_store (defs := defs) 𝒱 c bd E (Q := Q) (m := base) (r := .whole s) (Mk := Finset.univ)
    (hx := hs) (hm := .inl rfl) (k := k) (f := f) (S := S) hS) $$ H
  iintro H
  ispecialize Hk $$ %((base.access (.whole s)).write (Elt F) f (storeIdx ((base.access (.whole s)).read (Elt F) f) idxs v (fun _ => 1#1) false h) Finset.univ) %rfl H
  iexact Hk

end Rule

section Chunks
variable (d : Dev nD) (L : grid0.Coords)

omit [FloatOps F] in
theorem chunkRect_even (r : Fin 16) :
    Rect.unit (s := S4096x8192) (k0_off20 L (BitVec.ofNat 32 (8 * r.val))) S8x4096.size (k0_off20_inb L r) = chunkRect L ⟨2 * r.val, by have := r.isLt; omega⟩ := by
  unfold chunkRect
  congr 1
  rw [k0_off20_eq L r]
  unfold chunkOff wid
  have h0 : (2 * r.val) / 2 = r.val := by omega
  have h1 : (2 * r.val) % 2 = 0 := by omega
  funext a
  match a with
  | ⟨0, _⟩ => show 256 * (L 1).val + 128 * (L 0).val + 8 * r.val = 128 * (2 * (L 1).val + (L 0).val) + 8 * ((2 * r.val) / 2); rw [h0]; omega
  | ⟨1, _⟩ => show 0 = 4096 * ((2 * r.val) % 2); rw [h1]

omit [FloatOps F] in
theorem chunkRect_odd (r : Fin 16) :
    Rect.unit (s := S4096x8192) (k0_off26 L (BitVec.ofNat 32 (8 * r.val))) S8x4096.size (k0_off26_inb L r) = chunkRect L ⟨2 * r.val + 1, by have := r.isLt; omega⟩ := by
  unfold chunkRect
  congr 1
  rw [k0_off26_eq L r]
  unfold chunkOff wid
  have h0 : (2 * r.val + 1) / 2 = r.val := by omega
  have h1 : (2 * r.val + 1) % 2 = 1 := by omega
  funext a
  match a with
  | ⟨0, _⟩ => show 256 * (L 1).val + 128 * (L 0).val + 8 * r.val = 128 * (2 * (L 1).val + (L 0).val) + 8 * ((2 * r.val + 1) / 2); rw [h0]; omega
  | ⟨1, _⟩ => show 4096 = 4096 * ((2 * r.val + 1) % 2); rw [h1]

/-- Chunk `2 r` of `out` as the program slices it. -/
abbrev oEven (L : grid0.Coords) (r : Fin 16) : Memref sig .scVector .hbm S8x4096 .f32 :=
  (oV : Memref sig .scVector .hbm S4096x8192 .f32).slice (Rect.unit (s := S4096x8192) (k0_off20 L (BitVec.ofNat 32 (8 * r.val))) S8x4096.size (k0_off20_inb L r)) (fun _ => rfl)
/-- Chunk `2 r + 1` of `out` as the program slices it. -/
abbrev oOdd (L : grid0.Coords) (r : Fin 16) : Memref sig .scVector .hbm S8x4096 .f32 :=
  (oV : Memref sig .scVector .hbm S4096x8192 .f32).slice (Rect.unit (s := S4096x8192) (k0_off26 L (BitVec.ofNat 32 (8 * r.val))) S8x4096.size (k0_off26_inb L r)) (fun _ => rfl)

omit [FloatOps F] in
theorem set_oEven (r : Fin 16) : (oEven L r).view.set = chunkSet L ⟨2 * r.val, by have := r.isLt; omega⟩ :=
  (View.set_slice _ _).trans ((congrArg (fun R : Rect S4096x8192 => R.set.map (oV : Memref sig .scVector .hbm S4096x8192 .f32).view.emb) (chunkRect_even L r)).trans (View.set_slice _ _).symm)
omit [FloatOps F] in
theorem set_oOdd (r : Fin 16) : (oOdd L r).view.set = chunkSet L ⟨2 * r.val + 1, by have := r.isLt; omega⟩ :=
  (View.set_slice _ _).trans ((congrArg (fun R : Rect S4096x8192 => R.set.map (oV : Memref sig .scVector .hbm S4096x8192 .f32).view.emb) (chunkRect_odd L r)).trans (View.set_slice _ _).symm)
omit [FloatOps F] in
theorem pts_oEven (r : Fin 16) (f : Buf (Elt F) (oLoc d)) :
    ((oEven L r).view.loc (thr d L) ↦[(oEven L r).view.set]{fullShare} f : sProp (MM F))
      = oLoc d ↦[chunkSet L ⟨2 * r.val, by have := r.isLt; omega⟩]{fullShare} f := by
  rw [set_oEven]
omit [FloatOps F] in
theorem pts_oOdd (r : Fin 16) (f : Buf (Elt F) (oLoc d)) :
    ((oOdd L r).view.loc (thr d L) ↦[(oOdd L r).view.set]{fullShare} f : sProp (MM F))
      = oLoc d ↦[chunkSet L ⟨2 * r.val + 1, by have := r.isLt; omega⟩]{fullShare} f := by
  rw [set_oOdd]

omit [FloatOps F] in
/-- A product over the 32 chunks, written out. -/
theorem bigSep_fin32 (Φ : Fin 32 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide]
  repeat rw [SparseCore.bigSep_insert' (by decide)]
  rw [bigSep_singleton]

end Chunks

omit [FloatOps F] in
/-- A wait recorded at no launch index keeps the recorded waits within those the launch allows. -/
theorem waits_ok {W S : Waits sig (HIx 1)} (h : ∀ p ∈ S, p ∈ W ∨ p.2 = none) (x : SemLoc sig) :
    ∀ p ∈ insert (x, (default : HIx 1)) S, p ∈ W ∨ p.2 = none := by
  intro p hp
  rcases Finset.mem_insert.mp hp with rfl | hp
  · exact .inr rfl
  · exact h p hp

section Inv
variable (d : Dev nD) (L : grid0.Coords) (X : Buf (Elt F) (xLoc d))

/-- Before trip `k` of chunk `t`'s loop on slots 0 (in) and 2 (out): the in-slot holds chunk `t` of the array read,
    the out-slot its repeat on the rows and column tiles of the trips done. -/
def inv0 (t : ℕ) (ht : t < 32) (k : Nat) (_ : BitVec 32) : sProp (MM F) :=
  iprop(∃ (fI : S8x2048.Idx → Elt F .f32) (fO : S8x4096.Idx → Elt F .f32),
    ((s0 : Memref sig .scVector .vmem S8x2048 .f32).view.loc (thr d L) ↦{fullShare} fI)
    ∗ ((s2 : Memref sig .scVector .vmem S8x4096 .f32).view.loc (thr d L) ↦{fullShare} fO)
    ∗ ⌜InIs d L X t ht fI ∧ Cert.TripSpec.Done fI k fO⌝)
/-- The same on slots 1 (in) and 3 (out). -/
def inv1 (t : ℕ) (ht : t < 32) (k : Nat) (_ : BitVec 32) : sProp (MM F) :=
  iprop(∃ (fI : S8x2048.Idx → Elt F .f32) (fO : S8x4096.Idx → Elt F .f32),
    ((s1 : Memref sig .scVector .vmem S8x2048 .f32).view.loc (thr d L) ↦{fullShare} fI)
    ∗ ((s3 : Memref sig .scVector .vmem S8x4096 .f32).view.loc (thr d L) ↦{fullShare} fO)
    ∗ ⌜InIs d L X t ht fI ∧ Cert.TripSpec.Done fI k fO⌝)
end Inv

/-! ## The task -/

section Tile2
variable (d : Dev nD) (L : grid0.Coords)
set_option maxHeartbeats 0 in
theorem tile_body (hF : (K (F := F)).Facts) (d : Dev nD) (L : grid0.Coords) (X : Buf (Elt F) (xLoc d)) (fo : Buf (Elt F) (oLoc d)) (q : PosShare TreeShare)
    (O : CellTallies nD τ sig (HIx 1)) (W : Waits sig (HIx 1)) (hO : ∀ g, O g none = 0) :
    (iprop(levAts (K (F := F)).L (K (F := F)).lev ∗ emp
        ∗ ((xLoc d ↦{q} X) ∗ bigSep Finset.univ fun t : Fin 32 => oLoc d ↦[chunkSet L t]{fullShare} fo)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0__sc_body L xV (Memref.isWhole_whole _) oV (Memref.isWhole_whole _) s0 (Memref.isWhole_whole _) s1 (Memref.isWhole_whole _)
            s2 (Memref.isWhole_whole _) s3 (Memref.isWhole_whole _) cc0_scratch4 cc0_scratch5 cc0_scratch6 cc0_scratch7)
          fun _ => iprop(((xLoc d ↦{q} X) ∗ bigSep Finset.univ fun t : Fin 32 => oLoc d ↦[chunkSet L t]{fullShare} rep X)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f0, Hs0⟩, ⟨%f1, Hs1⟩, ⟨%f2, Hs2⟩, ⟨%f3, Hs3⟩, Hbufs⟩, ⟨Hsem4, Hsem5, Hsem6, Hsem7, Hsems⟩, HO⟩
  ihave Hmw := ((K (F := F)).mayWaits_none (thr := V d (cV L) (jV L)) hO) $$ Hlv
  ihave Hx' := (Entails.of_eq (pts_x (F := F) d L q X).symm) $$ Hx
  ihave Hs0' := (Entails.of_eq (pts_s0 (F := F) d L f0).symm) $$ Hs0
  ihave Hs1' := (Entails.of_eq (pts_s1 (F := F) d L f1).symm) $$ Hs1
  ihave Hs2' := (Entails.of_eq (pts_s2 (F := F) d L f2).symm) $$ Hs2
  ihave Hs3' := (Entails.of_eq (pts_s3 (F := F) d L f3).symm) $$ Hs3
  ihave Ho' := (Entails.of_eq (bigSep_fin32 (F := F) (fun t : Fin 32 => oLoc d ↦[chunkSet L t]{fullShare} fo))) $$ Ho
  icases Ho' with ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩
  ihave Ho0' := (Entails.of_eq (show ((((oV : Memref sig .scVector .hbm S4096x8192 .f32).slice (Rect.unit (s := S4096x8192) (k0_off20 L 0#32) S8x4096.size (k0_off20_inb L 0)) (fun _ => rfl)).view.loc (thr d L) ↦[((oV : Memref sig .scVector .hbm S4096x8192 .f32).slice (Rect.unit (s := S4096x8192) (k0_off20 L 0#32) S8x4096.size (k0_off20_inb L 0)) (fun _ => rfl)).view.set]{fullShare} fo : sProp (MM F)) = oLoc d ↦[chunkSet L 0]{fullShare} fo) from pts_oEven (F := F) d L 0 fo).symm) $$ Ho0
  ihave Ho1' := (Entails.of_eq (show ((((oV : Memref sig .scVector .hbm S4096x8192 .f32).slice (Rect.unit (s := S4096x8192) (k0_off26 L 0#32) S8x4096.size (k0_off26_inb L 0)) (fun _ => rfl)).view.loc (thr d L) ↦[((oV : Memref sig .scVector .hbm S4096x8192 .f32).slice (Rect.unit (s := S4096x8192) (k0_off26 L 0#32) S8x4096.size (k0_off26_inb L 0)) (fun _ => rfl)).view.set]{fullShare} fo : sProp (MM F)) = oLoc d ↦[chunkSet L 1]{fullShare} fo) from pts_oOdd (F := F) d L 0 fo).symm) $$ Ho1
  ihave Ho2' := (Entails.of_eq (show ((((oV : Memref sig .scVector .hbm S4096x8192 .f32).slice (Rect.unit (s := S4096x8192) (k0_off20 L 8#32) S8x4096.size (k0_off20_inb L 1)) (fun _ => rfl)).view.loc (thr d L) ↦[((oV : Memref sig .scVector .hbm S4096x8192 .f32).slice (Rect.unit (s := S4096x8192) (k0_off20 L 8#32) S8x4096.size (k0_off20_inb L 1)) (fun _ => rfl)).view.set]{fullShare} fo : sProp (MM F)) = oLoc d ↦[chunkSet L 2]{fullShare} fo) from pts_oEven (F := F) d L 1 fo).symm) $$ Ho2
  ihave Ho3' := (Entails.of_eq (show ((((oV : Memref sig .scVector .hbm S4096x8192 .f32).slice (Rect.unit (s := S4096x8192) (k0_off26 L 8#32) S8x4096.size (k0_off26_inb L 1)) (fun _ => rfl)).view.loc (thr d L) ↦[((oV : Memref sig .scVector .hbm S4096x8192 .f32).slice (Rect.unit (s := S4096x8192) (k0_off26 L 8#32) S8x4096.size (k0_off26_inb L 1)) (fun _ => rfl)).view.set]{fullShare} fo : sProp (MM F)) = oLoc d ↦[chunkSet L 3]{fullShare} fo) from pts_oOdd (F := F) d L 1 fo).symm) $$ Ho3
  ihave Ho4' := (Entails.of_eq (show ((((oV : Memref sig .scVector .hbm S4096x8192 .f32).slice (Rect.unit (s := S4096x8192) (k0_off20 L 16#32) S8x4096.size (k0_off20_inb L 2)) (fun _ => rfl)).view.loc (thr d L) ↦[((oV : Memref sig .scVector .hbm S4096x8192 .f32).slice (Rect.unit (s := S4096x8192) (k0_off20 L 16#32) S8x4096.size (k0_off20_inb L 2)) (fun _ => rfl)).view.set]{fullShare} fo : sProp (MM F)) = oLoc d ↦[chunkSet L 4]{fullShare} fo) from pts_oEven (F := F) d L 2 fo).symm) $$ Ho4
  ihave Ho5' := (Entails.of_eq (show ((((oV : Memref sig .scVector .hbm S4096x8192 .f32).slice (Rect.unit (s := S4096x8192) (k0_off26 L 16#32) S8x4096.size (k0_off26_inb L 2)) (fun _ => rfl)).view.loc (thr d L) ↦[((oV : Memref sig .scVector .hbm S4096x8192 .f32).slice (Rect.unit (s := S4096x8192) (k0_off26 L 16#32) S8x4096.size (k0_off26_inb L 2)) (fun _ => rfl)).view.set]{fullShare} fo : sProp (MM F)) = oLoc d ↦[chunkSet L 5]{fullShare} fo) from pts_oOdd (F := F) d L 2 fo).symm) $$ Ho5
  ihave Ho6' := (Entails.of_eq (show ((((oV : Memref sig .scVector .hbm S4096x8192 .f32).slice (Rect.unit (s := S4096x8192) (k0_off20 L 24#32) S8x4096.size (k0_off20_inb L 3)) (fun _ => rfl)).view.loc (thr d L) ↦[((oV : Memref sig .scVector .hbm S4096x8192 .f32).slice (Rect.unit (s := S4096x8192) (k0_off20 L 24#32) S8x4096.size (k0_off20_inb L 3)) (fun _ => rfl)).view.set]{fullShare} fo : sProp (MM F)) = oLoc d ↦[chunkSet L 6]{fullShare} fo) from pts_oEven (F := F) d L 3 fo).symm) $$ Ho6
  ihave Ho7' := (Entails.of_eq (show ((((oV : Memref sig .scVector .hbm S4096x8192 .f32).slice (Rect.unit (s := S4096x8192) (k0_off26 L 24#32) S8x4096.size (k0_off26_inb L 3)) (fun _ => rfl)).view.loc (thr d L) ↦[((oV : Memref sig .scVector .hbm S4096x8192 .f32).slice (Rect.unit (s := S4096x8192) (k0_off26 L 24#32) S8x4096.size (k0_off26_inb L 3)) (fun _ => rfl)).view.set]{fullShare} fo : sProp (MM F)) = oLoc d ↦[chunkSet L 7]{fullShare} fo) from pts_oOdd (F := F) d L 3 fo).symm) $$ Ho7
  ihave Ho8' := (Entails.of_eq (show ((((oV : Memref sig .scVector .hbm S4096x8192 .f32).slice (Rect.unit (s := S4096x8192) (k0_off20 L 32#32) S8x4096.size (k0_off20_inb L 4)) (fun _ => rfl)).view.loc (thr d L) ↦[((oV : Memref sig .scVector .hbm S4096x8192 .f32).slice (Rect.unit (s := S4096x8192) (k0_off20 L 32#32) S8x4096.size (k0_off20_inb L 4)) (fun _ => rfl)).view.set]{fullShare} fo : sProp (MM F)) = oLoc d ↦[chunkSet L 8]{fullShare} fo) from pts_oEven (F := F) d L 4 fo).symm) $$ Ho8
  ihave Ho9' := (Entails.of_eq (show ((((oV : Memref sig .scVector .hbm S4096x8192 .f32).slice (Rect.unit (s := S4096x8192) (k0_off26 L 32#32) S8x4096.size (k0_off26_inb L 4)) (fun _ => rfl)).view.loc (thr d L) ↦[((oV : Memref sig .scVector .hbm S4096x8192 .f32).slice (Rect.unit (s := S4096x8192) (k0_off26 L 32#32) S8x4096.size (k0_off26_inb L 4)) (fun _ => rfl)).view.set]{fullShare} fo : sProp (MM F)) = oLoc d ↦[chunkSet L 9]{fullShare} fo) from pts_oOdd (F := F) d L 4 fo).symm) $$ Ho9
  ihave Ho10' := (Entails.of_eq (show ((((oV : Memref sig .scVector .hbm S4096x8192 .f32).slice (Rect.unit (s := S4096x8192) (k0_off20 L 40#32) S8x4096.size (k0_off20_inb L 5)) (fun _ => rfl)).view.loc (thr d L) ↦[((oV : Memref sig .scVector .hbm S4096x8192 .f32).slice (Rect.unit (s := S4096x8192) (k0_off20 L 40#32) S8x4096.size (k0_off20_inb L 5)) (fun _ => rfl)).view.set]{fullShare} fo : sProp (MM F)) = oLoc d ↦[chunkSet L 10]{fullShare} fo) from pts_oEven (F := F) d L 5 fo).symm) $$ Ho10
  ihave Ho11' := (Entails.of_eq (show ((((oV : Memref sig .scVector .hbm S4096x8192 .f32).slice (Rect.unit (s := S4096x8192) (k0_off26 L 40#32) S8x4096.size (k0_off26_inb L 5)) (fun _ => rfl)).view.loc (thr d L) ↦[((oV : Memref sig .scVector .hbm S4096x8192 .f32).slice (Rect.unit (s := S4096x8192) (k0_off26 L 40#32) S8x4096.size (k0_off26_inb L 5)) (fun _ => rfl)).view.set]{fullShare} fo : sProp (MM F)) = oLoc d ↦[chunkSet L 11]{fullShare} fo) from pts_oOdd (F := F) d L 5 fo).symm) $$ Ho11
  ihave Ho12' := (Entails.of_eq (show ((((oV : Memref sig .scVector .hbm S4096x8192 .f32).slice (Rect.unit (s := S4096x8192) (k0_off20 L 48#32) S8x4096.size (k0_off20_inb L 6)) (fun _ => rfl)).view.loc (thr d L) ↦[((oV : Memref sig .scVector .hbm S4096x8192 .f32).slice (Rect.unit (s := S4096x8192) (k0_off20 L 48#32) S8x4096.size (k0_off20_inb L 6)) (fun _ => rfl)).view.set]{fullShare} fo : sProp (MM F)) = oLoc d ↦[chunkSet L 12]{fullShare} fo) from pts_oEven (F := F) d L 6 fo).symm) $$ Ho12
  ihave Ho13' := (Entails.of_eq (show ((((oV : Memref sig .scVector .hbm S4096x8192 .f32).slice (Rect.unit (s := S4096x8192) (k0_off26 L 48#32) S8x4096.size (k0_off26_inb L 6)) (fun _ => rfl)).view.loc (thr d L) ↦[((oV : Memref sig .scVector .hbm S4096x8192 .f32).slice (Rect.unit (s := S4096x8192) (k0_off26 L 48#32) S8x4096.size (k0_off26_inb L 6)) (fun _ => rfl)).view.set]{fullShare} fo : sProp (MM F)) = oLoc d ↦[chunkSet L 13]{fullShare} fo) from pts_oOdd (F := F) d L 6 fo).symm) $$ Ho13
  ihave Ho14' := (Entails.of_eq (show ((((oV : Memref sig .scVector .hbm S4096x8192 .f32).slice (Rect.unit (s := S4096x8192) (k0_off20 L 56#32) S8x4096.size (k0_off20_inb L 7)) (fun _ => rfl)).view.loc (thr d L) ↦[((oV : Memref sig .scVector .hbm S4096x8192 .f32).slice (Rect.unit (s := S4096x8192) (k0_off20 L 56#32) S8x4096.size (k0_off20_inb L 7)) (fun _ => rfl)).view.set]{fullShare} fo : sProp (MM F)) = oLoc d ↦[chunkSet L 14]{fullShare} fo) from pts_oEven (F := F) d L 7 fo).symm) $$ Ho14
  ihave Ho15' := (Entails.of_eq (show ((((oV : Memref sig .scVector .hbm S4096x8192 .f32).slice (Rect.unit (s := S4096x8192) (k0_off26 L 56#32) S8x4096.size (k0_off26_inb L 7)) (fun _ => rfl)).view.loc (thr d L) ↦[((oV : Memref sig .scVector .hbm S4096x8192 .f32).slice (Rect.unit (s := S4096x8192) (k0_off26 L 56#32) S8x4096.size (k0_off26_inb L 7)) (fun _ => rfl)).view.set]{fullShare} fo : sProp (MM F)) = oLoc d ↦[chunkSet L 15]{fullShare} fo) from pts_oOdd (F := F) d L 7 fo).symm) $$ Ho15
  ihave Ho16' := (Entails.of_eq (show ((((oV : Memref sig .scVector .hbm S4096x8192 .f32).slice (Rect.unit (s := S4096x8192) (k0_off20 L 64#32) S8x4096.size (k0_off20_inb L 8)) (fun _ => rfl)).view.loc (thr d L) ↦[((oV : Memref sig .scVector .hbm S4096x8192 .f32).slice (Rect.unit (s := S4096x8192) (k0_off20 L 64#32) S8x4096.size (k0_off20_inb L 8)) (fun _ => rfl)).view.set]{fullShare} fo : sProp (MM F)) = oLoc d ↦[chunkSet L 16]{fullShare} fo) from pts_oEven (F := F) d L 8 fo).symm) $$ Ho16
  ihave Ho17' := (Entails.of_eq (show ((((oV : Memref sig .scVector .hbm S4096x8192 .f32).slice (Rect.unit (s := S4096x8192) (k0_off26 L 64#32) S8x4096.size (k0_off26_inb L 8)) (fun _ => rfl)).view.loc (thr d L) ↦[((oV : Memref sig .scVector .hbm S4096x8192 .f32).slice (Rect.unit (s := S4096x8192) (k0_off26 L 64#32) S8x4096.size (k0_off26_inb L 8)) (fun _ => rfl)).view.set]{fullShare} fo : sProp (MM F)) = oLoc d ↦[chunkSet L 17]{fullShare} fo) from pts_oOdd (F := F) d L 8 fo).symm) $$ Ho17
  ihave Ho18' := (Entails.of_eq (show ((((oV : Memref sig .scVector .hbm S4096x8192 .f32).slice (Rect.unit (s := S4096x8192) (k0_off20 L 72#32) S8x4096.size (k0_off20_inb L 9)) (fun _ => rfl)).view.loc (thr d L) ↦[((oV : Memref sig .scVector .hbm S4096x8192 .f32).slice (Rect.unit (s := S4096x8192) (k0_off20 L 72#32) S8x4096.size (k0_off20_inb L 9)) (fun _ => rfl)).view.set]{fullShare} fo : sProp (MM F)) = oLoc d ↦[chunkSet L 18]{fullShare} fo) from pts_oEven (F := F) d L 9 fo).symm) $$ Ho18
  ihave Ho19' := (Entails.of_eq (show ((((oV : Memref sig .scVector .hbm S4096x8192 .f32).slice (Rect.unit (s := S4096x8192) (k0_off26 L 72#32) S8x4096.size (k0_off26_inb L 9)) (fun _ => rfl)).view.loc (thr d L) ↦[((oV : Memref sig .scVector .hbm S4096x8192 .f32).slice (Rect.unit (s := S4096x8192) (k0_off26 L 72#32) S8x4096.size (k0_off26_inb L 9)) (fun _ => rfl)).view.set]{fullShare} fo : sProp (MM F)) = oLoc d ↦[chunkSet L 19]{fullShare} fo) from pts_oOdd (F := F) d L 9 fo).symm) $$ Ho19
  ihave Ho20' := (Entails.of_eq (show ((((oV : Memref sig .scVector .hbm S4096x8192 .f32).slice (Rect.unit (s := S4096x8192) (k0_off20 L 80#32) S8x4096.size (k0_off20_inb L 10)) (fun _ => rfl)).view.loc (thr d L) ↦[((oV : Memref sig .scVector .hbm S4096x8192 .f32).slice (Rect.unit (s := S4096x8192) (k0_off20 L 80#32) S8x4096.size (k0_off20_inb L 10)) (fun _ => rfl)).view.set]{fullShare} fo : sProp (MM F)) = oLoc d ↦[chunkSet L 20]{fullShare} fo) from pts_oEven (F := F) d L 10 fo).symm) $$ Ho20
  ihave Ho21' := (Entails.of_eq (show ((((oV : Memref sig .scVector .hbm S4096x8192 .f32).slice (Rect.unit (s := S4096x8192) (k0_off26 L 80#32) S8x4096.size (k0_off26_inb L 10)) (fun _ => rfl)).view.loc (thr d L) ↦[((oV : Memref sig .scVector .hbm S4096x8192 .f32).slice (Rect.unit (s := S4096x8192) (k0_off26 L 80#32) S8x4096.size (k0_off26_inb L 10)) (fun _ => rfl)).view.set]{fullShare} fo : sProp (MM F)) = oLoc d ↦[chunkSet L 21]{fullShare} fo) from pts_oOdd (F := F) d L 10 fo).symm) $$ Ho21
  ihave Ho22' := (Entails.of_eq (show ((((oV : Memref sig .scVector .hbm S4096x8192 .f32).slice (Rect.unit (s := S4096x8192) (k0_off20 L 88#32) S8x4096.size (k0_off20_inb L 11)) (fun _ => rfl)).view.loc (thr d L) ↦[((oV : Memref sig .scVector .hbm S4096x8192 .f32).slice (Rect.unit (s := S4096x8192) (k0_off20 L 88#32) S8x4096.size (k0_off20_inb L 11)) (fun _ => rfl)).view.set]{fullShare} fo : sProp (MM F)) = oLoc d ↦[chunkSet L 22]{fullShare} fo) from pts_oEven (F := F) d L 11 fo).symm) $$ Ho22
  ihave Ho23' := (Entails.of_eq (show ((((oV : Memref sig .scVector .hbm S4096x8192 .f32).slice (Rect.unit (s := S4096x8192) (k0_off26 L 88#32) S8x4096.size (k0_off26_inb L 11)) (fun _ => rfl)).view.loc (thr d L) ↦[((oV : Memref sig .scVector .hbm S4096x8192 .f32).slice (Rect.unit (s := S4096x8192) (k0_off26 L 88#32) S8x4096.size (k0_off26_inb L 11)) (fun _ => rfl)).view.set]{fullShare} fo : sProp (MM F)) = oLoc d ↦[chunkSet L 23]{fullShare} fo) from pts_oOdd (F := F) d L 11 fo).symm) $$ Ho23
  ihave Ho24' := (Entails.of_eq (show ((((oV : Memref sig .scVector .hbm S4096x8192 .f32).slice (Rect.unit (s := S4096x8192) (k0_off20 L 96#32) S8x4096.size (k0_off20_inb L 12)) (fun _ => rfl)).view.loc (thr d L) ↦[((oV : Memref sig .scVector .hbm S4096x8192 .f32).slice (Rect.unit (s := S4096x8192) (k0_off20 L 96#32) S8x4096.size (k0_off20_inb L 12)) (fun _ => rfl)).view.set]{fullShare} fo : sProp (MM F)) = oLoc d ↦[chunkSet L 24]{fullShare} fo) from pts_oEven (F := F) d L 12 fo).symm) $$ Ho24
  ihave Ho25' := (Entails.of_eq (show ((((oV : Memref sig .scVector .hbm S4096x8192 .f32).slice (Rect.unit (s := S4096x8192) (k0_off26 L 96#32) S8x4096.size (k0_off26_inb L 12)) (fun _ => rfl)).view.loc (thr d L) ↦[((oV : Memref sig .scVector .hbm S4096x8192 .f32).slice (Rect.unit (s := S4096x8192) (k0_off26 L 96#32) S8x4096.size (k0_off26_inb L 12)) (fun _ => rfl)).view.set]{fullShare} fo : sProp (MM F)) = oLoc d ↦[chunkSet L 25]{fullShare} fo) from pts_oOdd (F := F) d L 12 fo).symm) $$ Ho25
  ihave Ho26' := (Entails.of_eq (show ((((oV : Memref sig .scVector .hbm S4096x8192 .f32).slice (Rect.unit (s := S4096x8192) (k0_off20 L 104#32) S8x4096.size (k0_off20_inb L 13)) (fun _ => rfl)).view.loc (thr d L) ↦[((oV : Memref sig .scVector .hbm S4096x8192 .f32).slice (Rect.unit (s := S4096x8192) (k0_off20 L 104#32) S8x4096.size (k0_off20_inb L 13)) (fun _ => rfl)).view.set]{fullShare} fo : sProp (MM F)) = oLoc d ↦[chunkSet L 26]{fullShare} fo) from pts_oEven (F := F) d L 13 fo).symm) $$ Ho26
  ihave Ho27' := (Entails.of_eq (show ((((oV : Memref sig .scVector .hbm S4096x8192 .f32).slice (Rect.unit (s := S4096x8192) (k0_off26 L 104#32) S8x4096.size (k0_off26_inb L 13)) (fun _ => rfl)).view.loc (thr d L) ↦[((oV : Memref sig .scVector .hbm S4096x8192 .f32).slice (Rect.unit (s := S4096x8192) (k0_off26 L 104#32) S8x4096.size (k0_off26_inb L 13)) (fun _ => rfl)).view.set]{fullShare} fo : sProp (MM F)) = oLoc d ↦[chunkSet L 27]{fullShare} fo) from pts_oOdd (F := F) d L 13 fo).symm) $$ Ho27
  ihave Ho28' := (Entails.of_eq (show ((((oV : Memref sig .scVector .hbm S4096x8192 .f32).slice (Rect.unit (s := S4096x8192) (k0_off20 L 112#32) S8x4096.size (k0_off20_inb L 14)) (fun _ => rfl)).view.loc (thr d L) ↦[((oV : Memref sig .scVector .hbm S4096x8192 .f32).slice (Rect.unit (s := S4096x8192) (k0_off20 L 112#32) S8x4096.size (k0_off20_inb L 14)) (fun _ => rfl)).view.set]{fullShare} fo : sProp (MM F)) = oLoc d ↦[chunkSet L 28]{fullShare} fo) from pts_oEven (F := F) d L 14 fo).symm) $$ Ho28
  ihave Ho29' := (Entails.of_eq (show ((((oV : Memref sig .scVector .hbm S4096x8192 .f32).slice (Rect.unit (s := S4096x8192) (k0_off26 L 112#32) S8x4096.size (k0_off26_inb L 14)) (fun _ => rfl)).view.loc (thr d L) ↦[((oV : Memref sig .scVector .hbm S4096x8192 .f32).slice (Rect.unit (s := S4096x8192) (k0_off26 L 112#32) S8x4096.size (k0_off26_inb L 14)) (fun _ => rfl)).view.set]{fullShare} fo : sProp (MM F)) = oLoc d ↦[chunkSet L 29]{fullShare} fo) from pts_oOdd (F := F) d L 14 fo).symm) $$ Ho29
  ihave Ho30' := (Entails.of_eq (show ((((oV : Memref sig .scVector .hbm S4096x8192 .f32).slice (Rect.unit (s := S4096x8192) (k0_off20 L 120#32) S8x4096.size (k0_off20_inb L 15)) (fun _ => rfl)).view.loc (thr d L) ↦[((oV : Memref sig .scVector .hbm S4096x8192 .f32).slice (Rect.unit (s := S4096x8192) (k0_off20 L 120#32) S8x4096.size (k0_off20_inb L 15)) (fun _ => rfl)).view.set]{fullShare} fo : sProp (MM F)) = oLoc d ↦[chunkSet L 30]{fullShare} fo) from pts_oEven (F := F) d L 15 fo).symm) $$ Ho30
  ihave Ho31' := (Entails.of_eq (show ((((oV : Memref sig .scVector .hbm S4096x8192 .f32).slice (Rect.unit (s := S4096x8192) (k0_off26 L 120#32) S8x4096.size (k0_off26_inb L 15)) (fun _ => rfl)).view.loc (thr d L) ↦[((oV : Memref sig .scVector .hbm S4096x8192 .f32).slice (Rect.unit (s := S4096x8192) (k0_off26 L 120#32) S8x4096.size (k0_off26_inb L 15)) (fun _ => rfl)).view.set]{fullShare} fo : sProp (MM F)) = oLoc d ↦[chunkSet L 31]{fullShare} fo) from pts_oOdd (F := F) d L 15 fo).symm) $$ Ho31
  -- chunk 0: the transfers around it, then its loop on slots 0 (in) and 2 (out)
  sl_exec
  have hA0 : ∀ l : Fin 16, ((tile_body.sl.v7 : IVec S16 32) (Shape.ofLane l)).toNat = 0 + 2 * l.val := by decide +kernel
  have hA1 : ∀ l : Fin 16, ((addi tile_body.sl.v7 tile_body.sl.v40 : IVec S16 32) (Shape.ofLane l)).toNat = 1 + 2 * l.val := by decide +kernel
  have hA2 : ∀ l : Fin 16, ((tile_body.sl.v11 : IVec S16 32) (Shape.ofLane l)).toNat = 32 + 2 * l.val := by decide +kernel
  have hA3 : ∀ l : Fin 16, ((addi tile_body.sl.v11 tile_body.sl.v40 : IVec S16 32) (Shape.ofLane l)).toNat = 33 + 2 * l.val := by decide +kernel
  have hA4 : ∀ l : Fin 16, ((tile_body.sl.v15 : IVec S16 32) (Shape.ofLane l)).toNat = 64 + 2 * l.val := by decide +kernel
  have hA5 : ∀ l : Fin 16, ((addi tile_body.sl.v15 tile_body.sl.v40 : IVec S16 32) (Shape.ofLane l)).toNat = 65 + 2 * l.val := by decide +kernel
  have hA6 : ∀ l : Fin 16, ((tile_body.sl.v19 : IVec S16 32) (Shape.ofLane l)).toNat = 96 + 2 * l.val := by decide +kernel
  have hA7 : ∀ l : Fin 16, ((addi tile_body.sl.v19 tile_body.sl.v40 : IVec S16 32) (Shape.ofLane l)).toNat = 97 + 2 * l.val := by decide +kernel
  have hB11 : ∀ l : Fin 16, ((k0_pay16 tile_body.sl.v11 : IVec S16 32) (Shape.ofLane l)).toNat = 33 + 2 * l.val := by decide +kernel
  have hB13 : ∀ l : Fin 16, ((k0_pay17 tile_body.sl.v3 : IVec S16 32) (Shape.ofLane l)).toNat = 65 + 2 * l.val := by decide +kernel
  have hB15 : ∀ l : Fin 16, ((k0_pay18 tile_body.sl.v3 : IVec S16 32) (Shape.ofLane l)).toNat = 97 + 2 * l.val := by decide +kernel
  sl_for (inv0 (F := F) d L X 0 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off4 k) S1x128.size (k0_off4_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off5 k) S1x128.size (k0_off5_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off6 k) S1x128.size (k0_off6_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off7 k) S1x128.size (k0_off7_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off8 k) S1x128.size (k0_off8_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off9 k) S1x128.size (k0_off9_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off10 k) S1x128.size (k0_off10_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off11 k) S1x128.size (k0_off11_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off12 k) S1x128.size (k0_off12_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off13 k) S1x128.size (k0_off13_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off14 k) S1x128.size (k0_off14_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off15 k) S1x128.size (k0_off15_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off16 k) S1x128.size (k0_off16_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off17 k) S1x128.size (k0_off17_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off18 k) S1x128.size (k0_off18_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off19 k) S1x128.size (k0_off19_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_1') fI fO _ _ (off_eq_3 k) _ _ _ _ _ _ _ _ _ _ (off_eq_4 k) _ _ (off_eq_5 k) _ _ (off_eq_6 k) _ _ (off_eq_7 k) _ _ (off_eq_8 k) _ _ (off_eq_9 k) _ _ (off_eq_10 k) _ _ (off_eq_11 k) _ _ (off_eq_12 k) _ _ (off_eq_13 k) _ _ (off_eq_14 k) _ _ (off_eq_15 k) _ _ (off_eq_16 k) _ _ (off_eq_17 k) _ _ (off_eq_18 k) _ _ (off_eq_19 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 0 (by decide) _ _ _ (show _ = ![128 * wid L + 8 * (0 / 2), 2048 * (0 % 2)] from xoff1 L), Cert.TripSpec.done_zero _ _⟩
  iintro %acc1 HI1
  unfold inv0
  icases HI1 with ⟨%fI0, %fO0, Hs0', Hs2', %hP0⟩
  -- chunk 1: the transfers around it, then its loop on slots 1 (in) and 3 (out)
  sl_exec
  sl_for (inv1 (F := F) d L X 1 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off24 k) S1x128.size (k0_off24_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off25 k) S1x128.size (k0_off25_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_2') fI fO _ _ (off_eq_23 k) _ _ _ _ _ _ _ _ _ _ (off_eq_24 k) _ _ (off_eq_24 k) _ _ (off_eq_24 k) _ _ (off_eq_24 k) _ _ (off_eq_24 k) _ _ (off_eq_24 k) _ _ (off_eq_24 k) _ _ (off_eq_24 k) _ _ (off_eq_25 k) _ _ (off_eq_25 k) _ _ (off_eq_25 k) _ _ (off_eq_25 k) _ _ (off_eq_25 k) _ _ (off_eq_25 k) _ _ (off_eq_25 k) _ _ (off_eq_25 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 1 (by decide) _ _ _ (show _ = ![128 * wid L + 8 * (1 / 2), 2048 * (1 % 2)] from xoff2 L), Cert.TripSpec.done_zero _ _⟩
  iintro %acc2 HI2
  unfold inv1
  icases HI2 with ⟨%fI1, %fO1, Hs1', Hs3', %hP1⟩
  -- chunk 2: the transfers around it, then its loop on slots 0 (in) and 2 (out)
  sl_exec
  sl_for (inv0 (F := F) d L X 2 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off28 k) S1x128.size (k0_off28_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off29 k) S1x128.size (k0_off29_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_3') fI fO _ _ (off_eq_27 k) _ _ _ _ _ _ _ _ _ _ (off_eq_28 k) _ _ (off_eq_28 k) _ _ (off_eq_28 k) _ _ (off_eq_28 k) _ _ (off_eq_28 k) _ _ (off_eq_28 k) _ _ (off_eq_28 k) _ _ (off_eq_28 k) _ _ (off_eq_29 k) _ _ (off_eq_29 k) _ _ (off_eq_29 k) _ _ (off_eq_29 k) _ _ (off_eq_29 k) _ _ (off_eq_29 k) _ _ (off_eq_29 k) _ _ (off_eq_29 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 2 (by decide) _ _ _ (show _ = ![128 * wid L + 8 * (2 / 2), 2048 * (2 % 2)] from xoff21 L 0), Cert.TripSpec.done_zero _ _⟩
  iintro %acc3 HI3
  unfold inv0
  icases HI3 with ⟨%fI2, %fO2, Hs0', Hs2', %hP2⟩
  -- chunk 3: the transfers around it, then its loop on slots 1 (in) and 3 (out)
  sl_exec
  sl_for (inv1 (F := F) d L X 3 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off31 k) S1x128.size (k0_off31_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off32 k) S1x128.size (k0_off32_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_4') fI fO _ _ (off_eq_30 k) _ _ _ _ _ _ _ _ _ _ (off_eq_31 k) _ _ (off_eq_31 k) _ _ (off_eq_31 k) _ _ (off_eq_31 k) _ _ (off_eq_31 k) _ _ (off_eq_31 k) _ _ (off_eq_31 k) _ _ (off_eq_31 k) _ _ (off_eq_32 k) _ _ (off_eq_32 k) _ _ (off_eq_32 k) _ _ (off_eq_32 k) _ _ (off_eq_32 k) _ _ (off_eq_32 k) _ _ (off_eq_32 k) _ _ (off_eq_32 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 3 (by decide) _ _ _ (show _ = ![128 * wid L + 8 * (3 / 2), 2048 * (3 % 2)] from xoff22 L 1), Cert.TripSpec.done_zero _ _⟩
  iintro %acc4 HI4
  unfold inv1
  icases HI4 with ⟨%fI3, %fO3, Hs1', Hs3', %hP3⟩
  -- chunk 4: the transfers around it, then its loop on slots 0 (in) and 2 (out)
  sl_exec
  sl_for (inv0 (F := F) d L X 4 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off34 k) S1x128.size (k0_off34_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off35 k) S1x128.size (k0_off35_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_5') fI fO _ _ (off_eq_33 k) _ _ _ _ _ _ _ _ _ _ (off_eq_34 k) _ _ (off_eq_34 k) _ _ (off_eq_34 k) _ _ (off_eq_34 k) _ _ (off_eq_34 k) _ _ (off_eq_34 k) _ _ (off_eq_34 k) _ _ (off_eq_34 k) _ _ (off_eq_35 k) _ _ (off_eq_35 k) _ _ (off_eq_35 k) _ _ (off_eq_35 k) _ _ (off_eq_35 k) _ _ (off_eq_35 k) _ _ (off_eq_35 k) _ _ (off_eq_35 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 4 (by decide) _ _ _ (show _ = ![128 * wid L + 8 * (4 / 2), 2048 * (4 % 2)] from xoff21 L 1), Cert.TripSpec.done_zero _ _⟩
  iintro %acc5 HI5
  unfold inv0
  icases HI5 with ⟨%fI4, %fO4, Hs0', Hs2', %hP4⟩
  -- chunk 5: the transfers around it, then its loop on slots 1 (in) and 3 (out)
  sl_exec
  sl_for (inv1 (F := F) d L X 5 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off37 k) S1x128.size (k0_off37_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off38 k) S1x128.size (k0_off38_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_6') fI fO _ _ (off_eq_36 k) _ _ _ _ _ _ _ _ _ _ (off_eq_37 k) _ _ (off_eq_37 k) _ _ (off_eq_37 k) _ _ (off_eq_37 k) _ _ (off_eq_37 k) _ _ (off_eq_37 k) _ _ (off_eq_37 k) _ _ (off_eq_37 k) _ _ (off_eq_38 k) _ _ (off_eq_38 k) _ _ (off_eq_38 k) _ _ (off_eq_38 k) _ _ (off_eq_38 k) _ _ (off_eq_38 k) _ _ (off_eq_38 k) _ _ (off_eq_38 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 5 (by decide) _ _ _ (show _ = ![128 * wid L + 8 * (5 / 2), 2048 * (5 % 2)] from xoff22 L 2), Cert.TripSpec.done_zero _ _⟩
  iintro %acc6 HI6
  unfold inv1
  icases HI6 with ⟨%fI5, %fO5, Hs1', Hs3', %hP5⟩
  -- chunk 6: the transfers around it, then its loop on slots 0 (in) and 2 (out)
  sl_exec
  sl_for (inv0 (F := F) d L X 6 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off40 k) S1x128.size (k0_off40_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off41 k) S1x128.size (k0_off41_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_7') fI fO _ _ (off_eq_39 k) _ _ _ _ _ _ _ _ _ _ (off_eq_40 k) _ _ (off_eq_40 k) _ _ (off_eq_40 k) _ _ (off_eq_40 k) _ _ (off_eq_40 k) _ _ (off_eq_40 k) _ _ (off_eq_40 k) _ _ (off_eq_40 k) _ _ (off_eq_41 k) _ _ (off_eq_41 k) _ _ (off_eq_41 k) _ _ (off_eq_41 k) _ _ (off_eq_41 k) _ _ (off_eq_41 k) _ _ (off_eq_41 k) _ _ (off_eq_41 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 6 (by decide) _ _ _ (show _ = ![128 * wid L + 8 * (6 / 2), 2048 * (6 % 2)] from xoff21 L 2), Cert.TripSpec.done_zero _ _⟩
  iintro %acc7 HI7
  unfold inv0
  icases HI7 with ⟨%fI6, %fO6, Hs0', Hs2', %hP6⟩
  -- chunk 7: the transfers around it, then its loop on slots 1 (in) and 3 (out)
  sl_exec
  sl_for (inv1 (F := F) d L X 7 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off43 k) S1x128.size (k0_off43_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off44 k) S1x128.size (k0_off44_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_8') fI fO _ _ (off_eq_42 k) _ _ _ _ _ _ _ _ _ _ (off_eq_43 k) _ _ (off_eq_43 k) _ _ (off_eq_43 k) _ _ (off_eq_43 k) _ _ (off_eq_43 k) _ _ (off_eq_43 k) _ _ (off_eq_43 k) _ _ (off_eq_43 k) _ _ (off_eq_44 k) _ _ (off_eq_44 k) _ _ (off_eq_44 k) _ _ (off_eq_44 k) _ _ (off_eq_44 k) _ _ (off_eq_44 k) _ _ (off_eq_44 k) _ _ (off_eq_44 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 7 (by decide) _ _ _ (show _ = ![128 * wid L + 8 * (7 / 2), 2048 * (7 % 2)] from xoff22 L 3), Cert.TripSpec.done_zero _ _⟩
  iintro %acc8 HI8
  unfold inv1
  icases HI8 with ⟨%fI7, %fO7, Hs1', Hs3', %hP7⟩
  -- chunk 8: the transfers around it, then its loop on slots 0 (in) and 2 (out)
  sl_exec
  sl_for (inv0 (F := F) d L X 8 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off46 k) S1x128.size (k0_off46_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off47 k) S1x128.size (k0_off47_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_9') fI fO _ _ (off_eq_45 k) _ _ _ _ _ _ _ _ _ _ (off_eq_46 k) _ _ (off_eq_46 k) _ _ (off_eq_46 k) _ _ (off_eq_46 k) _ _ (off_eq_46 k) _ _ (off_eq_46 k) _ _ (off_eq_46 k) _ _ (off_eq_46 k) _ _ (off_eq_47 k) _ _ (off_eq_47 k) _ _ (off_eq_47 k) _ _ (off_eq_47 k) _ _ (off_eq_47 k) _ _ (off_eq_47 k) _ _ (off_eq_47 k) _ _ (off_eq_47 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 8 (by decide) _ _ _ (show _ = ![128 * wid L + 8 * (8 / 2), 2048 * (8 % 2)] from xoff21 L 3), Cert.TripSpec.done_zero _ _⟩
  iintro %acc9 HI9
  unfold inv0
  icases HI9 with ⟨%fI8, %fO8, Hs0', Hs2', %hP8⟩
  -- chunk 9: the transfers around it, then its loop on slots 1 (in) and 3 (out)
  sl_exec
  sl_for (inv1 (F := F) d L X 9 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off49 k) S1x128.size (k0_off49_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off50 k) S1x128.size (k0_off50_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_10') fI fO _ _ (off_eq_48 k) _ _ _ _ _ _ _ _ _ _ (off_eq_49 k) _ _ (off_eq_49 k) _ _ (off_eq_49 k) _ _ (off_eq_49 k) _ _ (off_eq_49 k) _ _ (off_eq_49 k) _ _ (off_eq_49 k) _ _ (off_eq_49 k) _ _ (off_eq_50 k) _ _ (off_eq_50 k) _ _ (off_eq_50 k) _ _ (off_eq_50 k) _ _ (off_eq_50 k) _ _ (off_eq_50 k) _ _ (off_eq_50 k) _ _ (off_eq_50 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 9 (by decide) _ _ _ (show _ = ![128 * wid L + 8 * (9 / 2), 2048 * (9 % 2)] from xoff22 L 4), Cert.TripSpec.done_zero _ _⟩
  iintro %acc10 HI10
  unfold inv1
  icases HI10 with ⟨%fI9, %fO9, Hs1', Hs3', %hP9⟩
  -- chunk 10: the transfers around it, then its loop on slots 0 (in) and 2 (out)
  sl_exec
  sl_for (inv0 (F := F) d L X 10 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off52 k) S1x128.size (k0_off52_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off53 k) S1x128.size (k0_off53_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_11') fI fO _ _ (off_eq_51 k) _ _ _ _ _ _ _ _ _ _ (off_eq_52 k) _ _ (off_eq_52 k) _ _ (off_eq_52 k) _ _ (off_eq_52 k) _ _ (off_eq_52 k) _ _ (off_eq_52 k) _ _ (off_eq_52 k) _ _ (off_eq_52 k) _ _ (off_eq_53 k) _ _ (off_eq_53 k) _ _ (off_eq_53 k) _ _ (off_eq_53 k) _ _ (off_eq_53 k) _ _ (off_eq_53 k) _ _ (off_eq_53 k) _ _ (off_eq_53 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 10 (by decide) _ _ _ (show _ = ![128 * wid L + 8 * (10 / 2), 2048 * (10 % 2)] from xoff21 L 4), Cert.TripSpec.done_zero _ _⟩
  iintro %acc11 HI11
  unfold inv0
  icases HI11 with ⟨%fI10, %fO10, Hs0', Hs2', %hP10⟩
  -- chunk 11: the transfers around it, then its loop on slots 1 (in) and 3 (out)
  sl_exec
  sl_for (inv1 (F := F) d L X 11 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off55 k) S1x128.size (k0_off55_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off56 k) S1x128.size (k0_off56_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_12') fI fO _ _ (off_eq_54 k) _ _ _ _ _ _ _ _ _ _ (off_eq_55 k) _ _ (off_eq_55 k) _ _ (off_eq_55 k) _ _ (off_eq_55 k) _ _ (off_eq_55 k) _ _ (off_eq_55 k) _ _ (off_eq_55 k) _ _ (off_eq_55 k) _ _ (off_eq_56 k) _ _ (off_eq_56 k) _ _ (off_eq_56 k) _ _ (off_eq_56 k) _ _ (off_eq_56 k) _ _ (off_eq_56 k) _ _ (off_eq_56 k) _ _ (off_eq_56 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 11 (by decide) _ _ _ (show _ = ![128 * wid L + 8 * (11 / 2), 2048 * (11 % 2)] from xoff22 L 5), Cert.TripSpec.done_zero _ _⟩
  iintro %acc12 HI12
  unfold inv1
  icases HI12 with ⟨%fI11, %fO11, Hs1', Hs3', %hP11⟩
  -- chunk 12: the transfers around it, then its loop on slots 0 (in) and 2 (out)
  sl_exec
  sl_for (inv0 (F := F) d L X 12 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off58 k) S1x128.size (k0_off58_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off59 k) S1x128.size (k0_off59_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_13') fI fO _ _ (off_eq_57 k) _ _ _ _ _ _ _ _ _ _ (off_eq_58 k) _ _ (off_eq_58 k) _ _ (off_eq_58 k) _ _ (off_eq_58 k) _ _ (off_eq_58 k) _ _ (off_eq_58 k) _ _ (off_eq_58 k) _ _ (off_eq_58 k) _ _ (off_eq_59 k) _ _ (off_eq_59 k) _ _ (off_eq_59 k) _ _ (off_eq_59 k) _ _ (off_eq_59 k) _ _ (off_eq_59 k) _ _ (off_eq_59 k) _ _ (off_eq_59 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 12 (by decide) _ _ _ (show _ = ![128 * wid L + 8 * (12 / 2), 2048 * (12 % 2)] from xoff21 L 5), Cert.TripSpec.done_zero _ _⟩
  iintro %acc13 HI13
  unfold inv0
  icases HI13 with ⟨%fI12, %fO12, Hs0', Hs2', %hP12⟩
  -- chunk 13: the transfers around it, then its loop on slots 1 (in) and 3 (out)
  sl_exec
  sl_for (inv1 (F := F) d L X 13 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off61 k) S1x128.size (k0_off61_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off62 k) S1x128.size (k0_off62_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_14') fI fO _ _ (off_eq_60 k) _ _ _ _ _ _ _ _ _ _ (off_eq_61 k) _ _ (off_eq_61 k) _ _ (off_eq_61 k) _ _ (off_eq_61 k) _ _ (off_eq_61 k) _ _ (off_eq_61 k) _ _ (off_eq_61 k) _ _ (off_eq_61 k) _ _ (off_eq_62 k) _ _ (off_eq_62 k) _ _ (off_eq_62 k) _ _ (off_eq_62 k) _ _ (off_eq_62 k) _ _ (off_eq_62 k) _ _ (off_eq_62 k) _ _ (off_eq_62 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 13 (by decide) _ _ _ (show _ = ![128 * wid L + 8 * (13 / 2), 2048 * (13 % 2)] from xoff22 L 6), Cert.TripSpec.done_zero _ _⟩
  iintro %acc14 HI14
  unfold inv1
  icases HI14 with ⟨%fI13, %fO13, Hs1', Hs3', %hP13⟩
  -- chunk 14: the transfers around it, then its loop on slots 0 (in) and 2 (out)
  sl_exec
  sl_for (inv0 (F := F) d L X 14 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off64 k) S1x128.size (k0_off64_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off65 k) S1x128.size (k0_off65_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_15') fI fO _ _ (off_eq_63 k) _ _ _ _ _ _ _ _ _ _ (off_eq_64 k) _ _ (off_eq_64 k) _ _ (off_eq_64 k) _ _ (off_eq_64 k) _ _ (off_eq_64 k) _ _ (off_eq_64 k) _ _ (off_eq_64 k) _ _ (off_eq_64 k) _ _ (off_eq_65 k) _ _ (off_eq_65 k) _ _ (off_eq_65 k) _ _ (off_eq_65 k) _ _ (off_eq_65 k) _ _ (off_eq_65 k) _ _ (off_eq_65 k) _ _ (off_eq_65 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 14 (by decide) _ _ _ (show _ = ![128 * wid L + 8 * (14 / 2), 2048 * (14 % 2)] from xoff21 L 6), Cert.TripSpec.done_zero _ _⟩
  iintro %acc15 HI15
  unfold inv0
  icases HI15 with ⟨%fI14, %fO14, Hs0', Hs2', %hP14⟩
  -- chunk 15: the transfers around it, then its loop on slots 1 (in) and 3 (out)
  sl_exec
  sl_for (inv1 (F := F) d L X 15 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off67 k) S1x128.size (k0_off67_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off68 k) S1x128.size (k0_off68_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_16') fI fO _ _ (off_eq_66 k) _ _ _ _ _ _ _ _ _ _ (off_eq_67 k) _ _ (off_eq_67 k) _ _ (off_eq_67 k) _ _ (off_eq_67 k) _ _ (off_eq_67 k) _ _ (off_eq_67 k) _ _ (off_eq_67 k) _ _ (off_eq_67 k) _ _ (off_eq_68 k) _ _ (off_eq_68 k) _ _ (off_eq_68 k) _ _ (off_eq_68 k) _ _ (off_eq_68 k) _ _ (off_eq_68 k) _ _ (off_eq_68 k) _ _ (off_eq_68 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 15 (by decide) _ _ _ (show _ = ![128 * wid L + 8 * (15 / 2), 2048 * (15 % 2)] from xoff22 L 7), Cert.TripSpec.done_zero _ _⟩
  iintro %acc16 HI16
  unfold inv1
  icases HI16 with ⟨%fI15, %fO15, Hs1', Hs3', %hP15⟩
  -- chunk 16: the transfers around it, then its loop on slots 0 (in) and 2 (out)
  sl_exec
  sl_for (inv0 (F := F) d L X 16 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off70 k) S1x128.size (k0_off70_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off71 k) S1x128.size (k0_off71_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_17') fI fO _ _ (off_eq_69 k) _ _ _ _ _ _ _ _ _ _ (off_eq_70 k) _ _ (off_eq_70 k) _ _ (off_eq_70 k) _ _ (off_eq_70 k) _ _ (off_eq_70 k) _ _ (off_eq_70 k) _ _ (off_eq_70 k) _ _ (off_eq_70 k) _ _ (off_eq_71 k) _ _ (off_eq_71 k) _ _ (off_eq_71 k) _ _ (off_eq_71 k) _ _ (off_eq_71 k) _ _ (off_eq_71 k) _ _ (off_eq_71 k) _ _ (off_eq_71 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 16 (by decide) _ _ _ (show _ = ![128 * wid L + 8 * (16 / 2), 2048 * (16 % 2)] from xoff21 L 7), Cert.TripSpec.done_zero _ _⟩
  iintro %acc17 HI17
  unfold inv0
  icases HI17 with ⟨%fI16, %fO16, Hs0', Hs2', %hP16⟩
  -- chunk 17: the transfers around it, then its loop on slots 1 (in) and 3 (out)
  sl_exec
  sl_for (inv1 (F := F) d L X 17 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off73 k) S1x128.size (k0_off73_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off74 k) S1x128.size (k0_off74_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_18') fI fO _ _ (off_eq_72 k) _ _ _ _ _ _ _ _ _ _ (off_eq_73 k) _ _ (off_eq_73 k) _ _ (off_eq_73 k) _ _ (off_eq_73 k) _ _ (off_eq_73 k) _ _ (off_eq_73 k) _ _ (off_eq_73 k) _ _ (off_eq_73 k) _ _ (off_eq_74 k) _ _ (off_eq_74 k) _ _ (off_eq_74 k) _ _ (off_eq_74 k) _ _ (off_eq_74 k) _ _ (off_eq_74 k) _ _ (off_eq_74 k) _ _ (off_eq_74 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 17 (by decide) _ _ _ (show _ = ![128 * wid L + 8 * (17 / 2), 2048 * (17 % 2)] from xoff22 L 8), Cert.TripSpec.done_zero _ _⟩
  iintro %acc18 HI18
  unfold inv1
  icases HI18 with ⟨%fI17, %fO17, Hs1', Hs3', %hP17⟩
  -- chunk 18: the transfers around it, then its loop on slots 0 (in) and 2 (out)
  sl_exec
  sl_for (inv0 (F := F) d L X 18 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off76 k) S1x128.size (k0_off76_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off77 k) S1x128.size (k0_off77_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_19') fI fO _ _ (off_eq_75 k) _ _ _ _ _ _ _ _ _ _ (off_eq_76 k) _ _ (off_eq_76 k) _ _ (off_eq_76 k) _ _ (off_eq_76 k) _ _ (off_eq_76 k) _ _ (off_eq_76 k) _ _ (off_eq_76 k) _ _ (off_eq_76 k) _ _ (off_eq_77 k) _ _ (off_eq_77 k) _ _ (off_eq_77 k) _ _ (off_eq_77 k) _ _ (off_eq_77 k) _ _ (off_eq_77 k) _ _ (off_eq_77 k) _ _ (off_eq_77 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 18 (by decide) _ _ _ (show _ = ![128 * wid L + 8 * (18 / 2), 2048 * (18 % 2)] from xoff21 L 8), Cert.TripSpec.done_zero _ _⟩
  iintro %acc19 HI19
  unfold inv0
  icases HI19 with ⟨%fI18, %fO18, Hs0', Hs2', %hP18⟩
  -- chunk 19: the transfers around it, then its loop on slots 1 (in) and 3 (out)
  sl_exec
  sl_for (inv1 (F := F) d L X 19 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off79 k) S1x128.size (k0_off79_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off80 k) S1x128.size (k0_off80_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_20') fI fO _ _ (off_eq_78 k) _ _ _ _ _ _ _ _ _ _ (off_eq_79 k) _ _ (off_eq_79 k) _ _ (off_eq_79 k) _ _ (off_eq_79 k) _ _ (off_eq_79 k) _ _ (off_eq_79 k) _ _ (off_eq_79 k) _ _ (off_eq_79 k) _ _ (off_eq_80 k) _ _ (off_eq_80 k) _ _ (off_eq_80 k) _ _ (off_eq_80 k) _ _ (off_eq_80 k) _ _ (off_eq_80 k) _ _ (off_eq_80 k) _ _ (off_eq_80 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 19 (by decide) _ _ _ (show _ = ![128 * wid L + 8 * (19 / 2), 2048 * (19 % 2)] from xoff22 L 9), Cert.TripSpec.done_zero _ _⟩
  iintro %acc20 HI20
  unfold inv1
  icases HI20 with ⟨%fI19, %fO19, Hs1', Hs3', %hP19⟩
  -- chunk 20: the transfers around it, then its loop on slots 0 (in) and 2 (out)
  sl_exec
  sl_for (inv0 (F := F) d L X 20 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off82 k) S1x128.size (k0_off82_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off83 k) S1x128.size (k0_off83_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_21') fI fO _ _ (off_eq_81 k) _ _ _ _ _ _ _ _ _ _ (off_eq_82 k) _ _ (off_eq_82 k) _ _ (off_eq_82 k) _ _ (off_eq_82 k) _ _ (off_eq_82 k) _ _ (off_eq_82 k) _ _ (off_eq_82 k) _ _ (off_eq_82 k) _ _ (off_eq_83 k) _ _ (off_eq_83 k) _ _ (off_eq_83 k) _ _ (off_eq_83 k) _ _ (off_eq_83 k) _ _ (off_eq_83 k) _ _ (off_eq_83 k) _ _ (off_eq_83 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 20 (by decide) _ _ _ (show _ = ![128 * wid L + 8 * (20 / 2), 2048 * (20 % 2)] from xoff21 L 9), Cert.TripSpec.done_zero _ _⟩
  iintro %acc21 HI21
  unfold inv0
  icases HI21 with ⟨%fI20, %fO20, Hs0', Hs2', %hP20⟩
  -- chunk 21: the transfers around it, then its loop on slots 1 (in) and 3 (out)
  sl_exec
  sl_for (inv1 (F := F) d L X 21 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off85 k) S1x128.size (k0_off85_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off86 k) S1x128.size (k0_off86_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_22') fI fO _ _ (off_eq_84 k) _ _ _ _ _ _ _ _ _ _ (off_eq_85 k) _ _ (off_eq_85 k) _ _ (off_eq_85 k) _ _ (off_eq_85 k) _ _ (off_eq_85 k) _ _ (off_eq_85 k) _ _ (off_eq_85 k) _ _ (off_eq_85 k) _ _ (off_eq_86 k) _ _ (off_eq_86 k) _ _ (off_eq_86 k) _ _ (off_eq_86 k) _ _ (off_eq_86 k) _ _ (off_eq_86 k) _ _ (off_eq_86 k) _ _ (off_eq_86 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 21 (by decide) _ _ _ (show _ = ![128 * wid L + 8 * (21 / 2), 2048 * (21 % 2)] from xoff22 L 10), Cert.TripSpec.done_zero _ _⟩
  iintro %acc22 HI22
  unfold inv1
  icases HI22 with ⟨%fI21, %fO21, Hs1', Hs3', %hP21⟩
  -- chunk 22: the transfers around it, then its loop on slots 0 (in) and 2 (out)
  sl_exec
  sl_for (inv0 (F := F) d L X 22 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off88 k) S1x128.size (k0_off88_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off89 k) S1x128.size (k0_off89_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_23') fI fO _ _ (off_eq_87 k) _ _ _ _ _ _ _ _ _ _ (off_eq_88 k) _ _ (off_eq_88 k) _ _ (off_eq_88 k) _ _ (off_eq_88 k) _ _ (off_eq_88 k) _ _ (off_eq_88 k) _ _ (off_eq_88 k) _ _ (off_eq_88 k) _ _ (off_eq_89 k) _ _ (off_eq_89 k) _ _ (off_eq_89 k) _ _ (off_eq_89 k) _ _ (off_eq_89 k) _ _ (off_eq_89 k) _ _ (off_eq_89 k) _ _ (off_eq_89 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 22 (by decide) _ _ _ (show _ = ![128 * wid L + 8 * (22 / 2), 2048 * (22 % 2)] from xoff21 L 10), Cert.TripSpec.done_zero _ _⟩
  iintro %acc23 HI23
  unfold inv0
  icases HI23 with ⟨%fI22, %fO22, Hs0', Hs2', %hP22⟩
  -- chunk 23: the transfers around it, then its loop on slots 1 (in) and 3 (out)
  sl_exec
  sl_for (inv1 (F := F) d L X 23 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off91 k) S1x128.size (k0_off91_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off92 k) S1x128.size (k0_off92_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_24') fI fO _ _ (off_eq_90 k) _ _ _ _ _ _ _ _ _ _ (off_eq_91 k) _ _ (off_eq_91 k) _ _ (off_eq_91 k) _ _ (off_eq_91 k) _ _ (off_eq_91 k) _ _ (off_eq_91 k) _ _ (off_eq_91 k) _ _ (off_eq_91 k) _ _ (off_eq_92 k) _ _ (off_eq_92 k) _ _ (off_eq_92 k) _ _ (off_eq_92 k) _ _ (off_eq_92 k) _ _ (off_eq_92 k) _ _ (off_eq_92 k) _ _ (off_eq_92 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 23 (by decide) _ _ _ (show _ = ![128 * wid L + 8 * (23 / 2), 2048 * (23 % 2)] from xoff22 L 11), Cert.TripSpec.done_zero _ _⟩
  iintro %acc24 HI24
  unfold inv1
  icases HI24 with ⟨%fI23, %fO23, Hs1', Hs3', %hP23⟩
  -- chunk 24: the transfers around it, then its loop on slots 0 (in) and 2 (out)
  sl_exec
  sl_for (inv0 (F := F) d L X 24 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off94 k) S1x128.size (k0_off94_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off95 k) S1x128.size (k0_off95_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_25') fI fO _ _ (off_eq_93 k) _ _ _ _ _ _ _ _ _ _ (off_eq_94 k) _ _ (off_eq_94 k) _ _ (off_eq_94 k) _ _ (off_eq_94 k) _ _ (off_eq_94 k) _ _ (off_eq_94 k) _ _ (off_eq_94 k) _ _ (off_eq_94 k) _ _ (off_eq_95 k) _ _ (off_eq_95 k) _ _ (off_eq_95 k) _ _ (off_eq_95 k) _ _ (off_eq_95 k) _ _ (off_eq_95 k) _ _ (off_eq_95 k) _ _ (off_eq_95 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 24 (by decide) _ _ _ (show _ = ![128 * wid L + 8 * (24 / 2), 2048 * (24 % 2)] from xoff21 L 11), Cert.TripSpec.done_zero _ _⟩
  iintro %acc25 HI25
  unfold inv0
  icases HI25 with ⟨%fI24, %fO24, Hs0', Hs2', %hP24⟩
  -- chunk 25: the transfers around it, then its loop on slots 1 (in) and 3 (out)
  sl_exec
  sl_for (inv1 (F := F) d L X 25 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off97 k) S1x128.size (k0_off97_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off98 k) S1x128.size (k0_off98_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_26') fI fO _ _ (off_eq_96 k) _ _ _ _ _ _ _ _ _ _ (off_eq_97 k) _ _ (off_eq_97 k) _ _ (off_eq_97 k) _ _ (off_eq_97 k) _ _ (off_eq_97 k) _ _ (off_eq_97 k) _ _ (off_eq_97 k) _ _ (off_eq_97 k) _ _ (off_eq_98 k) _ _ (off_eq_98 k) _ _ (off_eq_98 k) _ _ (off_eq_98 k) _ _ (off_eq_98 k) _ _ (off_eq_98 k) _ _ (off_eq_98 k) _ _ (off_eq_98 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 25 (by decide) _ _ _ (show _ = ![128 * wid L + 8 * (25 / 2), 2048 * (25 % 2)] from xoff22 L 12), Cert.TripSpec.done_zero _ _⟩
  iintro %acc26 HI26
  unfold inv1
  icases HI26 with ⟨%fI25, %fO25, Hs1', Hs3', %hP25⟩
  -- chunk 26: the transfers around it, then its loop on slots 0 (in) and 2 (out)
  sl_exec
  sl_for (inv0 (F := F) d L X 26 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off100 k) S1x128.size (k0_off100_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off101 k) S1x128.size (k0_off101_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_27') fI fO _ _ (off_eq_99 k) _ _ _ _ _ _ _ _ _ _ (off_eq_100 k) _ _ (off_eq_100 k) _ _ (off_eq_100 k) _ _ (off_eq_100 k) _ _ (off_eq_100 k) _ _ (off_eq_100 k) _ _ (off_eq_100 k) _ _ (off_eq_100 k) _ _ (off_eq_101 k) _ _ (off_eq_101 k) _ _ (off_eq_101 k) _ _ (off_eq_101 k) _ _ (off_eq_101 k) _ _ (off_eq_101 k) _ _ (off_eq_101 k) _ _ (off_eq_101 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 26 (by decide) _ _ _ (show _ = ![128 * wid L + 8 * (26 / 2), 2048 * (26 % 2)] from xoff21 L 12), Cert.TripSpec.done_zero _ _⟩
  iintro %acc27 HI27
  unfold inv0
  icases HI27 with ⟨%fI26, %fO26, Hs0', Hs2', %hP26⟩
  -- chunk 27: the transfers around it, then its loop on slots 1 (in) and 3 (out)
  sl_exec
  sl_for (inv1 (F := F) d L X 27 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off103 k) S1x128.size (k0_off103_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off104 k) S1x128.size (k0_off104_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_28') fI fO _ _ (off_eq_102 k) _ _ _ _ _ _ _ _ _ _ (off_eq_103 k) _ _ (off_eq_103 k) _ _ (off_eq_103 k) _ _ (off_eq_103 k) _ _ (off_eq_103 k) _ _ (off_eq_103 k) _ _ (off_eq_103 k) _ _ (off_eq_103 k) _ _ (off_eq_104 k) _ _ (off_eq_104 k) _ _ (off_eq_104 k) _ _ (off_eq_104 k) _ _ (off_eq_104 k) _ _ (off_eq_104 k) _ _ (off_eq_104 k) _ _ (off_eq_104 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 27 (by decide) _ _ _ (show _ = ![128 * wid L + 8 * (27 / 2), 2048 * (27 % 2)] from xoff22 L 13), Cert.TripSpec.done_zero _ _⟩
  iintro %acc28 HI28
  unfold inv1
  icases HI28 with ⟨%fI27, %fO27, Hs1', Hs3', %hP27⟩
  -- chunk 28: the transfers around it, then its loop on slots 0 (in) and 2 (out)
  sl_exec
  sl_for (inv0 (F := F) d L X 28 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off106 k) S1x128.size (k0_off106_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off107 k) S1x128.size (k0_off107_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_29') fI fO _ _ (off_eq_105 k) _ _ _ _ _ _ _ _ _ _ (off_eq_106 k) _ _ (off_eq_106 k) _ _ (off_eq_106 k) _ _ (off_eq_106 k) _ _ (off_eq_106 k) _ _ (off_eq_106 k) _ _ (off_eq_106 k) _ _ (off_eq_106 k) _ _ (off_eq_107 k) _ _ (off_eq_107 k) _ _ (off_eq_107 k) _ _ (off_eq_107 k) _ _ (off_eq_107 k) _ _ (off_eq_107 k) _ _ (off_eq_107 k) _ _ (off_eq_107 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 28 (by decide) _ _ _ (show _ = ![128 * wid L + 8 * (28 / 2), 2048 * (28 % 2)] from xoff21 L 13), Cert.TripSpec.done_zero _ _⟩
  iintro %acc29 HI29
  unfold inv0
  icases HI29 with ⟨%fI28, %fO28, Hs0', Hs2', %hP28⟩
  -- chunk 29: the transfers around it, then its loop on slots 1 (in) and 3 (out)
  sl_exec
  sl_for (inv1 (F := F) d L X 29 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off109 k) S1x128.size (k0_off109_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off110 k) S1x128.size (k0_off110_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_30') fI fO _ _ (off_eq_108 k) _ _ _ _ _ _ _ _ _ _ (off_eq_109 k) _ _ (off_eq_109 k) _ _ (off_eq_109 k) _ _ (off_eq_109 k) _ _ (off_eq_109 k) _ _ (off_eq_109 k) _ _ (off_eq_109 k) _ _ (off_eq_109 k) _ _ (off_eq_110 k) _ _ (off_eq_110 k) _ _ (off_eq_110 k) _ _ (off_eq_110 k) _ _ (off_eq_110 k) _ _ (off_eq_110 k) _ _ (off_eq_110 k) _ _ (off_eq_110 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 29 (by decide) _ _ _ (show _ = ![128 * wid L + 8 * (29 / 2), 2048 * (29 % 2)] from xoff22 L 14), Cert.TripSpec.done_zero _ _⟩
  iintro %acc30 HI30
  unfold inv1
  icases HI30 with ⟨%fI29, %fO29, Hs1', Hs3', %hP29⟩
  -- chunk 30: the transfers around it, then its loop on slots 0 (in) and 2 (out)
  sl_exec
  sl_for (inv0 (F := F) d L X 30 (by decide)) $$ [Hs0' Hs2']
  case region =>
    intro k acc
    unfold inv0
    iintro ⟨%fI, %fO, HI, HOut, %hP⟩
    sl_exec
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s2 : Memref sig .scVector .vmem S8x4096 .f32).slice (Rect.unit (s := S8x4096) (k0_off112 k) S1x128.size (k0_off112_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s2 : Memref sig .scVector .vmem S8x4096 .f32).slice (Rect.unit (s := S8x4096) (k0_off113 k) S1x128.size (k0_off113_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done02 (F := F) k.val (lt_of_lt_of_eq k.isLt trips_31') fI fO _ _ (off_eq_111 k) _ _ _ _ _ _ _ _ _ _ (off_eq_112 k) _ _ (off_eq_112 k) _ _ (off_eq_112 k) _ _ (off_eq_112 k) _ _ (off_eq_112 k) _ _ (off_eq_112 k) _ _ (off_eq_112 k) _ _ (off_eq_112 k) _ _ (off_eq_113 k) _ _ (off_eq_113 k) _ _ (off_eq_113 k) _ _ (off_eq_113 k) _ _ (off_eq_113 k) _ _ (off_eq_113 k) _ _ (off_eq_113 k) _ _ (off_eq_113 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv0
    iexists _, _
    isplitl [Hs0']; · iexact Hs0'
    isplitl [Hs2']; · iexact Hs2'
    ipureintro
    exact ⟨inIs_of_dma0 (F := F) d L X 30 (by decide) _ _ _ (show _ = ![128 * wid L + 8 * (30 / 2), 2048 * (30 % 2)] from xoff21 L 14), Cert.TripSpec.done_zero _ _⟩
  iintro %acc31 HI31
  unfold inv0
  icases HI31 with ⟨%fI30, %fO30, Hs0', Hs2', %hP30⟩
  -- chunk 31: the transfers around it, then its loop on slots 1 (in) and 3 (out)
  sl_exec
  sl_for (inv1 (F := F) d L X 31 (by decide)) $$ [Hs1' Hs3']
  case region =>
    intro k acc
    unfold inv1
    iintro ⟨%fI, %fO, HI, HOut, %hP⟩
    sl_exec
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g1 %e1 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g2 %e2 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g3 %e3 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g4 %e4 HOut
    sl_exec
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g5 %e5 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g6 %e6 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g7 %e7 HOut
    iapply (wp_scatterStore (F := F) 𝒱₀ (thr d L) none Set.univ (base := ((s3 : Memref sig .scVector .vmem S8x4096 .f32).slice (Rect.unit (s := S8x4096) (k0_off115 k) S1x128.size (k0_off115_inb k)) (fun _ => rfl)).squeeze S128 squeezes_S1x128_S128) (S := Finset.univ) (Finset.subset_univ _)) $$ HOut; iintro %g8 %e8 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g9 %e9 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g10 %e10 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g11 %e11 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g12 %e12 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g13 %e13 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g14 %e14 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g15 %e15 HOut
    iapply (wp_scatterStore (F := F) 𝒱₀ (thr d L) none Set.univ (base := ((s3 : Memref sig .scVector .vmem S8x4096 .f32).slice (Rect.unit (s := S8x4096) (k0_off116 k) S1x128.size (k0_off116_inb k)) (fun _ => rfl)).squeeze S128 squeezes_S1x128_S128) (S := Finset.univ) (Finset.subset_univ _)) $$ HOut; iintro %g16 %e16 HOut
    sl_step
    iexists fI, g16
    isplitl [HI]; · iexact HI
    isplitl [HOut]; · iexact HOut
    ipureintro
    exact ⟨hP.1, region_done13 (F := F) k.val (lt_of_lt_of_eq k.isLt trips_32') fI fO _ _ (off_eq_114 k) _ _ _ _ _ _ _ _ _ _ (off_eq_115 k) _ _ (off_eq_115 k) _ _ (off_eq_115 k) _ _ (off_eq_115 k) _ _ (off_eq_115 k) _ _ (off_eq_115 k) _ _ (off_eq_115 k) _ _ (off_eq_115 k) _ _ (off_eq_116 k) _ _ (off_eq_116 k) _ _ (off_eq_116 k) _ _ (off_eq_116 k) _ _ (off_eq_116 k) _ _ (off_eq_116 k) _ _ (off_eq_116 k) _ _ (off_eq_116 k) _ _ hA0 _ _ hA1 _ _ hA2 _ _ hA3 _ _ hA4 _ _ hA5 _ _ hA6 _ _ hA7 _ _ hA0 _ _ hA1 _ _ hA2 _ _ hB11 _ _ hA4 _ _ hB13 _ _ hA6 _ _ hB15 g1 g2 g3 g4 g5 g6 g7 g8 g9 g10 g11 g12 g13 g14 g15 g16 hP.2 e1 e2 e3 e4 e5 e6 e7 e8 e9 e10 e11 e12 e13 e14 e15 e16⟩
  · unfold inv1
    iexists _, _
    isplitl [Hs1']; · iexact Hs1'
    isplitl [Hs3']; · iexact Hs3'
    ipureintro
    exact ⟨inIs_of_dma1 (F := F) d L X 31 (by decide) _ _ _ (show _ = ![128 * wid L + 8 * (31 / 2), 2048 * (31 % 2)] from xoff22 L 15), Cert.TripSpec.done_zero _ _⟩
  iintro %acc32 HI32
  unfold inv1
  icases HI32 with ⟨%fI31, %fO31, Hs1', Hs3', %hP31⟩
  -- the last write-out and the last two waits, then the return
  sl_exec
  sl_step
  -- what the tile hands back: its read share of the array read, and every chunk of the result at the repeat
  isplitl [Hx' Ho0' Ho1' Ho2' Ho3' Ho4' Ho5' Ho6' Ho7' Ho8' Ho9' Ho10' Ho11' Ho12' Ho13' Ho14' Ho15' Ho16' Ho17' Ho18' Ho19' Ho20' Ho21' Ho22' Ho23' Ho24' Ho25' Ho26' Ho27' Ho28' Ho29' Ho30' Ho31']
  · isplitl [Hx']
    · iapply (Entails.of_eq (pts_x (F := F) d L q X)); iexact Hx'
    · rw [bigSep_fin32]
      isplitl [Ho0']; · iapply (Entails.of_eq (chunk_lands (F := F) d L X _ _ 0 (by decide) (show _ = chunkOff L ⟨0, by decide⟩ from ooff20 L 0) _ _ fI0 fO0 (fun _ => rfl) hP0.1 (trips_1' ▸ hP0.2))); iexact Ho0'
      isplitl [Ho1']; · iapply (Entails.of_eq (chunk_lands (F := F) d L X _ _ 1 (by decide) (show _ = chunkOff L ⟨1, by decide⟩ from ooff26 L 0) _ _ fI1 fO1 (fun _ => rfl) hP1.1 (trips_2' ▸ hP1.2))); iexact Ho1'
      isplitl [Ho2']; · iapply (Entails.of_eq (chunk_lands (F := F) d L X _ _ 2 (by decide) (show _ = chunkOff L ⟨2, by decide⟩ from ooff20 L 1) _ _ fI2 fO2 (fun _ => rfl) hP2.1 (trips_3' ▸ hP2.2))); iexact Ho2'
      isplitl [Ho3']; · iapply (Entails.of_eq (chunk_lands (F := F) d L X _ _ 3 (by decide) (show _ = chunkOff L ⟨3, by decide⟩ from ooff26 L 1) _ _ fI3 fO3 (fun _ => rfl) hP3.1 (trips_4' ▸ hP3.2))); iexact Ho3'
      isplitl [Ho4']; · iapply (Entails.of_eq (chunk_lands (F := F) d L X _ _ 4 (by decide) (show _ = chunkOff L ⟨4, by decide⟩ from ooff20 L 2) _ _ fI4 fO4 (fun _ => rfl) hP4.1 (trips_5' ▸ hP4.2))); iexact Ho4'
      isplitl [Ho5']; · iapply (Entails.of_eq (chunk_lands (F := F) d L X _ _ 5 (by decide) (show _ = chunkOff L ⟨5, by decide⟩ from ooff26 L 2) _ _ fI5 fO5 (fun _ => rfl) hP5.1 (trips_6' ▸ hP5.2))); iexact Ho5'
      isplitl [Ho6']; · iapply (Entails.of_eq (chunk_lands (F := F) d L X _ _ 6 (by decide) (show _ = chunkOff L ⟨6, by decide⟩ from ooff20 L 3) _ _ fI6 fO6 (fun _ => rfl) hP6.1 (trips_7' ▸ hP6.2))); iexact Ho6'
      isplitl [Ho7']; · iapply (Entails.of_eq (chunk_lands (F := F) d L X _ _ 7 (by decide) (show _ = chunkOff L ⟨7, by decide⟩ from ooff26 L 3) _ _ fI7 fO7 (fun _ => rfl) hP7.1 (trips_8' ▸ hP7.2))); iexact Ho7'
      isplitl [Ho8']; · iapply (Entails.of_eq (chunk_lands (F := F) d L X _ _ 8 (by decide) (show _ = chunkOff L ⟨8, by decide⟩ from ooff20 L 4) _ _ fI8 fO8 (fun _ => rfl) hP8.1 (trips_9' ▸ hP8.2))); iexact Ho8'
      isplitl [Ho9']; · iapply (Entails.of_eq (chunk_lands (F := F) d L X _ _ 9 (by decide) (show _ = chunkOff L ⟨9, by decide⟩ from ooff26 L 4) _ _ fI9 fO9 (fun _ => rfl) hP9.1 (trips_10' ▸ hP9.2))); iexact Ho9'
      isplitl [Ho10']; · iapply (Entails.of_eq (chunk_lands (F := F) d L X _ _ 10 (by decide) (show _ = chunkOff L ⟨10, by decide⟩ from ooff20 L 5) _ _ fI10 fO10 (fun _ => rfl) hP10.1 (trips_11' ▸ hP10.2))); iexact Ho10'
      isplitl [Ho11']; · iapply (Entails.of_eq (chunk_lands (F := F) d L X _ _ 11 (by decide) (show _ = chunkOff L ⟨11, by decide⟩ from ooff26 L 5) _ _ fI11 fO11 (fun _ => rfl) hP11.1 (trips_12' ▸ hP11.2))); iexact Ho11'
      isplitl [Ho12']; · iapply (Entails.of_eq (chunk_lands (F := F) d L X _ _ 12 (by decide) (show _ = chunkOff L ⟨12, by decide⟩ from ooff20 L 6) _ _ fI12 fO12 (fun _ => rfl) hP12.1 (trips_13' ▸ hP12.2))); iexact Ho12'
      isplitl [Ho13']; · iapply (Entails.of_eq (chunk_lands (F := F) d L X _ _ 13 (by decide) (show _ = chunkOff L ⟨13, by decide⟩ from ooff26 L 6) _ _ fI13 fO13 (fun _ => rfl) hP13.1 (trips_14' ▸ hP13.2))); iexact Ho13'
      isplitl [Ho14']; · iapply (Entails.of_eq (chunk_lands (F := F) d L X _ _ 14 (by decide) (show _ = chunkOff L ⟨14, by decide⟩ from ooff20 L 7) _ _ fI14 fO14 (fun _ => rfl) hP14.1 (trips_15' ▸ hP14.2))); iexact Ho14'
      isplitl [Ho15']; · iapply (Entails.of_eq (chunk_lands (F := F) d L X _ _ 15 (by decide) (show _ = chunkOff L ⟨15, by decide⟩ from ooff26 L 7) _ _ fI15 fO15 (fun _ => rfl) hP15.1 (trips_16' ▸ hP15.2))); iexact Ho15'
      isplitl [Ho16']; · iapply (Entails.of_eq (chunk_lands (F := F) d L X _ _ 16 (by decide) (show _ = chunkOff L ⟨16, by decide⟩ from ooff20 L 8) _ _ fI16 fO16 (fun _ => rfl) hP16.1 (trips_17' ▸ hP16.2))); iexact Ho16'
      isplitl [Ho17']; · iapply (Entails.of_eq (chunk_lands (F := F) d L X _ _ 17 (by decide) (show _ = chunkOff L ⟨17, by decide⟩ from ooff26 L 8) _ _ fI17 fO17 (fun _ => rfl) hP17.1 (trips_18' ▸ hP17.2))); iexact Ho17'
      isplitl [Ho18']; · iapply (Entails.of_eq (chunk_lands (F := F) d L X _ _ 18 (by decide) (show _ = chunkOff L ⟨18, by decide⟩ from ooff20 L 9) _ _ fI18 fO18 (fun _ => rfl) hP18.1 (trips_19' ▸ hP18.2))); iexact Ho18'
      isplitl [Ho19']; · iapply (Entails.of_eq (chunk_lands (F := F) d L X _ _ 19 (by decide) (show _ = chunkOff L ⟨19, by decide⟩ from ooff26 L 9) _ _ fI19 fO19 (fun _ => rfl) hP19.1 (trips_20' ▸ hP19.2))); iexact Ho19'
      isplitl [Ho20']; · iapply (Entails.of_eq (chunk_lands (F := F) d L X _ _ 20 (by decide) (show _ = chunkOff L ⟨20, by decide⟩ from ooff20 L 10) _ _ fI20 fO20 (fun _ => rfl) hP20.1 (trips_21' ▸ hP20.2))); iexact Ho20'
      isplitl [Ho21']; · iapply (Entails.of_eq (chunk_lands (F := F) d L X _ _ 21 (by decide) (show _ = chunkOff L ⟨21, by decide⟩ from ooff26 L 10) _ _ fI21 fO21 (fun _ => rfl) hP21.1 (trips_22' ▸ hP21.2))); iexact Ho21'
      isplitl [Ho22']; · iapply (Entails.of_eq (chunk_lands (F := F) d L X _ _ 22 (by decide) (show _ = chunkOff L ⟨22, by decide⟩ from ooff20 L 11) _ _ fI22 fO22 (fun _ => rfl) hP22.1 (trips_23' ▸ hP22.2))); iexact Ho22'
      isplitl [Ho23']; · iapply (Entails.of_eq (chunk_lands (F := F) d L X _ _ 23 (by decide) (show _ = chunkOff L ⟨23, by decide⟩ from ooff26 L 11) _ _ fI23 fO23 (fun _ => rfl) hP23.1 (trips_24' ▸ hP23.2))); iexact Ho23'
      isplitl [Ho24']; · iapply (Entails.of_eq (chunk_lands (F := F) d L X _ _ 24 (by decide) (show _ = chunkOff L ⟨24, by decide⟩ from ooff20 L 12) _ _ fI24 fO24 (fun _ => rfl) hP24.1 (trips_25' ▸ hP24.2))); iexact Ho24'
      isplitl [Ho25']; · iapply (Entails.of_eq (chunk_lands (F := F) d L X _ _ 25 (by decide) (show _ = chunkOff L ⟨25, by decide⟩ from ooff26 L 12) _ _ fI25 fO25 (fun _ => rfl) hP25.1 (trips_26' ▸ hP25.2))); iexact Ho25'
      isplitl [Ho26']; · iapply (Entails.of_eq (chunk_lands (F := F) d L X _ _ 26 (by decide) (show _ = chunkOff L ⟨26, by decide⟩ from ooff20 L 13) _ _ fI26 fO26 (fun _ => rfl) hP26.1 (trips_27' ▸ hP26.2))); iexact Ho26'
      isplitl [Ho27']; · iapply (Entails.of_eq (chunk_lands (F := F) d L X _ _ 27 (by decide) (show _ = chunkOff L ⟨27, by decide⟩ from ooff26 L 13) _ _ fI27 fO27 (fun _ => rfl) hP27.1 (trips_28' ▸ hP27.2))); iexact Ho27'
      isplitl [Ho28']; · iapply (Entails.of_eq (chunk_lands (F := F) d L X _ _ 28 (by decide) (show _ = chunkOff L ⟨28, by decide⟩ from ooff20 L 14) _ _ fI28 fO28 (fun _ => rfl) hP28.1 (trips_29' ▸ hP28.2))); iexact Ho28'
      isplitl [Ho29']; · iapply (Entails.of_eq (chunk_lands (F := F) d L X _ _ 29 (by decide) (show _ = chunkOff L ⟨29, by decide⟩ from ooff26 L 14) _ _ fI29 fO29 (fun _ => rfl) hP29.1 (trips_30' ▸ hP29.2))); iexact Ho29'
      isplitl [Ho30']; · iapply (Entails.of_eq (chunk_lands (F := F) d L X _ _ 30 (by decide) (show _ = chunkOff L ⟨30, by decide⟩ from ooff20 L 15) _ _ fI30 fO30 (fun _ => rfl) hP30.1 (trips_31' ▸ hP30.2))); iexact Ho30'
      iapply (Entails.of_eq (chunk_lands (F := F) d L X _ _ 31 (by decide) (show _ = chunkOff L ⟨31, by decide⟩ from ooff26 L 15) _ _ fI31 fO31 (fun _ => rfl) hP31.1 (trips_32' ▸ hP31.2))); iexact Ho31'
  isplitl [Hs0' Hs1' Hs2' Hs3' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    iexact Hbufs
  isplitl [Hsem4 Hsem5 Hsem6 Hsem7 Hsems]
  · isplitl [Hsem4]; · iexact Hsem4
    isplitl [Hsem5]; · iexact Hsem5
    isplitl [Hsem6]; · iexact Hsem6
    isplitl [Hsem7]; · iexact Hsem7
    iexact Hsems
  iexists _
  isplitr
  swap
  · iexact HO
  · ipureintro
    repeat (refine waits_ok ?_ _)
    exact fun p hp => Or.inl hp

end Tile2

end Cert.Kernel.Rep

end
-- ==== Proof.Kernel.Launch.lean ====
/-
  The launch: from one tile's task (each tile, holding a read share of the 4096 × 4096 array and its 32 chunks of the
  result array, leaves every chunk at the repeated array) to the run of the whole program. The TensorCore reshapes its
  argument to 4096 × 4096, splits that array's full share into a read share per SparseCore (keeping the remainder) and
  the result array into the 2 × 16 × 32 chunks (pairwise disjoint, together all of it), hands each SparseCore its share
  and its sixteen tiles' chunks; each sequencer splits its share again among its tiles (keeping the remainder until they
  are back). When everything has come back the result array is whole, at the repeated array, and the last reshape
  gives @main's result.
-/
import proofs.«217870_g8959301779661_cont_9to1_m_809_16_alg».proof.Proof.Kernel.Base
import proofs.«217870_g8959301779661_cont_9to1_m_809_16_alg».proof.Proof.Kernel.Body
import Idealize.ShloMosaic.Lib.Transfers

noncomputable section

namespace Cert.Kernel.Rep

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)
open Idealize.ShloMosaic.Tactic

variable {F : FTy → Type}

local notation "𝕄" => MM F

/-! ## Tiles and their chunks -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Tile `i` of SparseCore `c`, as grid coordinates. -/
abbrev tL (c : Fin 2) (i : Fin 16) : grid0.Coords := coordsV (Fin.cast bound_zero.symm c) (Fin.cast bound_one.symm i)

theorem wid_tL (c : Fin 2) (i : Fin 16) : wid (tL c i) = 2 * i.val + c.val := rfl

theorem chunkSet_eq (L : grid0.Coords) (t : Fin 32) : chunkSet L t = (chunkRect L t).set := by
  show ((View.whole (main_v1_scv : Ref sig .scVector)).slice (chunkRect L t)).set = _
  rw [View.set_slice]; exact Finset.map_refl

/-- A position of the result array lies in chunk `t` of tile `(c, i)` exactly when its row, in eights, is
    `16 (2 i + c) + t / 2` and its column, in 4096s, is `t % 2`. -/
theorem mem_chunkSet (c : Fin 2) (i : Fin 16) (t : Fin 32) (j : S4096x8192.Idx) :
    j ∈ chunkSet (tL c i) t ↔ (j 0).val / 8 = 16 * (2 * i.val + c.val) + t.val / 2 ∧ (j 1).val / 4096 = t.val % 2 := by
  rw [chunkSet_eq]
  unfold chunkRect
  rw [Rect.mem_set_unit]
  have h0 : (j 0).val < 4096 := (j 0).isLt
  have h1 : (j 1).val < 8192 := (j 1).isLt
  have hc : c.val < 2 := c.isLt
  have hi : i.val < 16 := i.isLt
  have ht : t.val < 32 := t.isLt
  constructor
  · intro h
    have a0 := h 0
    have a1 := h 1
    simp only [chunkOff, wid_tL] at a0 a1
    change (128 * (2 * i.val + c.val) + 8 * (t.val / 2) ≤ (j 0).val ∧ (j 0).val < 128 * (2 * i.val + c.val) + 8 * (t.val / 2) + 8) at a0
    change (4096 * (t.val % 2) ≤ (j 1).val ∧ (j 1).val < 4096 * (t.val % 2) + 4096) at a1
    omega
  · rintro ⟨e0, e1⟩ a
    match a with
    | ⟨0, _⟩ =>
      show 128 * wid (tL c i) + 8 * (t.val / 2) ≤ (j 0).val ∧ (j 0).val < 128 * wid (tL c i) + 8 * (t.val / 2) + 8
      rw [wid_tL]; omega
    | ⟨1, _⟩ =>
      show 4096 * (t.val % 2) ≤ (j 1).val ∧ (j 1).val < 4096 * (t.val % 2) + 4096
      omega

/-- The chunk sets over all (SparseCore, tile, chunk). -/
abbrev cK (p : Fin 2 × Fin 16 × Fin 32) : Finset S4096x8192.Idx := chunkSet (tL p.1 p.2.1) p.2.2

theorem chunks_disjoint : ∀ p ∈ (Finset.univ : Finset (Fin 2 × Fin 16 × Fin 32)), ∀ p' ∈ (Finset.univ : Finset (Fin 2 × Fin 16 × Fin 32)),
    p ≠ p' → Disjoint (cK p) (cK p') := by
  rintro ⟨c, i, t⟩ - ⟨c', i', t'⟩ - hne
  refine Finset.disjoint_left.mpr fun j hj hj' => hne ?_
  obtain ⟨e0, e1⟩ := (mem_chunkSet c i t j).mp hj
  obtain ⟨e0', e1'⟩ := (mem_chunkSet c' i' t' j).mp hj'
  have hc : c.val < 2 := c.isLt
  have hi : i.val < 16 := i.isLt
  have ht : t.val < 32 := t.isLt
  have hc' : c'.val < 2 := c'.isLt
  have hi' : i'.val < 16 := i'.isLt
  have ht' : t'.val < 32 := t'.isLt
  have ec : c = c' := Fin.ext (by omega)
  have ei : i = i' := Fin.ext (by omega)
  have et : t = t' := Fin.ext (by omega)
  rw [ec, ei, et]

theorem chunks_cover : (Finset.univ : Finset (Fin 2 × Fin 16 × Fin 32)).biUnion cK = Finset.univ := by
  refine Finset.eq_univ_iff_forall.mpr fun j => Finset.mem_biUnion.mpr ?_
  have h0 : (j 0).val < 4096 := (j 0).isLt
  have h1 : (j 1).val < 8192 := (j 1).isLt
  refine ⟨(⟨(j 0).val / 128 % 2, by omega⟩, ⟨(j 0).val / 256, by omega⟩, ⟨2 * ((j 0).val % 128 / 8) + (j 1).val / 4096, by omega⟩), Finset.mem_univ _, ?_⟩
  refine (mem_chunkSet _ _ _ j).mpr ⟨?_, ?_⟩
  · show (j 0).val / 8 = 16 * (2 * ((j 0).val / 256) + (j 0).val / 128 % 2) + (2 * ((j 0).val % 128 / 8) + (j 1).val / 4096) / 2
    omega
  · show (j 1).val / 4096 = (2 * ((j 0).val % 128 / 8) + (j 1).val / 4096) % 2
    omega

/-! ## What the handshakes carry -/

variable (m : (ℓ : Loc nD τ sig) → Buf (Elt F) ℓ) (ρ : Dev nD → PrngReg)

/-- The read share of the 4096 × 4096 array that goes to SparseCore `c`, and the one that goes on to its tile `i`. -/
abbrev qC (c : Fin 2) : PosShare TreeShare := shareTok fullShare 2 c
abbrev qT (c : Fin 2) (i : Fin 16) : PosShare TreeShare := shareTok (qC c) 16 i

/-- A tile's holdings: its read share of the array, its 32 chunks of the result array at `f`. -/
def tilePay (d : Dev nD) (c : Fin 2) (i : Fin 16) (f : Buf (Elt F) (oLoc d)) : sProp 𝕄 :=
  iprop((xLoc d ↦{qT c i} X2 m d) ∗ bigSep Finset.univ fun t : Fin 32 => oLoc d ↦[chunkSet (tL c i) t]{fullShare} f)

/-- A SparseCore's holdings: its read share of the array, its sixteen tiles' chunks at `f`. -/
def corePay (d : Dev nD) (c : Fin 2) (f : Buf (Elt F) (oLoc d)) : sProp 𝕄 :=
  iprop((xLoc d ↦{qC c} X2 m d) ∗ bigSep Finset.univ fun i : Fin 16 => bigSep Finset.univ fun t : Fin 32 => oLoc d ↦[chunkSet (tL c i) t]{fullShare} f)

theorem tilePay_eq (d : Dev nD) (c : Fin 2) (i : Fin 16) (f : Buf (Elt F) (oLoc d)) :
    tilePay m d c i f = iprop((xLoc d ↦{qT c i} X2 m d) ∗ bigSep Finset.univ fun t : Fin 32 => oLoc d ↦[chunkSet (tL c i) t]{fullShare} f) := rfl
theorem corePay_eq (d : Dev nD) (c : Fin 2) (f : Buf (Elt F) (oLoc d)) :
    corePay m d c f = iprop((xLoc d ↦{qC c} X2 m d)
      ∗ bigSep Finset.univ fun i : Fin 16 => bigSep Finset.univ fun t : Fin 32 => oLoc d ↦[chunkSet (tL c i) t]{fullShare} f) := rfl

instance tilePay_storable (d : Dev nD) (c : Fin 2) (i : Fin 16) (f : Buf (Elt F) (oLoc d)) : BI.Storable (upEmb : UEmb _ 𝕄) (tilePay m d c i f) := by
  unfold tilePay; infer_instance
instance corePay_storable (d : Dev nD) (c : Fin 2) (f : Buf (Elt F) (oLoc d)) : BI.Storable (upEmb : UEmb _ 𝕄) (corePay m d c f) := by
  unfold corePay; infer_instance

/-- The one call: each SparseCore takes its read share and its tiles' chunks at the launch contents and brings them back at
    the repeated array; each tile likewise. The kernel's proof consumes nothing of the launch's. -/
def P : (K (F := F)).Pay (nD := nD) (Val := Elt F) (Name := ℕ) (U := UU) where
  st := fun q d c => match q with | 0 => corePay m d (Fin.cast nCore_zero c) (m (oLoc d))
  dn := fun q d c => match q with | 0 => corePay m d (Fin.cast nCore_zero c) (rep (X2 m d))
  go := fun q d c i => match q with | 0 => tilePay m d (Fin.cast nCore_zero c) (Fin.cast nSub_zero i) (m (oLoc d))
  td := fun q d c i => match q with | 0 => tilePay m d (Fin.cast nCore_zero c) (Fin.cast nSub_zero i) (rep (X2 m d))
  x := fun _ _ => iprop(emp)

theorem P_st (d : Dev nD) (c : Fin ((K (F := F)).nCore 0)) : (P m).st 0 d c = corePay m d (Fin.cast nCore_zero c) (m (oLoc d)) := rfl
theorem P_dn (d : Dev nD) (c : Fin ((K (F := F)).nCore 0)) : (P m).dn 0 d c = corePay m d (Fin.cast nCore_zero c) (rep (X2 m d)) := rfl
theorem P_go (d : Dev nD) (c : Fin ((K (F := F)).nCore 0)) (i : Fin ((K (F := F)).nSub 0)) :
    (P m).go 0 d c i = tilePay m d (Fin.cast nCore_zero c) (Fin.cast nSub_zero i) (m (oLoc d)) := rfl
theorem P_td (d : Dev nD) (c : Fin ((K (F := F)).nCore 0)) (i : Fin ((K (F := F)).nSub 0)) :
    (P m).td 0 d c i = tilePay m d (Fin.cast nCore_zero c) (Fin.cast nSub_zero i) (rep (X2 m d)) := rfl
theorem P_x (q : Fin 1) (thr : Thread nD τ) : (P m).x q thr = iprop(emp) := rfl

instance P_storable : (P (F := F) m).IsStorable where
  st q d c := match q with | 0 => (inferInstance : BI.Storable (upEmb : UEmb _ 𝕄) (corePay m d (Fin.cast nCore_zero c) (m (oLoc d))))
  dn q d c := match q with | 0 => (inferInstance : BI.Storable (upEmb : UEmb _ 𝕄) (corePay m d (Fin.cast nCore_zero c) (rep (X2 m d))))
  go q d c i := match q with
    | 0 => (inferInstance : BI.Storable (upEmb : UEmb _ 𝕄) (tilePay m d (Fin.cast nCore_zero c) (Fin.cast nSub_zero i) (m (oLoc d))))
  td q d c i := match q with
    | 0 => (inferInstance : BI.Storable (upEmb : UEmb _ 𝕄) (tilePay m d (Fin.cast nCore_zero c) (Fin.cast nSub_zero i) (rep (X2 m d))))

/-! ## The result array whole is its chunks -/

theorem oPts_chunks (d : Dev nD) (f : Buf (Elt F) (oLoc d)) :
    (oLoc d ↦{fullShare} f : sProp 𝕄)
      = bigSep Finset.univ fun c : Fin 2 => bigSep Finset.univ fun i : Fin 16 => bigSep Finset.univ fun t : Fin 32 => oLoc d ↦[chunkSet (tL c i) t]{fullShare} f := by
  have e : (bigSep Finset.univ fun c : Fin 2 => bigSep Finset.univ fun i : Fin 16 => bigSep Finset.univ fun t : Fin 32 =>
        (oLoc d ↦[chunkSet (tL c i) t]{fullShare} f : sProp 𝕄))
      = bigSep Finset.univ fun p : Fin 2 × Fin 16 × Fin 32 => oLoc d ↦[cK p]{fullShare} f := by
    rw [BI.bigSep_univ_prod]
    refine bigSep_congr fun c _ => ?_
    rw [BI.bigSep_univ_prod]
  rw [e, ← pointsTo_biUnion Finset.univ (ℓ := oLoc d) cK chunks_disjoint, chunks_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A sequencer deals its sixteen tiles a read share each out of its own, keeping the remainder until they are back. -/
theorem vecSplit : (K (F := F)).VecSplit' (P m) 0 := by
  intro d c
  rw [P_st, P_dn]
  simp only [P_go, P_td]
  generalize Fin.cast nCore_zero c = c'
  rw [bigSep_tasks (F := F) (fun i => tilePay m d c' i (m (oLoc d))), bigSep_tasks (F := F) (fun i => tilePay m d c' i (rep (X2 m d)))]
  simp only [tilePay_eq, corePay_eq]
  rw [bigSep_sep', bigSep_sep']
  iintro ⟨Hx, Ho⟩
  ihave Hx' := (pointsTo_toks_split (qC c') 16) $$ Hx
  icases Hx' with ⟨Hdrop, Htoks⟩
  imodintro
  isplitl [Htoks Ho]
  · isplitl [Htoks]; · iexact Htoks
    iexact Ho
  iintro ⟨Htoks, Ho⟩
  isplitl [Hdrop Htoks]
  · iapply (pointsTo_toks_join (qC c') 16)
    isplitl [Hdrop]; · iexact Hdrop
    iexact Htoks
  iexact Ho

/-! ## The task's obligation -/

variable [FloatOps F]

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) s0 (Memref.isWhole_whole _) s1 (Memref.isWhole_whole _)
          s2 (Memref.isWhole_whole _) s3 (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td, tilePay_eq, tilePay_eq]
  exact (tile_body hF d (coordsV ⟨_, hc.1⟩ ⟨_, hc.2⟩) (X2 m d) (m (oLoc d)) _ O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes of @main: the argument to 4096 × 4096, the kernel's result to @main's. -/
abbrev opIn : HloOp τ sig (Elt F) := StableHlo.reshape main_arg0 main_v0 rfl shapeCasts_S2x2048x4096_S4096x4096
abbrev opOut : HloOp τ sig (Elt F) := StableHlo.reshape main_v1 main_v2 rfl shapeCasts_S4096x8192_S2x2048x8192
abbrev SIn : Finset (DevRef τ sig) := {a', x'}
abbrev SOut : Finset (DevRef τ sig) := {o', r'}

omit [FloatOps F] in
theorem held_SIn (d : Dev nD) (W : Valuation τ sig (Elt F)) :
    (held (T d) SIn W : sProp 𝕄) = iprop((aLoc d ↦{fullShare} W a') ∗ xLoc d ↦{fullShare} W x') := by
  unfold held SIn
  rw [SparseCore.bigSep_insert' (by decide), bigSep_singleton]
omit [FloatOps F] in
theorem held_SOut (d : Dev nD) (W : Valuation τ sig (Elt F)) :
    (held (T d) SOut W : sProp 𝕄) = iprop((oLoc d ↦{fullShare} W o') ∗ rLoc d ↦{fullShare} W r') := by
  unfold held SOut
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; before the last reshape, the kernel's result at the repeated array. -/
def V0 (d : Dev nD) : Valuation τ sig (Elt F) := fun b => m (d, b)
def V1 (d : Dev nD) : Valuation τ sig (Elt F) := Function.update (V0 m d) o' (rep (X2 m d))

theorem V1_o (d : Dev nD) : V1 m d o' = rep (X2 m d) := Function.update_self _ _ _
theorem V1_r (d : Dev nD) : V1 m d r' = m (rLoc d) := Function.update_of_ne (show r' ≠ o' by decide) _ _

theorem opIn_a (d : Dev nD) : (opIn (F := F)).result (V0 m d) a' = m (aLoc d) :=
  (opIn (F := F)).result_of_not_mem (V0 m d) (b := a') (show a' ∉ ({x'} : Finset (DevRef τ sig)) by decide)
theorem opIn_x (d : Dev nD) : (opIn (F := F)).result (V0 m d) x' = X2 m d :=
  (StableHlo.reshape_result main_arg0 main_v0 rfl shapeCasts_S2x2048x4096_S4096x4096 ⟨by decide, rfl⟩ ⟨by decide, rfl⟩ (V0 m d)).trans rfl
theorem opOut_o (d : Dev nD) : (opOut (F := F)).result (V1 m d) o' = rep (X2 m d) :=
  ((opOut (F := F)).result_of_not_mem (V1 m d) (b := o') (show o' ∉ ({r'} : Finset (DevRef τ sig)) by decide)).trans (V1_o m d)
theorem opOut_r (d : Dev nD) :
    (opOut (F := F)).result (V1 m d) r' = shapeCast S2x2048x8192 (rep (X2 m d)) shapeCasts_S4096x8192_S2x2048x8192 := by
  refine (StableHlo.reshape_result main_v1 main_v2 rfl shapeCasts_S4096x8192_S2x2048x8192 ⟨by decide, rfl⟩ ⟨by decide, rfl⟩ (V1 m d)).trans ?_
  show (fun i => shapeCast S2x2048x8192 (V1 m d o') shapeCasts_S4096x8192_S2x2048x8192 i) = _
  rw [V1_o]

/-- What the call takes for the two SparseCores, and what it hands back. -/
theorem st0_eq (d : Dev nD) :
    (bigSep Finset.univ fun c : Fin ((K (F := F)).nCore 0) => (P m).st 0 d c) = bigSep Finset.univ fun c : Fin 2 => corePay m d c (m (oLoc d)) := by
  simp only [P_st]
  exact bigSep_cores (F := F) (fun c => corePay m d c (m (oLoc d)))
theorem dn0_eq (d : Dev nD) :
    (bigSep Finset.univ fun c : Fin ((K (F := F)).nCore 0) => (P m).dn 0 d c) = bigSep Finset.univ fun c : Fin 2 => corePay m d c (rep (X2 m d)) := by
  simp only [P_dn]
  exact bigSep_cores (F := F) (fun c => corePay m d c (rep (X2 m d)))

omit [FloatOps F] in
/-- The array whole and the result array whole are the remainder of the array's share and the two SparseCores' holdings. -/
theorem cores_eq (d : Dev nD) (f : Buf (Elt F) (oLoc d)) :
    iprop((xLoc d ↦{fullShare} X2 m d) ∗ oLoc d ↦{fullShare} f)
      ⊣⊢ iprop((xLoc d ↦{shareDrop fullShare 2} X2 m d) ∗ bigSep Finset.univ fun c : Fin 2 => corePay m d c f) := by
  simp only [corePay_eq]
  rw [bigSep_sep', ← oPts_chunks]
  constructor
  · iintro ⟨Hx, Ho⟩
    ihave Hx' := (pointsTo_toks_split fullShare 2) $$ Hx
    icases Hx' with ⟨Hd, Ht⟩
    isplitl [Hd]; · iexact Hd
    isplitl [Ht]; · iexact Ht
    iexact Ho
  · iintro ⟨Hd, Ht, Ho⟩
    isplitl [Hd Ht]
    · iapply (pointsTo_toks_join fullShare 2)
      isplitl [Hd]; · iexact Hd
      iexact Ht
    iexact Ho

theorem held_in_after (d : Dev nD) :
    (held (T d) SIn ((opIn (F := F)).result (V0 m d)) : sProp 𝕄) = iprop((aLoc d ↦{fullShare} m (aLoc d)) ∗ xLoc d ↦{fullShare} X2 m d) := by
  rw [held_SIn, opIn_a, opIn_x]
theorem held_out_before (d : Dev nD) :
    (held (T d) SOut (V1 m d) : sProp 𝕄) = iprop((oLoc d ↦{fullShare} rep (X2 m d)) ∗ rLoc d ↦{fullShare} m (rLoc d)) := by
  rw [held_SOut, V1_o, V1_r]
theorem held_out_after (d : Dev nD) :
    (held (T d) SOut ((opOut (F := F)).result (V1 m d)) : sProp 𝕄)
      = iprop((oLoc d ↦{fullShare} rep (X2 m d)) ∗ rLoc d ↦{fullShare} shapeCast S2x2048x8192 (rep (X2 m d)) shapeCasts_S4096x8192_S2x2048x8192) := by
  rw [held_SOut, opOut_o, opOut_r]

/-- What @main leaves the claim: the argument at its launch contents, the result at the repeated array reshaped. -/
abbrev FIN (d : Dev nD) : sProp 𝕄 :=
  iprop((aLoc d ↦{fullShare} m (aLoc d)) ∗ rLoc d ↦{fullShare} shapeCast S2x2048x8192 (rep (X2 m d)) shapeCasts_S4096x8192_S2x2048x8192)

/-- @main on device `d`'s TensorCore: the reshape of the argument, the call, the reshape of the kernel's result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho, Hr⟩, -, -⟩, -⟩
  -- the argument reshaped to 4096 × 4096
  iapply (wp_hlo_within 𝒱 (SparseCore.T d) none Set.univ (op := opIn) (S := SIn) (Finset.Subset.refl _) (V := V0 m d)) $$ [Hb Ha Hx]
  · isplitl [Hb]; · iexact Hb
    rw [held_SIn]
    isplitl [Ha]; · iexact Ha
    iexact Hx
  iintro ⟨Hb, Hheld⟩
  ihave Hh := (Entails.of_eq (held_in_after m d)) $$ Hheld
  icases Hh with ⟨Ha, Hx⟩
  rw [wp_ret]; imodintro
  -- the call: the array's share split in two and the remainder, the result array in its chunks
  ihave Hxo := (cores_eq m d (m (oLoc d))).1 $$ [Hx Ho]
  · isplitl [Hx]; · iexact Hx
    iexact Ho
  icases Hxo with ⟨Hd, Hcores⟩
  iapply ((K (F := F)).wp_run (D (F := F)) 𝒱 (EH := EH) (P := P m) κ d 0) $$ [Hst Hcores Hb Ha Hr Hd]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hxo := (cores_eq m d (rep (X2 m d))).2 $$ [Hd Hdn']
  · isplitl [Hd]; · iexact Hd
    iexact Hdn'
  icases Hxo with ⟨Hx, Ho⟩
  -- the kernel's result reshaped
  iapply (wp_hlo_within 𝒱 (SparseCore.T d) none Set.univ (op := opOut) (S := SOut) (Finset.Subset.refl _) (V := V1 m d)) $$ [Hb Ho Hr]
  · isplitl [Hb]; · iexact Hb
    rw [held_out_before]
    isplitl [Ho]; · iexact Ho
    iexact Hr
  iintro ⟨Hb, Hheld⟩
  ihave Hh := (Entails.of_eq (held_out_after m d)) $$ Hheld
  icases Hh with ⟨Ho, Hr⟩
  rw [wp_ret]; imodintro; imodintro
  isplitl [Hst]; · iexact Hst
  isplitl [Ha]; · iexact Ha
  iexact Hr

def fq (d : Dev nD) (s' : Phys nD τ sig (Elt F)) : Prop :=
  s'.mem.mem (rLoc d) = shapeCast S2x2048x8192 (rep (X2 m d)) shapeCasts_S4096x8192_S2x2048x8192 ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare)
      (f := shapeCast S2x2048x8192 (rep (X2 m d)) shapeCasts_S4096x8192_S2x2048x8192)) $$ [HSI Hr]
  · isplitl [HSI] <;> iassumption
  icases H with %h2
  ipureintro; exact ⟨funext fun i => h2 i (Finset.mem_univ i), funext fun i => h1 i (Finset.mem_univ i)⟩

/-! ## The program's run -/

/-- Every weakly fair execution of the device's threads ends, nothing faulting, with @main's result the repeated array
    (read through the two reshapes) and the argument unchanged. -/
theorem run_main [∀ e, Nonempty (Elt F e)] :
    θ_run (Cert.Kernel.defs (F := F)) (Cert.Kernel.threads (F := F)) ⟨m, fun _ => 0, ρ⟩
      (fun r => ∀ c : Dev nD, r.2.mem (rLoc c) = shapeCast S2x2048x8192 (rep (X2 m c)) shapeCasts_S4096x8192_S2x2048x8192
        ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = shapeCast S2x2048x8192 (rep (X2 m c)) shapeCasts_S4096x8192_S2x2048x8192
      ∧ r.2.mem (aLoc c) = m (aLoc c)) (fun _ h => h)

end Cert.Kernel.Rep

end
-- ==== Proof.lean ====
/- The proof of `Cert.Claim` (proofs.«217870_g8959301779661_cont_9to1_m_809_16_alg».proof.Defs): frame_Kernel ∧ frame_KernelIdeal ∧ frame_ReferenceIdeal ∧
   preserves_Kernel_KernelIdeal ∧ algebraic_KernelIdeal_ReferenceIdeal.
   The kernel reshapes x : [2, 2048, 4096] to [4096, 4096], writes out[r, c] = X2[r, c / 2] into [4096, 8192] on 32 tiles of 128
   rows each, and reshapes to [2, 2048, 8192]; the reference broadcasts x along a new last axis of length 2 and reshapes to
   [2, 2048, 8192]. The launch theorems give each program's run (every fair execution ends, the result is the reshape of the
   repeated array, the argument is unchanged); the bridge says the two result arrays are one function of x. -/
import proofs.«217870_g8959301779661_cont_9to1_m_809_16_alg».proof.Defs
import proofs.«217870_g8959301779661_cont_9to1_m_809_16_alg».proof.Proof.Gen.Kernel
import proofs.«217870_g8959301779661_cont_9to1_m_809_16_alg».proof.Proof.Gen.Kernel.Skeleton
import proofs.«217870_g8959301779661_cont_9to1_m_809_16_alg».proof.Proof.Gen.KernelIdeal
import proofs.«217870_g8959301779661_cont_9to1_m_809_16_alg».proof.Proof.Gen.KernelIdeal.Skeleton
import proofs.«217870_g8959301779661_cont_9to1_m_809_16_alg».proof.Proof.Gen.ReferenceIdeal
import proofs.«217870_g8959301779661_cont_9to1_m_809_16_alg».proof.Proof.Gen.Pre_finite_inputs
import proofs.«217870_g8959301779661_cont_9to1_m_809_16_alg».proof.Proof.Gen.ReferenceIdeal.Run
import proofs.«217870_g8959301779661_cont_9to1_m_809_16_alg».proof.Proof.Gen.ReferenceIdeal.Read
import Idealize.ShloMosaic.Adequacy
import Idealize.ShloMosaic.Init
import proofs.«217870_g8959301779661_cont_9to1_m_809_16_alg».proof.Proof.Bridge
import proofs.«217870_g8959301779661_cont_9to1_m_809_16_alg».proof.Proof.KernelIdeal.Launch
import proofs.«217870_g8959301779661_cont_9to1_m_809_16_alg».proof.Proof.Kernel.Launch

noncomputable section

namespace Cert.Proof

open Idealize.ShloMosaic Idealize.SL.Sem

/-- The program as printed runs to the end and leaves its argument unchanged: the launch theorem's run, read at the
    argument. -/
theorem frame_k : Cert.frame_Kernel := fun m ρ _ =>
  (θ_run Cert.Kernel.defs _ _).mono (fun _ h c => (h c).2) (Cert.Kernel.Rep.run_main (F := Bits) m ρ)

/-- The same at the ideal instance. -/
theorem frame_ki : Cert.frame_KernelIdeal := fun m ρ _ =>
  (θ_run Cert.KernelIdeal.defs _ _).mono (fun _ h c => (h c).2) (Cert.KernelIdeal.Rep.run_main (F := Ideal) m ρ)

/-- The reference runs to the end and leaves its argument unchanged: its run, read at the argument. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the argument `x`, the kernel ends with the reshape to [2, 2048, 8192] of every element of
    the reshape of `x` to [4096, 4096] repeated twice along its row, and the reference with the reshape to [2, 2048, 8192]
    of `x` broadcast along a new last axis of length 2: one array of `x` (`Cert.Bridge.result_eq`). -/
theorem algebraic : Cert.algebraic_KernelIdeal_ReferenceIdeal := by
  intro m ρ m' ρ' _ hagree
  refine ⟨fun c => shapeCast _ (Cert.KernelIdeal.Rep.rep (Cert.KernelIdeal.Rep.X2 m c))
      Cert.KernelIdeal.Gen.shapeCasts_S4096x8192_S2x2048x8192,
    Cert.KernelIdeal.Rep.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v1_eq]
  exact (Cert.Bridge.result_eq _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
